-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1024x200 32 := broadcastInDim S1024x200 ![] bcast_S_S1024x200 main_c_8
  let main_v25 : IVec S1024x200 1 := cmpi .sge main_arg0 main_v24
  let main_c_9 : IVec S_ 32 := constantI S_ 32 99999#32
  let main_v26 : IVec S1024x200 32 := broadcastInDim S1024x200 ![] bcast_S_S1024x200 main_c_9
  let main_v27 : IVec S1024x200 1 := cmpi .sle main_arg0 main_v26
  let main_v28 : IVec S1024x200 1 := andi main_v25 main_v27
  let main_c_10 : IVec S_ 1 := constantI S_ 1 1#1
  let main_v29 : IVec S_ 1 := (fun x v => Host.reduce IntOp.andi x v reducesTo_S1024x200_S_d0_1 h_S_) main_v28 main_c_10
  let main_v30 : IVec S_ 1 := andi main_v23 main_v29
  main_v30

def fn {F : FTy → Type} [FloatOps F] (main_arg0 : IVec S1024x200 32) (main_arg1 : FVec F S100000x128 .f32) (main_arg2 : FVec F S512x128 .f32) (main_arg3 : FVec F S2x128 .f32) (main_arg4 : FVec F S128 .f32) (main_arg5 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_v13 main_v16
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S204800 : Shape := ⟨1, ![204800]⟩
abbrev S204800x128 : Shape := ⟨2, ![204800, 128]⟩
abbrev S6400 : Shape := ⟨1, ![6400]⟩
abbrev S200x128 : Shape := ⟨2, ![200, 128]⟩
abbrev S_ : Shape := ⟨0, ![]⟩
abbrev S200 : Shape := ⟨1, ![200]⟩
abbrev S1x128 : Shape := ⟨2, ![1, 128]⟩
abbrev S12800x128 : Shape := ⟨2, ![12800, 128]⟩
abbrev S1x1x128 : Shape := ⟨3, ![1, 1, 128]⟩
abbrev S6400x128 : Shape := ⟨2, ![6400, 128]⟩
abbrev S32x200x128 : Shape := ⟨3, ![32, 200, 128]⟩
abbrev S1x200x128 : Shape := ⟨3, ![1, 200, 128]⟩
abbrev S32x200 : Shape := ⟨2, ![32, 200]⟩
abbrev S32x200x1 : Shape := ⟨3, ![32, 200, 1]⟩
abbrev S1024x200x128 : Shape := ⟨3, ![1024, 200, 128]⟩

abbrev nBuf : Table → Nat
  | .hbm => 13
  | .local .tc .vmem => 8
  | .local .scVector .vmem => 5
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S204800, .i32⟩
  | .hbm, ⟨7, _⟩ => ⟨S204800x128, .f32⟩
  | .hbm, ⟨8, _⟩ => ⟨S200x128, .f32⟩
  | .hbm, ⟨9, _⟩ => ⟨S1x128, .f32⟩
  | .hbm, ⟨10, _⟩ => ⟨S1x128, .f32⟩
  | .hbm, ⟨11, _⟩ => ⟨S204800x128, .f32⟩
  | .hbm, ⟨12, _⟩ => ⟨S1024x200x128, .f32⟩
  | .local .tc .vmem, ⟨0, _⟩ => ⟨S12800x128, .f32⟩
  | .local .tc .vmem, ⟨1, _⟩ => ⟨S12800x128, .f32⟩
  | .local .tc .vmem, ⟨2, _⟩ => ⟨S200x128, .f32⟩
  | .local .tc .vmem, ⟨3, _⟩ => ⟨S2x128, .f32⟩
  | .local .tc .vmem, ⟨4, _⟩ => ⟨S1x128, .f32⟩
  | .local .tc .vmem, ⟨5, _⟩ => ⟨S1x128, .f32⟩
  | .local .tc .vmem, ⟨6, _⟩ => ⟨S12800x128, .f32⟩
  | .local .tc .vmem, ⟨7, _⟩ => ⟨S12800x128, .f32⟩
  | .local .scVector .vmem, ⟨0, _⟩ => ⟨S6400, .i32⟩
  | .local .scVector .vmem, ⟨1, _⟩ => ⟨S200x128, .f32⟩
  | .local .scVector .vmem, ⟨2, _⟩ => ⟨S200x128, .f32⟩
  | .local .scVector .vmem, ⟨3, _⟩ => ⟨S200x128, .f32⟩
  | .local .scVector .vmem, ⟨4, _⟩ => ⟨S200x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v0_scv : Ref sig .scVector := ⟨.hbm, 6, rfl⟩
abbrev main_arg1_scv : Ref sig .scVector := ⟨.hbm, 1, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_5 : BitVec 32 := 0#32
  let c8_i32 : BitVec 32 := 8#32
  let v7 : BitVec 32 := Scalar.addi c0_i32_5 c8_i32
  let c1_i32 : BitVec 32 := 1#32
  ⟨c0_i32_5, v7, c1_i32⟩
def k0_cond1 (k0_t1 : Fin k0_t1_loop.trips) : BitVec 1 :=
  let c4_i32 : BitVec 32 := 4#32
  let c0_i32_5 : BitVec 32 := 0#32
  let c1_i32 : BitVec 32 := 1#32
  let arg18 : BitVec 32 := Scf.iv c0_i32_5 c1_i32 k0_t1
  let v12 : BitVec 32 := Scalar.muli c4_i32 arg18
  let c0_i32_11 : BitVec 32 := 0#32
  let v13 : BitVec 32 := Scalar.addi v12 c0_i32_11
  let c2_i32_12 : BitVec 32 := 2#32
  let v14 : BitVec 1 := Scalar.cmpi .sge v13 c2_i32_12
  let v15 : BitVec 32 := Scalar.extui v14
  let c0_i32_13 : BitVec 32 := 0#32
  let v16 : BitVec 1 := Scalar.cmpi .ne v15 c0_i32_13
  v16

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_60 : BitVec 32 := 0#32
  ![v2.toNat, 0]
def k0_cond2 (k0_t1 : Fin k0_t1_loop.trips) : BitVec 1 :=
  let c4_i32 : BitVec 32 := 4#32
  let c0_i32_5 : BitVec 32 := 0#32
  let c1_i32 : BitVec 32 := 1#32
  let arg18 : BitVec 32 := Scf.iv c0_i32_5 c1_i32 k0_t1
  let v12 : BitVec 32 := Scalar.muli c4_i32 arg18
  let c0_i32_11 : BitVec 32 := 0#32
  let v13 : BitVec 32 := Scalar.addi v12 c0_i32_11
  let c2_i32_14 : BitVec 32 := 2#32
  let v17 : BitVec 32 := Scalar.addi v13 c2_i32_14
  let c32_i32 : BitVec 32 := 32#32
  let v18 : BitVec 1 := Scalar.cmpi .slt v17 c32_i32
  let v19 : BitVec 32 := Scalar.extui v18
  let c0_i32_15 : BitVec 32 := 0#32
  let v20 : BitVec 1 := Scalar.cmpi .ne v19 c0_i32_15
  v20

def k0_off3 (k0_t1 : Fin k0_t1_loop.trips) : Fin 1 → Nat :=
  let c4_i32 : BitVec 32 := 4#32
  let c0_i32_5 : BitVec 32 := 0#32
  let c1_i32 : BitVec 32 := 1#32
  let arg18 : BitVec 32 := Scf.iv c0_i32_5 c1_i32 k0_t1
  let v12 : BitVec 32 := Scalar.muli c4_i32 arg18
  let c0_i32_11 : BitVec 32 := 0#32
  let v13 : BitVec 32 := Scalar.addi v12 c0_i32_11
  let c2_i32_60 : BitVec 32 := 2#32
  let v72 : BitVec 32 := Scalar.addi v13 c2_i32_60
  let c200_i32_61 : BitVec 32 := 200#32
  let v73 : BitVec 32 := Scalar.muli v72 c200_i32_61
  ![v73.toNat]
def k0_off4 (i : grid0.Coords) (k0_t1 : Fin k0_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32 : BitVec 32 := 4#32
  let c0_i32_5 : BitVec 32 := 0#32
  let c1_i32 : BitVec 32 := 1#32
  let arg18 : BitVec 32 := Scf.iv c0_i32_5 c1_i32 k0_t1
  let v12 : BitVec 32 := Scalar.muli c4_i32 arg18
  let v13 : BitVec 32 := Scalar.addi v12 c0_i32_11
  let c200_i32_19 : BitVec 32 := 200#32
  let v23 : BitVec 32 := Scalar.muli v13 c200_i32_19
  let v24 : BitVec 32 := Scalar.addi v2 v23
  let c0_i32_20 : BitVec 32 := 0#32
  ![v24.toNat, 0]
def k0_cond3 (k0_t1 : Fin k0_t1_loop.trips) : BitVec 1 :=
  let c4_i32_22 : BitVec 32 := 4#32
  let c0_i32_5 : BitVec 32 := 0#32
  let c1_i32 : BitVec 32 := 1#32
  let arg18 : BitVec 32 := Scf.iv c0_i32_5 c1_i32 k0_t1
  let v27 : BitVec 32 := Scalar.muli c4_i32_22 arg18
  let c1_i32_23 : BitVec 32 := 1#32
  let v28 : BitVec 32 := Scalar.addi v27 c1_i32_23
  let c2_i32_24 : BitVec 32 := 2#32
  let v29 : BitVec 1 := Scalar.cmpi .sge v28 c2_i32_24
  let v30 : BitVec 32 := Scalar.extui v29
  let c0_i32_25 : BitVec 32 := 0#32
  let v31 : BitVec 1 := Scalar.cmpi .ne v30 c0_i32_25
  v31

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_60 : BitVec 32 := 0#32
  ![v2.toNat, 0]
def k0_cond4 (k0_t1 : Fin k0_t1_loop.trips) : BitVec 1 :=
  let c4_i32_22 : BitVec 32 := 4#32
  let c0_i32_5 : BitVec 32 := 0#32
  let c1_i32 : BitVec 32 := 1#32
  let arg18 : BitVec 32 := Scf.iv c0_i32_5 c1_i32 k0_t1
  let v27 : BitVec 32 := Scalar.muli c4_i32_22 arg18
  let c1_i32_23 : BitVec 32 := 1#32
  let v28 : BitVec 32 := Scalar.addi v27 c1_i32_23
  let c2_i32_26 : BitVec 32 := 2#32
  let v32 : BitVec 32 := Scalar.addi v28 c2_i32_26
  let c32_i32_27 : BitVec 32 := 32#32
  let v33 : BitVec 1 := Scalar.cmpi .slt v32 c32_i32_27
  let v34 : BitVec 32 := Scalar.extui v33
  let c0_i32_28 : BitVec 32 := 0#32
  let v35 : BitVec 1 := Scalar.cmpi .ne v34 c0_i32_28
  v35

def k0_off6 (k0_t1 : Fin k0_t1_loop.trips) : Fin 1 → Nat :=
  let c4_i32_22 : BitVec 32 := 4#32
  let c0_i32_5 : BitVec 32 := 0#32
  let c1_i32 : BitVec 32 := 1#32
  let arg18 : BitVec 32 := Scf.iv c0_i32_5 c1_i32 k0_t1
  let v27 : BitVec 32 := Scalar.muli c4_i32_22 arg18
  let c1_i32_23 : BitVec 32 := 1#32
  let v28 : BitVec 32 := Scalar.addi v27 c1_i32_23
  let c2_i32_60 : BitVec 32 := 2#32
  let v72 : BitVec 32 := Scalar.addi v28 c2_i32_60
  let c200_i32_61 : BitVec 32 := 200#32
  let v73 : BitVec 32 := Scalar.muli v72 c200_i32_61
  ![v73.toNat]
def k0_cond5 (k0_t1 : Fin k0_t1_loop.trips) : BitVec 1 :=
  let c4_i32_35 : BitVec 32 := 4#32
  let c0_i32_5 : BitVec 32 := 0#32
  let c1_i32 : BitVec 32 := 1#32
  let arg18 : BitVec 32 := Scf.iv c0_i32_5 c1_i32 k0_t1
  let v42 : BitVec 32 := Scalar.muli c4_i32_35 arg18
  let c2_i32_36 : BitVec 32 := 2#32
  let v43 : BitVec 32 := Scalar.addi v42 c2_i32_36
  let c2_i32_37 : BitVec 32 := 2#32
  let v44 : BitVec 1 := Scalar.cmpi .sge v43 c2_i32_37
  let v45 : BitVec 32 := Scalar.extui v44
  let c0_i32_38 : BitVec 32 := 0#32
  let v46 : BitVec 1 := Scalar.cmpi .ne v45 c0_i32_38
  v46

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_60 : BitVec 32 := 0#32
  ![v2.toNat, 0]
def k0_cond6 (k0_t1 : Fin k0_t1_loop.trips) : BitVec 1 :=
  let c4_i32_35 : BitVec 32 := 4#32
  let c0_i32_5 : BitVec 32 := 0#32
  let c1_i32 : BitVec 32 := 1#32
  let arg18 : BitVec 32 := Scf.iv c0_i32_5 c1_i32 k0_t1
  let v42 : BitVec 32 := Scalar.muli c4_i32_35 arg18
  let c2_i32_36 : BitVec 32 := 2#32
  let v43 : BitVec 32 := Scalar.addi v42 c2_i32_36
  let c2_i32_39 : BitVec 32 := 2#32
  let v47 : BitVec 32 := Scalar.addi v43 c2_i32_39
  let c32_i32_40 : BitVec 32 := 32#32
  let v48 : BitVec 1 := Scalar.cmpi .slt v47 c32_i32_40
  let v49 : BitVec 32 := Scalar.extui v48
  let c0_i32_41 : BitVec 32 := 0#32
  let v50 : BitVec 1 := Scalar.cmpi .ne v49 c0_i32_41
  v50

def k0_off8 (k0_t1 : Fin k0_t1_loop.trips) : Fin 1 → Nat :=
  let c4_i32_35 : BitVec 32 := 4#32
  let c0_i32_5 : BitVec 32 := 0#32
  let c1_i32 : BitVec 32 := 1#32
  let arg18 : BitVec 32 := Scf.iv c0_i32_5 c1_i32 k0_t1
  let v42 : BitVec 32 := Scalar.muli c4_i32_35 arg18
  let c2_i32_36 : BitVec 32 := 2#32
  let v43 : BitVec 32 := Scalar.addi v42 c2_i32_36
  let c2_i32_60 : BitVec 32 := 2#32
  let v72 : BitVec 32 := Scalar.addi v43 c2_i32_60
  let c200_i32_61 : BitVec 32 := 200#32
  let v73 : BitVec 32 := Scalar.muli v72 c200_i32_61
  ![v73.toNat]
def k0_cond7 (k0_t1 : Fin k0_t1_loop.trips) : BitVec 1 :=
  let c4_i32_48 : BitVec 32 := 4#32
  let c0_i32_5 : BitVec 32 := 0#32
  let c1_i32 : BitVec 32 := 1#32
  let arg18 : BitVec 32 := Scf.iv c0_i32_5 c1_i32 k0_t1
  let v57 : BitVec 32 := Scalar.muli c4_i32_48 arg18
  let c3_i32 : BitVec 32 := 3#32
  let v58 : BitVec 32 := Scalar.addi v57 c3_i32
  let c2_i32_49 : BitVec 32 := 2#32
  let v59 : BitVec 1 := Scalar.cmpi .sge v58 c2_i32_49
  let v60 : BitVec 32 := Scalar.extui v59
  let c0_i32_50 : BitVec 32 := 0#32
  let v61 : BitVec 1 := Scalar.cmpi .ne v60 c0_i32_50
  v61

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_60 : BitVec 32 := 0#32
  ![v2.toNat, 0]
def k0_cond8 (k0_t1 : Fin k0_t1_loop.trips) : BitVec 1 :=
  let c4_i32_48 : BitVec 32 := 4#32
  let c0_i32_5 : BitVec 32 := 0#32
  let c1_i32 : BitVec 32 := 1#32
  let arg18 : BitVec 32 := Scf.iv c0_i32_5 c1_i32 k0_t1
  let v57 : BitVec 32 := Scalar.muli c4_i32_48 arg18
  let c3_i32 : BitVec 32 := 3#32
  let v58 : BitVec 32 := Scalar.addi v57 c3_i32
  let c2_i32_51 : BitVec 32 := 2#32
  let v62 : BitVec 32 := Scalar.addi v58 c2_i32_51
  let c32_i32_52 : BitVec 32 := 32#32
  let v63 : BitVec 1 := Scalar.cmpi .slt v62 c32_i32_52
  let v64 : BitVec 32 := Scalar.extui v63
  let c0_i32_53 : BitVec 32 := 0#32
  let v65 : BitVec 1 := Scalar.cmpi .ne v64 c0_i32_53
  v65

def k0_off10 (k0_t1 : Fin k0_t1_loop.trips) : Fin 1 → Nat :=
  let c4_i32_48 : BitVec 32 := 4#32
  let c0_i32_5 : BitVec 32 := 0#32
  let c1_i32 : BitVec 32 := 1#32
  let arg18 : BitVec 32 := Scf.iv c0_i32_5 c1_i32 k0_t1
  let v57 : BitVec 32 := Scalar.muli c4_i32_48 arg18
  let c3_i32 : BitVec 32 := 3#32
  let v58 : BitVec 32 := Scalar.addi v57 c3_i32
  let c2_i32_60 : BitVec 32 := 2#32
  let v72 : BitVec 32 := Scalar.addi v58 c2_i32_60
  let c200_i32_61 : BitVec 32 := 200#32
  let v73 : BitVec 32 := Scalar.muli v72 c200_i32_61
  ![v73.toNat]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_7 : BitVec 32 := 0#32
  ![v2.toNat, 0]
abbrev grid1 : Pipeline.Grid := ⟨1, ![16], ![false]⟩

@[reducible] def k1_t1_loop : Scf.Loop 32 :=
  let c0_i32 : BitVec 32 := 0#32
  let c2_i32 : BitVec 32 := 2#32
  let v13 : BitVec 32 := Scalar.addi c0_i32 c2_i32
  let c1_i32 : BitVec 32 := 1#32
  ⟨c0_i32, v13, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c6400_i32 : BitVec 32 := 6400#32
  let v14 : BitVec 32 := Scalar.muli arg7 c6400_i32
  let v15 : Index := Scalar.indexCast v14
  let c0_8 : Index := 0#32
  ![v15.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S12800x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S204800 : S1024x200.ShapeCasts S204800
  inb_S6400_S200_0 : ∀ a, (![0] : Fin 1 → Nat) a + S200.size a ≤ S6400.size a
  inb_S100000x128_S100000x128_0_0 : ∀ a, (![0, 0] : Fin 2 → Nat) a + S100000x128.size a ≤ S100000x128.size a
  gathers_S100000x128_S200x128 : S100000x128.Gathers 0 S200x128
  inb_S6400_S200_200 : ∀ a, (![200] : Fin 1 → Nat) a + S200.size a ≤ S6400.size a
  slices_S512x128_S200x128_0_0 : S512x128.Slices ![0, 0] S200x128
  shapeCasts_S128_S1x128 : S128.ShapeCasts S1x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S2x128_S1x128_0_0 : ∀ a, (![0, 0] : Fin 2 → Nat) a + S1x128.size a ≤ S2x128.size a
  h_S1x128 : 0 < S1x128.numel
  shapeCasts_S1x128_S128 : S1x128.ShapeCasts S128
  broadcasts_S1x128_S200x128 : S1x128.Broadcasts S200x128
  inb_S1x128_S1x128_0_0 : ∀ a, (![0, 0] : Fin 2 → Nat) a + S1x128.size a ≤ S1x128.size a
  shapeCasts_S128_S1x1x128 : S128.ShapeCasts S1x1x128
  h_S6400x128 : 0 < S6400x128.numel
  shapeCasts_S6400x128_S6400x128 : S6400x128.ShapeCasts S6400x128
  shapeCasts_S6400x128_S32x200x128 : S6400x128.ShapeCasts S32x200x128
  shapeCasts_S200x128_S1x200x128 : S200x128.ShapeCasts S1x200x128
  broadcasts_S1x200x128_S32x200x128 : S1x200x128.Broadcasts S32x200x128
  reduces_S32x200x128_S32x200 : S32x200x128.Reduces [2] S32x200
  shapeCasts_S32x200_S32x200x1 : S32x200.ShapeCasts S32x200x1
  broadcasts_S32x200x1_S32x200x128 : S32x200x1.Broadcasts S32x200x128
  broadcasts_S1x1x128_S32x200x128 : S1x1x128.Broadcasts S32x200x128
  shapeCasts_S32x200x128_S6400x128 : S32x200x128.ShapeCasts S6400x128
  shapeCasts_S204800x128_S1024x200x128 : S204800x128.ShapeCasts S1024x200x128
  hcc0_scratch5 : 0 + S_.numel ≤ 17
  hcc0_scratch6 : 1 + S_.numel ≤ 17
  hcc0_scratch7 : 2 + S_.numel ≤ 17
  hcc0_scratch8 : 3 + S_.numel ≤ 17
  hcc0_scratch9 : 4 + S_.numel ≤ 17
  hcc0_scratch10 : 5 + S_.numel ≤ 17
  hcc0_scratch11 : 6 + S_.numel ≤ 17
  hcc0_scratch12 : 7 + S_.numel ≤ 17
  hcc0_scoped0 : 8 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6400.size a ≤ S204800.size a
  k0_t1_ok : k0_t1_loop.OK
  k0_off2_inb : ∀ (i : grid0.Coords) (k0_t1 : Fin k0_t1_loop.trips), ∀ (k0_h1 : k0_cond1 k0_t1 = 1#1), ∀ a, (k0_off2 i) a + S200x128.size a ≤ S204800x128.size a
  k0_off3_inb : ∀ k0_t1 : Fin k0_t1_loop.trips, ∀ (k0_h2 : k0_cond2 k0_t1 = 1#1), ∀ a, (k0_off3 k0_t1) a + S200.size a ≤ S6400.size a
  k0_off4_inb : ∀ (i : grid0.Coords) (k0_t1 : Fin k0_t1_loop.trips), ∀ (r : Fin 4), ∀ a, (k0_off4 i k0_t1 (BitVec.ofNat 32 r.val)) a + S200x128.size a ≤ S204800x128.size a
  k0_off5_inb : ∀ (i : grid0.Coords) (k0_t1 : Fin k0_t1_loop.trips), ∀ (k0_h3 : k0_cond3 k0_t1 = 1#1), ∀ a, (k0_off5 i) a + S200x128.size a ≤ S204800x128.size a
  k0_off6_inb : ∀ k0_t1 : Fin k0_t1_loop.trips, ∀ (k0_h4 : k0_cond4 k0_t1 = 1#1), ∀ a, (k0_off6 k0_t1) a + S200.size a ≤ S6400.size a
  k0_off7_inb : ∀ (i : grid0.Coords) (k0_t1 : Fin k0_t1_loop.trips), ∀ (k0_h5 : k0_cond5 k0_t1 = 1#1), ∀ a, (k0_off7 i) a + S200x128.size a ≤ S204800x128.size a
  k0_off8_inb : ∀ k0_t1 : Fin k0_t1_loop.trips, ∀ (k0_h6 : k0_cond6 k0_t1 = 1#1), ∀ a, (k0_off8 k0_t1) a + S200.size a ≤ S6400.size a
  k0_off9_inb : ∀ (i : grid0.Coords) (k0_t1 : Fin k0_t1_loop.trips), ∀ (k0_h7 : k0_cond7 k0_t1 = 1#1), ∀ a, (k0_off9 i) a + S200x128.size a ≤ S204800x128.size a
  k0_off10_inb : ∀ k0_t1 : Fin k0_t1_loop.trips, ∀ (k0_h8 : k0_cond8 k0_t1 = 1#1), ∀ a, (k0_off10 k0_t1) a + S200.size a ≤ S6400.size a
  k0_off11_inb : ∀ i : grid0.Coords, ∀ a, (k0_off11 i) a + S200x128.size a ≤ S204800x128.size a
  hrank1 : 0 < grid1.rank
  k1_t1_ok : k1_t1_loop.OK
  k1_off1_inb : ∀ k1_t1 : Fin k1_t1_loop.trips, ∀ a, (k1_off1 k1_t1) a + S6400x128.size a ≤ S12800x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x128.size a ≤ S204800x128.size a
  hwx1_0 : ∀ i : grid1.Coords, EltTy.bits .f32 = 32 ∨ (Rect.block (s := S204800x128) S12800x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S200x128.size a
  hwx1_1 : ∀ i : grid1.Coords, EltTy.bits .f32 = 32 ∨ (Rect.block (s := S200x128) S200x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S12800x128.size a ≤ S204800x128.size a
  hwx1_5 : ∀ i : grid1.Coords, EltTy.bits .f32 = 32 ∨ (Rect.block (s := S204800x128) S12800x128.size (cc1_transform_5 i) (hinb1_5 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0

abbrev win1_0 : Pipeline.Window sig grid1 :=
  Pipeline.Window.ofSpec (Memref.whole main_v1) S12800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S200x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S12800x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200 : Shape := ⟨1, ![200]⟩
abbrev S1x200 : Shape := ⟨2, ![1, 200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x200x1 : Shape := ⟨3, ![1, 200, 1]⟩
abbrev S1x200x128 : Shape := ⟨3, ![1, 200, 128]⟩
abbrev S1x1x128 : Shape := ⟨3, ![1, 1, 128]⟩

abbrev nBuf : Space → Nat
  | .hbm => 126
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S200, .i32⟩
  | .hbm, ⟨7, _⟩ => ⟨S1x200, .i32⟩
  | .hbm, ⟨8, _⟩ => ⟨S_, .i32⟩
  | .hbm, ⟨9, _⟩ => ⟨S1024x200, .i32⟩
  | .hbm, ⟨10, _⟩ => ⟨S_, .i32⟩
  | .hbm, ⟨11, _⟩ => ⟨S1024x200, .i32⟩
  | .hbm, ⟨12, _⟩ => ⟨S1024x200, .i1⟩
  | .hbm, ⟨13, _⟩ => ⟨S_, .i32⟩
  | .hbm, ⟨14, _⟩ => ⟨S1024x200, .i32⟩
  | .hbm, ⟨15, _⟩ => ⟨S1024x200, .i32⟩
  | .hbm, ⟨16, _⟩ => ⟨S1024x200, .i32⟩
  | .hbm, ⟨17, _⟩ => ⟨S1024x200x1, .i32⟩
  | .hbm, ⟨18, _⟩ => ⟨S1, .i32⟩
  | .hbm, ⟨19, _⟩ => ⟨S_, .i32⟩
  | .hbm, ⟨20, _⟩ => ⟨S1024x200x1, .i32⟩
  | .hbm, ⟨21, _⟩ => ⟨S1024x200x1, .i1⟩
  | .hbm, ⟨22, _⟩ => ⟨S1x1x1, .i32⟩
  | .hbm, ⟨23, _⟩ => ⟨S1024x200x1, .i32⟩
  | .hbm, ⟨24, _⟩ => ⟨S1024x200x1, .i1⟩
  | .hbm, ⟨25, _⟩ => ⟨S1024x200x1, .i1⟩
  | .hbm, ⟨26, _⟩ => ⟨S_, .i1⟩
  | .hbm, ⟨27, _⟩ => ⟨S1024x200, .i1⟩
  | .hbm, ⟨28, _⟩ => ⟨S1024x200x128, .f32⟩
  | .hbm, ⟨29, _⟩ => ⟨S1024x200x128, .i1⟩
  | .hbm, ⟨30, _⟩ => ⟨S_, .f32⟩
  | .hbm, ⟨31, _⟩ => ⟨S1024x200x128, .f32⟩
  | .hbm, ⟨32, _⟩ => ⟨S1024x200x128, .f32⟩
  | .hbm, ⟨33, _⟩ => ⟨S_, .i32⟩
  | .hbm, ⟨34, _⟩ => ⟨S1x200, .i32⟩
  | .hbm, ⟨35, _⟩ => ⟨S1x200, .i1⟩
  | .hbm, ⟨36, _⟩ => ⟨S_, .i32⟩
  | .hbm, ⟨37, _⟩ => ⟨S1x200, .i32⟩
  | .hbm, ⟨38, _⟩ => ⟨S1x200, .i32⟩
  | .hbm, ⟨39, _⟩ => ⟨S1x200, .i32⟩
  | .hbm, ⟨40, _⟩ => ⟨S1x200x1, .i32⟩
  | .hbm, ⟨41, _⟩ => ⟨S1, .i32⟩
  | .hbm, ⟨42, _⟩ => ⟨S_, .i32⟩
  | .hbm, ⟨43, _⟩ => ⟨S1x200x1, .i32⟩
  | .hbm, ⟨44, _⟩ => ⟨S1x200x1, .i1⟩
  | .hbm, ⟨45, _⟩ => ⟨S1x1x1, .i32⟩
  | .hbm, ⟨46, _⟩ => ⟨S1x200x1, .i32⟩
  | .hbm, ⟨47, _⟩ => ⟨S1x200x1, .i1⟩
  | .hbm, ⟨48, _⟩ => ⟨S1x200x1, .i1⟩
  | .hbm, ⟨49, _⟩ => ⟨S_, .i1⟩
  | .hbm, ⟨50, _⟩ => ⟨S1x200, .i1⟩
  | .hbm, ⟨51, _⟩ => ⟨S1x200x128, .f32⟩
  | .hbm, ⟨52, _⟩ => ⟨S1x200x128, .i1⟩
  | .hbm, ⟨53, _⟩ => ⟨S_, .f32⟩
  | .hbm, ⟨54, _⟩ => ⟨S1x200x128, .f32⟩
  | .hbm, ⟨55, _⟩ => ⟨S1x200x128, .f32⟩
  | .hbm, ⟨56, _⟩ => ⟨S_, .i32⟩
  | .hbm, ⟨57, _⟩ => ⟨S1024x200, .i32⟩
  | .hbm, ⟨58, _⟩ => ⟨S1024x200, .i1⟩
  | .hbm, ⟨59, _⟩ => ⟨S_, .i32⟩
  | .hbm, ⟨60, _⟩ => ⟨S1024x200, .i32⟩
  | .hbm, ⟨61, _⟩ => ⟨S1024x200, .i32⟩
  | .hbm, ⟨62, _⟩ => ⟨S1024x200, .i32⟩
  | .hbm, ⟨63, _⟩ => ⟨S1024x200x1, .i32⟩
  | .hbm, ⟨64, _⟩ => ⟨S1, .i32⟩
  | .hbm, ⟨65, _⟩ => ⟨S_, .i32⟩
  | .hbm, ⟨66, _⟩ => ⟨S1024x200x1, .i32⟩
  | .hbm, ⟨67, _⟩ => ⟨S1024x200x1, .i1⟩
  | .hbm, ⟨68, _⟩ => ⟨S1x1x1, .i32⟩
  | .hbm, ⟨69, _⟩ => ⟨S1024x200x1, .i32⟩
  | .hbm, ⟨70, _⟩ => ⟨S1024x200x1, .i1⟩
  | .hbm, ⟨71, _⟩ => ⟨S1024x200x1, .i1⟩
  | .hbm, ⟨72, _⟩ => ⟨S_, .i1⟩
  | .hbm, ⟨73, _⟩ => ⟨S1024x200, .i1⟩
  | .hbm, ⟨74, _⟩ => ⟨S1024x200x128, .f32⟩
  | .hbm, ⟨75, _⟩ => ⟨S1024x200x128, .i1⟩
  | .hbm, ⟨76, _⟩ => ⟨S_, .f32⟩
  | .hbm, ⟨77, _⟩ => ⟨S1024x200x128, .f32⟩
  | .hbm, ⟨78, _⟩ => ⟨S1024x200x128, .f32⟩
  | .hbm, ⟨79, _⟩ => ⟨S1024x200x128, .f32⟩
  | .hbm, ⟨80, _⟩ => ⟨S1024x200x128, .f32⟩
  | .hbm, ⟨81, _⟩ => ⟨S1024x200x128, .f32⟩
  | .hbm, ⟨82, _⟩ => ⟨S_, .f32⟩
  | .hbm, ⟨83, _⟩ => ⟨S1024x200, .f32⟩
  | .hbm, ⟨84, _⟩ => ⟨S1024x200x1, .f32⟩
  | .hbm, ⟨85, _⟩ => ⟨S_, .f32⟩
  | .hbm, ⟨86, _⟩ => ⟨S1024x200x1, .f32⟩
  | .hbm, ⟨87, _⟩ => ⟨S1024x200x1, .f32⟩
  | .hbm, ⟨88, _⟩ => ⟨S_, .i32⟩
  | .hbm, ⟨89, _⟩ => ⟨S_, .f32⟩
  | .hbm, ⟨90, _⟩ => ⟨S1024x200, .f32⟩
  | .hbm, ⟨91, _⟩ => ⟨S1024x200x1, .f32⟩
  | .hbm, ⟨92, _⟩ => ⟨S_, .f32⟩
  | .hbm, ⟨93, _⟩ => ⟨S1024x200x1, .f32⟩
  | .hbm, ⟨94, _⟩ => ⟨S1024x200x1, .f32⟩
  | .hbm, ⟨95, _⟩ => ⟨S1024x200x128, .f32⟩
  | .hbm, ⟨96, _⟩ => ⟨S1024x200x128, .f32⟩
  | .hbm, ⟨97, _⟩ => ⟨S1024x200x128, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S1024x200, .f32⟩
  | .hbm, ⟨103, _⟩ => ⟨S1024x200x1, .f32⟩
  | .hbm, ⟨104, _⟩ => ⟨S1024x200x1, .f32⟩
  | .hbm, ⟨105, _⟩ => ⟨S1024x200x1, .f32⟩
  | .hbm, ⟨106, _⟩ => ⟨S_, .f32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S1024x200x1, .f32⟩
  | .hbm, ⟨111, _⟩ => ⟨S1024x200x1, .f32⟩
  | .hbm, ⟨112, _⟩ => ⟨S1024x200x128, .f32⟩
  | .hbm, ⟨113, _⟩ => ⟨S1024x200x128, .f32⟩
  | .hbm, ⟨114, _⟩ => ⟨S_, .f32⟩
  | .hbm, ⟨115, _⟩ => ⟨S1024x200x1, .f32⟩
  | .hbm, ⟨116, _⟩ => ⟨S1024x200x1, .f32⟩
  | .hbm, ⟨117, _⟩ => ⟨S1024x200x1, .f32⟩
  | .hbm, ⟨118, _⟩ => ⟨S1024x200x128, .f32⟩
  | .hbm, ⟨119, _⟩ => ⟨S1024x200x128, .f32⟩
  | .hbm, ⟨120, _⟩ => ⟨S1x1x128, .f32⟩
  | .hbm, ⟨121, _⟩ => ⟨S1024x200x128, .f32⟩
  | .hbm, ⟨122, _⟩ => ⟨S1024x200x128, .f32⟩
  | .hbm, ⟨123, _⟩ => ⟨S1x1x128, .f32⟩
  | .hbm, ⟨124, _⟩ => ⟨S1024x200x128, .f32⟩
  | .hbm, ⟨125, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_cst : Ref sig .tc := ⟨.hbm, 82, rfl⟩
abbrev main_v9 : Ref sig .tc := ⟨.hbm, 83, rfl⟩
abbrev main_v10 : Ref sig .tc := ⟨.hbm, 84, rfl⟩
abbrev main_cst_0 : Ref sig .tc := ⟨.hbm, 85, rfl⟩
abbrev main_v11 : Ref sig .tc := ⟨.hbm, 86, rfl⟩
abbrev main_v12 : Ref sig .tc := ⟨.hbm, 87, rfl⟩
abbrev main_c_1 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_cst_1 : Ref sig .tc := ⟨.hbm, 99, rfl⟩
abbrev main_call3_v8 : Ref sig .tc := ⟨.hbm, 100, rfl⟩
abbrev main_call3_cst_2 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_cst_3 : Ref sig .tc := ⟨.hbm, 106, rfl⟩
abbrev main_call3_v13 : Ref sig .tc := ⟨.hbm, 107, rfl⟩
abbrev main_call3_cst_4 : Ref sig .tc := ⟨.hbm, 108, rfl⟩
abbrev main_call3_call0_v0 : Ref sig .tc := ⟨.hbm, 109, rfl⟩
abbrev main_call3_call0_v1 : Ref sig .tc := ⟨.hbm, 110, rfl⟩
abbrev main_v13 : Ref sig .tc := ⟨.hbm, 111, rfl⟩
abbrev main_v14 : Ref sig .tc := ⟨.hbm, 112, rfl⟩
abbrev main_v15 : Ref sig .tc := ⟨.hbm, 113, rfl⟩
abbrev main_cst_2 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S_S1x200 : S_.BroadcastsInDim S1x200 (![] : Fin 0 → Fin S1x200.rank)
  bcast_S1x200_S1x200x1_0_1 : S1x200.BroadcastsInDim S1x200x1 (![0, 1] : Fin 2 → Fin S1x200x1.rank)
  bcast_S_S1x200x1 : S_.BroadcastsInDim S1x200x1 (![] : Fin 0 → Fin S1x200x1.rank)
  bcast_S1x1x1_S1x200x1_0_1_2 : S1x1x1.BroadcastsInDim S1x200x1 (![0, 1, 2] : Fin 3 → Fin S1x200x1.rank)
  reducesTo_S1x200x1_S1x200_d2 : S1x200x1.ReducesTo [2] S1x200
  bcast_S1x200_S1x200x128_0_1 : S1x200.BroadcastsInDim S1x200x128 (![0, 1] : Fin 2 → Fin S1x200x128.rank)
  bcast_S_S1x200x128 : S_.BroadcastsInDim S1x200x128 (![] : Fin 0 → Fin S1x200x128.rank)
  bcast_S1x200x128_S1024x200x128_0_1_2 : S1x200x128.BroadcastsInDim S1024x200x128 (![0, 1, 2] : Fin 3 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S100000x128_S1024x200x1_S1024x200x128_2_0_n_n_0_2_1128_wf : GatherDims.WF S100000x128 S1024x200x1 S1024x200x128 [2] [0] [] [0] [] 2 ![1, 128]
  gather_S512x128_S1x200x1_S1x200x128_2_0_n_n_0_2_1128_wf : GatherDims.WF S512x128 S1x200x1 S1x200x128 [2] [0] [] [0] [] 2 ![1, 128]
  gather_S2x128_S1024x200x1_S1024x200x128_2_0_n_n_0_2_1128_wf : GatherDims.WF S2x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def gather_S512x128_S1x200x1_S1x200x128_2_0_n_n_0_2_1128 : GatherDims S512x128 S1x200x1 S1x200x128 where
  offsetDims := [2]
  collapsedSliceDims := [0]
  operandBatchingDims := []
  startIndicesBatchingDims := []
  startIndexMap := [0]
  indexVectorDim := 2
  sliceSizes := ![1, 128]
  wf := gather_S512x128_S1x200x1_S1x200x128_2_0_n_n_0_2_1128_wf
def gather_S2x128_S1024x200x1_S1024x200x128_2_0_n_n_0_2_1128 : GatherDims S2x128 S1024x200x1 S1024x200x128 where
  offsetDims := [2]
  collapsedSliceDims := [0]
  operandBatchingDims := []
  startIndicesBatchingDims := []
  startIndexMap := [0]
  indexVectorDim := 2
  sliceSizes := ![1, 128]
  wf := gather_S2x128_S1024x200x1_S1024x200x128_2_0_n_n_0_2_1128_wf

class Facts : Prop extends Facts₀ where

variable [Facts]
-- ==== Proof.Common.lean ====
/-
  The vocabulary every module of this proof shares, generic in the float instance F: the program as the SparseCore
  launch theorem reads it (its call table, its body table, the variants of its loops), and the resource algebra —
  three parts side by side: the rounds of the four launch handshakes, the rounds of the TensorCore pipeline's staging
  cells, and the counters of the tiles' own copies.
-/
import proofs.«203519_g84241488544277_cont_sun_c4_283_31_alg».proof.KernelIdeal
import proofs.«203519_g84241488544277_cont_sun_c4_283_31_alg».proof.Proof.Gen.KernelIdeal
import proofs.«203519_g84241488544277_cont_sun_c4_283_31_alg».proof.Proof.Gen.KernelIdeal.Skeleton
import proofs.«203519_g84241488544277_cont_sun_c4_283_31_alg».proof.Proof.Gen.KernelIdeal.Loops
import proofs.«203519_g84241488544277_cont_sun_c4_283_31_alg».proof.Proof.Gen.KernelIdeal.Launch
import proofs.«203519_g84241488544277_cont_sun_c4_283_31_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipeline's staging cells' rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline cells' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The TensorCore's arrays -/

abbrev idsLoc (d : Dev nD) : Loc nD τ sig := (SparseCore.T d).loc main_v0     -- the ids, flattened: i32[204800]
abbrev tabLoc (d : Dev nD) : Loc nD τ sig := (SparseCore.T d).loc main_arg1   -- the word table: f32[100000,128]
abbrev gatLoc (d : Dev nD) : Loc nD τ sig := (SparseCore.T d).loc main_v1     -- the gathered rows: f32[204800,128]

end Cert.KernelIdeal.Hand

end
-- ==== Proof.Spec.lean ====
/-
  The function both programs compute, at the ideal instance, written twice: once as the reference associates it
  and once as the kernel does. An output element (b, t, k) depends on ONE row of 128 numbers, the hidden row

      h k = W_word[ids[b,t], k] + W_pos[t, k] + W_tt[0, k]          (k < 128),

  and is the layer normalisation of that row at k: with  mean = (∑ h) / 128,  c k = h k − mean,
  var = (∑ c²) / 128,

      reference:  (c k / √(var + ε)) · γ k + β k          kernel:  (c k · rsqrt (var + ε)) · γ k + β k,

  the reference summing the hidden row as (word + pos) + tt and the kernel as word + (pos + tt). On the extended
  reals addition is associative and commutative, so the hidden rows agree always; the two normalisations agree
  where var + ε is a positive real and c k is finite, which finite inputs give.
  Nothing here mentions a program: the arrays are plain functions of an index.
-/
import Idealize.ShloMosaic.PureOps.Ideal
import Idealize.ShloMosaic.Lib.ValueIdx

noncomputable section

namespace Cert.Hand

open Idealize.ShloMosaic Idealize.ShloMosaic.ValueIdx

abbrev SIds : Shape := ⟨2, ![1024, 200]⟩
abbrev SWord : Shape := ⟨2, ![100000, 128]⟩
abbrev SPos : Shape := ⟨2, ![512, 128]⟩
abbrev STt : Shape := ⟨2, ![2, 128]⟩
abbrev SVec : Shape := ⟨1, ![128]⟩
abbrev SOut : Shape := ⟨3, ![1024, 200, 128]⟩

/-- The row of the word table a token id selects: the id's value, clamped to the table (under the precondition every
    id is below 100000 and the clamp is the identity; it only makes the function total). -/
def rowOf (w : BitVec 32) : Fin 100000 := ⟨min w.toNat 99999, by omega⟩

/-- Position t of a sequence of 200 as a row of the 512-row position table. -/
def posRow (t : Fin 200) : Fin 512 := ⟨t.val, by omega⟩

/-- ε, the f32 nearest 1e-12, the same word in both programs. -/
def eps : EReal := Ideal.ofBits .f32 0x2B8CBCCC#32
/-- 128.0, the row length both programs divide by. -/
def c128 : EReal := Ideal.ofBits .f32 0x43000000#32

section Row

variable (h γ β : Fin 128 → EReal)

/-- The mean of a row. -/
def mean : EReal := Ideal.div (∑ k, h k) c128
/-- A row's element less the row's mean. -/
def cen (k : Fin 128) : EReal := h k - mean h
/-- The (biased) variance of a row. -/
def var : EReal := Ideal.div (∑ k, cen h k * cen h k) c128
/-- Layer normalisation of a row at k as the reference writes it: a quotient by the square root. -/
def lnRef (k : Fin 128) : EReal := Ideal.div (cen h k) (Ideal.sqrt (var h + eps)) * γ k + β k
/-- The same as the kernel writes it: a product with the reciprocal square root. -/
def lnKer (k : Fin 128) : EReal := cen h k * Ideal.rsqrt (var h + eps) * γ k + β k

end Row

section Arrays

variable (ids : SIds.Idx → BitVec 32) (Ww : SWord.Idx → EReal) (Wp : SPos.Idx → EReal) (Wt : STt.Idx → EReal)
  (g b : SVec.Idx → EReal)

/-- The hidden row of (b, t) as the reference adds it up: (word + pos) + tt. -/
def hidRef (p : Fin 1024) (t : Fin 200) (k : Fin 128) : EReal :=
  (Ww (ix2 (rowOf (ids (ix2 p t))) k) + Wp (ix2 (posRow t) k)) + Wt (ix2 (0 : Fin 2) k)
/-- The same as the kernel adds it up: word + (pos + tt). -/
def hidKer (p : Fin 1024) (t : Fin 200) (k : Fin 128) : EReal :=
  Ww (ix2 (rowOf (ids (ix2 p t))) k) + (Wp (ix2 (posRow t) k) + Wt (ix2 (0 : Fin 2) k))

/-- The reference's result array as one function of the argument arrays. -/
def specRef : SOut.Idx → EReal := fun i =>
  lnRef (hidRef ids Ww Wp Wt (i 0) (i 1)) (fun k => g (ix1 k)) (fun k => b (ix1 k)) (i 2)
/-- The kernel's result array as one function of the argument arrays. -/
def specKer : SOut.Idx → EReal := fun i =>
  lnKer (hidKer ids Ww Wp Wt (i 0) (i 1)) (fun k => g (ix1 k)) (fun k => b (ix1 k)) (i 2)

end Arrays

end Cert.Hand

end
-- ==== Proof.TileDefs.lean ====
/-
  The rows a tile works on. Tile L = (SparseCore L 0 < 2, subcore L 1 < 16) has number w = 2·(L 1) + (L 0) and
  owns rows [6400·w, 6400·w + 6400) of the flattened ids and of the gathered array; what it leaves in those rows of the
  gathered array is the word table's row ids[r], for each of its rows r.
-/
import proofs.«203519_g84241488544277_cont_sun_c4_283_31_alg».proof.Proof.Common
import proofs.«203519_g84241488544277_cont_sun_c4_283_31_alg».proof.Proof.Spec

noncomputable section

namespace Cert.KernelIdeal.Hand

open Cert.KernelIdeal Cert.KernelIdeal.Gen
open Idealize.ShloMosaic

variable {F : FTy → Type}

/-- The SparseCore and the subcore of a grid point of the gather kernel. -/
abbrev cV (L : grid0.Coords) : Fin τ.nSC := (L 0).castLE hcore0
abbrev jV (L : grid0.Coords) : Fin τ.nSub := (L 1).castLE hsub0

/-- The tile's 6400 ids, as the kernel slices them out of the flattened ids. -/
abbrev idsRectK (L : grid0.Coords) : Rect S204800 := Rect.unit (s := S204800) (k0_off1 L) S6400.size (k0_off1_inb L)
abbrev idsSetK (L : grid0.Coords) : Finset S204800.Idx :=
  ((Memref.whole main_v0_scv : Memref sig .scVector .hbm S204800 .i32).slice (idsRectK L) (fun _ => rfl)).view.set

/-- Where the tile's 6400 rows of the gathered array begin. -/
def outOff (L : grid0.Coords) : Fin 2 → Nat := ![((L 1).val * 2 + (L 0).val) * 6400, 0]

theorem outOff_inb (L : grid0.Coords) : ∀ a, outOff L a + S6400x128.size a ≤ S204800x128.size a := by
  have h0 : (L 0).val < 2 := (L 0).isLt
  have h1 : (L 1).val < 16 := (L 1).isLt
  intro a
  match a with
  | ⟨0, _⟩ => show ((L 1).val * 2 + (L 0).val) * 6400 + 6400 ≤ 204800; omega
  | ⟨1, _⟩ => show 0 + 128 ≤ 128; omega

abbrev outRectK (L : grid0.Coords) : Rect S204800x128 := Rect.unit (s := S204800x128) (outOff L) S6400x128.size (outOff_inb L)
abbrev outSetK (L : grid0.Coords) : Finset S204800x128.Idx :=
  ((Memref.whole main_v1_scv : Memref sig .scVector .hbm S204800x128 .f32).slice (outRectK L) (fun _ => rfl)).view.set

/-- The gathered array: row r is the word table's row ids[r] (the id's value, clamped into the table). -/
def gatherRows (ids : S204800.Idx → BitVec 32) (tab : S100000x128.Idx → Elt F .f32) : S204800x128.Idx → Elt F .f32 :=
  fun i => tab (ValueIdx.ix2 (Cert.Hand.rowOf (ids (ValueIdx.ix1 (i 0)))) (i 1))

end Cert.KernelIdeal.Hand

end
-- ==== Proof.Launch1.lean ====
/-
  What the SparseCore call hands each tile and gets back. The call's three arrays are dealt among the 32 tiles
  (2 SparseCores × 16 subcores; tile (c, s) has number w = 2s + c): the flattened ids and the gathered array are cut
  into 32 blocks of 6400 rows, block w to tile number w, each held whole; the word table, which every tile reads all of,
  goes out as 32 shares (the full share halved five times). A tile returns its ids and its share of the table as it
  got them and its block of the gathered array at the one function gatherRows ids tab. A SparseCore's hand-over is,
  by definition, its sixteen tiles' hand-overs side by side, so the sequencer's split and gathering are the identity.
-/
import proofs.«203519_g84241488544277_cont_sun_c4_283_31_alg».proof.Proof.Common
import proofs.«203519_g84241488544277_cont_sun_c4_283_31_alg».proof.Proof.TileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's task, as a statement -/

/-- The task of tile L on device d, run from its 6400 ids, a share of the word table and its 6400 rows of the gathered
    array, returns them with those rows at the table's rows the ids name. -/
def TileBodyStmt [FloatOps F] : Prop :=
  ∀ (hF : (K (F := F)).Facts) (d : Dev nD) (L : grid0.Coords) (ids : Buf (Elt F) (idsLoc d)) (tab : Buf (Elt F) (tabLoc d)) (g0 : Buf (Elt F) (gatLoc d))
    (hids : ∀ j, (ids j).toNat < 100000) (q : PosShare TreeShare)
    (O : CellTallies nD τ sig (HIx 1)) (W : Waits sig (HIx 1)) (hO : ∀ g, O g none = 0),
    iprop(levAts (K (F := F)).L (K (F := F)).lev ∗ emp
        ∗ ((idsLoc d ↦[idsSetK L]{fullShare} ids) ∗ (tabLoc d ↦{q} tab) ∗ (gatLoc d ↦[outSetK L]{fullShare} g0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_gather_kernel L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10 cc0_scratch11 cc0_scratch12 cc0_scoped0)
          fun _ => iprop(((idsLoc d ↦[idsSetK L]{fullShare} ids) ∗ (tabLoc d ↦{q} tab)
              ∗ ∃ f, ⌜∀ i ∈ outSetK L, f i = gatherRows ids tab i⌝ ∗ (gatLoc d ↦[outSetK L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

/-! ## Tile numbers and their blocks of rows -/

/-- The number of a tile. -/
def wid (L : grid0.Coords) : Fin 32 :=
  ⟨2 * (L 1).val + (L 0).val, by
    have h0 : (L 0).val < 2 := (L 0).isLt
    have h1 : (L 1).val < 16 := (L 1).isLt
    omega⟩

def coordsV (c : Fin (grid0.bound 0)) (s : Fin (grid0.bound 1)) : grid0.Coords :=
  fun | 0 => c | 1 => s | ⟨_ + 2, h⟩ => absurd h (Nat.not_lt.2 (Nat.le_add_left _ _))

theorem idiv : 32 ∣ S204800.size 0 := ⟨6400, rfl⟩
theorem odiv : 32 ∣ S204800x128.size 0 := ⟨6400, rfl⟩
abbrev irow (w : Fin 32) : Rect S204800 := Rect.part (s := S204800) (a₀ := 0) idiv w
abbrev orow (w : Fin 32) : Rect S204800x128 := Rect.part (s := S204800x128) (a₀ := 0) odiv w

theorem idsRectK_eq (L : grid0.Coords) : idsRectK L = irow (wid L) := by
  unfold idsRectK irow Rect.part Rect.block
  congr 1 <;> funext a
  · rw [k0_off1_eq]
    match a with
    | 0 => simp [Shape.partIx, Shape.partSize, wid]; omega
  · match a with
    | 0 => simp [Shape.partSize]

theorem outRectK_eq (L : grid0.Coords) : outRectK L = orow (wid L) := by
  unfold outRectK orow Rect.part Rect.block
  congr 1 <;> funext a
  · match a with
    | 0 => simp [Shape.partIx, Shape.partSize, wid, outOff]; omega
    | 1 => simp [Shape.partIx, Shape.partSize, outOff]
  · match a with
    | 0 => simp [Shape.partSize]
    | 1 => simp [Shape.partSize]

theorem idsSetK_eq (L : grid0.Coords) : idsSetK L = (irow (wid L)).set := by
  show ((View.whole (main_v0_scv : Ref sig .scVector)).slice (idsRectK L)).set = _
  rw [View.set_slice, idsRectK_eq]; exact Finset.map_refl

theorem outSetK_eq (L : grid0.Coords) : outSetK L = (orow (wid L)).set := by
  show ((View.whole (main_v1_scv : Ref sig .scVector)).slice (outRectK L)).set = _
  rw [View.set_slice, outRectK_eq]; exact Finset.map_refl

end Cert.KernelIdeal.Hand

end
-- ==== Proof.Launch2.lean ====
/-
  The hand-over record of the one SparseCore call, the tile's obligation from the tile's task, and the sequencer's
  split, which is the identity: a SparseCore is handed its sixteen tiles' parts side by side.
-/
import proofs.«203519_g84241488544277_cont_sun_c4_283_31_alg».proof.Proof.Launch1

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- The contents the call finds in its three arrays, per device, and the table's share of each tile.
variable (ids : (d : Dev nD) → Buf (Elt F) (idsLoc d)) (tab : (d : Dev nD) → Buf (Elt F) (tabLoc d)) (g0 : (d : Dev nD) → Buf (Elt F) (gatLoc d))
  (tq : Fin 32 → PosShare TreeShare)

/-- The grid point of tile i of SparseCore c of the call. -/
abbrev tileL (c : Fin ((K (F := F)).nCore 0)) (i : Fin ((K (F := F)).nSub 0)) : grid0.Coords := coordsV ⟨c.val, c.isLt⟩ ⟨i.val, i.isLt⟩

/-- What tile L is handed: its ids, its share of the table, its rows of the gathered array as the call found them. -/
abbrev goRes (d : Dev nD) (L : grid0.Coords) : sProp 𝕄 :=
  iprop((idsLoc d ↦[idsSetK L]{fullShare} ids d) ∗ (tabLoc d ↦{tq (wid L)} tab d) ∗ (gatLoc d ↦[outSetK L]{fullShare} g0 d))
/-- What it hands back: the same, its rows of the gathered array at the table's rows its ids name. -/
abbrev tdRes (d : Dev nD) (L : grid0.Coords) : sProp 𝕄 :=
  iprop((idsLoc d ↦[idsSetK L]{fullShare} ids d) ∗ (tabLoc d ↦{tq (wid L)} tab d) ∗ (gatLoc d ↦[outSetK L]{fullShare} gatherRows (ids d) (tab d)))

def P : (K (F := F)).Pay (nD := nD) (Val := Elt F) (Name := ℕ) (U := UU) where
  st := fun q d c => match q with | 0 => bigSep Finset.univ fun i : Fin ((K (F := F)).nSub 0) => goRes ids tab g0 tq d (tileL c i)
  dn := fun q d c => match q with | 0 => bigSep Finset.univ fun i : Fin ((K (F := F)).nSub 0) => tdRes ids tab tq d (tileL c i)
  go := fun q d c i => match q with | 0 => goRes ids tab g0 tq d (tileL c i)
  td := fun q d c i => match q with | 0 => tdRes ids tab tq d (tileL c i)
  x := fun _ _ => iprop(emp)

instance P_storable : (P (F := F) ids tab g0 tq).IsStorable where
  st q d c := match q with
    | 0 => (inferInstance : BI.Storable (upEmb : UEmb _ 𝕄) (bigSep Finset.univ fun i : Fin ((K (F := F)).nSub 0) => goRes ids tab g0 tq d (tileL c i)))
  dn q d c := match q with
    | 0 => (inferInstance : BI.Storable (upEmb : UEmb _ 𝕄) (bigSep Finset.univ fun i : Fin ((K (F := F)).nSub 0) => tdRes ids tab tq d (tileL c i)))
  go q d c i := match q with
    | 0 => (inferInstance : BI.Storable (upEmb : UEmb _ 𝕄) (goRes ids tab g0 tq d (tileL c i)))
  td q d c i := match q with
    | 0 => (inferInstance : BI.Storable (upEmb : UEmb _ 𝕄) (tdRes ids tab tq d (tileL c i)))

variable [FloatOps F]

/-! ## The tile's obligation -/

theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scratch9 cc0_scratch10 cc0_scratch11 cc0_scratch12 cc0_scoped0) ⟨⟩ c s := rfl

omit [FloatOps F] in
/-- The task's post is the obligation's: its rows of the gathered array, equal to gatherRows on them, are held at that
    one function, and the recorded waits are within the bound the obligation allows. -/
theorem obl_post {thr : Thread nD τ} {ℓi ℓt ℓg : Loc nD τ sig} {Si : Finset (Idx ℓi)} {Sg : Finset (Idx ℓg)} {qt : PosShare TreeShare}
    {fi : Buf (Elt F) ℓi} {ft : Buf (Elt F) ℓt} {G : Buf (Elt F) ℓg} {B C : sProp 𝕄}
    {O : CellTallies nD τ sig (HIx 1)} {W : Waits sig (HIx 1)} {q : Fin 1} :
    iprop(((ℓi ↦[Si]{fullShare} fi) ∗ (ℓt ↦{qt} ft) ∗ ∃ f, ⌜∀ i ∈ Sg, f i = G i⌝ ∗ (ℓg ↦[Sg]{fullShare} f)) ∗ B ∗ C
        ∗ ∃ W', ⌜∀ p ∈ W', p ∈ W ∨ p.2 = none⌝ ∗ owes thr O W')
      ⊢ (iprop(((ℓi ↦[Si]{fullShare} fi) ∗ (ℓt ↦{qt} ft) ∗ (ℓg ↦[Sg]{fullShare} G)) ∗ B ∗ C
        ∗ ∃ W', ⌜∀ p ∈ W', p ∈ W ∨ p.2 = none ∨ p.2 = some q⌝ ∗ owes thr O W') : sProp 𝕄) := by
  iintro ⟨⟨Hi, Ht, %f, %hf, Hg⟩, HB, HC, %W', %hW', HO⟩
  isplitl [Hi Ht Hg]
  · isplitl [Hi]; · iexact Hi
    isplitl [Ht]; · iexact Ht
    rw [← pointsTo_congr hf]; iexact Hg
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hids : ∀ d j, (ids d j).toNat < 100000) (hbody : TileBodyStmt (F := F)) :
    (K (F := F)).TileObl (D (F := F)) 𝒱 (P ids tab g0 tq) v₀ 0 := by
  intro d c i O W hO _ _
  simp only [show (P ids tab g0 tq).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody hF d (coordsV ⟨_, hci.1⟩ ⟨_, hci.2⟩) (ids d) (tab d) (g0 d) (hids d) (tq (wid (coordsV ⟨_, hci.1⟩ ⟨_, hci.2⟩))) O W hO).trans
    (wp_mono frame _ _ fun _ => obl_post)

/-! ## The sequencer's split -/

theorem vecSplit : (K (F := F)).VecSplit' (P ids tab g0 tq) 0 := by
  intro d c
  show (bigSep Finset.univ fun i : Fin ((K (F := F)).nSub 0) => goRes ids tab g0 tq d (tileL c i))
    ⊢ |={Set.univ}=> iprop((bigSep Finset.univ fun i : Fin ((K (F := F)).nSub 0) => goRes ids tab g0 tq d (tileL c i))
      ∗ ((bigSep Finset.univ fun i : Fin ((K (F := F)).nSub 0) => tdRes ids tab tq d (tileL c i))
          -∗ (bigSep Finset.univ fun i : Fin ((K (F := F)).nSub 0) => tdRes ids tab tq d (tileL c i))))
  iintro H; imodintro
  isplitl [H]; · iexact H
  iintro H; iexact H

end Cert.KernelIdeal.Hand

end
-- ==== Proof.Launch3.lean ====
/-
  The launch element: the handshakes' rounds as the launch theorem wants them, the pipeline's staging cells' ghost
  state and duty tokens funded for the TensorCore to enter its region with, and nothing for the SparseCore threads
  (the gather kernel's own copies need no schedule: counters only).
-/
import proofs.«203519_g84241488544277_cont_sun_c4_283_31_alg».proof.Proof.Launch2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (ids : (d : Dev nD) → Buf (Elt F) (idsLoc d)) (tab : (d : Dev nD) → Buf (Elt F) (tabLoc d)) (g0 : (d : Dev nD) → Buf (Elt F) (gatLoc d))
  (tq : Fin 32 → PosShare TreeShare)

/-- What the TensorCore of d enters its region with: its staging cells' ghost state and its duty tokens. -/
abbrev regionGhost (d : Dev nD) : sProp 𝕄 :=
  iprop(Pipeline.cellsGhost (nD := nD) (τ := τ) cfgs (EP (F := F)) 0 d ∗ Pipeline.toksInit (nD := nD) (τ := τ) cfgs (EP (F := F)) 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

/-- The pipeline cells' launch element funds every device's region ghost state. -/
theorem fundR : (BI.own ((EP (F := F)) (initOf (Pipeline.cells (nD := nD) (τ := τ) cfgs cellOf_inj) (Pipeline.launchToks (nD := nD) (τ := τ) cfgs cellOf_inj))) : sProp 𝕄)
    ⊢ iprop(|==> (bigSep Finset.univ fun d : Dev nD => regionGhost (F := F) d)) := by
  have e1 : (bigSep Finset.univ fun c : Dev nD => bigSep Finset.univ fun p : Fin 1 => (Pipeline.cellsGhost (nD := nD) (τ := τ) cfgs (EP (F := F)) p c : sProp 𝕄))
      = bigSep Finset.univ fun c : Dev nD => Pipeline.cellsGhost (nD := nD) (τ := τ) cfgs (EP (F := F)) 0 c :=
    bigSep_congr fun c _ => bigSep_univ_of_subsingleton (0 : Fin 1)
  have e2 : (bigSep Finset.univ fun c : Dev nD => bigSep Finset.univ fun p : Fin 1 => (Pipeline.toksInit (nD := nD) (τ := τ) cfgs (EP (F := F)) p c : sProp 𝕄))
      = bigSep Finset.univ fun c : Dev nD => Pipeline.toksInit (nD := nD) (τ := τ) cfgs (EP (F := F)) 0 c :=
    bigSep_congr fun c _ => bigSep_univ_of_subsingleton (0 : Fin 1)
  refine (Pipeline.fund_ghost (nD := nD) (τ := τ) cfgs (EP (F := F)) cellOf_inj).trans ?_
  rw [e1, e2, ← bigSep_sep']

theorem hu₀ : iprop(ownU (u₀ (F := F)) ∗ (P (F := F) ids tab g0 tq).oxCred ∗ (K (F := F)).freeSems0)
    ⊢ |={Set.univ}=> iprop(BI.own (EH (initOf (K (F := F)).hsCells (K (F := F)).hsToks)) ∗ (bigSep Finset.univ fun d : Dev nD => regionGhost (F := F) d)
        ∗ (bigSep Finset.univ fun thr : Thread nD τ => bigSep Finset.univ fun q : Fin 1 => (P ids tab g0 tq).x q thr) : sProp 𝕄) := by
  unfold u₀
  iintro ⟨Hu, -, -⟩
  ihave H := (ownU_split (F := F) _ _) $$ Hu
  icases H with ⟨HH, HPp⟩
  imod (fundR (F := F)) $$ HPp with Hg
  imodintro
  isplitl [HH]; · iexact HH
  isplitl [Hg]; · iexact Hg
  rw [show (bigSep Finset.univ fun thr : Thread nD τ => bigSep Finset.univ fun q : Fin 1 => (P (F := F) ids tab g0 tq).x q thr) = bigSep Finset.univ fun _ => iprop(emp) from
    bigSep_congr fun _ _ => bigSep_univ_of_subsingleton (0 : Fin 1), bigSep_emp']
  iempintro

end Cert.KernelIdeal.Hand

end
-- ==== Proof.RegionStmt.lean ====
/-
  The TensorCore's region as one step of @main, as a statement: from the TensorCore's state after the SparseCore
  call, its region-boundary holdings, its staging cells' ghost state and the six arrays the pallas_call names, the
  call runs to the same with the result array at LN of the five inputs.
-/
import proofs.«203519_g84241488544277_cont_sun_c4_283_31_alg».proof.Proof.Launch3

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

def RegionStmt [FloatOps F] (LN : (S204800x128.Idx → Elt F .f32) → (S200x128.Idx → Elt F .f32) → (S2x128.Idx → Elt F .f32) → (S1x128.Idx → Elt F .f32) → (S1x128.Idx → Elt F .f32) → S204800x128.Idx → Elt F .f32) : Prop :=
  ∀ (d : Dev nD) (x : S204800x128.Idx → Elt F .f32) (pos : S200x128.Idx → Elt F .f32) (tt : S2x128.Idx → Elt F .f32) (g b : S1x128.Idx → Elt F .f32) (o0 : S204800x128.Idx → Elt F .f32),
    iprop((K (F := F)).tcSt EH d 1 ∗ boundary (SparseCore.T d)
        ∗ ((SparseCore.T d).loc main_v1 ↦{fullShare} x) ∗ ((SparseCore.T d).loc main_v2 ↦{fullShare} pos) ∗ ((SparseCore.T d).loc main_arg3 ↦{fullShare} tt)
        ∗ ((SparseCore.T d).loc main_v3 ↦{fullShare} g) ∗ ((SparseCore.T d).loc main_v4 ↦{fullShare} b) ∗ ((SparseCore.T d).loc main_v5 ↦{fullShare} o0)
        ∗ Pipeline.cellsGhost (nD := nD) (τ := τ) cfgs (EP (F := F)) 0 d ∗ Pipeline.toksInit (nD := nD) (τ := τ) cfgs (EP (F := F)) 0 d)
      ⊢ (wp frame (wpE ((K (F := F)).defs (D (F := F))) 𝒱 (SparseCore.T d) none) Set.univ (Prog.lift (.customCall (SparseCore.inner (Pipeline.entry 0)) ()))
          fun _ => iprop((K (F := F)).tcSt EH d 1 ∗ boundary (SparseCore.T d)
            ∗ ((SparseCore.T d).loc main_v1 ↦{fullShare} x) ∗ ((SparseCore.T d).loc main_v2 ↦{fullShare} pos) ∗ ((SparseCore.T d).loc main_arg3 ↦{fullShare} tt)
            ∗ ((SparseCore.T d).loc main_v3 ↦{fullShare} g) ∗ ((SparseCore.T d).loc main_v4 ↦{fullShare} b)
            ∗ ((SparseCore.T d).loc main_v5 ↦{fullShare} LN x pos tt g b)) : sProp 𝕄)

end Cert.KernelIdeal.Hand

end
-- ==== Proof.Launch4.lean ====
/-
  The SparseCore call's hand-over, read as whole arrays. Dealt over the 2 × 16 tiles, the ids' and the gathered
  array's 32 blocks of 6400 rows are the whole arrays (the blocks are disjoint and cover the rows), and the table's 32
  shares are the table at the full share; so what @main hands the call is its three arrays whole, and what it gets
  back is the ids and the table as they were and the gathered array at gatherRows ids tab.
-/
import proofs.«203519_g84241488544277_cont_sun_c4_283_31_alg».proof.Proof.Launch2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (ids : (d : Dev nD) → Buf (Elt F) (idsLoc d)) (tab : (d : Dev nD) → Buf (Elt F) (tabLoc d)) (g0 : (d : Dev nD) → Buf (Elt F) (gatLoc d))
  (tq : Fin 32 → PosShare TreeShare)

/-- Tile (c, i) ↦ its number 2i + c, a bijection of the 2 × 16 tiles with the numbers below 32. -/
def tileEquiv : Fin 2 × Fin 16 ≃ Fin 32 where
  toFun x := ⟨2 * x.2.val + x.1.val, by have := x.1.isLt; have := x.2.isLt; omega⟩
  invFun w := (⟨w.val % 2, Nat.mod_lt _ (by decide)⟩, ⟨w.val / 2, by have := w.isLt; omega⟩)
  left_inv x := by
    have h1 := x.1.isLt; have h2 := x.2.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

theorem bigSep_tiles (Φ : Fin 32 → sProp 𝕄) :
    (bigSep Finset.univ fun c : Fin ((K (F := F)).nCore 0) => bigSep Finset.univ fun i : Fin ((K (F := F)).nSub 0) => Φ (wid (tileL (F := F) c i)))
      = bigSep Finset.univ Φ := by
  rw [bigSep_univ_equiv tileEquiv Φ, bigSep_univ_prod]
  rfl

/-! ## The blocks are a partition -/

theorem irows_disjoint : ∀ i ∈ (Finset.univ : Finset (Fin 32)), ∀ j ∈ (Finset.univ : Finset (Fin 32)), i ≠ j → Disjoint (irow i).set (irow j).set :=
  fun i _ j _ h => Rect.part_disjoint idiv h
theorem orows_disjoint : ∀ i ∈ (Finset.univ : Finset (Fin 32)), ∀ j ∈ (Finset.univ : Finset (Fin 32)), i ≠ j → Disjoint (orow i).set (orow j).set :=
  fun i _ j _ h => Rect.part_disjoint odiv h

theorem iPts_rows (d : Dev nD) (f : Buf (Elt F) (idsLoc d)) :
    (idsLoc d ↦{fullShare} f : sProp 𝕄) = bigSep Finset.univ fun w : Fin 32 => idsLoc d ↦[(irow w).set]{fullShare} f := by
  rw [← pointsTo_biUnion Finset.univ (ℓ := idsLoc d) (fun w : Fin 32 => (irow w).set) irows_disjoint, Rect.biUnion_part idiv]
theorem oPts_rows (d : Dev nD) (f : Buf (Elt F) (gatLoc d)) :
    (gatLoc d ↦{fullShare} f : sProp 𝕄) = bigSep Finset.univ fun w : Fin 32 => gatLoc d ↦[(orow w).set]{fullShare} f := by
  rw [← pointsTo_biUnion Finset.univ (ℓ := gatLoc d) (fun w : Fin 32 => (orow w).set) orows_disjoint, Rect.biUnion_part odiv]

/-! ## The hand-over as whole arrays -/

-- the table's 32 shares are the table at the full share
variable (htq : ∀ (d : Dev nD) (f : Buf (Elt F) (tabLoc d)), (tabLoc d ↦{fullShare} f : sProp (MT nD τ sig (HIx 1) (Elt F) ℕ UU ℕ)) = bigSep Finset.univ fun w : Fin 32 => tabLoc d ↦{tq w} f)

theorem goRes_eq (d : Dev nD) (L : grid0.Coords) :
    goRes ids tab g0 tq d L = iprop((idsLoc d ↦[(irow (wid L)).set]{fullShare} ids d) ∗ (tabLoc d ↦{tq (wid L)} tab d) ∗ (gatLoc d ↦[(orow (wid L)).set]{fullShare} g0 d)) := by
  unfold goRes; rw [idsSetK_eq, outSetK_eq]
theorem tdRes_eq (d : Dev nD) (L : grid0.Coords) :
    tdRes ids tab tq d L = iprop((idsLoc d ↦[(irow (wid L)).set]{fullShare} ids d) ∗ (tabLoc d ↦{tq (wid L)} tab d)
      ∗ (gatLoc d ↦[(orow (wid L)).set]{fullShare} gatherRows (ids d) (tab d))) := by
  unfold tdRes; rw [idsSetK_eq, outSetK_eq]

include htq in
theorem st_eq (d : Dev nD) :
    (bigSep Finset.univ fun c : Fin ((K (F := F)).nCore 0) => (P ids tab g0 tq).st 0 d c)
      = iprop((idsLoc d ↦{fullShare} ids d) ∗ (tabLoc d ↦{fullShare} tab d) ∗ (gatLoc d ↦{fullShare} g0 d)) := by
  show (bigSep Finset.univ fun c : Fin ((K (F := F)).nCore 0) => bigSep Finset.univ fun i : Fin ((K (F := F)).nSub 0) => goRes ids tab g0 tq d (tileL c i)) = _
  simp only [goRes_eq]
  rw [bigSep_tiles (F := F) (fun w => iprop((idsLoc d ↦[(irow w).set]{fullShare} ids d) ∗ (tabLoc d ↦{tq w} tab d) ∗ (gatLoc d ↦[(orow w).set]{fullShare} g0 d))),
    bigSep_sep', bigSep_sep', ← iPts_rows, ← oPts_rows, ← htq]

include htq in
theorem dn_eq (d : Dev nD) :
    (bigSep Finset.univ fun c : Fin ((K (F := F)).nCore 0) => (P ids tab g0 tq).dn 0 d c)
      = iprop((idsLoc d ↦{fullShare} ids d) ∗ (tabLoc d ↦{fullShare} tab d) ∗ (gatLoc d ↦{fullShare} gatherRows (ids d) (tab d))) := by
  show (bigSep Finset.univ fun c : Fin ((K (F := F)).nCore 0) => bigSep Finset.univ fun i : Fin ((K (F := F)).nSub 0) => tdRes ids tab tq d (tileL c i)) = _
  simp only [tdRes_eq]
  rw [bigSep_tiles (F := F) (fun w => iprop((idsLoc d ↦[(irow w).set]{fullShare} ids d) ∗ (tabLoc d ↦{tq w} tab d)
      ∗ (gatLoc d ↦[(orow w).set]{fullShare} gatherRows (ids d) (tab d)))),
    bigSep_sep', bigSep_sep', ← iPts_rows, ← oPts_rows, ← htq]

end Cert.KernelIdeal.Hand

end
-- ==== Proof.Launch5a.lean ====
/-
  @main's arrays and the contents they pass through. The TensorCore holds thirteen HBM arrays (the six arguments and
  %0 … %6). @main is: %0 = the ids flattened; %1 = the SparseCore gather; %2 = the first 200 rows of the position table;
  %3, %4 = gamma and beta as 1 × 128 rows; %5 = the TensorCore region's result LN; %6 = %5 as [1024, 200, 128]. The
  valuations V0 … V7 are the arrays' contents after each of these seven steps, from the launch memory.
-/
import proofs.«203519_g84241488544277_cont_sun_c4_283_31_alg».proof.Proof.RegionStmt
import proofs.«203519_g84241488544277_cont_sun_c4_283_31_alg».proof.Proof.Launch4

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within held_sub_split held_congr)

variable {F : FTy → Type}

local notation "𝕄" => MT nD τ sig (HIx 1) (Elt F) ℕ UU ℕ

abbrev rf (b : Ref sig .tc) : DevRef τ sig := Proc.devRef .tc b

/-- The TensorCore's thirteen arrays. -/
abbrev S13 : Finset (DevRef τ sig) :=
  {rf main_arg0, rf main_arg1, rf main_arg2, rf main_arg3, rf main_arg4, rf main_arg5, rf main_v0, rf main_v1, rf main_v2, rf main_v3, rf main_v4, rf main_v5, rf main_v6}
/-- The three the SparseCore call takes. -/
abbrev S3 : Finset (DevRef τ sig) := {rf main_v0, rf main_arg1, rf main_v1}
/-- The six the region takes. -/
abbrev S6 : Finset (DevRef τ sig) := {rf main_v1, rf main_v2, rf main_arg3, rf main_v3, rf main_v4, rf main_v5}

variable [FloatOps F]

abbrev op0 : HloOp τ sig (Elt F) := StableHlo.reshape main_arg0 main_v0 rfl shapeCasts_S1024x200_S204800
abbrev op2 : HloOp τ sig (Elt F) :=
  StableHlo.unary main_arg2 main_v2 ((extractStridedSlice S200x128 ![0, 0] · slices_S512x128_S200x128_0_0) : (⟨S512x128, .f32⟩ : BufTy).Contents (Elt F) → (⟨S200x128, .f32⟩ : BufTy).Contents (Elt F))
abbrev op3 : HloOp τ sig (Elt F) := StableHlo.reshape main_arg4 main_v3 rfl shapeCasts_S128_S1x128
abbrev op4 : HloOp τ sig (Elt F) := StableHlo.reshape main_arg5 main_v4 rfl shapeCasts_S128_S1x128
abbrev op6 : HloOp τ sig (Elt F) := StableHlo.reshape main_v5 main_v6 rfl shapeCasts_S204800x128_S1024x200x128

theorem h0 : (op0 (F := F)).bufs ⊆ S13 := show ({rf main_arg0, rf main_v0} : Finset (DevRef τ sig)) ⊆ S13 by decide
theorem h2 : (op2 (F := F)).bufs ⊆ S13 := show ({rf main_arg2, rf main_v2} : Finset (DevRef τ sig)) ⊆ S13 by decide
theorem h3 : (op3 (F := F)).bufs ⊆ S13 := show ({rf main_arg4, rf main_v3} : Finset (DevRef τ sig)) ⊆ S13 by decide
theorem h4 : (op4 (F := F)).bufs ⊆ S13 := show ({rf main_arg5, rf main_v4} : Finset (DevRef τ sig)) ⊆ S13 by decide
theorem h6 : (op6 (F := F)).bufs ⊆ S13 := show ({rf main_v5, rf main_v6} : Finset (DevRef τ sig)) ⊆ S13 by decide
theorem hS3 : S3 ⊆ S13 := by decide
theorem hS6 : S6 ⊆ S13 := by decide

variable (LN : (S204800x128.Idx → Elt F .f32) → (S200x128.Idx → Elt F .f32) → (S2x128.Idx → Elt F .f32) → (S1x128.Idx → Elt F .f32) → (S1x128.Idx → Elt F .f32) → S204800x128.Idx → Elt F .f32)
variable (m : (ℓ : Loc nD τ sig) → Buf (Elt F) ℓ)

def V0 (d : Dev nD) : Valuation τ sig (Elt F) := fun b => m (d, b)
def V1 (d : Dev nD) : Valuation τ sig (Elt F) := (op0 (F := F)).result (V0 m d)
def V2 (d : Dev nD) : Valuation τ sig (Elt F) :=
  Function.update (V1 m d) (rf main_v1) (gatherRows (F := F) (V1 m d (rf main_v0)) (V1 m d (rf main_arg1)))
def V3 (d : Dev nD) : Valuation τ sig (Elt F) := (op2 (F := F)).result (V2 m d)
def V4 (d : Dev nD) : Valuation τ sig (Elt F) := (op3 (F := F)).result (V3 m d)
def V5 (d : Dev nD) : Valuation τ sig (Elt F) := (op4 (F := F)).result (V4 m d)
def V6 (d : Dev nD) : Valuation τ sig (Elt F) :=
  Function.update (V5 m d) (rf main_v5) (LN (V5 m d (rf main_v1)) (V5 m d (rf main_v2)) (V5 m d (rf main_arg3)) (V5 m d (rf main_v3)) (V5 m d (rf main_v4)))
def V7 (d : Dev nD) : Valuation τ sig (Elt F) := (op6 (F := F)).result (V6 LN m d)

omit [FloatOps F] in
theorem held_S3 (d : Dev nD) (W : Valuation τ sig (Elt F)) :
    (held (T d) S3 W : sProp 𝕄) = iprop((idsLoc d ↦{fullShare} W (rf main_v0)) ∗ (tabLoc d ↦{fullShare} W (rf main_arg1)) ∗ (gatLoc d ↦{fullShare} W (rf main_v1))) := by
  unfold held S3
  rw [SparseCore.bigSep_insert' (by decide), SparseCore.bigSep_insert' (by decide), bigSep_singleton]

omit [FloatOps F] in
theorem held_S6 (d : Dev nD) (W : Valuation τ sig (Elt F)) :
    (held (T d) S6 W : sProp 𝕄) = iprop(((SparseCore.T d).loc main_v1 ↦{fullShare} W (rf main_v1)) ∗ ((SparseCore.T d).loc main_v2 ↦{fullShare} W (rf main_v2))
      ∗ ((SparseCore.T d).loc main_arg3 ↦{fullShare} W (rf main_arg3)) ∗ ((SparseCore.T d).loc main_v3 ↦{fullShare} W (rf main_v3))
      ∗ ((SparseCore.T d).loc main_v4 ↦{fullShare} W (rf main_v4)) ∗ ((SparseCore.T d).loc main_v5 ↦{fullShare} W (rf main_v5))) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5 ↦{fullShare} W main_v5)
      ∗ ((SparseCore.T d).loc main_v6 ↦{fullShare} W main_v6)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem held_S13 (d : Dev nD) (W : Valuation τ sig (Elt F)) :
    (held (T d) S13 W : sProp 𝕄) = iprop(((SparseCore.T d).loc main_arg0 ↦{fullShare} W (rf main_arg0))
      ∗ ((SparseCore.T d).loc main_arg1 ↦{fullShare} W (rf main_arg1))
      ∗ ((SparseCore.T d).loc main_arg2 ↦{fullShare} W (rf main_arg2))
      ∗ ((SparseCore.T d).loc main_arg3 ↦{fullShare} W (rf main_arg3))
      ∗ ((SparseCore.T d).loc main_arg4 ↦{fullShare} W (rf main_arg4))
      ∗ ((SparseCore.T d).loc main_arg5 ↦{fullShare} W (rf main_arg5))
      ∗ ((SparseCore.T d).loc main_v0 ↦{fullShare} W (rf main_v0))
      ∗ ((SparseCore.T d).loc main_v1 ↦{fullShare} W (rf main_v1))
      ∗ ((SparseCore.T d).loc main_v2 ↦{fullShare} W (rf main_v2))
      ∗ ((SparseCore.T d).loc main_v3 ↦{fullShare} W (rf main_v3))
      ∗ ((SparseCore.T d).loc main_v4 ↦{fullShare} W (rf main_v4))
      ∗ ((SparseCore.T d).loc main_v5 ↦{fullShare} W (rf main_v5))
      ∗ ((SparseCore.T d).loc main_v6 ↦{fullShare} W (rf main_v6))) := by
  unfold held S13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S13 (V0 m d) := by
  rw [unscopedBufs_eq, held_S13]; rfl

/-- After the SparseCore call the three arrays are back, the gathered one at gatherRows. -/
theorem held_V2 (d : Dev nD) :
    (held (T d) S13 (V2 m d) : sProp 𝕄)
      = iprop(((idsLoc d ↦{fullShare} V1 m d (rf main_v0)) ∗ (tabLoc d ↦{fullShare} V1 m d (rf main_arg1))
          ∗ (gatLoc d ↦{fullShare} gatherRows (F := F) (V1 m d (rf main_v0)) (V1 m d (rf main_arg1)))) ∗ held (T d) (S13 \ S3) (V1 m d)) := by
  rw [held_sub_split (T d) hS3 (V2 m d), held_S3,
    held_congr (T d) (S := S13 \ S3) (V := V2 m d) (V' := V1 m d) (fun b hb => Function.update_of_ne (by rintro rfl; revert hb; decide) _ _)]
  unfold V2
  rw [Function.update_of_ne (show rf main_v0 ≠ rf main_v1 by decide), Function.update_of_ne (show rf main_arg1 ≠ rf main_v1 by decide), Function.update_self]

/-- After the region the six arrays are back, the result at LN of the five inputs. -/
theorem held_V6 (d : Dev nD) :
    (held (T d) S13 (V6 LN m d) : sProp 𝕄)
      = iprop((((SparseCore.T d).loc main_v1 ↦{fullShare} V5 m d (rf main_v1)) ∗ ((SparseCore.T d).loc main_v2 ↦{fullShare} V5 m d (rf main_v2))
          ∗ ((SparseCore.T d).loc main_arg3 ↦{fullShare} V5 m d (rf main_arg3)) ∗ ((SparseCore.T d).loc main_v3 ↦{fullShare} V5 m d (rf main_v3))
          ∗ ((SparseCore.T d).loc main_v4 ↦{fullShare} V5 m d (rf main_v4))
          ∗ ((SparseCore.T d).loc main_v5 ↦{fullShare} LN (V5 m d (rf main_v1)) (V5 m d (rf main_v2)) (V5 m d (rf main_arg3)) (V5 m d (rf main_v3)) (V5 m d (rf main_v4))))
        ∗ held (T d) (S13 \ S6) (V5 m d)) := by
  rw [held_sub_split (T d) hS6 (V6 LN m d), held_S6,
    held_congr (T d) (S := S13 \ S6) (V := V6 LN m d) (V' := V5 m d) (fun b hb => Function.update_of_ne (by rintro rfl; revert hb; decide) _ _)]
  unfold V6
  rw [Function.update_of_ne (show rf main_v1 ≠ rf main_v5 by decide), Function.update_of_ne (show rf main_v2 ≠ rf main_v5 by decide),
    Function.update_of_ne (show rf main_arg3 ≠ rf main_v5 by decide), Function.update_of_ne (show rf main_v3 ≠ rf main_v5 by decide),
    Function.update_of_ne (show rf main_v4 ≠ rf main_v5 by decide), Function.update_self]

end Cert.KernelIdeal.Hand

end
-- ==== Proof.Launch5b.lean ====
/-
  @main on a device's TensorCore, step by step: the ids flattened (a host reshape over the thirteen arrays held
  whole); the SparseCore call, handed the flattened ids, the word table and the gathered array whole and handing them
  back with the gathered array at gatherRows; the slice of the position table and the two reshapes of gamma and beta;
  the TensorCore's own region, from the six arrays it names to the same with its result at LN; the last reshape. The
  thirteen arrays end held whole at the valuation V7.
-/
import proofs.«203519_g84241488544277_cont_sun_c4_283_31_alg».proof.Proof.Launch5a

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within held_sub_split held_congr)

variable {F : FTy → Type}

local notation "𝕄" => MT nD τ sig (HIx 1) (Elt F) ℕ UU ℕ

variable [FloatOps F]
variable (LN : (S204800x128.Idx → Elt F .f32) → (S200x128.Idx → Elt F .f32) → (S2x128.Idx → Elt F .f32) → (S1x128.Idx → Elt F .f32) → (S1x128.Idx → Elt F .f32) → S204800x128.Idx → Elt F .f32)
variable (m : (ℓ : Loc nD τ sig) → Buf (Elt F) ℓ) (ρ : Dev nD → PrngReg) (tq : Fin 32 → PosShare TreeShare)
variable (htq : ∀ (d : Dev nD) (f : Buf (Elt F) (tabLoc d)), (tabLoc d ↦{fullShare} f : sProp (MT nD τ sig (HIx 1) (Elt F) ℕ UU ℕ)) = bigSep Finset.univ fun w : Fin 32 => tabLoc d ↦{tq w} f)

/-- The hand-over record at the contents the call finds. -/
abbrev Pm : (K (F := F)).Pay (nD := nD) (Val := Elt F) (Name := ℕ) (U := UU) :=
  P (fun d => V1 m d (rf main_v0)) (fun d => V1 m d (rf main_arg1)) (fun d => V1 m d (rf main_v1)) tq

/-- What @main leaves the claim: the thirteen arrays whole at V7. -/
abbrev FIN (d : Dev nD) : sProp 𝕄 := held (T d) S13 (V7 LN m d)

theorem held_V1_split (d : Dev nD) :
    (held (T d) S13 ((op0 (F := F)).result (V0 m d)) : sProp 𝕄)
      = iprop(((idsLoc d ↦{fullShare} V1 m d (rf main_v0)) ∗ (tabLoc d ↦{fullShare} V1 m d (rf main_arg1)) ∗ (gatLoc d ↦{fullShare} V1 m d (rf main_v1)))
          ∗ held (T d) (S13 \ S3) (V1 m d)) := by
  show (held (T d) S13 (V1 m d) : sProp 𝕄) = _
  rw [held_sub_split (T d) hS3 (V1 m d), held_S3]

theorem held_V5_split (d : Dev nD) :
    (held (T d) S13 ((op4 (F := F)).result (V4 m d)) : sProp 𝕄)
      = iprop((((SparseCore.T d).loc main_v1 ↦{fullShare} V5 m d (rf main_v1)) ∗ ((SparseCore.T d).loc main_v2 ↦{fullShare} V5 m d (rf main_v2))
          ∗ ((SparseCore.T d).loc main_arg3 ↦{fullShare} V5 m d (rf main_arg3)) ∗ ((SparseCore.T d).loc main_v3 ↦{fullShare} V5 m d (rf main_v3))
          ∗ ((SparseCore.T d).loc main_v4 ↦{fullShare} V5 m d (rf main_v4)) ∗ ((SparseCore.T d).loc main_v5 ↦{fullShare} V5 m d (rf main_v5)))
        ∗ held (T d) (S13 \ S6) (V5 m d)) := by
  show (held (T d) S13 (V5 m d) : sProp 𝕄) = _
  rw [held_sub_split (T d) hS6 (V5 m d), held_S6]

include htq in
set_option maxRecDepth 16384 in
theorem hmain (hreg : RegionStmt (F := F) LN) (κ : GSem nD τ sig → ℕ) (d : Dev nD) :
    iprop((K (F := F)).ctx EH (Pm m tq) κ ∗ (K (F := F)).tcSt EH d 0 ∗ (K (F := F)).tcRes m ρ d ∗ regionGhost (F := F) d)
      ⊢ wp frame (wpE ((K (F := F)).defs (D (F := F))) 𝒱 (SparseCore.T d) none) Set.univ (main d)
          fun _ => iprop((K (F := F)).tcSt EH d 1 ∗ FIN LN m d) := by
  unfold SparseCore.Cfg.tcRes
  rw [unscoped_held]
  simp only [main, wp_bind, wp_pure]
  iintro ⟨#Hctx, Hst, ⟨Hb, Hheld, -, -⟩, ⟨Hcg, Htk⟩⟩
  -- %0: the ids flattened
  iapply (wp_hlo_within 𝒱 (SparseCore.T d) none Set.univ (op := op0) (S := S13) h0 (V := V0 m d)) $$ [Hb Hheld]
  · isplitl [Hb]; · iexact Hb
    iexact Hheld
  iintro ⟨Hb, Hheld⟩
  rw [wp_ret]; imodintro
  -- %1: the SparseCore call
  ihave Hh := (Entails.of_eq (held_V1_split (F := F) m d)) $$ Hheld
  icases Hh with ⟨⟨Hi, Ht, Hg⟩, Hrest⟩
  iapply ((K (F := F)).wp_run (D (F := F)) 𝒱 (EH := EH) (P := Pm m tq) κ d 0) $$ [Hst Hi Ht Hg Hb Hrest Hcg Htk]
  isplitr; · iexact Hctx
  isplitl [Hst]; · iexact Hst
  isplitl [Hi Ht Hg]
  · rw [st_eq (F := F) _ _ _ tq htq d]
    isplitl [Hi]; · iexact Hi
    isplitl [Ht]; · iexact Ht
    iexact Hg
  iintro ⟨Hst, Hdn⟩
  ihave Hdn' := (Entails.of_eq (dn_eq (F := F) _ _ (fun d => V1 m d (rf main_v1)) tq htq d)) $$ Hdn
  icases Hdn' with ⟨Hi, Ht, Hg⟩
  ihave Hheld := (Entails.of_eq (held_V2 (F := F) m d).symm) $$ [Hi Ht Hg Hrest]
  · isplitl [Hi Ht Hg]
    · isplitl [Hi]; · iexact Hi
      isplitl [Ht]; · iexact Ht
      iexact Hg
    · iexact Hrest
  -- %2, %3, %4: the slice and the two rows
  iapply (wp_hlo_within 𝒱 (SparseCore.T d) none Set.univ (op := op2) (S := S13) h2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S13) h3 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S13) h4 (V := V4 m d)) $$ [Hb Hheld]
  · isplitl [Hb]; · iexact Hb
    iexact Hheld
  iintro ⟨Hb, Hheld⟩
  rw [wp_ret]; imodintro
  -- %5: the TensorCore's region
  ihave Hh := (Entails.of_eq (held_V5_split (F := F) m d)) $$ Hheld
  icases Hh with ⟨⟨H1, H2, H3, H4, H5, H6⟩, Hrest⟩
  iapply (wp_wand_r frame _ Set.univ)
  isplitl [Hst Hb H1 H2 H3 H4 H5 H6 Hcg Htk]
  · iapply (hreg d (V5 m d (rf main_v1)) (V5 m d (rf main_v2)) (V5 m d (rf main_arg3)) (V5 m d (rf main_v3)) (V5 m d (rf main_v4)) (V5 m d (rf main_v5)))
    isplitl [Hst]; · iexact Hst
    isplitl [Hb]; · iexact Hb
    isplitl [H1]; · iexact H1
    isplitl [H2]; · iexact H2
    isplitl [H3]; · iexact H3
    isplitl [H4]; · iexact H4
    isplitl [H5]; · iexact H5
    isplitl [H6]; · iexact H6
    isplitl [Hcg]; · iexact Hcg
    iexact Htk
  iintro %_ ⟨Hst, Hb, H1, H2, H3, H4, H5, H6⟩
  ihave Hheld := (Entails.of_eq (held_V6 (F := F) LN m d).symm) $$ [H1 H2 H3 H4 H5 H6 Hrest]
  · isplitl [H1 H2 H3 H4 H5 H6]
    · isplitl [H1]; · iexact H1
      isplitl [H2]; · iexact H2
      isplitl [H3]; · iexact H3
      isplitl [H4]; · iexact H4
      isplitl [H5]; · iexact H5
      iexact H6
    · iexact Hrest
  -- %6: the result as [1024, 200, 128]
  iapply (wp_hlo_within 𝒱 (SparseCore.T d) none Set.univ (op := op6) (S := S13) h6 (V := V6 LN m d)) $$ [Hb Hheld]
  · isplitl [Hb]; · iexact Hb
    iexact Hheld
  iintro ⟨Hb, Hheld⟩
  rw [wp_ret]; imodintro; imodintro
  isplitl [Hst]; · iexact Hst
  iexact Hheld

end Cert.KernelIdeal.Hand

end
-- ==== Proof.Launch6.lean ====
/-
  The program's run. The launch theorem for SparseCore programs, applied: the tile's obligation, the identity split,
  the launch element, @main's proof; the final memory is read off the thirteen arrays held whole at V7: the six
  arguments are the launch memory's (no step of @main writes them) and the result is kernOut, the composition of the
  seven steps.
-/
import proofs.«203519_g84241488544277_cont_sun_c4_283_31_alg».proof.Proof.Launch5b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within held_sub_split held_congr)

variable {F : FTy → Type}

local notation "𝕄" => MT nD τ sig (HIx 1) (Elt F) ℕ UU ℕ

variable [FloatOps F]
variable (LN : (S204800x128.Idx → Elt F .f32) → (S200x128.Idx → Elt F .f32) → (S2x128.Idx → Elt F .f32) → (S1x128.Idx → Elt F .f32) → (S1x128.Idx → Elt F .f32) → S204800x128.Idx → Elt F .f32)
variable (m : (ℓ : Loc nD τ sig) → Buf (Elt F) ℓ) (ρ : Dev nD → PrngReg) (tq : Fin 32 → PosShare TreeShare)

/-- The kernel program's result as one function of its six arguments: the seven steps of @main composed. -/
def kernOut (a0 : S1024x200.Idx → BitVec 32) (a1 : S100000x128.Idx → Elt F .f32) (a2 : S512x128.Idx → Elt F .f32) (a3 : S2x128.Idx → Elt F .f32)
    (a4 a5 : S128.Idx → Elt F .f32) : S1024x200x128.Idx → Elt F .f32 :=
  shapeCast S1024x200x128 (LN (gatherRows (F := F) (shapeCast S204800 a0 shapeCasts_S1024x200_S204800) a1) (extractStridedSlice S200x128 ![0, 0] a2 slices_S512x128_S200x128_0_0) a3
    (shapeCast S1x128 a4 shapeCasts_S128_S1x128) (shapeCast S1x128 a5 shapeCasts_S128_S1x128)) shapeCasts_S204800x128_S1024x200x128

/-! ## What V7 holds -/

theorem nw0 {b : DevRef τ sig} (h : b ≠ rf main_v0) (W : Valuation τ sig (Elt F)) : (op0 (F := F)).result W b = W b :=
  (op0 (F := F)).result_of_not_mem W (show b ∉ ({rf main_v0} : Finset (DevRef τ sig)) from Finset.notMem_singleton.mpr h)
theorem nw2 {b : DevRef τ sig} (h : b ≠ rf main_v2) (W : Valuation τ sig (Elt F)) : (op2 (F := F)).result W b = W b :=
  (op2 (F := F)).result_of_not_mem W (show b ∉ ({rf main_v2} : Finset (DevRef τ sig)) from Finset.notMem_singleton.mpr h)
theorem nw3 {b : DevRef τ sig} (h : b ≠ rf main_v3) (W : Valuation τ sig (Elt F)) : (op3 (F := F)).result W b = W b :=
  (op3 (F := F)).result_of_not_mem W (show b ∉ ({rf main_v3} : Finset (DevRef τ sig)) from Finset.notMem_singleton.mpr h)
theorem nw4 {b : DevRef τ sig} (h : b ≠ rf main_v4) (W : Valuation τ sig (Elt F)) : (op4 (F := F)).result W b = W b :=
  (op4 (F := F)).result_of_not_mem W (show b ∉ ({rf main_v4} : Finset (DevRef τ sig)) from Finset.notMem_singleton.mpr h)
theorem nw6 {b : DevRef τ sig} (h : b ≠ rf main_v6) (W : Valuation τ sig (Elt F)) : (op6 (F := F)).result W b = W b :=
  (op6 (F := F)).result_of_not_mem W (show b ∉ ({rf main_v6} : Finset (DevRef τ sig)) from Finset.notMem_singleton.mpr h)

/-- An array no step writes holds the launch memory's contents to the end. -/
theorem V7_kept (d : Dev nD) {b : DevRef τ sig} (h0 : b ≠ rf main_v0) (h1 : b ≠ rf main_v1) (h2 : b ≠ rf main_v2) (h3 : b ≠ rf main_v3)
    (h4 : b ≠ rf main_v4) (h5 : b ≠ rf main_v5) (h6 : b ≠ rf main_v6) : V7 LN m d b = m (d, b) := by
  unfold V7 V6 V5 V4 V3 V2 V1 V0
  rw [nw6 h6, Function.update_of_ne h5, nw4 h4, nw3 h3, nw2 h2, Function.update_of_ne h1, nw0 h0]

theorem V1_v0 (d : Dev nD) : V1 m d (rf main_v0) = shapeCast S204800 (m ((SparseCore.T d).loc main_arg0)) shapeCasts_S1024x200_S204800 := by
  unfold V1 V0; exact (StableHlo.reshape_result main_arg0 main_v0 rfl shapeCasts_S1024x200_S204800 _ _ _).trans rfl
theorem V1_arg1 (d : Dev nD) : V1 m d (rf main_arg1) = m ((SparseCore.T d).loc main_arg1) := by
  unfold V1 V0; exact nw0 (by decide) _

theorem V5_v1 (d : Dev nD) : V5 m d (rf main_v1) = gatherRows (F := F) (V1 m d (rf main_v0)) (V1 m d (rf main_arg1)) := by
  unfold V5 V4 V3 V2
  rw [nw4 (by decide), nw3 (by decide), nw2 (by decide), Function.update_self]
theorem V5_v2 (d : Dev nD) : V5 m d (rf main_v2) = extractStridedSlice S200x128 ![0, 0] (m ((SparseCore.T d).loc main_arg2)) slices_S512x128_S200x128_0_0 := by
  unfold V5 V4 V3
  rw [nw4 (by decide), nw3 (by decide)]
  refine (StableHlo.unary_result main_arg2 main_v2 _ _ _ _).trans ?_
  unfold V2 V1 V0
  rw [Function.update_of_ne (by decide), nw0 (by decide)]
theorem V5_arg3 (d : Dev nD) : V5 m d (rf main_arg3) = m ((SparseCore.T d).loc main_arg3) := by
  unfold V5 V4 V3 V2 V1 V0
  rw [nw4 (by decide), nw3 (by decide), nw2 (by decide), Function.update_of_ne (by decide), nw0 (by decide)]
theorem V5_v3 (d : Dev nD) : V5 m d (rf main_v3) = shapeCast S1x128 (m ((SparseCore.T d).loc main_arg4)) shapeCasts_S128_S1x128 := by
  unfold V5 V4
  rw [nw4 (by decide)]
  refine (StableHlo.reshape_result main_arg4 main_v3 rfl shapeCasts_S128_S1x128 _ _ _).trans ?_
  unfold V3 V2 V1 V0
  rw [nw2 (by decide), Function.update_of_ne (by decide), nw0 (by decide)]
  rfl
theorem V5_v4 (d : Dev nD) : V5 m d (rf main_v4) = shapeCast S1x128 (m ((SparseCore.T d).loc main_arg5)) shapeCasts_S128_S1x128 := by
  unfold V5
  refine (StableHlo.reshape_result main_arg5 main_v4 rfl shapeCasts_S128_S1x128 _ _ _).trans ?_
  unfold V4 V3 V2 V1 V0
  rw [nw3 (by decide), nw2 (by decide), Function.update_of_ne (by decide), nw0 (by decide)]
  rfl

/-- The result array ends at kernOut of the launch memory's arguments. -/
theorem V7_v6 (d : Dev nD) :
    V7 LN m d (rf main_v6) = kernOut LN (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5)) := by
  unfold V7
  refine (StableHlo.reshape_result main_v5 main_v6 rfl shapeCasts_S204800x128_S1024x200x128 _ _ _).trans ?_
  unfold V6
  rw [Function.update_self, V5_v1, V5_v2, V5_arg3, V5_v3, V5_v4, V1_v0, V1_arg1]
  rfl

/-! ## The final memory -/

def fq (d : Dev nD) (s' : Phys nD τ sig (Elt F)) : Prop :=
  s'.mem.mem ((SparseCore.T d).loc main_v6) = V7 LN m d (rf main_v6)
  ∧ s'.mem.mem ((SparseCore.T d).loc main_arg0) = V7 LN m d (rf main_arg0)
  ∧ s'.mem.mem ((SparseCore.T d).loc main_arg1) = V7 LN m d (rf main_arg1)
  ∧ s'.mem.mem ((SparseCore.T d).loc main_arg2) = V7 LN m d (rf main_arg2)
  ∧ s'.mem.mem ((SparseCore.T d).loc main_arg3) = V7 LN m d (rf main_arg3)
  ∧ s'.mem.mem ((SparseCore.T d).loc main_arg4) = V7 LN m d (rf main_arg4)
  ∧ s'.mem.mem ((SparseCore.T d).loc main_arg5) = V7 LN m d (rf main_arg5)

set_option maxRecDepth 16384 in
theorem hfin (d : Dev nD) (s' : Phys nD τ sig (Elt F)) : iprop(FIN LN m d ∗ SI s') ⊢ (⌜fq LN m d s'⌝ : sProp 𝕄) := by
  unfold FIN; rw [held_S13]
  iintro ⟨⟨A0, A1, A2, A3, A4, A5, -, -, -, -, -, -, A12⟩, HSI⟩
  ihave H := (persistent_entails_right (SI_pointsTo_agree (st := s') (ℓ := (SparseCore.T d).loc main_v6) (I := Finset.univ) (q := fullShare) (f := V7 LN m d (rf main_v6)))) $$ [HSI A12]
  · isplitl [HSI] <;> iassumption
  icases H with ⟨%h6, HSI, -⟩
  ihave H := (persistent_entails_right (SI_pointsTo_agree (st := s') (ℓ := (SparseCore.T d).loc main_arg0) (I := Finset.univ) (q := fullShare) (f := V7 LN m d (rf main_arg0)))) $$ [HSI A0]
  · isplitl [HSI] <;> iassumption
  icases H with ⟨%h0, HSI, -⟩
  ihave H := (persistent_entails_right (SI_pointsTo_agree (st := s') (ℓ := (SparseCore.T d).loc main_arg1) (I := Finset.univ) (q := fullShare) (f := V7 LN m d (rf main_arg1)))) $$ [HSI A1]
  · isplitl [HSI] <;> iassumption
  icases H with ⟨%h1, HSI, -⟩
  ihave H := (persistent_entails_right (SI_pointsTo_agree (st := s') (ℓ := (SparseCore.T d).loc main_arg2) (I := Finset.univ) (q := fullShare) (f := V7 LN m d (rf main_arg2)))) $$ [HSI A2]
  · isplitl [HSI] <;> iassumption
  icases H with ⟨%h2, HSI, -⟩
  ihave H := (persistent_entails_right (SI_pointsTo_agree (st := s') (ℓ := (SparseCore.T d).loc main_arg3) (I := Finset.univ) (q := fullShare) (f := V7 LN m d (rf main_arg3)))) $$ [HSI A3]
  · isplitl [HSI] <;> iassumption
  icases H with ⟨%h3, HSI, -⟩
  ihave H := (persistent_entails_right (SI_pointsTo_agree (st := s') (ℓ := (SparseCore.T d).loc main_arg4) (I := Finset.univ) (q := fullShare) (f := V7 LN m d (rf main_arg4)))) $$ [HSI A4]
  · isplitl [HSI] <;> iassumption
  icases H with ⟨%h4, HSI, -⟩
  ihave H := (SI_pointsTo_agree (st := s') (ℓ := (SparseCore.T d).loc main_arg5) (I := Finset.univ) (q := fullShare) (f := V7 LN m d (rf main_arg5))) $$ [HSI A5]
  · isplitl [HSI] <;> iassumption
  icases H with %h5
  ipureintro
  exact ⟨funext fun i => h6 i (Finset.mem_univ i), funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩

/-! ## The run -/

/-- Every device's result array at kernOut of its arguments, and the arguments as launched. -/
def QC : PUnit × MemSt nD τ sig (Elt F) → Prop := fun r => ∀ c : Dev nD,
  r.2.mem ((SparseCore.T c).loc main_v6) = kernOut LN (m ((SparseCore.T c).loc main_arg0)) (m ((SparseCore.T c).loc main_arg1)) (m ((SparseCore.T c).loc main_arg2))
      (m ((SparseCore.T c).loc main_arg3)) (m ((SparseCore.T c).loc main_arg4)) (m ((SparseCore.T c).loc main_arg5))
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)

theorem run_main [∀ e, Nonempty (Elt F e)]
    (htq : ∀ (d : Dev nD) (f : Buf (Elt F) (tabLoc d)), (tabLoc d ↦{fullShare} f : sProp (MT nD τ sig (HIx 1) (Elt F) ℕ UU ℕ)) = bigSep Finset.univ fun w : Fin 32 => tabLoc d ↦{tq w} f)
    (hbody : TileBodyStmt (F := F)) (hreg : RegionStmt (F := F) LN)
    (hids : ∀ (d : Dev nD) j, (m ((SparseCore.T d).loc main_arg0) j).toNat < 100000) :
    θ_run (Cert.KernelIdeal.defs (F := F)) (Cert.KernelIdeal.threads (F := F)) ⟨m, fun _ => 0, ρ⟩ (QC LN m) :=
  SparseCore.Cfg.θ_run_sc (K := K (F := F)) (D := D (F := F)) (𝒱 := 𝒱) (EH := EH) (P := Pm m tq) facts v₀
    (fun q hq => match q with | 0 => nomatch hq)
    (fun q _ => match q with | 0 => tileObl _ _ _ tq facts (fun d j => by rw [V1_v0]; exact hids d _) hbody)
    (fun q _ => match q with | 0 => SparseCore.Cfg.VecSplit.of_plain (vecSplit _ _ _ tq))
    m ρ main (fun d => regionGhost (F := F) d) (FIN LN m) (u₀ (F := F)) (hu₀ _ _ _ tq) (hmain LN m ρ tq htq hreg) (fq LN m) (hfin LN m) (QC LN m)
    (fun s' h c => by
      obtain ⟨e6, e0, e1, e2, e3, e4, e5⟩ := h c
      refine ⟨e6.trans (V7_v6 LN m c), e0.trans (V7_kept LN m c (by decide) (by decide) (by decide) (by decide) (by decide) (by decide) (by decide)),
        e1.trans (V7_kept LN m c (by decide) (by decide) (by decide) (by decide) (by decide) (by decide) (by decide)),
        e2.trans (V7_kept LN m c (by decide) (by decide) (by decide) (by decide) (by decide) (by decide) (by decide)),
        e3.trans (V7_kept LN m c (by decide) (by decide) (by decide) (by decide) (by decide) (by decide) (by decide)),
        e4.trans (V7_kept LN m c (by decide) (by decide) (by decide) (by decide) (by decide) (by decide) (by decide)),
        e5.trans (V7_kept LN m c (by decide) (by decide) (by decide) (by decide) (by decide) (by decide) (by decide))⟩)

end Cert.KernelIdeal.Hand

end
-- ==== Proof.Transport.lean ====
/-
  The program as printed for reading at the exact instance and the program as printed for reading at the ideal
  instance are one text under two names: the same signature, mesh, shapes and references, the same kernel functions,
  the same definitions table and threads, each a definition with the same body. The side conditions each takes are
  propositions, so any two proofs of them are equal. Hence a run of the second text's threads at the bit-exact
  instance, from any memory satisfying the precondition and ending with the argument arrays unchanged, IS the frame
  claim of the first. The two tables of definitions agree row by row — at each processor, label and argument the two
  rows are the same kernel function of the same arguments — and so are equal as functions; everything else in the two
  statements is equal by unfolding.
-/
import proofs.«203519_g84241488544277_cont_sun_c4_283_31_alg».proof.Defs
import proofs.«203519_g84241488544277_cont_sun_c4_283_31_alg».proof.Proof.Gen.Kernel
import proofs.«203519_g84241488544277_cont_sun_c4_283_31_alg».proof.Proof.Gen.KernelIdeal
import proofs.«203519_g84241488544277_cont_sun_c4_283_31_alg».proof.Proof.Gen.Pre_input_domain

noncomputable section

namespace Cert.Hand

open Idealize.ShloMosaic Idealize.SL.Sem

section Tables

variable {F : FTy → Type} [FloatOps F] [Cert.Kernel.Facts] [Cert.KernelIdeal.Facts]

/-- The kernels' bodies agree at every processor, label and argument. -/
theorem defs₀_eq : Cert.Kernel.defs₀ (F := F) = Cert.KernelIdeal.defs₀ (F := F) := by
  funext p ℓ a
  cases p <;> (match ℓ, a with | ⟨0, _⟩, a => rfl | ⟨1, _⟩, a => rfl)

/-- The two tables of definitions are equal. -/
theorem defs_eq : Cert.Kernel.defs (F := F) = Cert.KernelIdeal.defs (F := F) :=
  congrArg (fun d => Cert.KernelIdeal.sc.defs (Pipeline.defs Cert.KernelIdeal.pcfgs d)) defs₀_eq

/-- The two families of threads are equal, by unfolding. -/
theorem threads_eq : Cert.Kernel.threads (F := F) = Cert.KernelIdeal.threads (F := F) := rfl

end Tables

/-- The frame claim of the program read at the exact instance, from a run stated over the other printing's names. -/
theorem frame_Kernel_of [Cert.Kernel.Facts] [Cert.KernelIdeal.Facts] [Cert.Pre_input_domain.Facts]
    (run : ∀ (m : (ℓ : Loc Cert.KernelIdeal.nD Cert.KernelIdeal.τ Cert.KernelIdeal.sig) → Buf (Elt Bits) ℓ) (g : Dev Cert.KernelIdeal.nD → PrngReg),
      (∀ c : Dev Cert.KernelIdeal.nD, Cert.Pre_input_domain.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) →
      θ_run (Cert.KernelIdeal.defs (F := Bits)) (Cert.KernelIdeal.threads (F := Bits)) ⟨m, fun _ => 0, g⟩ (fun r => ∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))) :
    Cert.frame_Kernel := by
  intro m g h
  have hrun := run m g h
  show θ_run (Cert.Kernel.defs (F := Bits)) (Cert.Kernel.threads (F := Bits)) _ _
  rw [defs_eq]
  exact hrun

end Cert.Hand

end
-- ==== Proof.PreFacts.lean ====
/-
  The precondition, read back. The printed predicate is a conjunction of six "all" reductions into one bit: five say
  |x| < +∞ at every entry of a float argument, the sixth says 0 ≤ id ≤ 99999 (both compared signed) at every token id.
  If the bit is 1, every conjunct is 1, and a conjunct that is 1 holds at every index. From the sixth, an id read
  unsigned is below 100000: a 32-bit word that is nonnegative as a signed number reads the same unsigned. From the
  first five, at the instance where a float is an extended real, every entry is a real: |x| = max x (−x) is below +∞
  exactly when x is neither infinity.
-/
import proofs.«203519_g84241488544277_cont_sun_c4_283_31_alg».proof.Pre_input_domain
import proofs.«203519_g84241488544277_cont_sun_c4_283_31_alg».proof.Proof.Gen.Pre_input_domain
import Idealize.ShloMosaic.Lib.ReduceAll
import Idealize.ShloMosaic.Lib.ValueIdx
import Idealize.ShloMosaic.PureOps.Ideal

noncomputable section

namespace Cert.Hand.Pre

open Idealize.ShloMosaic Cert.Pre_input_domain

variable [Cert.Pre_input_domain.Facts]

/-- The scalar shape has one index. -/
instance : Subsingleton S_.Idx := ⟨fun a b => funext fun d => d.elim0⟩

section Generic

variable {F : FTy → Type} [FloatOps F]

/-- "|x| < +∞" as the predicate spells it at one entry. -/
abbrev absLtInf (x : F .f32) : BitVec 1 :=
  FloatOps.cmpf .olt (FloatOps.hostAbsf x) (FloatOps.ofBits .f32 0x7F800000#32)

/-- "0 ≤ w ≤ 99999", both signed, as the predicate spells it at one token id. -/
abbrev inRange (w : BitVec 32) : BitVec 1 :=
  IntOp.andi (IntOp.cmpi .sge w 0#32) (IntOp.cmpi .sle w 99999#32)

/-- The predicate's bit is 1 only if each of its six conjuncts is 1 at every index. -/
theorem conjuncts (a0 : IVec S1024x200 32) (a1 : FVec F S100000x128 .f32) (a2 : FVec F S512x128 .f32)
    (a3 : FVec F S2x128 .f32) (a4 : FVec F S128 .f32) (a5 : FVec F S128 .f32)
    (h : Cert.Pre_input_domain.fn (F := F) a0 a1 a2 a3 a4 a5 = fun _ => 1#1) :
    (∀ i, absLtInf (a1 i) = 1#1) ∧ (∀ i, absLtInf (a2 i) = 1#1) ∧ (∀ i, absLtInf (a3 i) = 1#1) ∧
      (∀ i, absLtInf (a4 i) = 1#1) ∧ (∀ i, absLtInf (a5 i) = 1#1) ∧ (∀ j, inRange (a0 j) = 1#1) := by
  have h0 := congrFun h ValueIdx.ix0
  dsimp only [Cert.Pre_input_domain.fn, Cert.Pre_input_domain.fn_part1] at h0
  simp only [Idealize.ShloMosaic.andi, IntOp.andi_eq_one] at h0
  obtain ⟨⟨⟨⟨⟨h1, h2⟩, h3⟩, h4⟩, h5⟩, h6⟩ := h0
  exact ⟨fun i => Host.reduce_andi_all _ _ _ _ _ h1 i, fun i => Host.reduce_andi_all _ _ _ _ _ h2 i,
    fun i => Host.reduce_andi_all _ _ _ _ _ h3 i, fun i => Host.reduce_andi_all _ _ _ _ _ h4 i,
    fun i => Host.reduce_andi_all _ _ _ _ _ h5 i, fun j => Host.reduce_andi_all _ _ _ _ _ h6 j⟩

/-- A word between 0 and 99999 as a signed number is below 100000 as an unsigned one. -/
theorem toNat_lt_of_inRange (w : BitVec 32) (h : inRange w = 1#1) : w.toNat < 100000 := by
  rw [inRange, IntOp.andi_eq_one, IntOp.cmpi_sge, IntOp.cmpi_sle, show (0#32 : BitVec 32).toInt = 0 from by decide,
    show (99999#32 : BitVec 32).toInt = 99999 from by decide, BitVec.toInt_eq_toNat_cond] at h
  have := w.isLt
  omega

/-- Under the precondition every token id, read unsigned, is below 100000. -/
theorem ids_lt (a0 : IVec S1024x200 32) (a1 : FVec F S100000x128 .f32) (a2 : FVec F S512x128 .f32)
    (a3 : FVec F S2x128 .f32) (a4 : FVec F S128 .f32) (a5 : FVec F S128 .f32)
    (h : Cert.Pre_input_domain.fn (F := F) a0 a1 a2 a3 a4 a5 = fun _ => 1#1) : ∀ j, (a0 j).toNat < 100000 :=
  fun j => toNat_lt_of_inRange _ ((conjuncts a0 a1 a2 a3 a4 a5 h).2.2.2.2.2 j)

end Generic

/-- The word the predicate compares |x| with denotes +∞. -/
theorem ofBits_inf : Ideal.ofBits .f32 0x7F800000#32 = ⊤ := by
  simp [Ideal.ofBits, Ideal.ieee]

/-- An extended real whose absolute value is below +∞ is a real. -/
theorem real_of_absLtInf (x : Ideal .f32) (h : absLtInf (F := Ideal) x = 1#1) : ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- Under the precondition, at the instance where a float is an extended real, every entry of every float argument
    is a real. -/
theorem finite_ideal (a0 : IVec S1024x200 32) (a1 : FVec Ideal S100000x128 .f32) (a2 : FVec Ideal S512x128 .f32)
    (a3 : FVec Ideal S2x128 .f32) (a4 : FVec Ideal S128 .f32) (a5 : FVec Ideal S128 .f32)
    (h : Cert.Pre_input_domain.fn (F := Ideal) a0 a1 a2 a3 a4 a5 = fun _ => 1#1) :
    (∀ i, ∃ r : ℝ, a1 i = (r : EReal)) ∧ (∀ i, ∃ r : ℝ, a2 i = (r : EReal)) ∧ (∀ i, ∃ r : ℝ, a3 i = (r : EReal)) ∧
      (∀ i, ∃ r : ℝ, a4 i = (r : EReal)) ∧ (∀ i, ∃ r : ℝ, a5 i = (r : EReal)) := by
  obtain ⟨h1, h2, h3, h4, h5, -⟩ := conjuncts a0 a1 a2 a3 a4 a5 h
  exact ⟨fun i => real_of_absLtInf _ (h1 i), fun i => real_of_absLtInf _ (h2 i), fun i => real_of_absLtInf _ (h3 i),
    fun i => real_of_absLtInf _ (h4 i), fun i => real_of_absLtInf _ (h5 i)⟩

end Cert.Hand.Pre

end
-- ==== Proof.RefRunA.lean ====
/-
  The reference program as one straight line of host operations, and its run.

  The reference's entry function calls four outlined functions (three table look-ups, each calling a select, and a
  variance, calling a select): a call executes the callee's body on the operands, so the entry function is the single
  line of its own operations with each callee's operations in the call's place, over that call's buffers. A straight
  line of host operations runs to its end from any memory, and each buffer then holds the fold of the operations'
  results over the contents at launch.
-/
import proofs.«203519_g84241488544277_cont_sun_c4_283_31_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the calls unfolded: the position index and the zero index (four), the
    look-up in the word table (twenty-three: the wrap of a negative index, the in-range mask, the gather, the select
    against the fill), the same in the position table and in the type table, the two sums, the mean (seven), the
    variance (twenty-three), and the normalisation with scale and shift (fourteen). -/
abbrev ops : List (HloOp τ sig (Elt F)) :=
  [
    StableHlo.nullary main_v0 (iotaInDim S200 32 0),
    StableHlo.unary main_v0 main_v1 (broadcastInDim S1x200 ![1] bcast_S200_S1x200_1 : (⟨S200, .i32⟩ : BufTy).Contents (Elt F) → (⟨S1x200, .i32⟩ : BufTy).Contents (Elt F)),
    StableHlo.nullary main_c (constantI S_ 32 0#32),
    StableHlo.unary main_c main_v2 (broadcastInDim S1024x200 ![] bcast_S_S1024x200 : (⟨S_, .i32⟩ : BufTy).Contents (Elt F) → (⟨S1024x200, .i32⟩ : BufTy).Contents (Elt F)),
    StableHlo.TRef.nullary main_call0.c (constantI S_ 32 0#32),
    StableHlo.TRef.unary main_call0.c main_call0.v0 (broadcastInDim S1024x200 ![] bcast_S_S1024x200),
    StableHlo.TRef.binary (.of main_arg0 : TRef sig ⟨S1024x200, .i32⟩) main_call0.v0 main_call0.v1 (cmpi .slt),
    StableHlo.TRef.nullary main_call0.c_0 (constantI S_ 32 100000#32),
    StableHlo.TRef.unary main_call0.c_0 main_call0.v2 (broadcastInDim S1024x200 ![] bcast_S_S1024x200),
    StableHlo.TRef.binary (.of main_arg0 : TRef sig ⟨S1024x200, .i32⟩) main_call0.v2 main_call0.v3 addi,
    StableHlo.TRef.ternary main_call0.v1 main_call0.v3 (.of main_arg0 : TRef sig ⟨S1024x200, .i32⟩) main_call0.call0.v0 select,
    StableHlo.TRef.unary main_call0.call0.v0 main_call0.v5 (broadcastInDim S1024x200x1 ![0, 1] bcast_S1024x200_S1024x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S1024x200x1 ![] bcast_S_S1024x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x200x1 ![0, 1, 2] bcast_S1x1x1_S1024x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x200x1_S1024x200_d2 h_S_),
    StableHlo.TRef.binary (.of main_arg1 : TRef sig ⟨S100000x128, .f32⟩) main_call0.v5 main_call0.v13 (fun x i => Host.gather gather_S100000x128_S1024x200x1_S1024x200x128_2_0_n_n_0_2_1128 x i),
    StableHlo.TRef.unary main_call0.v12 main_call0.v14 (broadcastInDim S1024x200x128 ![0, 1] bcast_S1024x200_S1024x200x128_0_1),
    StableHlo.TRef.nullary main_call0.cst (constant S_ .f32 0x7FC00000#32),
    StableHlo.TRef.unary main_call0.cst main_call0.v15 (broadcastInDim S1024x200x128 ![] bcast_S_S1024x200x128),
    StableHlo.TRef.ternary main_call0.v14 main_call0.v13 main_call0.v15 main_call0.v16 select,
    StableHlo.TRef.nullary main_call1.c (constantI S_ 32 0#32),
    StableHlo.TRef.unary main_call1.c main_call1.v0 (broadcastInDim S1x200 ![] bcast_S_S1x200),
    StableHlo.TRef.binary (.of main_v1 : TRef sig ⟨S1x200, .i32⟩) main_call1.v0 main_call1.v1 (cmpi .slt),
    StableHlo.TRef.nullary main_call1.c_0 (constantI S_ 32 512#32),
    StableHlo.TRef.unary main_call1.c_0 main_call1.v2 (broadcastInDim S1x200 ![] bcast_S_S1x200),
    StableHlo.TRef.binary (.of main_v1 : TRef sig ⟨S1x200, .i32⟩) main_call1.v2 main_call1.v3 addi,
    StableHlo.TRef.ternary main_call1.v1 main_call1.v3 (.of main_v1 : TRef sig ⟨S1x200, .i32⟩) main_call1.call0.v0 select,
    StableHlo.TRef.unary main_call1.call0.v0 main_call1.v5 (broadcastInDim S1x200x1 ![0, 1] bcast_S1x200_S1x200x1_0_1),
    StableHlo.TRef.nullary main_call1.c_1 (constantI S1 32 511#32),
    StableHlo.TRef.nullary main_call1.c_2 (constantI S_ 32 0#32),
    StableHlo.TRef.unary main_call1.c_2 main_call1.v6 (broadcastInDim S1x200x1 ![] bcast_S_S1x200x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1x200x1 ![0, 1, 2] bcast_S1x1x1_S1x200x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1x200x1_S1x200_d2 h_S_),
    StableHlo.TRef.binary (.of main_arg2 : TRef sig ⟨S512x128, .f32⟩) main_call1.v5 main_call1.v13 (fun x i => Host.gather gather_S512x128_S1x200x1_S1x200x128_2_0_n_n_0_2_1128 x i),
    StableHlo.TRef.unary main_call1.v12 main_call1.v14 (broadcastInDim S1x200x128 ![0, 1] bcast_S1x200_S1x200x128_0_1),
    StableHlo.TRef.nullary main_call1.cst (constant S_ .f32 0x7FC00000#32),
    StableHlo.TRef.unary main_call1.cst main_call1.v15 (broadcastInDim S1x200x128 ![] bcast_S_S1x200x128),
    StableHlo.TRef.ternary main_call1.v14 main_call1.v13 main_call1.v15 main_call1.v16 select,
    StableHlo.TRef.nullary main_call2.c (constantI S_ 32 0#32),
    StableHlo.TRef.unary main_call2.c main_call2.v0 (broadcastInDim S1024x200 ![] bcast_S_S1024x200),
    StableHlo.TRef.binary (.of main_v2 : TRef sig ⟨S1024x200, .i32⟩) main_call2.v0 main_call2.v1 (cmpi .slt),
    StableHlo.TRef.nullary main_call2.c_0 (constantI S_ 32 2#32),
    StableHlo.TRef.unary main_call2.c_0 main_call2.v2 (broadcastInDim S1024x200 ![] bcast_S_S1024x200),
    StableHlo.TRef.binary (.of main_v2 : TRef sig ⟨S1024x200, .i32⟩) main_call2.v2 main_call2.v3 addi,
    StableHlo.TRef.ternary main_call2.v1 main_call2.v3 (.of main_v2 : TRef sig ⟨S1024x200, .i32⟩) main_call2.call0.v0 select,
    StableHlo.TRef.unary main_call2.call0.v0 main_call2.v5 (broadcastInDim S1024x200x1 ![0, 1] bcast_S1024x200_S1024x200x1_0_1),
    StableHlo.TRef.nullary main_call2.c_1 (constantI S1 32 1#32),
    StableHlo.TRef.nullary main_call2.c_2 (constantI S_ 32 0#32),
    StableHlo.TRef.unary main_call2.c_2 main_call2.v6 (broadcastInDim S1024x200x1 ![] bcast_S_S1024x200x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x200x1 ![0, 1, 2] bcast_S1x1x1_S1024x200x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x200x1_S1024x200_d2 h_S_),
    StableHlo.TRef.binary (.of main_arg3 : TRef sig ⟨S2x128, .f32⟩) main_call2.v5 main_call2.v13 (fun x i => Host.gather gather_S2x128_S1024x200x1_S1024x200x128_2_0_n_n_0_2_1128 x i),
    StableHlo.TRef.unary main_call2.v12 main_call2.v14 (broadcastInDim S1024x200x128 ![0, 1] bcast_S1024x200_S1024x200x128_0_1),
    StableHlo.TRef.nullary main_call2.cst (constant S_ .f32 0x7FC00000#32),
    StableHlo.TRef.unary main_call2.cst main_call2.v15 (broadcastInDim S1024x200x128 ![] bcast_S_S1024x200x128),
    StableHlo.TRef.ternary main_call2.v14 main_call2.v13 main_call2.v15 main_call2.v16 select,
    StableHlo.unary main_v4 main_v6 (broadcastInDim S1024x200x128 ![0, 1, 2] bcast_S1x200x128_S1024x200x128_0_1_2 : (⟨S1x200x128, .f32⟩ : BufTy).Contents (Elt F) → (⟨S1024x200x128, .f32⟩ : BufTy).Contents (Elt F)),
    StableHlo.binary main_v3 main_v6 main_v7 (addf : (⟨S1024x200x128, .f32⟩ : BufTy).Contents (Elt F) → (⟨S1024x200x128, .f32⟩ : BufTy).Contents (Elt F) → (⟨S1024x200x128, .f32⟩ : BufTy).Contents (Elt F)),
    StableHlo.binary main_v7 main_v5 main_v8 (addf : (⟨S1024x200x128, .f32⟩ : BufTy).Contents (Elt F) → (⟨S1024x200x128, .f32⟩ : BufTy).Contents (Elt F) → (⟨S1024x200x128, .f32⟩ : BufTy).Contents (Elt F)),
    StableHlo.nullary main_cst (constant S_ .f32 0x00000000#32),
    StableHlo.binary main_v8 main_cst main_v9 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    StableHlo.unary main_v9 main_v10 (broadcastInDim S1024x200x1 ![0, 1] bcast_S1024x200_S1024x200x1_0_1 : (⟨S1024x200, .f32⟩ : BufTy).Contents (Elt F) → (⟨S1024x200x1, .f32⟩ : BufTy).Contents (Elt F)),
    StableHlo.nullary main_cst_0 (constant S_ .f32 0x43000000#32),
    StableHlo.unary main_cst_0 main_v11 (broadcastInDim S1024x200x1 ![] bcast_S_S1024x200x1 : (⟨S_, .f32⟩ : BufTy).Contents (Elt F) → (⟨S1024x200x1, .f32⟩ : BufTy).Contents (Elt F)),
    StableHlo.binary main_v10 main_v11 main_v12 (Host.divf : (⟨S1024x200x1, .f32⟩ : BufTy).Contents (Elt F) → (⟨S1024x200x1, .f32⟩ : BufTy).Contents (Elt F) → (⟨S1024x200x1, .f32⟩ : BufTy).Contents (Elt F)),
    StableHlo.nullary main_c_1 (constantI S_ 32 0#32),
    StableHlo.TRef.nullary main_call3.cst (constant S_ .f32 0x00000000#32),
    StableHlo.TRef.binary (.of main_v8 : TRef sig ⟨S1024x200x128, .f32⟩) main_call3.cst main_call3.v0 (fun x v => Host.reduceAdd x v reducesTo_S1024x200x128_S1024x200_d2 h_S_),
    StableHlo.TRef.unary main_call3.v0 main_call3.v1 (broadcastInDim S1024x200x1 ![0, 1] bcast_S1024x200_S1024x200x1_0_1),
    StableHlo.TRef.nullary main_call3.cst_0 (constant S_ .f32 0x43000000#32),
    StableHlo.TRef.unary main_call3.cst_0 main_call3.v2 (broadcastInDim S1024x200x1 ![] bcast_S_S1024x200x1),
    StableHlo.TRef.binary main_call3.v1 main_call3.v2 main_call3.v3 Host.divf,
    StableHlo.TRef.unary main_call3.v3 main_call3.v4 (broadcastInDim S1024x200x128 ![0, 1, 2] bcast_S1024x200x1_S1024x200x128_0_1_2),
    StableHlo.TRef.binary (.of main_v8 : TRef sig ⟨S1024x200x128, .f32⟩) main_call3.v4 main_call3.v5 subf,
    StableHlo.TRef.binary main_call3.v5 main_call3.v5 main_call3.v6 mulf,
    StableHlo.TRef.unary (.of main_c_1 : TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S1024x200x128_S1024x200_d2 h_S_),
    StableHlo.TRef.unary main_call3.v9 main_call3.v10 (broadcastInDim S1024x200x1 ![0, 1] bcast_S1024x200_S1024x200x1_0_1),
    StableHlo.TRef.unary main_call3.v8 main_call3.v11 (broadcastInDim S1024x200x1 ![] bcast_S_S1024x200x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1024x200x1 ![] bcast_S_S1024x200x1),
    StableHlo.TRef.ternary main_call3.v13 main_call3.v12 main_call3.call0.v1 main_call3.call0.v2 (fun p a b => select (broadcastInDim S1024x200x1 ![] bcast_S_S1024x200x1 p) a b),
    StableHlo.unary main_v12 main_v14 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v8 main_v14 main_v15 (subf : (⟨S1024x200x128, .f32⟩ : BufTy).Contents (Elt F) → (⟨S1024x200x128, .f32⟩ : BufTy).Contents (Elt F) → (⟨S1024x200x128, .f32⟩ : BufTy).Contents (Elt F)),
    StableHlo.nullary main_cst_2 (constant S_ .f32 0x2B8CBCCC#32),
    StableHlo.unary main_cst_2 main_v16 (broadcastInDim S1024x200x1 ![] bcast_S_S1024x200x1 : (⟨S_, .f32⟩ : BufTy).Contents (Elt F) → (⟨S1024x200x1, .f32⟩ : BufTy).Contents (Elt F)),
    StableHlo.binary main_v13 main_v16 main_v17 (addf : (⟨S1024x200x1, .f32⟩ : BufTy).Contents (Elt F) → (⟨S1024x200x1, .f32⟩ : BufTy).Contents (Elt F) → (⟨S1024x200x1, .f32⟩ : BufTy).Contents (Elt F)),
    StableHlo.unary main_v17 main_v18 (Host.sqrt : (⟨S1024x200x1, .f32⟩ : BufTy).Contents (Elt F) → (⟨S1024x200x1, .f32⟩ : BufTy).Contents (Elt F)),
    StableHlo.unary main_v18 main_v19 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v15 main_v19 main_v20 (Host.divf : (⟨S1024x200x128, .f32⟩ : BufTy).Contents (Elt F) → (⟨S1024x200x128, .f32⟩ : BufTy).Contents (Elt F) → (⟨S1024x200x128, .f32⟩ : BufTy).Contents (Elt F)),
    StableHlo.unary main_arg4 main_v21 (broadcastInDim S1x1x128 ![2] bcast_S128_S1x1x128_2 : (⟨S128, .f32⟩ : BufTy).Contents (Elt F) → (⟨S1x1x128, .f32⟩ : BufTy).Contents (Elt F)),
    StableHlo.unary main_v21 main_v22 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v20 main_v22 main_v23 (mulf : (⟨S1024x200x128, .f32⟩ : BufTy).Contents (Elt F) → (⟨S1024x200x128, .f32⟩ : BufTy).Contents (Elt F) → (⟨S1024x200x128, .f32⟩ : BufTy).Contents (Elt F)),
    StableHlo.unary main_arg5 main_v24 (broadcastInDim S1x1x128 ![2] bcast_S128_S1x1x128_2 : (⟨S128, .f32⟩ : BufTy).Contents (Elt F) → (⟨S1x1x128, .f32⟩ : BufTy).Contents (Elt F)),
    StableHlo.unary main_v24 main_v25 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v23 main_v25 main_v26 (addf : (⟨S1024x200x128, .f32⟩ : BufTy).Contents (Elt F) → (⟨S1024x200x128, .f32⟩ : BufTy).Contents (Elt F) → (⟨S1024x200x128, .f32⟩ : BufTy).Contents (Elt F)) ]

-- the program's hundred and twenty statements in a row are one line of that many operations
set_option maxRecDepth 8192 in
set_option maxHeartbeats 4000000 in
/-- The entry function is that line: the callees' definitions unfolded at their calls and the records at their
    fields, both sides are one chain of steps once sequencing is re-associated. -/
theorem main_eq (c : Dev nD) : main (F := F) c = seq ops := by
  simp only [main, fn_take.body, fn_take_0.body, fn_take_2.body, fn_where.body, fn_where_1.body, fn_where_3.body,
    fn_where_4.body, fn_var.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-- For any float values, from any memory with zero counters: every weakly fair execution of the entry function
    terminates, and every final state has each buffer at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRunB.lean ====
/-
  The reference's line of host operations read in four stretches.

  The values the line computes are named in stages, a value with several uses named once: the index column of each
  look-up, the three look-ups, the hidden array (word + position + type), and — as functions of the hidden array —
  its mean, its centred form, its variance and the normalisation with scale and shift. The line is cut into four
  consecutive stretches; for each, from ANY contents, the buffers a later stretch reads are stated: a result at its
  stage applied to the contents the stretch started from, every other buffer unchanged.
-/
import proofs.«203519_g84241488544277_cont_sun_c4_283_31_alg».proof.Proof.RefRunA
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The stages -/

/-- The positions `0 … 199` as a row `[1, 200]`. -/
def posIdx : (⟨S1x200, .i32⟩ : BufTy).Contents (Elt Ideal) :=
  (broadcastInDim S1x200 ![1] bcast_S200_S1x200_1 (iotaInDim S200 32 0))

/-- The all-zero type ids `[1024, 200]`. -/
def zeroIdx : (⟨S1024x200, .i32⟩ : BufTy).Contents (Elt Ideal) :=
  (broadcastInDim S1024x200 ![] bcast_S_S1024x200 (constantI S_ 32 0#32))

/-- The token ids with a negative id wrapped (`where(i < 0, i + 100000, i)`), as a column `[1024, 200, 1]`: the start indices of the word look-up. -/
def idsCol (a0 : (⟨S1024x200, .i32⟩ : BufTy).Contents (Elt Ideal)) : (⟨S1024x200x1, .i32⟩ : BufTy).Contents (Elt Ideal) :=
  (broadcastInDim S1024x200x1 ![0, 1] bcast_S1024x200_S1024x200x1_0_1 (select (cmpi .slt a0 (broadcastInDim S1024x200 ![] bcast_S_S1024x200 (constantI S_ 32 0#32))) (addi a0 (broadcastInDim S1024x200 ![] bcast_S_S1024x200 (constantI S_ 32 100000#32))) a0))

/-- The word look-up's in-range mask: `0 ≤ i ≤ 99999`, reduced by `and` over the column's unit axis. -/
def idsOk (a0 : (⟨S1024x200, .i32⟩ : BufTy).Contents (Elt Ideal)) : (⟨S1024x200, .i1⟩ : BufTy).Contents (Elt Ideal) :=
  (Host.reduce IntOp.andi (andi (cmpi .sge (idsCol a0) (broadcastInDim S1024x200x1 ![] bcast_S_S1024x200x1 (constantI S_ 32 0#32))) (cmpi .sle (idsCol a0) (broadcastInDim S1024x200x1 ![0, 1, 2] bcast_S1x1x1_S1024x200x1_0_1_2 (broadcastInDim S1x1x1 ![2] bcast_S1_S1x1x1_2 (constantI S1 32 99999#32))))) (constantI S_ 1 1#1) reducesTo_S1024x200x1_S1024x200_d2 h_S_)

/-- `take(W_word, ids, axis = 0)`: the gathered rows where the index is in range, the fill elsewhere. -/
def wordRows (a1 : (⟨S100000x128, .f32⟩ : BufTy).Contents (Elt Ideal)) (a0 : (⟨S1024x200, .i32⟩ : BufTy).Contents (Elt Ideal)) : (⟨S1024x200x128, .f32⟩ : BufTy).Contents (Elt Ideal) :=
  (select (broadcastInDim S1024x200x128 ![0, 1] bcast_S1024x200_S1024x200x128_0_1 (idsOk a0)) (Host.gather gather_S100000x128_S1024x200x1_S1024x200x128_2_0_n_n_0_2_1128 a1 (idsCol a0)) (broadcastInDim S1024x200x128 ![] bcast_S_S1024x200x128 (constant (F := Ideal) S_ .f32 0x7FC00000#32)))

/-- A row of positions with the same wrap (`+ 512`), as a column `[1, 200, 1]`. -/
def posColOf (p : (⟨S1x200, .i32⟩ : BufTy).Contents (Elt Ideal)) : (⟨S1x200x1, .i32⟩ : BufTy).Contents (Elt Ideal) :=
  (broadcastInDim S1x200x1 ![0, 1] bcast_S1x200_S1x200x1_0_1 (select (cmpi .slt p (broadcastInDim S1x200 ![] bcast_S_S1x200 (constantI S_ 32 0#32))) (addi p (broadcastInDim S1x200 ![] bcast_S_S1x200 (constantI S_ 32 512#32))) p))

/-- The position look-up's in-range mask: `0 ≤ i ≤ 511`. -/
def posOkOf (p : (⟨S1x200, .i32⟩ : BufTy).Contents (Elt Ideal)) : (⟨S1x200, .i1⟩ : BufTy).Contents (Elt Ideal) :=
  (Host.reduce IntOp.andi (andi (cmpi .sge (posColOf p) (broadcastInDim S1x200x1 ![] bcast_S_S1x200x1 (constantI S_ 32 0#32))) (cmpi .sle (posColOf p) (broadcastInDim S1x200x1 ![0, 1, 2] bcast_S1x1x1_S1x200x1_0_1_2 (broadcastInDim S1x1x1 ![2] bcast_S1_S1x1x1_2 (constantI S1 32 511#32))))) (constantI S_ 1 1#1) reducesTo_S1x200x1_S1x200_d2 h_S_)

/-- `take(W_pos, p, axis = 0)` for a row `p` of positions. -/
def posRowsOf (a2 : (⟨S512x128, .f32⟩ : BufTy).Contents (Elt Ideal)) (p : (⟨S1x200, .i32⟩ : BufTy).Contents (Elt Ideal)) : (⟨S1x200x128, .f32⟩ : BufTy).Contents (Elt Ideal) :=
  (select (broadcastInDim S1x200x128 ![0, 1] bcast_S1x200_S1x200x128_0_1 (posOkOf p)) (Host.gather gather_S512x128_S1x200x1_S1x200x128_2_0_n_n_0_2_1128 a2 (posColOf p)) (broadcastInDim S1x200x128 ![] bcast_S_S1x200x128 (constant (F := Ideal) S_ .f32 0x7FC00000#32)))

/-- An array of type ids with the same wrap (`+ 2`), as a column `[1024, 200, 1]`. -/
def ttColOf (z : (⟨S1024x200, .i32⟩ : BufTy).Contents (Elt Ideal)) : (⟨S1024x200x1, .i32⟩ : BufTy).Contents (Elt Ideal) :=
  (broadcastInDim S1024x200x1 ![0, 1] bcast_S1024x200_S1024x200x1_0_1 (select (cmpi .slt z (broadcastInDim S1024x200 ![] bcast_S_S1024x200 (constantI S_ 32 0#32))) (addi z (broadcastInDim S1024x200 ![] bcast_S_S1024x200 (constantI S_ 32 2#32))) z))

/-- The type look-up's in-range mask: `0 ≤ i ≤ 1`. -/
def ttOkOf (z : (⟨S1024x200, .i32⟩ : BufTy).Contents (Elt Ideal)) : (⟨S1024x200, .i1⟩ : BufTy).Contents (Elt Ideal) :=
  (Host.reduce IntOp.andi (andi (cmpi .sge (ttColOf z) (broadcastInDim S1024x200x1 ![] bcast_S_S1024x200x1 (constantI S_ 32 0#32))) (cmpi .sle (ttColOf z) (broadcastInDim S1024x200x1 ![0, 1, 2] bcast_S1x1x1_S1024x200x1_0_1_2 (broadcastInDim S1x1x1 ![2] bcast_S1_S1x1x1_2 (constantI S1 32 1#32))))) (constantI S_ 1 1#1) reducesTo_S1024x200x1_S1024x200_d2 h_S_)

/-- `take(W_tt, z, axis = 0)` for an array `z` of type ids. -/
def ttRowsOf (a3 : (⟨S2x128, .f32⟩ : BufTy).Contents (Elt Ideal)) (z : (⟨S1024x200, .i32⟩ : BufTy).Contents (Elt Ideal)) : (⟨S1024x200x128, .f32⟩ : BufTy).Contents (Elt Ideal) :=
  (select (broadcastInDim S1024x200x128 ![0, 1] bcast_S1024x200_S1024x200x128_0_1 (ttOkOf z)) (Host.gather gather_S2x128_S1024x200x1_S1024x200x128_2_0_n_n_0_2_1128 a3 (ttColOf z)) (broadcastInDim S1024x200x128 ![] bcast_S_S1024x200x128 (constant (F := Ideal) S_ .f32 0x7FC00000#32)))

/-- The hidden array: (word + position, broadcast over the batch) + type. -/
def hid (a0 : (⟨S1024x200, .i32⟩ : BufTy).Contents (Elt Ideal)) (a1 : (⟨S100000x128, .f32⟩ : BufTy).Contents (Elt Ideal)) (a2 : (⟨S512x128, .f32⟩ : BufTy).Contents (Elt Ideal)) (a3 : (⟨S2x128, .f32⟩ : BufTy).Contents (Elt Ideal)) : (⟨S1024x200x128, .f32⟩ : BufTy).Contents (Elt Ideal) :=
  (addf (F := Ideal) (φ := .f32) (addf (F := Ideal) (φ := .f32) (wordRows a1 a0) (broadcastInDim S1024x200x128 ![0, 1, 2] bcast_S1x200x128_S1024x200x128_0_1_2 (posRowsOf a2 posIdx))) (ttRowsOf a3 zeroIdx))

/-- The mean over the last axis, kept as a column: the sum from the zero word, over 128.0. -/
def meanOf (h : (⟨S1024x200x128, .f32⟩ : BufTy).Contents (Elt Ideal)) : (⟨S1024x200x1, .f32⟩ : BufTy).Contents (Elt Ideal) :=
  (Host.divf (F := Ideal) (φ := .f32) (broadcastInDim S1024x200x1 ![0, 1] bcast_S1024x200_S1024x200x1_0_1 (Host.reduceAdd (F := Ideal) (φ := .f32) h (constant (F := Ideal) S_ .f32 0x00000000#32) reducesTo_S1024x200x128_S1024x200_d2 h_S_)) (broadcastInDim S1024x200x1 ![] bcast_S_S1024x200x1 (constant (F := Ideal) S_ .f32 0x43000000#32)))

/-- The array less its mean. -/
def cenOf (h : (⟨S1024x200x128, .f32⟩ : BufTy).Contents (Elt Ideal)) : (⟨S1024x200x128, .f32⟩ : BufTy).Contents (Elt Ideal) :=
  (subf (F := Ideal) (φ := .f32) h (broadcastInDim S1024x200x128 ![0, 1, 2] bcast_S1024x200x1_S1024x200x128_0_1_2 (meanOf h)))

/-- The variance over the last axis, kept as a column: the sum of squares of the centred array from the zero word, over `128.0 − float 0`, selected against the fill on `128.0 − float 0 > 0`. -/
def varOf (h : (⟨S1024x200x128, .f32⟩ : BufTy).Contents (Elt Ideal)) : (⟨S1024x200x1, .f32⟩ : BufTy).Contents (Elt Ideal) :=
  (select (broadcastInDim S1024x200x1 ![] bcast_S_S1024x200x1 (cmpf (F := Ideal) (φ := .f32) .ogt (subf (F := Ideal) (φ := .f32) (constant (F := Ideal) S_ .f32 0x43000000#32) (sitofp (F := Ideal) .f32 (constantI S_ 32 0#32))) (constant (F := Ideal) S_ .f32 0x00000000#32))) (Host.divf (F := Ideal) (φ := .f32) (broadcastInDim S1024x200x1 ![0, 1] bcast_S1024x200_S1024x200x1_0_1 (Host.reduceAdd (F := Ideal) (φ := .f32) (mulf (F := Ideal) (φ := .f32) (cenOf h) (cenOf h)) (constant (F := Ideal) S_ .f32 0x00000000#32) reducesTo_S1024x200x128_S1024x200_d2 h_S_)) (broadcastInDim S1024x200x1 ![] bcast_S_S1024x200x1 (subf (F := Ideal) (φ := .f32) (constant (F := Ideal) S_ .f32 0x43000000#32) (sitofp (F := Ideal) .f32 (constantI S_ 32 0#32))))) (broadcastInDim S1024x200x1 ![] bcast_S_S1024x200x1 (constant (F := Ideal) S_ .f32 0x7FC00000#32)))

/-- The layer normalisation of an array with scale and shift: `(h − mean) / sqrt(var + ε) · γ + β`. -/
def normOf (h : (⟨S1024x200x128, .f32⟩ : BufTy).Contents (Elt Ideal)) (a4 : (⟨S128, .f32⟩ : BufTy).Contents (Elt Ideal)) (a5 : (⟨S128, .f32⟩ : BufTy).Contents (Elt Ideal)) : (⟨S1024x200x128, .f32⟩ : BufTy).Contents (Elt Ideal) :=
  (addf (F := Ideal) (φ := .f32) (mulf (F := Ideal) (φ := .f32) (Host.divf (F := Ideal) (φ := .f32) (cenOf h) (broadcastInDim S1024x200x128 ![0, 1, 2] bcast_S1024x200x1_S1024x200x128_0_1_2 (Host.sqrt (F := Ideal) (φ := .f32) (addf (F := Ideal) (φ := .f32) (varOf h) (broadcastInDim S1024x200x1 ![] bcast_S_S1024x200x1 (constant (F := Ideal) S_ .f32 0x2B8CBCCC#32)))))) (broadcastInDim S1024x200x128 ![0, 1, 2] bcast_S1x1x128_S1024x200x128_0_1_2 (broadcastInDim S1x1x128 ![2] bcast_S128_S1x1x128_2 a4))) (broadcastInDim S1024x200x128 ![0, 1, 2] bcast_S1x1x128_S1024x200x128_0_1_2 (broadcastInDim S1x1x128 ![2] bcast_S128_S1x1x128_2 a5)))

/-! ## The four stretches -/

section Stretches
variable {F : FTy → Type} [FloatOps F]

/-- The position row, the zero type ids, and the word look-up. -/
abbrev opsA : List (HloOp τ sig (Elt F)) :=
  [
    StableHlo.nullary main_v0 (iotaInDim S200 32 0),
    StableHlo.unary main_v0 main_v1 (broadcastInDim S1x200 ![1] bcast_S200_S1x200_1 : (⟨S200, .i32⟩ : BufTy).Contents (Elt F) → (⟨S1x200, .i32⟩ : BufTy).Contents (Elt F)),
    StableHlo.nullary main_c (constantI S_ 32 0#32),
    StableHlo.unary main_c main_v2 (broadcastInDim S1024x200 ![] bcast_S_S1024x200 : (⟨S_, .i32⟩ : BufTy).Contents (Elt F) → (⟨S1024x200, .i32⟩ : BufTy).Contents (Elt F)),
    StableHlo.TRef.nullary main_call0.c (constantI S_ 32 0#32),
    StableHlo.TRef.unary main_call0.c main_call0.v0 (broadcastInDim S1024x200 ![] bcast_S_S1024x200),
    StableHlo.TRef.binary (.of main_arg0 : TRef sig ⟨S1024x200, .i32⟩) main_call0.v0 main_call0.v1 (cmpi .slt),
    StableHlo.TRef.nullary main_call0.c_0 (constantI S_ 32 100000#32),
    StableHlo.TRef.unary main_call0.c_0 main_call0.v2 (broadcastInDim S1024x200 ![] bcast_S_S1024x200),
    StableHlo.TRef.binary (.of main_arg0 : TRef sig ⟨S1024x200, .i32⟩) main_call0.v2 main_call0.v3 addi,
    StableHlo.TRef.ternary main_call0.v1 main_call0.v3 (.of main_arg0 : TRef sig ⟨S1024x200, .i32⟩) main_call0.call0.v0 select,
    StableHlo.TRef.unary main_call0.call0.v0 main_call0.v5 (broadcastInDim S1024x200x1 ![0, 1] bcast_S1024x200_S1024x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S1024x200x1 ![] bcast_S_S1024x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x200x1 ![0, 1, 2] bcast_S1x1x1_S1024x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x200x1_S1024x200_d2 h_S_),
    StableHlo.TRef.binary (.of main_arg1 : TRef sig ⟨S100000x128, .f32⟩) main_call0.v5 main_call0.v13 (fun x i => Host.gather gather_S100000x128_S1024x200x1_S1024x200x128_2_0_n_n_0_2_1128 x i),
    StableHlo.TRef.unary main_call0.v12 main_call0.v14 (broadcastInDim S1024x200x128 ![0, 1] bcast_S1024x200_S1024x200x128_0_1),
    StableHlo.TRef.nullary main_call0.cst (constant S_ .f32 0x7FC00000#32),
    StableHlo.TRef.unary main_call0.cst main_call0.v15 (broadcastInDim S1024x200x128 ![] bcast_S_S1024x200x128),
    StableHlo.TRef.ternary main_call0.v14 main_call0.v13 main_call0.v15 main_call0.v16 select ]

/-- The position look-up. -/
abbrev opsB : List (HloOp τ sig (Elt F)) :=
  [
    StableHlo.TRef.nullary main_call1.c (constantI S_ 32 0#32),
    StableHlo.TRef.unary main_call1.c main_call1.v0 (broadcastInDim S1x200 ![] bcast_S_S1x200),
    StableHlo.TRef.binary (.of main_v1 : TRef sig ⟨S1x200, .i32⟩) main_call1.v0 main_call1.v1 (cmpi .slt),
    StableHlo.TRef.nullary main_call1.c_0 (constantI S_ 32 512#32),
    StableHlo.TRef.unary main_call1.c_0 main_call1.v2 (broadcastInDim S1x200 ![] bcast_S_S1x200),
    StableHlo.TRef.binary (.of main_v1 : TRef sig ⟨S1x200, .i32⟩) main_call1.v2 main_call1.v3 addi,
    StableHlo.TRef.ternary main_call1.v1 main_call1.v3 (.of main_v1 : TRef sig ⟨S1x200, .i32⟩) main_call1.call0.v0 select,
    StableHlo.TRef.unary main_call1.call0.v0 main_call1.v5 (broadcastInDim S1x200x1 ![0, 1] bcast_S1x200_S1x200x1_0_1),
    StableHlo.TRef.nullary main_call1.c_1 (constantI S1 32 511#32),
    StableHlo.TRef.nullary main_call1.c_2 (constantI S_ 32 0#32),
    StableHlo.TRef.unary main_call1.c_2 main_call1.v6 (broadcastInDim S1x200x1 ![] bcast_S_S1x200x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1x200x1 ![0, 1, 2] bcast_S1x1x1_S1x200x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1x200x1_S1x200_d2 h_S_),
    StableHlo.TRef.binary (.of main_arg2 : TRef sig ⟨S512x128, .f32⟩) main_call1.v5 main_call1.v13 (fun x i => Host.gather gather_S512x128_S1x200x1_S1x200x128_2_0_n_n_0_2_1128 x i),
    StableHlo.TRef.unary main_call1.v12 main_call1.v14 (broadcastInDim S1x200x128 ![0, 1] bcast_S1x200_S1x200x128_0_1),
    StableHlo.TRef.nullary main_call1.cst (constant S_ .f32 0x7FC00000#32),
    StableHlo.TRef.unary main_call1.cst main_call1.v15 (broadcastInDim S1x200x128 ![] bcast_S_S1x200x128),
    StableHlo.TRef.ternary main_call1.v14 main_call1.v13 main_call1.v15 main_call1.v16 select ]

/-- The type look-up and the two sums: the hidden array. -/
abbrev opsC : List (HloOp τ sig (Elt F)) :=
  [
    StableHlo.TRef.nullary main_call2.c (constantI S_ 32 0#32),
    StableHlo.TRef.unary main_call2.c main_call2.v0 (broadcastInDim S1024x200 ![] bcast_S_S1024x200),
    StableHlo.TRef.binary (.of main_v2 : TRef sig ⟨S1024x200, .i32⟩) main_call2.v0 main_call2.v1 (cmpi .slt),
    StableHlo.TRef.nullary main_call2.c_0 (constantI S_ 32 2#32),
    StableHlo.TRef.unary main_call2.c_0 main_call2.v2 (broadcastInDim S1024x200 ![] bcast_S_S1024x200),
    StableHlo.TRef.binary (.of main_v2 : TRef sig ⟨S1024x200, .i32⟩) main_call2.v2 main_call2.v3 addi,
    StableHlo.TRef.ternary main_call2.v1 main_call2.v3 (.of main_v2 : TRef sig ⟨S1024x200, .i32⟩) main_call2.call0.v0 select,
    StableHlo.TRef.unary main_call2.call0.v0 main_call2.v5 (broadcastInDim S1024x200x1 ![0, 1] bcast_S1024x200_S1024x200x1_0_1),
    StableHlo.TRef.nullary main_call2.c_1 (constantI S1 32 1#32),
    StableHlo.TRef.nullary main_call2.c_2 (constantI S_ 32 0#32),
    StableHlo.TRef.unary main_call2.c_2 main_call2.v6 (broadcastInDim S1024x200x1 ![] bcast_S_S1024x200x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x200x1 ![0, 1, 2] bcast_S1x1x1_S1024x200x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x200x1_S1024x200_d2 h_S_),
    StableHlo.TRef.binary (.of main_arg3 : TRef sig ⟨S2x128, .f32⟩) main_call2.v5 main_call2.v13 (fun x i => Host.gather gather_S2x128_S1024x200x1_S1024x200x128_2_0_n_n_0_2_1128 x i),
    StableHlo.TRef.unary main_call2.v12 main_call2.v14 (broadcastInDim S1024x200x128 ![0, 1] bcast_S1024x200_S1024x200x128_0_1),
    StableHlo.TRef.nullary main_call2.cst (constant S_ .f32 0x7FC00000#32),
    StableHlo.TRef.unary main_call2.cst main_call2.v15 (broadcastInDim S1024x200x128 ![] bcast_S_S1024x200x128),
    StableHlo.TRef.ternary main_call2.v14 main_call2.v13 main_call2.v15 main_call2.v16 select,
    StableHlo.unary main_v4 main_v6 (broadcastInDim S1024x200x128 ![0, 1, 2] bcast_S1x200x128_S1024x200x128_0_1_2 : (⟨S1x200x128, .f32⟩ : BufTy).Contents (Elt F) → (⟨S1024x200x128, .f32⟩ : BufTy).Contents (Elt F)),
    StableHlo.binary main_v3 main_v6 main_v7 (addf : (⟨S1024x200x128, .f32⟩ : BufTy).Contents (Elt F) → (⟨S1024x200x128, .f32⟩ : BufTy).Contents (Elt F) → (⟨S1024x200x128, .f32⟩ : BufTy).Contents (Elt F)),
    StableHlo.binary main_v7 main_v5 main_v8 (addf : (⟨S1024x200x128, .f32⟩ : BufTy).Contents (Elt F) → (⟨S1024x200x128, .f32⟩ : BufTy).Contents (Elt F) → (⟨S1024x200x128, .f32⟩ : BufTy).Contents (Elt F)) ]

/-- The mean, the variance and the normalisation with scale and shift. -/
abbrev opsD : List (HloOp τ sig (Elt F)) :=
  [
    StableHlo.nullary main_cst (constant S_ .f32 0x00000000#32),
    StableHlo.binary main_v8 main_cst main_v9 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    StableHlo.unary main_v9 main_v10 (broadcastInDim S1024x200x1 ![0, 1] bcast_S1024x200_S1024x200x1_0_1 : (⟨S1024x200, .f32⟩ : BufTy).Contents (Elt F) → (⟨S1024x200x1, .f32⟩ : BufTy).Contents (Elt F)),
    StableHlo.nullary main_cst_0 (constant S_ .f32 0x43000000#32),
    StableHlo.unary main_cst_0 main_v11 (broadcastInDim S1024x200x1 ![] bcast_S_S1024x200x1 : (⟨S_, .f32⟩ : BufTy).Contents (Elt F) → (⟨S1024x200x1, .f32⟩ : BufTy).Contents (Elt F)),
    StableHlo.binary main_v10 main_v11 main_v12 (Host.divf : (⟨S1024x200x1, .f32⟩ : BufTy).Contents (Elt F) → (⟨S1024x200x1, .f32⟩ : BufTy).Contents (Elt F) → (⟨S1024x200x1, .f32⟩ : BufTy).Contents (Elt F)),
    StableHlo.nullary main_c_1 (constantI S_ 32 0#32),
    StableHlo.TRef.nullary main_call3.cst (constant S_ .f32 0x00000000#32),
    StableHlo.TRef.binary (.of main_v8 : TRef sig ⟨S1024x200x128, .f32⟩) main_call3.cst main_call3.v0 (fun x v => Host.reduceAdd x v reducesTo_S1024x200x128_S1024x200_d2 h_S_),
    StableHlo.TRef.unary main_call3.v0 main_call3.v1 (broadcastInDim S1024x200x1 ![0, 1] bcast_S1024x200_S1024x200x1_0_1),
    StableHlo.TRef.nullary main_call3.cst_0 (constant S_ .f32 0x43000000#32),
    StableHlo.TRef.unary main_call3.cst_0 main_call3.v2 (broadcastInDim S1024x200x1 ![] bcast_S_S1024x200x1),
    StableHlo.TRef.binary main_call3.v1 main_call3.v2 main_call3.v3 Host.divf,
    StableHlo.TRef.unary main_call3.v3 main_call3.v4 (broadcastInDim S1024x200x128 ![0, 1, 2] bcast_S1024x200x1_S1024x200x128_0_1_2),
    StableHlo.TRef.binary (.of main_v8 : TRef sig ⟨S1024x200x128, .f32⟩) main_call3.v4 main_call3.v5 subf,
    StableHlo.TRef.binary main_call3.v5 main_call3.v5 main_call3.v6 mulf,
    StableHlo.TRef.unary (.of main_c_1 : TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S1024x200x128_S1024x200_d2 h_S_),
    StableHlo.TRef.unary main_call3.v9 main_call3.v10 (broadcastInDim S1024x200x1 ![0, 1] bcast_S1024x200_S1024x200x1_0_1),
    StableHlo.TRef.unary main_call3.v8 main_call3.v11 (broadcastInDim S1024x200x1 ![] bcast_S_S1024x200x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1024x200x1 ![] bcast_S_S1024x200x1),
    StableHlo.TRef.ternary main_call3.v13 main_call3.v12 main_call3.call0.v1 main_call3.call0.v2 (fun p a b => select (broadcastInDim S1024x200x1 ![] bcast_S_S1024x200x1 p) a b),
    StableHlo.unary main_v12 main_v14 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v8 main_v14 main_v15 (subf : (⟨S1024x200x128, .f32⟩ : BufTy).Contents (Elt F) → (⟨S1024x200x128, .f32⟩ : BufTy).Contents (Elt F) → (⟨S1024x200x128, .f32⟩ : BufTy).Contents (Elt F)),
    StableHlo.nullary main_cst_2 (constant S_ .f32 0x2B8CBCCC#32),
    StableHlo.unary main_cst_2 main_v16 (broadcastInDim S1024x200x1 ![] bcast_S_S1024x200x1 : (⟨S_, .f32⟩ : BufTy).Contents (Elt F) → (⟨S1024x200x1, .f32⟩ : BufTy).Contents (Elt F)),
    StableHlo.binary main_v13 main_v16 main_v17 (addf : (⟨S1024x200x1, .f32⟩ : BufTy).Contents (Elt F) → (⟨S1024x200x1, .f32⟩ : BufTy).Contents (Elt F) → (⟨S1024x200x1, .f32⟩ : BufTy).Contents (Elt F)),
    StableHlo.unary main_v17 main_v18 (Host.sqrt : (⟨S1024x200x1, .f32⟩ : BufTy).Contents (Elt F) → (⟨S1024x200x1, .f32⟩ : BufTy).Contents (Elt F)),
    StableHlo.unary main_v18 main_v19 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v15 main_v19 main_v20 (Host.divf : (⟨S1024x200x128, .f32⟩ : BufTy).Contents (Elt F) → (⟨S1024x200x128, .f32⟩ : BufTy).Contents (Elt F) → (⟨S1024x200x128, .f32⟩ : BufTy).Contents (Elt F)),
    StableHlo.unary main_arg4 main_v21 (broadcastInDim S1x1x128 ![2] bcast_S128_S1x1x128_2 : (⟨S128, .f32⟩ : BufTy).Contents (Elt F) → (⟨S1x1x128, .f32⟩ : BufTy).Contents (Elt F)),
    StableHlo.unary main_v21 main_v22 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v20 main_v22 main_v23 (mulf : (⟨S1024x200x128, .f32⟩ : BufTy).Contents (Elt F) → (⟨S1024x200x128, .f32⟩ : BufTy).Contents (Elt F) → (⟨S1024x200x128, .f32⟩ : BufTy).Contents (Elt F)),
    StableHlo.unary main_arg5 main_v24 (broadcastInDim S1x1x128 ![2] bcast_S128_S1x1x128_2 : (⟨S128, .f32⟩ : BufTy).Contents (Elt F) → (⟨S1x1x128, .f32⟩ : BufTy).Contents (Elt F)),
    StableHlo.unary main_v24 main_v25 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v23 main_v25 main_v26 (addf : (⟨S1024x200x128, .f32⟩ : BufTy).Contents (Elt F) → (⟨S1024x200x128, .f32⟩ : BufTy).Contents (Elt F) → (⟨S1024x200x128, .f32⟩ : BufTy).Contents (Elt F)) ]

/-- The line is the four stretches in order. -/
theorem ops_split : (ops (F := F)) = opsA ++ (opsB ++ (opsC ++ opsD)) := rfl

end Stretches

/-! ## What each stretch leaves -/

/-- Contents moved to a typed reference's buffer type and back are unchanged. -/
theorem ofBuf_toBuf {T : BufTy} (x : TRef sig T) (v : T.Contents (Elt Ideal)) : x.ofBuf (x.toBuf v) = v := by
  obtain ⟨r, h, h1, h2⟩ := x
  subst h
  rfl

-- a reduction and a gather enter both sides as whole operations of their operands: the equation is between the two
-- compositions, not between their elements
attribute [local irreducible] Host.reduce Host.gather in
set_option maxRecDepth 16384 in
set_option maxHeartbeats 2000000 in
theorem A_v1 (V : Valuation τ sig (Elt Ideal)) :
    after (opsA (F := Ideal)) V (main_v1 : DevRef τ sig) = posIdx := by
  after_results_simp
  try simp only [ofBuf_toBuf]
  rfl

attribute [local irreducible] Host.reduce Host.gather in
set_option maxRecDepth 16384 in
set_option maxHeartbeats 2000000 in
theorem A_v2 (V : Valuation τ sig (Elt Ideal)) :
    after (opsA (F := Ideal)) V (main_v2 : DevRef τ sig) = zeroIdx := by
  after_results_simp
  try simp only [ofBuf_toBuf]
  rfl

attribute [local irreducible] Host.reduce Host.gather in
set_option maxRecDepth 16384 in
set_option maxHeartbeats 2000000 in
theorem A_v3 (V : Valuation τ sig (Elt Ideal)) :
    after (opsA (F := Ideal)) V (main_v3 : DevRef τ sig) = (wordRows (V (main_arg1 : DevRef τ sig)) (V (main_arg0 : DevRef τ sig))) := by
  after_results_simp
  try simp only [ofBuf_toBuf]
  rfl

attribute [local irreducible] Host.reduce Host.gather in
set_option maxRecDepth 16384 in
set_option maxHeartbeats 2000000 in
theorem B_v4 (V : Valuation τ sig (Elt Ideal)) :
    after (opsB (F := Ideal)) V (main_v4 : DevRef τ sig) = (posRowsOf (V (main_arg2 : DevRef τ sig)) (V (main_v1 : DevRef τ sig))) := by
  after_results_simp
  try simp only [ofBuf_toBuf]
  rfl

attribute [local irreducible] Host.reduce Host.gather in
set_option maxRecDepth 16384 in
set_option maxHeartbeats 2000000 in
theorem C_v8 (V : Valuation τ sig (Elt Ideal)) :
    after (opsC (F := Ideal)) V (main_v8 : DevRef τ sig) = (addf (F := Ideal) (φ := .f32) (addf (F := Ideal) (φ := .f32) (V (main_v3 : DevRef τ sig)) (broadcastInDim S1024x200x128 ![0, 1, 2] bcast_S1x200x128_S1024x200x128_0_1_2 (V (main_v4 : DevRef τ sig)))) (ttRowsOf (V (main_arg3 : DevRef τ sig)) (V (main_v2 : DevRef τ sig)))) := by
  after_results_simp
  try simp only [ofBuf_toBuf]
  rfl

attribute [local irreducible] Host.reduce Host.gather in
set_option maxRecDepth 16384 in
set_option maxHeartbeats 2000000 in
theorem D_v26 (V : Valuation τ sig (Elt Ideal)) :
    after (opsD (F := Ideal)) V (main_v26 : DevRef τ sig) = (normOf (V (main_v8 : DevRef τ sig)) (V (main_arg4 : DevRef τ sig)) (V (main_arg5 : DevRef τ sig))) := by
  after_results_simp
  try simp only [ofBuf_toBuf]
  rfl

theorem A_a0 (V : Valuation τ sig (Elt Ideal)) : after (opsA (F := Ideal)) V (main_arg0 : DevRef τ sig) = V (main_arg0 : DevRef τ sig) := by
  after_results_simp
theorem A_a1 (V : Valuation τ sig (Elt Ideal)) : after (opsA (F := Ideal)) V (main_arg1 : DevRef τ sig) = V (main_arg1 : DevRef τ sig) := by
  after_results_simp
theorem A_a2 (V : Valuation τ sig (Elt Ideal)) : after (opsA (F := Ideal)) V (main_arg2 : DevRef τ sig) = V (main_arg2 : DevRef τ sig) := by
  after_results_simp
theorem A_a3 (V : Valuation τ sig (Elt Ideal)) : after (opsA (F := Ideal)) V (main_arg3 : DevRef τ sig) = V (main_arg3 : DevRef τ sig) := by
  after_results_simp
theorem A_a4 (V : Valuation τ sig (Elt Ideal)) : after (opsA (F := Ideal)) V (main_arg4 : DevRef τ sig) = V (main_arg4 : DevRef τ sig) := by
  after_results_simp
theorem A_a5 (V : Valuation τ sig (Elt Ideal)) : after (opsA (F := Ideal)) V (main_arg5 : DevRef τ sig) = V (main_arg5 : DevRef τ sig) := by
  after_results_simp
theorem B_a0 (V : Valuation τ sig (Elt Ideal)) : after (opsB (F := Ideal)) V (main_arg0 : DevRef τ sig) = V (main_arg0 : DevRef τ sig) := by
  after_results_simp
theorem B_a1 (V : Valuation τ sig (Elt Ideal)) : after (opsB (F := Ideal)) V (main_arg1 : DevRef τ sig) = V (main_arg1 : DevRef τ sig) := by
  after_results_simp
theorem B_a2 (V : Valuation τ sig (Elt Ideal)) : after (opsB (F := Ideal)) V (main_arg2 : DevRef τ sig) = V (main_arg2 : DevRef τ sig) := by
  after_results_simp
theorem B_a3 (V : Valuation τ sig (Elt Ideal)) : after (opsB (F := Ideal)) V (main_arg3 : DevRef τ sig) = V (main_arg3 : DevRef τ sig) := by
  after_results_simp
theorem B_a4 (V : Valuation τ sig (Elt Ideal)) : after (opsB (F := Ideal)) V (main_arg4 : DevRef τ sig) = V (main_arg4 : DevRef τ sig) := by
  after_results_simp
theorem B_a5 (V : Valuation τ sig (Elt Ideal)) : after (opsB (F := Ideal)) V (main_arg5 : DevRef τ sig) = V (main_arg5 : DevRef τ sig) := by
  after_results_simp
theorem C_a0 (V : Valuation τ sig (Elt Ideal)) : after (opsC (F := Ideal)) V (main_arg0 : DevRef τ sig) = V (main_arg0 : DevRef τ sig) := by
  after_results_simp
theorem C_a1 (V : Valuation τ sig (Elt Ideal)) : after (opsC (F := Ideal)) V (main_arg1 : DevRef τ sig) = V (main_arg1 : DevRef τ sig) := by
  after_results_simp
theorem C_a2 (V : Valuation τ sig (Elt Ideal)) : after (opsC (F := Ideal)) V (main_arg2 : DevRef τ sig) = V (main_arg2 : DevRef τ sig) := by
  after_results_simp
theorem C_a3 (V : Valuation τ sig (Elt Ideal)) : after (opsC (F := Ideal)) V (main_arg3 : DevRef τ sig) = V (main_arg3 : DevRef τ sig) := by
  after_results_simp
theorem C_a4 (V : Valuation τ sig (Elt Ideal)) : after (opsC (F := Ideal)) V (main_arg4 : DevRef τ sig) = V (main_arg4 : DevRef τ sig) := by
  after_results_simp
theorem C_a5 (V : Valuation τ sig (Elt Ideal)) : after (opsC (F := Ideal)) V (main_arg5 : DevRef τ sig) = V (main_arg5 : DevRef τ sig) := by
  after_results_simp
theorem D_a0 (V : Valuation τ sig (Elt Ideal)) : after (opsD (F := Ideal)) V (main_arg0 : DevRef τ sig) = V (main_arg0 : DevRef τ sig) := by
  after_results_simp
theorem D_a1 (V : Valuation τ sig (Elt Ideal)) : after (opsD (F := Ideal)) V (main_arg1 : DevRef τ sig) = V (main_arg1 : DevRef τ sig) := by
  after_results_simp
theorem D_a2 (V : Valuation τ sig (Elt Ideal)) : after (opsD (F := Ideal)) V (main_arg2 : DevRef τ sig) = V (main_arg2 : DevRef τ sig) := by
  after_results_simp
theorem D_a3 (V : Valuation τ sig (Elt Ideal)) : after (opsD (F := Ideal)) V (main_arg3 : DevRef τ sig) = V (main_arg3 : DevRef τ sig) := by
  after_results_simp
theorem D_a4 (V : Valuation τ sig (Elt Ideal)) : after (opsD (F := Ideal)) V (main_arg4 : DevRef τ sig) = V (main_arg4 : DevRef τ sig) := by
  after_results_simp
theorem D_a5 (V : Valuation τ sig (Elt Ideal)) : after (opsD (F := Ideal)) V (main_arg5 : DevRef τ sig) = V (main_arg5 : DevRef τ sig) := by
  after_results_simp
theorem B_v2 (V : Valuation τ sig (Elt Ideal)) : after (opsB (F := Ideal)) V (main_v2 : DevRef τ sig) = V (main_v2 : DevRef τ sig) := by
  after_results_simp
theorem B_v3 (V : Valuation τ sig (Elt Ideal)) : after (opsB (F := Ideal)) V (main_v3 : DevRef τ sig) = V (main_v3 : DevRef τ sig) := by
  after_results_simp

end Cert.ReferenceIdeal.RefValue

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference's result as one function of its six arguments, and its run.

  The result buffer after the line of host operations is the operations' composed term of the arguments' contents at
  launch: the normalisation, with scale and shift, of the hidden array. It is read through the four stretches of the
  line: each stretch's results at its stage applied to what the stretch before left, every other buffer unchanged.
-/
import proofs.«203519_g84241488544277_cont_sun_c4_283_31_alg».proof.Proof.RefRunB
import proofs.«203519_g84241488544277_cont_sun_c4_283_31_alg».proof.Proof.LibAfterAppend

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib.AfterAppend

/-- The reference's result as one function of its arguments: the normalisation of the hidden array. -/
def refOut (a0 : (⟨S1024x200, .i32⟩ : BufTy).Contents (Elt Ideal)) (a1 : (⟨S100000x128, .f32⟩ : BufTy).Contents (Elt Ideal)) (a2 : (⟨S512x128, .f32⟩ : BufTy).Contents (Elt Ideal))
    (a3 : (⟨S2x128, .f32⟩ : BufTy).Contents (Elt Ideal)) (a4 : (⟨S128, .f32⟩ : BufTy).Contents (Elt Ideal)) (a5 : (⟨S128, .f32⟩ : BufTy).Contents (Elt Ideal)) :
    (⟨S1024x200x128, .f32⟩ : BufTy).Contents (Elt Ideal) :=
  normOf (hid a0 a1 a2 a3) a4 a5

/-- The fold at the result buffer is that function of the arguments' contents. -/
theorem out_eq (V : Valuation τ sig (Elt Ideal)) :
    after (ops (F := Ideal)) V (main_v26 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split, after_append, after_append, after_append, D_v26, C_v8, C_a4, C_a5, B_v3, B_v4, B_a3, B_v2, B_a4, B_a5,
    A_v3, A_a2, A_v1, A_a3, A_v2, A_a4, A_a5]
  rfl

theorem arg0_eq (V : Valuation τ sig (Elt Ideal)) :
    after (ops (F := Ideal)) V (main_arg0 : DevRef τ sig) = V (main_arg0 : DevRef τ sig) := by
  rw [ops_split, after_append, after_append, after_append, D_a0, C_a0, B_a0, A_a0]

theorem arg1_eq (V : Valuation τ sig (Elt Ideal)) :
    after (ops (F := Ideal)) V (main_arg1 : DevRef τ sig) = V (main_arg1 : DevRef τ sig) := by
  rw [ops_split, after_append, after_append, after_append, D_a1, C_a1, B_a1, A_a1]

theorem arg2_eq (V : Valuation τ sig (Elt Ideal)) :
    after (ops (F := Ideal)) V (main_arg2 : DevRef τ sig) = V (main_arg2 : DevRef τ sig) := by
  rw [ops_split, after_append, after_append, after_append, D_a2, C_a2, B_a2, A_a2]

theorem arg3_eq (V : Valuation τ sig (Elt Ideal)) :
    after (ops (F := Ideal)) V (main_arg3 : DevRef τ sig) = V (main_arg3 : DevRef τ sig) := by
  rw [ops_split, after_append, after_append, after_append, D_a3, C_a3, B_a3, A_a3]

theorem arg4_eq (V : Valuation τ sig (Elt Ideal)) :
    after (ops (F := Ideal)) V (main_arg4 : DevRef τ sig) = V (main_arg4 : DevRef τ sig) := by
  rw [ops_split, after_append, after_append, after_append, D_a4, C_a4, B_a4, A_a4]

theorem arg5_eq (V : Valuation τ sig (Elt Ideal)) :
    after (ops (F := Ideal)) V (main_arg5 : DevRef τ sig) = V (main_arg5 : DevRef τ sig) := by
  rw [ops_split, after_append, after_append, after_append, D_a5, C_a5, B_a5, A_a5]

/-- From any memory with zero counters every weakly fair execution of the reference terminates, with the result
    buffer at `refOut` of the arguments' contents at launch and the six arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v26) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v26).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_main (F := Ideal) m g)

end Cert.ReferenceIdeal.RefValue

end
-- ==== Proof.Assemble.lean ====
/-
  The five conjuncts from the parts: the kernel program's run (generic in the float instance) gives both kernel frames
  — the word-level one through the two namespaces' equality — and, at the ideal instance, the kernel's half of the
  value claim; the reference's run gives its frame and the other half; the two results are one function of the
  arguments under the precondition.
-/
import proofs.«203519_g84241488544277_cont_sun_c4_283_31_alg».proof.Defs
import proofs.«203519_g84241488544277_cont_sun_c4_283_31_alg».proof.Proof.Gen.Kernel
import proofs.«203519_g84241488544277_cont_sun_c4_283_31_alg».proof.Proof.Gen.KernelIdeal
import proofs.«203519_g84241488544277_cont_sun_c4_283_31_alg».proof.Proof.Gen.ReferenceIdeal
import proofs.«203519_g84241488544277_cont_sun_c4_283_31_alg».proof.Proof.Gen.Pre_input_domain
import proofs.«203519_g84241488544277_cont_sun_c4_283_31_alg».proof.Proof.Launch6
import proofs.«203519_g84241488544277_cont_sun_c4_283_31_alg».proof.Proof.Transport
import proofs.«203519_g84241488544277_cont_sun_c4_283_31_alg».proof.Proof.PreFacts
import proofs.«203519_g84241488544277_cont_sun_c4_283_31_alg».proof.Proof.RefRun

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The kernel program's run from a memory satisfying the precondition, at any float instance. -/
theorem kernel_run {F : FTy → Type} [FloatOps F] [∀ e, Nonempty (Elt F e)]
    (LN : (S204800x128.Idx → Elt F .f32) → (S200x128.Idx → Elt F .f32) → (S2x128.Idx → Elt F .f32) → (S1x128.Idx → Elt F .f32) → (S1x128.Idx → Elt F .f32) → S204800x128.Idx → Elt F .f32)
    (tq : Fin 32 → PosShare TreeShare)
    (htq : ∀ (d : Dev nD) (f : Buf (Elt F) (tabLoc d)), (tabLoc d ↦{fullShare} f : sProp (MT nD τ sig (HIx 1) (Elt F) ℕ UU ℕ)) = bigSep Finset.univ fun w : Fin 32 => tabLoc d ↦{tq w} f)
    (hbody : TileBodyStmt (F := F)) (hreg : RegionStmt (F := F) LN)
    (m : (ℓ : Loc nD τ sig) → Buf (Elt F) ℓ) (g : Dev nD → PrngReg)
    (hpre : ∀ c : Dev nD, Cert.Pre_input_domain.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) :
    θ_run (Cert.KernelIdeal.defs (F := F)) (Cert.KernelIdeal.threads (F := F)) ⟨m, fun _ => 0, g⟩ (QC LN m) :=
  run_main LN m g tq htq hbody hreg (fun d j => Cert.Hand.Pre.ids_lt _ _ _ _ _ _ (hpre d) j)

/-- The certificate's claim, from the tile's task and the region's step at both instances, the split of a share into
    32, and the agreement of the two programs' result functions under the precondition. -/
theorem claim_of
    (LNB : (S204800x128.Idx → Elt Bits .f32) → (S200x128.Idx → Elt Bits .f32) → (S2x128.Idx → Elt Bits .f32) → (S1x128.Idx → Elt Bits .f32) → (S1x128.Idx → Elt Bits .f32) → S204800x128.Idx → Elt Bits .f32)
    (LNI : (S204800x128.Idx → Elt Ideal .f32) → (S200x128.Idx → Elt Ideal .f32) → (S2x128.Idx → Elt Ideal .f32) → (S1x128.Idx → Elt Ideal .f32) → (S1x128.Idx → Elt Ideal .f32) → S204800x128.Idx → Elt Ideal .f32)
    (tq : Fin 32 → PosShare TreeShare)
    (htqB : ∀ (d : Dev nD) (f : Buf (Elt Bits) (tabLoc d)), (tabLoc d ↦{fullShare} f : sProp (MT nD τ sig (HIx 1) (Elt Bits) ℕ UU ℕ)) = bigSep Finset.univ fun w : Fin 32 => tabLoc d ↦{tq w} f)
    (htqI : ∀ (d : Dev nD) (f : Buf (Elt Ideal) (tabLoc d)), (tabLoc d ↦{fullShare} f : sProp (MT nD τ sig (HIx 1) (Elt Ideal) ℕ UU ℕ)) = bigSep Finset.univ fun w : Fin 32 => tabLoc d ↦{tq w} f)
    (hbB : TileBodyStmt (F := Bits)) (hbI : TileBodyStmt (F := Ideal)) (hrB : RegionStmt (F := Bits) LNB) (hrI : RegionStmt (F := Ideal) LNI)
    (hval : ∀ (a0 : S1024x200.Idx → BitVec 32) (a1 : S100000x128.Idx → EReal) (a2 : S512x128.Idx → EReal) (a3 : S2x128.Idx → EReal) (a4 a5 : S128.Idx → EReal),
      Cert.Pre_input_domain.fn (F := Ideal) a0 a1 a2 a3 a4 a5 = (fun _ => 1#1) →
      Cert.ReferenceIdeal.RefValue.refOut a0 a1 a2 a3 a4 a5 = kernOut (F := Ideal) LNI a0 a1 a2 a3 a4 a5) :
    Cert.Claim := by
  refine ⟨Cert.Kernel.Gen.facts, Cert.KernelIdeal.Gen.facts, Cert.ReferenceIdeal.Gen.facts, Cert.Pre_input_domain.Gen.facts, ?_, ?_, ?_, trivial, ?_⟩
  · exact Cert.Hand.frame_Kernel_of fun m g hpre =>
      (θ_run _ _ _).mono (fun _ h c => (h c).2) (kernel_run (F := Bits) LNB tq htqB hbB hrB m g hpre)
  · exact fun m g hpre => (θ_run _ _ _).mono (fun _ h c => (h c).2) (kernel_run (F := Ideal) LNI tq htqI hbI hrI m g hpre)
  · exact fun m g _ => (θ_run _ _ _).mono (fun _ h c => (h c).2) (Cert.ReferenceIdeal.RefValue.run m g)
  · intro m g m' g' hpre hagree
    refine ⟨fun c => kernOut (F := Ideal) LNI (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)),
      kernel_run (F := Ideal) LNI tq htqI hbI hrI m g hpre, ?_⟩
    refine (θ_run _ _ _).mono (fun _ h c => ⟨(h c).1.trans ?_, (h c).2⟩) (Cert.ReferenceIdeal.RefValue.run m' g')
    rw [(hagree c).1, (hagree c).2.1, (hagree c).2.2.1, (hagree c).2.2.2.1, (hagree c).2.2.2.2.1, (hagree c).2.2.2.2.2]
    exact hval _ _ _ _ _ _ (hpre c)

end Cert.KernelIdeal.Hand

end
-- ==== Proof.Shares.lean ====
/-
  A points-to at a share is 2ⁿ points-tos at the leaves of the share halved n times.

  Halving a positive tree share q gives two positive shares q.left and q.right that compose to q, and a points-to
  at q is the separating conjunction of the points-tos at the halves. Repeating this n times gives 2ⁿ shares, indexed
  by i < 2ⁿ: the top half of the index range lies under the right half of the share, the bottom half under the left.
  The statement follows by induction on n, splitting the index set Fin 2ⁿ⁺¹ as Fin 2ⁿ ⊕ Fin 2ⁿ.
-/
import Idealize.ShloMosaic.Rules.PointsTo

noncomputable section

namespace Cert.Hand

open Idealize.ShloMosaic
open Idealize.SL Idealize.SL.RA Idealize.SL.Sem
open Idealize.SL.BI (sProp bigSep bigSep_univ_equiv bigSep_univ_sum bigSep_univ_of_subsingleton)
open scoped Idealize.SL.BI
open Idealize.SL.BI.BIBase Idealize.SL.BI.Laws

/-- Leaf i of the share q halved n times: the bottom half of the indices under q.left, the top half under q.right. -/
def leaf : (n : ℕ) → PosShare TreeShare → Fin (2 ^ n) → PosShare TreeShare
  | 0, q, _ => q
  | n + 1, q, i =>
    if h : i.val < 2 ^ n then leaf n q.left ⟨i.val, h⟩
    else leaf n q.right ⟨i.val - 2 ^ n, by have := i.isLt; have h2 : 2 ^ (n + 1) = 2 ^ n * 2 := pow_succ 2 n; omega⟩

/-- The index set of 2ⁿ⁺¹ leaves as the leaves under the left half followed by those under the right half. -/
def halves (n : ℕ) : Fin (2 ^ n) ⊕ Fin (2 ^ n) ≃ Fin (2 ^ (n + 1)) :=
  finSumFinEquiv.trans (finCongr (by have h2 : 2 ^ (n + 1) = 2 ^ n * 2 := pow_succ 2 n; omega))

theorem halves_inl_val (n : ℕ) (a : Fin (2 ^ n)) : (halves n (Sum.inl a)).val = a.val := by
  simp [halves]

theorem halves_inr_val (n : ℕ) (b : Fin (2 ^ n)) : (halves n (Sum.inr b)).val = 2 ^ n + b.val := by
  simp [halves]
  omega

theorem leaf_succ_inl (n : ℕ) (q : PosShare TreeShare) (a : Fin (2 ^ n)) :
    leaf (n + 1) q (halves n (Sum.inl a)) = leaf n q.left a := by
  have hv := halves_inl_val n a
  rw [leaf, dif_pos (by rw [hv]; exact a.isLt)]
  exact congrArg (leaf n q.left) (Fin.ext hv)

theorem leaf_succ_inr (n : ℕ) (q : PosShare TreeShare) (b : Fin (2 ^ n)) :
    leaf (n + 1) q (halves n (Sum.inr b)) = leaf n q.right b := by
  have hv := halves_inr_val n b
  rw [leaf, dif_neg (by rw [hv]; omega)]
  exact congrArg (leaf n q.right) (Fin.ext (by show (halves n (Sum.inr b)).val - 2 ^ n = b.val; omega))

section PointsTo

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- A points-to at q is the separating conjunction of the points-tos at the 2ⁿ leaves of q. -/
theorem pointsTo_leaves {ℓ : Loc nD τ sig} (I : Finset (Idx ℓ)) (f : Buf Val ℓ) :
    ∀ (n : ℕ) (q : PosShare TreeShare),
      (ℓ ↦[I]{q} f : sProp 𝕄) = bigSep Finset.univ fun i : Fin (2 ^ n) => (ℓ ↦[I]{leaf n q i} f : sProp 𝕄)
  | 0, q => by
    haveI : Subsingleton (Fin (2 ^ 0)) := (inferInstance : Subsingleton (Fin 1))
    rw [bigSep_univ_of_subsingleton (⟨0, by decide⟩ : Fin (2 ^ 0))]
    rfl
  | n + 1, q => by
    have hs : (ℓ ↦[I]{q} f : sProp 𝕄) ⊣⊢ iprop((ℓ ↦[I]{q.left} f) ∗ ℓ ↦[I]{q.right} f) :=
      pointsTo_share (PosShare.mem_left_op_right q)
    rw [BI.equiv_iff.mp ⟨hs.1, hs.2⟩, pointsTo_leaves I f n q.left, pointsTo_leaves I f n q.right,
      bigSep_univ_equiv (halves n), bigSep_univ_sum]
    simp only [leaf_succ_inl, leaf_succ_inr]
    rfl

end PointsTo

end Cert.Hand

end
-- ==== Proof.Algebra.lean ====
/-
  The two forms of the specification are one function on finite inputs.

  The hidden rows agree on all extended reals: addition there is associative. For a row h of reals, write
  m = (∑ h) / 128, c k = h k − m, V = (∑ c²) / 128. All of these are reals, V ≥ 0 being a sum of squares over a
  positive number, and ε is a positive real, so s = √(V + ε) is a positive real. The reference's quotient c k / s is,
  by the definition of division by a nonzero real, the product c k · s⁻¹, and s⁻¹ is what the reciprocal square
  root of V + ε denotes; the remaining · γ k + β k is common to both forms.
-/
import proofs.«203519_g84241488544277_cont_sun_c4_283_31_alg».proof.Proof.Spec
import Mathlib.Tactic

noncomputable section

namespace Cert.Hand

open Idealize.ShloMosaic Idealize.ShloMosaic.ValueIdx

/-- ε denotes a positive real. -/
theorem eps_eq : ∃ e : ℝ, eps = (e : EReal) ∧ 0 < e := by
  refine ⟨9223372 * (2 : ℝ) ^ (-63 : Int), ?_, by positivity⟩
  simp [eps, Ideal.ofBits, Ideal.ieee, -EReal.coe_mul]

/-- The divisor denotes the real 128. -/
theorem c128_eq : c128 = ((128 : ℝ) : EReal) := by
  simp [c128, Ideal.ofBits, Ideal.ieee, -EReal.coe_mul]
  norm_num

/-- A finite sum of reals, each read as an extended real, is the sum read as an extended real. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division of a real by 128 (as the programs spell it) is a real. -/
theorem div_c128 (x : ℝ) : Ideal.div (x : EReal) c128 = ((x * (1 / 128) : ℝ) : EReal) := by
  rw [c128_eq, Ideal.div_coe (by norm_num : (128 : ℝ) ≠ 0), ← EReal.coe_mul]

section Row

variable (r : Fin 128 → ℝ)

/-- The mean of a row of reals, as a real. -/
def meanR : ℝ := (∑ k, r k) * (1 / 128)
/-- The centred row, as reals. -/
def cenR (k : Fin 128) : ℝ := r k - meanR r
/-- The variance of a row of reals, as a real. -/
def varR : ℝ := (∑ k, cenR r k * cenR r k) * (1 / 128)

theorem mean_coe : mean (fun k => (r k : EReal)) = (meanR r : EReal) := by
  rw [mean, coe_sum, div_c128, meanR]

theorem cen_coe (k : Fin 128) : cen (fun k => (r k : EReal)) k = (cenR r k : EReal) := by
  rw [cen, mean_coe, ← EReal.coe_sub, cenR]

theorem var_coe : var (fun k => (r k : EReal)) = (varR r : EReal) := by
  rw [var]
  simp only [cen_coe, ← EReal.coe_mul]
  rw [coe_sum, div_c128, varR]

theorem varR_nonneg : 0 ≤ varR r := by
  unfold varR
  refine mul_nonneg (Finset.sum_nonneg fun k _ => mul_self_nonneg _) (by norm_num)

/-- On a row of reals the two normalisations agree (whatever γ and β are). -/
theorem lnKer_eq_lnRef_coe (γ β : Fin 128 → EReal) (k : Fin 128) :
    lnKer (fun k => (r k : EReal)) γ β k = lnRef (fun k => (r k : EReal)) γ β k := by
  obtain ⟨e, he, hepos⟩ := eps_eq
  have hv : 0 < varR r + e := add_pos_of_nonneg_of_pos (varR_nonneg r) hepos
  have hs : 0 < Real.sqrt (varR r + e) := Real.sqrt_pos.2 hv
  rw [lnKer, lnRef, var_coe, cen_coe, he, ← EReal.coe_add, Ideal.sqrt_coe, Ideal.rsqrt_coe,
    if_neg (not_lt.2 hv.le), if_neg (not_lt.2 hv.le), if_neg hv.ne', Ideal.div_coe hs.ne', one_div]

end Row

/-- The hidden rows agree on all extended reals. -/
theorem hidKer_eq_hidRef (ids : SIds.Idx → BitVec 32) (Ww : SWord.Idx → EReal) (Wp : SPos.Idx → EReal)
    (Wt : STt.Idx → EReal) (p : Fin 1024) (t : Fin 200) :
    hidKer ids Ww Wp Wt p t = hidRef ids Ww Wp Wt p t := by
  funext k
  rw [hidKer, hidRef, add_assoc]

/-- On a hidden row of finite table entries the two normalisations agree. -/
theorem ln_hid_eq (ids : SIds.Idx → BitVec 32) (Ww : SWord.Idx → EReal) (Wp : SPos.Idx → EReal)
    (Wt : STt.Idx → EReal) (γ β : Fin 128 → EReal)
    (hW : ∀ i, ∃ r : ℝ, Ww i = (r : EReal)) (hP : ∀ i, ∃ r : ℝ, Wp i = (r : EReal))
    (hT : ∀ i, ∃ r : ℝ, Wt i = (r : EReal)) (p : Fin 1024) (t : Fin 200) (k : Fin 128) :
    lnKer (hidKer ids Ww Wp Wt p t) γ β k = lnRef (hidRef ids Ww Wp Wt p t) γ β k := by
  rw [hidKer_eq_hidRef]
  choose w hw using hW
  choose q hq using hP
  choose u hu using hT
  have hrow : hidRef ids Ww Wp Wt p t
      = fun k => ((w (ix2 (rowOf (ids (ix2 p t))) k) + q (ix2 (posRow t) k) + u (ix2 (0 : Fin 2) k) : ℝ) : EReal) := by
    funext k
    rw [hidRef, hw, hq, hu, EReal.coe_add, EReal.coe_add]
  rw [hrow]
  exact lnKer_eq_lnRef_coe _ _ _ _

/-- On finite inputs the kernel's form of the specification is the reference's form. (Only the three tables need
    be finite: γ and β enter both forms in the same way.) -/
theorem specKer_eq_specRef (ids : SIds.Idx → BitVec 32) (Ww : SWord.Idx → EReal) (Wp : SPos.Idx → EReal)
    (Wt : STt.Idx → EReal) (g b : SVec.Idx → EReal)
    (hW : ∀ i, ∃ r : ℝ, Ww i = (r : EReal)) (hP : ∀ i, ∃ r : ℝ, Wp i = (r : EReal))
    (hT : ∀ i, ∃ r : ℝ, Wt i = (r : EReal)) (_hg : ∀ i, ∃ r : ℝ, g i = (r : EReal))
    (_hb : ∀ i, ∃ r : ℝ, b i = (r : EReal)) :
    specKer ids Ww Wp Wt g b = specRef ids Ww Wp Wt g b :=
  funext fun i => ln_hid_eq ids Ww Wp Wt _ _ hW hP hT (i 0) (i 1) (i 2)

end Cert.Hand

end
-- ==== Proof.KernGlue.lean ====
/-
  The kernel's host operations around its two calls, read at one output index.

  The program flattens the ids [1024,200] → [204800], gathers the word table's rows by them, slices rows [0,200) of the
  position table, views γ and β as [1,128], runs the normalisation region on [204800,128], and views its result as
  [1024,200,128]. A reshape keeps row-major positions, so element (p, t, k) of the result is element (200·p + t, k) of
  the region's result, row 200·p + t of the flattened ids is ids[p, t], and (200·p + t) mod 200 = t is the position
  row. Given what the region computes at (r, k) — the normalisation at k of the row
  x[r, ·] + (pos[r mod 200, ·] + tt[0, ·]) — the whole result is the kernel's form of the specification.
-/
import proofs.«203519_g84241488544277_cont_sun_c4_283_31_alg».proof.KernelIdeal
import proofs.«203519_g84241488544277_cont_sun_c4_283_31_alg».proof.Proof.Spec
import proofs.«203519_g84241488544277_cont_sun_c4_283_31_alg».proof.Proof.TileDefs
import Idealize.ShloMosaic.Lib.Pipeline.Value
import Idealize.ShloMosaic.Lib.ValueIdx

noncomputable section

namespace Cert.KernelIdeal.Hand

open Cert.KernelIdeal
open Idealize.ShloMosaic Idealize.ShloMosaic.ValueIdx

variable [Cert.KernelIdeal.Facts]
open Facts₀ Facts

/-- The flattened ids at row 200·p + t are the ids at (p, t). -/
theorem flatIds_apply (a0 : S1024x200.Idx → BitVec 32) (h : S1024x200.ShapeCasts S204800) (p : Fin 1024) (t : Fin 200)
    (r : Fin 204800) (hr : r.val = p.val * 200 + t.val) : shapeCast S204800 a0 h (ix1 r) = a0 (ix2 p t) := by
  refine shapeCast_apply a0 h (ix1 r) (ix2 p t) ?_
  rw [Shape.rowMajor_val_two, Shape.rowMajor_val_one]
  show p.val * 200 + t.val = r.val
  omega

/-- The first 200 rows of the position table, at row q = t. -/
theorem posSlice_apply {α : Type} (a2 : S512x128.Idx → α) (h : S512x128.Slices ![0, 0] S200x128) (t : Fin 200) (q : Fin 200)
    (hq : q.val = t.val) (k : Fin 128) :
    extractStridedSlice S200x128 ![0, 0] a2 h (ix2 q k) = a2 (ix2 (Cert.Hand.posRow t) k) := by
  refine extractStridedSlice_apply ![0, 0] a2 h (ix2 q k) (ix2 (Cert.Hand.posRow t) k) fun a => ?_
  match a with
  | ⟨0, _⟩ => show t.val = 0 + q.val; omega
  | ⟨1, _⟩ => show k.val = 0 + k.val; omega

/-- A vector of 128 viewed as one row of 128, at (0, k). -/
theorem rowView_apply {α : Type} (v : S128.Idx → α) (h : S128.ShapeCasts S1x128) (k : Fin 128) :
    shapeCast S1x128 v h (ix2 (0 : Fin 1) k) = v (ix1 k) := by
  refine shapeCast_apply v h (ix2 (0 : Fin 1) k) (ix1 k) ?_
  rw [Shape.rowMajor_val_two, Shape.rowMajor_val_one]
  show k.val = 0 * 128 + k.val
  omega

/-- The [204800,128] array viewed as [1024,200,128], at (p, t, k), is the array at (200·p + t, k). -/
theorem outView_apply {α : Type} (X : S204800x128.Idx → α) (h : S204800x128.ShapeCasts S1024x200x128) (p : Fin 1024)
    (t : Fin 200) (k : Fin 128) (r : Fin 204800) (hr : r.val = p.val * 200 + t.val) :
    shapeCast S1024x200x128 X h (ix3 p t k) = X (ix2 r k) := by
  refine shapeCast_apply X h (ix3 p t k) (ix2 r k) ?_
  rw [Shape.rowMajor_val_two, Shape.rowMajor_val_three]
  show r.val * 128 + k.val = (p.val * 200 + t.val) * 128 + k.val
  rw [hr]

/-- The normalisation of equal rows with equal scale and shift is equal. -/
theorem lnKer_congr {h h' γ γ' β β' : Fin 128 → EReal} (e1 : h = h') (e2 : γ = γ') (e3 : β = β') (k : Fin 128) :
    Cert.Hand.lnKer h γ β k = Cert.Hand.lnKer h' γ' β' k := by
  subst e1 e2 e3; rfl

/-- The kernel's result array, given what the normalisation region computes at each (row, column), is the kernel's
    form of the specification. -/
theorem kernOut_eq_specKer
    (LN : (S204800x128.Idx → EReal) → (S200x128.Idx → EReal) → (S2x128.Idx → EReal) → (S1x128.Idx → EReal) →
      (S1x128.Idx → EReal) → S204800x128.Idx → EReal)
    (hLN : ∀ x pos tt g b (r : Fin 204800) (k : Fin 128), LN x pos tt g b (ValueIdx.ix2 r k)
      = Cert.Hand.lnKer (fun k' => x (ValueIdx.ix2 r k') + (pos (ValueIdx.ix2 ⟨r.val % 200, Nat.mod_lt _ (by decide)⟩ k')
          + tt (ValueIdx.ix2 (0 : Fin 2) k'))) (fun k' => g (ValueIdx.ix2 (0 : Fin 1) k'))
          (fun k' => b (ValueIdx.ix2 (0 : Fin 1) k')) k)
    (a0 : S1024x200.Idx → BitVec 32) (a1 : S100000x128.Idx → EReal) (a2 : S512x128.Idx → EReal) (a3 : S2x128.Idx → EReal)
    (a4 a5 : S128.Idx → EReal) :
    shapeCast S1024x200x128
        (LN (gatherRows (F := Ideal) (shapeCast S204800 a0 shapeCasts_S1024x200_S204800) a1)
          (extractStridedSlice S200x128 ![0, 0] a2 slices_S512x128_S200x128_0_0) a3
          (shapeCast S1x128 a4 shapeCasts_S128_S1x128) (shapeCast S1x128 a5 shapeCasts_S128_S1x128))
        shapeCasts_S204800x128_S1024x200x128
      = Cert.Hand.specKer a0 a1 a2 a3 a4 a5 := by
  funext i
  rw [eq_ix3 i]
  generalize i 0 = p
  generalize i 1 = t
  generalize i 2 = k
  change Fin 1024 at p
  change Fin 200 at t
  change Fin 128 at k
  have hr : p.val * 200 + t.val < 204800 := by have := p.isLt; have := t.isLt; omega
  refine (outView_apply _ _ p t k ⟨p.val * 200 + t.val, hr⟩ rfl).trans ((hLN _ _ _ _ _ _ _).trans ?_)
  show _ = Cert.Hand.lnKer (Cert.Hand.hidKer a0 a1 a2 a3 p t) (fun k => a4 (ix1 k)) (fun k => a5 (ix1 k)) k
  refine lnKer_congr (funext fun k' => ?_) (funext fun k' => ?_) (funext fun k' => ?_) _
  · show a1 (ix2 (Cert.Hand.rowOf (shapeCast S204800 a0 shapeCasts_S1024x200_S204800 (ix1 ⟨p.val * 200 + t.val, hr⟩))) k')
        + (_ + _) = a1 (ix2 (Cert.Hand.rowOf (a0 (ix2 p t))) k') + (a2 (ix2 (Cert.Hand.posRow t) k') + a3 (ix2 (0 : Fin 2) k'))
    rw [flatIds_apply a0 _ p t _ rfl, posSlice_apply a2 _ t _ (by show (p.val * 200 + t.val) % 200 = t.val; omega) k']
  · exact rowView_apply a4 _ k'
  · exact rowView_apply a5 _ k'

end Cert.KernelIdeal.Hand

end
-- ==== Proof.RegionValue.lean ====
/-
  The TensorCore region's result as ONE function of its five input arrays, and its value at an index at the ideal
  instance.

  The region walks the 204800 gathered rows in 32 halves of 6400 rows (16 blocks of 12800 rows, each handled in two
  halves). A half is 32 groups of 200 rows: row 200·a + c of a half is position c of a sequence, so it receives
  position row c and the token-type row 0, and is then layer-normalised along its 128 lanes. The result rows of a half
  depend on that half of the gathered rows only, and within it each row on itself only — but that second fact is a
  fact about sums of extended reals and is stated at the ideal instance alone; for a general float instance the result
  is the arithmetic applied to the whole half.
-/
import proofs.«203519_g84241488544277_cont_sun_c4_283_31_alg».proof.Proof.Common
import proofs.«203519_g84241488544277_cont_sun_c4_283_31_alg».proof.Proof.Spec
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- Half `h` of the gathered rows: rows [6400·h, 6400·h + 6400). -/
def halfRows (x : S204800x128.Idx → Elt F .f32) (h : Fin 32) : Vec F S6400x128 .f32 :=
  fun j => x (ix2 (⟨6400 * h.val + (j 0).val, by have := idx2_lt0 j; have := h.isLt; omega⟩ : Fin 204800) (j 1))

/-- Row 0 of the token-type table, as the one-row vector the region loads. -/
def ttRow (tt : S2x128.Idx → Elt F .f32) : Vec F S1x128 .f32 := fun j => tt (ix2 (0 : Fin 2) (j 1))

/-- The region's whole result: at row r, the arithmetic of the region applied to the half that holds r, read at r's
    place in that half. -/
def lnOut (x : S204800x128.Idx → Elt F .f32) (pos : S200x128.Idx → Elt F .f32) (tt : S2x128.Idx → Elt F .f32)
    (g b : S1x128.Idx → Elt F .f32) : S204800x128.Idx → Elt F .f32 :=
  fun J => k1_pay1 pos (ttRow tt) g b
    (halfRows x ⟨(J 0).val / 6400, by have := idx2_lt0 J; omega⟩)
    (ix2 (⟨(J 0).val % 6400, Nat.mod_lt _ (by decide)⟩ : Fin 6400) (J 1))

end Cert.KernelIdeal.Hand

end
-- ==== Proof.RegionValueIdeal.lean ====
/-
  The normalisation region's result at one (row, column), at the ideal instance.

  The region's arithmetic works on a half of 6400 rows viewed as 32 groups of 200: row j = 200·a + c of the half is
  position c of group a. It adds position row c and the token-type row to the gathered row, giving the hidden row
  h = x[j, ·] + (pos[c, ·] + tt[0, ·]); sums the 128 lanes and divides by 128 for the mean; subtracts it; sums the squares
  and divides by 128 for the variance; multiplies by the reciprocal square root of variance + ε, then by γ and adds β.
  Every reshape keeps row-major positions and every broadcast repeats along unit axes, so at (j, k) the result is the
  layer normalisation of h at k in the kernel's form; the lane sum from the zero word is the plain sum over the lane.
  Row r of the whole array is row r mod 6400 of half r div 6400, and (r mod 6400) mod 200 = r mod 200.
-/
import proofs.«203519_g84241488544277_cont_sun_c4_283_31_alg».proof.Proof.RegionValue
import proofs.«203519_g84241488544277_cont_sun_c4_283_31_alg».proof.Proof.Spec
import proofs.«203519_g84241488544277_cont_sun_c4_283_31_alg».proof.Proof.KernGlue
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.ValueIdx

/-! ## Layout operations at an index -/

section Layout
variable {α : Type}

theorem ix2_ext {n0 n1 : Nat} {a a' : Fin n0} {b b' : Fin n1} (ha : a.val = a'.val) (hb : b.val = b'.val) :
    (ix2 a b : (⟨2, ![n0, n1]⟩ : Shape).Idx) = ix2 a' b' := by
  rw [Fin.ext ha, Fin.ext hb]

/-- 6400 rows viewed as 32 groups of 200: (a, c, k) is row 200·a + c. -/
theorem cast6400_32 (x : S6400x128.Idx → α) (h : S6400x128.ShapeCasts S32x200x128) (a : Fin 32) (c : Fin 200) (k : Fin 128)
    (j : Fin 6400) (hj : j.val = a.val * 200 + c.val) : shapeCast S32x200x128 x h (ix3 a c k) = x (ix2 j k) := by
  refine shapeCast_apply x h (ix3 a c k) (ix2 j k) ?_
  rw [Shape.rowMajor_val_two, Shape.rowMajor_val_three]
  show j.val * 128 + k.val = (a.val * 200 + c.val) * 128 + k.val
  rw [hj]

/-- … and back. -/
theorem cast32_6400 (x : S32x200x128.Idx → α) (h : S32x200x128.ShapeCasts S6400x128) (a : Fin 32) (c : Fin 200) (k : Fin 128)
    (j : Fin 6400) (hj : j.val = a.val * 200 + c.val) : shapeCast S6400x128 x h (ix2 j k) = x (ix3 a c k) := by
  refine shapeCast_apply x h (ix2 j k) (ix3 a c k) ?_
  rw [Shape.rowMajor_val_two, Shape.rowMajor_val_three]
  show (a.val * 200 + c.val) * 128 + k.val = j.val * 128 + k.val
  rw [hj]

/-- A trailing unit axis added to [32, 200]. -/
theorem cast32x200_x1 (x : S32x200.Idx → α) (h : S32x200.ShapeCasts S32x200x1) (a : Fin 32) (c : Fin 200) (u : Fin 1) :
    shapeCast S32x200x1 x h (ix3 a c u) = x (ix2 a c) := by
  refine shapeCast_apply x h (ix3 a c u) (ix2 a c) ?_
  rw [Shape.rowMajor_val_two, Shape.rowMajor_val_three]
  show a.val * 200 + c.val = (a.val * 200 + c.val) * 1 + u.val
  have := u.isLt
  omega

/-- Two leading unit axes added to [128]. -/
theorem cast128_1x1x128 (x : S128.Idx → α) (h : S128.ShapeCasts S1x1x128) (u v : Fin 1) (k : Fin 128) :
    shapeCast S1x1x128 x h (ix3 u v k) = x (ix1 k) := by
  refine shapeCast_apply x h (ix3 u v k) (ix1 k) ?_
  rw [Shape.rowMajor_val_one, Shape.rowMajor_val_three]
  show k.val = (u.val * 1 + v.val) * 128 + k.val
  have := u.isLt
  have := v.isLt
  omega

/-- One group of 200 rows repeated over 32 groups. -/
theorem bcast_group (x : S1x200x128.Idx → α) (h : S1x200x128.Broadcasts S32x200x128) (a : Fin 32) (c : Fin 200) (k : Fin 128) :
    broadcastTo S32x200x128 x h (ix3 a c k) = x (ix3 (0 : Fin 1) c k) := by
  refine broadcastTo_apply x h (ix3 a c k) (ix3 (0 : Fin 1) c k) fun ax => ?_
  match ax with
  | ⟨0, _⟩ => rfl
  | ⟨1, _⟩ => rfl
  | ⟨2, _⟩ => rfl

/-- One value per row repeated over the 128 lanes. -/
theorem bcast_lanes (x : S32x200x1.Idx → α) (h : S32x200x1.Broadcasts S32x200x128) (a : Fin 32) (c : Fin 200) (k : Fin 128) :
    broadcastTo S32x200x128 x h (ix3 a c k) = x (ix3 a c (0 : Fin 1)) := by
  refine broadcastTo_apply x h (ix3 a c k) (ix3 a c (0 : Fin 1)) fun ax => ?_
  match ax with
  | ⟨0, _⟩ => rfl
  | ⟨1, _⟩ => rfl
  | ⟨2, _⟩ => rfl

/-- One row of 128 lanes repeated over all rows. -/
theorem bcast_rows (x : S1x1x128.Idx → α) (h : S1x1x128.Broadcasts S32x200x128) (a : Fin 32) (c : Fin 200) (k : Fin 128) :
    broadcastTo S32x200x128 x h (ix3 a c k) = x (ix3 (0 : Fin 1) (0 : Fin 1) k) := by
  refine broadcastTo_apply x h (ix3 a c k) (ix3 (0 : Fin 1) (0 : Fin 1) k) fun ax => ?_
  match ax with
  | ⟨0, _⟩ => rfl
  | ⟨1, _⟩ => rfl
  | ⟨2, _⟩ => rfl

end Layout

/-! ## The region's arithmetic in named pieces -/

/-- The hidden rows of a half as the region forms them, viewed as 32 groups of 200 rows. -/
def hid3 (v0 : Vec Ideal S200x128 .f32) (v2 : Vec Ideal S1x128 .f32) (v16 : Vec Ideal S6400x128 .f32) : FVec Ideal S32x200x128 .f32 :=
  addf (shapeCast S32x200x128 (shapeCast S6400x128 v16 shapeCasts_S6400x128_S6400x128) shapeCasts_S6400x128_S32x200x128)
    (broadcastTo S32x200x128
      (shapeCast S1x200x128
        (addf (shapeCast S200x128 v0 shapeCasts_S200x128_S200x128)
          (broadcastTo S200x128 (shapeCast S1x128 (shapeCast S128 v2 shapeCasts_S1x128_S128) shapeCasts_S128_S1x128)
            broadcasts_S1x128_S200x128))
        shapeCasts_S200x128_S1x200x128)
      broadcasts_S1x200x128_S32x200x128)

/-- Each row's lane sum divided by 128, kept as a column. -/
def rowMean3 (X : FVec Ideal S32x200x128 .f32) : FVec Ideal S32x200x1 .f32 :=
  divf (shapeCast S32x200x1
      (multiReduction (F := Ideal) .add [2] S32x200 X 0x00000000#32 reduces_S32x200x128_S32x200 (.inl rfl) rfl)
      shapeCasts_S32x200_S32x200x1)
    (broadcast S32x200x1 (Scalar.ofBits (F := Ideal) .f32 0x43000000#32))

/-- Each row less its mean. -/
def cen3 (X : FVec Ideal S32x200x128 .f32) : FVec Ideal S32x200x128 .f32 :=
  subf X (broadcastTo S32x200x128 (rowMean3 X) broadcasts_S32x200x1_S32x200x128)

/-- Each row's reciprocal square root of variance + ε, repeated over the lanes. -/
def rstd3 (X : FVec Ideal S32x200x128 .f32) : FVec Ideal S32x200x128 .f32 :=
  broadcastTo S32x200x128
    (rsqrt (addf (rowMean3 (mulf (cen3 X) (cen3 X))) (broadcast S32x200x1 (Scalar.ofBits (F := Ideal) .f32 0x2B8CBCCC#32))))
    broadcasts_S32x200x1_S32x200x128

/-- A one-row vector of 128 lanes repeated over all rows. -/
def lane3 (v : Vec Ideal S1x128 .f32) : FVec Ideal S32x200x128 .f32 :=
  broadcastTo S32x200x128 (shapeCast S1x1x128 (shapeCast S128 v shapeCasts_S1x128_S128) shapeCasts_S128_S1x1x128)
    broadcasts_S1x1x128_S32x200x128

/-- The region's arithmetic is these pieces put together. -/
theorem k1_pay1_eq (v0 : Vec Ideal S200x128 .f32) (v2 v7 v10 : Vec Ideal S1x128 .f32) (v16 : Vec Ideal S6400x128 .f32) :
    k1_pay1 (F := Ideal) v0 v2 v7 v10 v16
      = shapeCast S6400x128
          (addf (mulf (mulf (cen3 (hid3 v0 v2 v16)) (rstd3 (hid3 v0 v2 v16))) (lane3 v7)) (lane3 v10))
          shapeCasts_S32x200x128_S6400x128 := rfl

/-! ## The pieces at an index -/

theorem hid3_apply (v0 : Vec Ideal S200x128 .f32) (v2 : Vec Ideal S1x128 .f32) (v16 : Vec Ideal S6400x128 .f32)
    (a : Fin 32) (c : Fin 200) (k : Fin 128) (j : Fin 6400) (hj : j.val = a.val * 200 + c.val) :
    hid3 v0 v2 v16 (ix3 a c k) = v16 (ix2 j k) + (v0 (ix2 c k) + v2 (ix2 (0 : Fin 1) k)) := by
  unfold hid3
  rw [addf_apply, cast6400_32 _ _ a c k j hj, shapeCast_self, bcast_group, shapeCast_ab_1ab_apply, addf_apply, shapeCast_self,
    broadcastTo_1b_ab_apply, shapeCast_a_1a_apply, shapeCast_1a_a_apply]

theorem rowMean3_apply (X : FVec Ideal S32x200x128 .f32) (a : Fin 32) (c : Fin 200) (u : Fin 1) :
    rowMean3 X (ix3 a c u) = Ideal.div (∑ k : Fin 128, X (ix3 a c k)) Cert.Hand.c128 := by
  unfold rowMean3
  rw [divf_apply, cast32x200_x1, broadcast_apply]
  refine congrArg₂ Ideal.div ?_ rfl
  refine (Ideal.multiReduction_add_single X _ reduces_S32x200x128_S32x200 (.inl rfl) rfl (ix2 a c)).trans ?_
  show ∑ k : Fin 128, X (reduces_S32x200x128_S32x200.lift (ix2 a c) k) = ∑ k : Fin 128, X (ix3 a c k)
  refine Finset.sum_congr rfl fun k _ => congrArg X ?_
  funext d
  match d with
  | ⟨0, _⟩ => rfl
  | ⟨1, _⟩ => rfl
  | ⟨2, _⟩ => rfl

theorem cen3_apply (X : FVec Ideal S32x200x128 .f32) (a : Fin 32) (c : Fin 200) (k : Fin 128) :
    cen3 X (ix3 a c k) = Cert.Hand.cen (fun k' => X (ix3 a c k')) k := by
  unfold cen3
  rw [subf_apply, bcast_lanes, rowMean3_apply]
  rfl

theorem var3_apply (X : FVec Ideal S32x200x128 .f32) (a : Fin 32) (c : Fin 200) (u : Fin 1) :
    rowMean3 (mulf (cen3 X) (cen3 X)) (ix3 a c u) = Cert.Hand.var (fun k' => X (ix3 a c k')) := by
  rw [rowMean3_apply]
  unfold Cert.Hand.var
  refine congrArg₂ Ideal.div (Finset.sum_congr rfl fun k' _ => ?_) rfl
  rw [mulf_apply, cen3_apply]

theorem rstd3_apply (X : FVec Ideal S32x200x128 .f32) (a : Fin 32) (c : Fin 200) (k : Fin 128) :
    rstd3 X (ix3 a c k) = Ideal.rsqrt (Cert.Hand.var (fun k' => X (ix3 a c k')) + Cert.Hand.eps) := by
  unfold rstd3
  rw [bcast_lanes]
  show Ideal.rsqrt (rowMean3 (mulf (cen3 X) (cen3 X)) (ix3 a c (0 : Fin 1)) + Cert.Hand.eps) = _
  rw [var3_apply]

theorem lane3_apply (v : Vec Ideal S1x128 .f32) (a : Fin 32) (c : Fin 200) (k : Fin 128) :
    lane3 v (ix3 a c k) = v (ix2 (0 : Fin 1) k) := by
  unfold lane3
  rw [bcast_rows, cast128_1x1x128, shapeCast_1a_a_apply]

/-- The region's arithmetic at row j = 200·a + c of a half, lane k: the normalisation of that row's hidden row. -/
theorem k1_pay1_apply (v0 : Vec Ideal S200x128 .f32) (v2 v7 v10 : Vec Ideal S1x128 .f32) (v16 : Vec Ideal S6400x128 .f32)
    (a : Fin 32) (c : Fin 200) (k : Fin 128) (j : Fin 6400) (hj : j.val = a.val * 200 + c.val) :
    k1_pay1 (F := Ideal) v0 v2 v7 v10 v16 (ix2 j k)
      = Cert.Hand.lnKer (fun k' => v16 (ix2 j k') + (v0 (ix2 c k') + v2 (ix2 (0 : Fin 1) k')))
          (fun k' => v7 (ix2 (0 : Fin 1) k')) (fun k' => v10 (ix2 (0 : Fin 1) k')) k := by
  rw [k1_pay1_eq, cast32_6400 _ _ a c k j hj, addf_apply, mulf_apply, mulf_apply, cen3_apply, rstd3_apply, lane3_apply, lane3_apply]
  have hrow : (fun k' => hid3 v0 v2 v16 (ix3 a c k')) = fun k' => v16 (ix2 j k') + (v0 (ix2 c k') + v2 (ix2 (0 : Fin 1) k')) :=
    funext fun k' => hid3_apply v0 v2 v16 a c k' j hj
  rw [hrow]
  rfl

/-! ## The region's whole result at an index -/

/-- The region's result at (r, k) is the layer normalisation, in the kernel's form, of the hidden row of r. -/
theorem lnOut_apply_ideal (x : S204800x128.Idx → EReal) (pos : S200x128.Idx → EReal) (tt : S2x128.Idx → EReal)
    (g b : S1x128.Idx → EReal) (r : Fin 204800) (k : Fin 128) :
    lnOut (F := Ideal) x pos tt g b (ValueIdx.ix2 r k)
      = Cert.Hand.lnKer (fun k' => x (ValueIdx.ix2 r k') + (pos (ValueIdx.ix2 ⟨r.val % 200, Nat.mod_lt _ (by decide)⟩ k')
          + tt (ValueIdx.ix2 (0 : Fin 2) k'))) (fun k' => g (ValueIdx.ix2 (0 : Fin 1) k'))
          (fun k' => b (ValueIdx.ix2 (0 : Fin 1) k')) k := by
  have hr := r.isLt
  refine (k1_pay1_apply pos (ttRow tt) g b (halfRows x ⟨r.val / 6400, by omega⟩)
    ⟨r.val % 6400 / 200, by omega⟩ ⟨r.val % 6400 % 200, by omega⟩ k ⟨r.val % 6400, by omega⟩
    (by show r.val % 6400 = r.val % 6400 / 200 * 200 + r.val % 6400 % 200; omega)).trans ?_
  refine lnKer_congr (funext fun k' => ?_) rfl rfl k
  exact congrArg₂ (· + ·)
    (congrArg x (ix2_ext (by show 6400 * (r.val / 6400) + r.val % 6400 = r.val; omega) rfl))
    (congrArg₂ (· + ·) (congrArg pos (ix2_ext (by show r.val % 6400 % 200 = r.val % 200; omega) rfl)) rfl)

/-- The kernel's result array, with the region's result in place, is the kernel's form of the specification. -/
theorem kernOut_lnOut_eq_specKer (a0 : S1024x200.Idx → BitVec 32) (a1 : S100000x128.Idx → EReal) (a2 : S512x128.Idx → EReal)
    (a3 : S2x128.Idx → EReal) (a4 a5 : S128.Idx → EReal) :
    shapeCast S1024x200x128
        (lnOut (F := Ideal) (gatherRows (F := Ideal) (shapeCast S204800 a0 shapeCasts_S1024x200_S204800) a1)
          (extractStridedSlice S200x128 ![0, 0] a2 slices_S512x128_S200x128_0_0) a3
          (shapeCast S1x128 a4 shapeCasts_S128_S1x128) (shapeCast S1x128 a5 shapeCasts_S128_S1x128))
        shapeCasts_S204800x128_S1024x200x128
      = Cert.Hand.specKer a0 a1 a2 a3 a4 a5 :=
  kernOut_eq_specKer (lnOut (F := Ideal)) (fun x pos tt g b r k => lnOut_apply_ideal x pos tt g b r k) a0 a1 a2 a3 a4 a5

end Cert.KernelIdeal.Hand

end
-- ==== Proof.FinalFacts.lean ====
/-
  Two facts the assembly takes. The word table's full share is 32 shares, one per tile: the full share halved five
  times. And the two programs' result functions agree under the precondition: the reference's result is specRef of
  the arguments (its ids below 100000), the kernel's is specKer of them, and the two specifications are one function
  where the float arguments are finite.
-/
import proofs.«203519_g84241488544277_cont_sun_c4_283_31_alg».proof.Proof.Assemble
import proofs.«203519_g84241488544277_cont_sun_c4_283_31_alg».proof.Proof.Shares
import proofs.«203519_g84241488544277_cont_sun_c4_283_31_alg».proof.Proof.Algebra
import proofs.«203519_g84241488544277_cont_sun_c4_283_31_alg».proof.Proof.KernGlue
import proofs.«203519_g84241488544277_cont_sun_c4_283_31_alg».proof.Proof.RegionValueIdeal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- Tile number w's share of the word table: leaf w of the full share halved five times. -/
def tq32 (w : Fin 32) : PosShare TreeShare := Cert.Hand.leaf 5 fullShare (Fin.cast (by norm_num : 32 = 2 ^ 5) w)

theorem htq32 {F : FTy → Type} (d : Dev nD) (f : Buf (Elt F) (tabLoc d)) :
    (tabLoc d ↦{fullShare} f : sProp (MT nD τ sig (HIx 1) (Elt F) ℕ UU ℕ)) = bigSep Finset.univ fun w : Fin 32 => tabLoc d ↦{tq32 w} f := by
  rw [Cert.Hand.pointsTo_leaves Finset.univ f 5 fullShare]
  exact bigSep_univ_equiv (finCongr (by norm_num : 32 = 2 ^ 5)) _

/-- The reference's result is the kernel's, as functions of the arguments, under the precondition. -/
theorem hval
    (href : ∀ (a0 : S1024x200.Idx → BitVec 32) (a1 : S100000x128.Idx → EReal) (a2 : S512x128.Idx → EReal) (a3 : S2x128.Idx → EReal) (a4 a5 : S128.Idx → EReal),
      (∀ j, (a0 j).toNat < 100000) → Cert.ReferenceIdeal.RefValue.refOut a0 a1 a2 a3 a4 a5 = Cert.Hand.specRef a0 a1 a2 a3 a4 a5)
    (a0 : S1024x200.Idx → BitVec 32) (a1 : S100000x128.Idx → EReal) (a2 : S512x128.Idx → EReal) (a3 : S2x128.Idx → EReal) (a4 a5 : S128.Idx → EReal)
    (h : Cert.Pre_input_domain.fn (F := Ideal) a0 a1 a2 a3 a4 a5 = (fun _ => 1#1)) :
    Cert.ReferenceIdeal.RefValue.refOut a0 a1 a2 a3 a4 a5 = kernOut (F := Ideal) (lnOut (F := Ideal)) a0 a1 a2 a3 a4 a5 := by
  have hids := Cert.Hand.Pre.ids_lt (F := Ideal) a0 a1 a2 a3 a4 a5 h
  obtain ⟨h1, h2, h3, h4, h5⟩ := Cert.Hand.Pre.finite_ideal a0 a1 a2 a3 a4 a5 h
  refine (href a0 a1 a2 a3 a4 a5 hids).trans ((Cert.Hand.specKer_eq_specRef a0 a1 a2 a3 a4 a5 h1 h2 h3 h4 h5).symm.trans ?_)
  unfold kernOut
  exact (kernOut_lnOut_eq_specKer a0 a1 a2 a3 a4 a5).symm

end Cert.KernelIdeal.Hand

end
-- ==== Proof.TileFacts.lean ====
/-
  The vocabulary of the tile's task: its thread, its semaphore cells, the arrays and scratch buffers as the kernel's
  memrefs name them, the values (the row a position's id selects, what the index scratch holds once fetched, two hundred
  gathered rows, a range of rows of the gathered array), and the facts about those values the ring's steps rest on,
  stated here and proved apart.
-/
import proofs.«203519_g84241488544277_cont_sun_c4_283_31_alg».proof.Proof.TileDefs
import Idealize.ShloMosaic.Lib.SparseCore.Scatter

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's thread, cells and memrefs -/

abbrev thrV (d : Dev nD) (L : grid0.Coords) : Thread nD τ := V d (cV L) (jV L)
abbrev cellOf (d : Dev nD) (L : grid0.Coords) (s : DmaSem sig) : GSem nD τ sig := (thrV d L, .dma s)

theorem cell_ne (d : Dev nD) (L : grid0.Coords) {a b : DmaSem sig} (h : a ≠ b) : cellOf d L a ≠ cellOf d L b :=
  fun e => h (SemLoc.dma.inj (Prod.mk.inj e).2)

/-- The arrays and the scratch buffers as the kernel's memrefs name them. -/
abbrev idsV : Memref sig .scVector .hbm S204800 .i32 := Memref.whole main_v0_scv
abbrev tabV : Memref sig .scVector .hbm S100000x128 .f32 := Memref.whole main_arg1_scv
abbrev outV : Memref sig .scVector .hbm S204800x128 .f32 := Memref.whole main_v1_scv
abbrev idxV : Memref sig .scVector .vmem S6400 .i32 := Memref.whole cc0_scratch0
abbrev B0 : Memref sig .scVector .vmem S200x128 .f32 := Memref.whole cc0_scratch1
abbrev B1 : Memref sig .scVector .vmem S200x128 .f32 := Memref.whole cc0_scratch2
abbrev B2 : Memref sig .scVector .vmem S200x128 .f32 := Memref.whole cc0_scratch3
abbrev B3 : Memref sig .scVector .vmem S200x128 .f32 := Memref.whole cc0_scratch4
/-- The whole word table, sliced at offset zero as every gather names it. -/
abbrev tabS : Memref sig .scVector .hbm S100000x128 .f32 :=
  tabV.slice (Rect.unit (s := S100000x128) ![0, 0] S100000x128.size inb_S100000x128_S100000x128_0_0) (fun _ => rfl)
/-- Two hundred consecutive entries of the index scratch. -/
abbrev offsM (off : Fin 1 → ℕ) (inb : ∀ a, off a + S200.size a ≤ S6400.size a) : Memref sig .scVector .vmem S200 .i32 :=
  idxV.slice (Rect.unit (s := S6400) off S200.size inb) (fun _ => rfl)
/-- Two hundred consecutive rows of the gathered array. -/
abbrev chunkM (off : Fin 2 → ℕ) (inb : ∀ a, off a + S200x128.size a ≤ S204800x128.size a) : Memref sig .scVector .hbm S200x128 .f32 :=
  outV.slice (Rect.unit (s := S204800x128) off S200x128.size inb) (fun _ => rfl)

/-! ## The values -/

/-- The first row of tile L: tile number 2·(L 1) + (L 0), times 6400. -/
def baseRow (L : grid0.Coords) : ℕ := 12800 * (L 1).val + 6400 * (L 0).val

/-- The id at flat position n (zero past the end: never read there). -/
def idAt (ids : S204800.Idx → BitVec 32) (n : ℕ) : BitVec 32 := if h : n < 204800 then ids (ValueIdx.ix1 ⟨n, h⟩) else 0

/-- What the index scratch holds once the tile's ids are fetched: entry p is the id at position base + p. -/
def fidxOf (ids : S204800.Idx → BitVec 32) (L : grid0.Coords) : S6400.Idx → BitVec 32 := fun p => idAt ids (baseRow L + (p 0).val)

/-- The two hundred table rows the ids at positions n0, n0 + 1, … select. -/
def rowsAt (ids : S204800.Idx → BitVec 32) (tab : S100000x128.Idx → Elt F .f32) (n0 : ℕ) : S200x128.Idx → Elt F .f32 :=
  fun x => tab (ValueIdx.ix2 (Cert.Hand.rowOf (idAt ids (n0 + (x 0).val))) (x 1))

/-- The elements of the gathered array in rows [lo, hi). -/
def rowsRange (lo hi : ℕ) : Finset S204800x128.Idx := Finset.univ.filter fun i => lo ≤ (i 0).val ∧ (i 0).val < hi

theorem mem_rowsRange {lo hi : ℕ} {i : S204800x128.Idx} : i ∈ rowsRange lo hi ↔ lo ≤ (i 0).val ∧ (i 0).val < hi := by
  simp [rowsRange]

section Tile

variable (d : Dev nD) (L : grid0.Coords) (ids : Buf (Elt F) (idsLoc d)) (tab : Buf (Elt F) (tabLoc d))

/-- The index scratch's location and the contents it keeps from the fetch on. -/
abbrev idxLoc : Loc nD τ sig := (thrV d L).loc cc0_scratch0
abbrev fidx : Buf (Elt F) (idxLoc d L) := fidxOf ids L

/-! ## What a slot of the ring holds -/

/-- The transfers' amounts: a gathered chunk's, a written chunk's. -/
abbrev NG0 : ℕ := (B0).view.dmaCredit
abbrev NG1 : ℕ := (B1).view.dmaCredit
abbrev NG2 : ℕ := (B2).view.dmaCredit
abbrev NG3 : ℕ := (B3).view.dmaCredit
abbrev NW : ℕ := (chunkM (k0_off11 L) (k0_off11_inb L)).view.dmaCredit

/-! ## The facts about values the ring's steps use

Each is a statement about plain index functions and views: no resource, no program. -/

/-- What the steps of the ring need to know of the values: the fetched ids are in range of the table; a gather through
    entries [o, o + 200) of the index scratch delivers the rows the ids at positions base + o … select; a chunk of the
    gathered array is a range of rows; a chunk written with those rows holds the final values there; and the fetch lands
    the tile's ids in the index scratch. -/
structure ValueFacts : Prop where
  idx_inb : (∀ j, (ids j).toNat < 100000) → ∀ (off : Fin 1 → ℕ) (inb : ∀ a, off a + S200.size a ≤ S6400.size a),
    ∀ x, ((offsM off inb).view.read (Elt F) (fidx d L ids) x).toNat < S100000x128.size gathers_S100000x128_S200x128.axis
  gather_value : ∀ (off : Fin 1 → ℕ) (inb : ∀ a, off a + S200.size a ≤ S6400.size a) (o : ℕ), off = ![o] →
    ∀ (hn : S200.numel = S200x128.size gathers_S100000x128_S200x128.axis')
      (hin : ∀ x, ((offsM off inb).view.read (Elt F) (fidx d L ids) x).toNat < S100000x128.size gathers_S100000x128_S200x128.axis),
      SparseCore.gatherPayload gathers_S100000x128_S200x128 ((tabS).view.read (Elt F) tab)
          (SparseCore.rows ((offsM off inb).view.read (Elt F) (fidx d L ids)) hn hin)
        = rowsAt ids tab (baseRow L + o)
  chunk_set : ∀ (off : Fin 2 → ℕ) (inb : ∀ a, off a + S200x128.size a ≤ S204800x128.size a) (n0 : ℕ), off = ![n0, 0] →
    (chunkM off inb).view.set = rowsRange n0 (n0 + 200)
  write_value : ∀ (off : Fin 2 → ℕ) (inb : ∀ a, off a + S200x128.size a ≤ S204800x128.size a) (n0 : ℕ), off = ![n0, 0] →
    ∀ (g0 : Buf (Elt F) (gatLoc d)) (w : S200x128.Idx → Elt F .f32), w = rowsAt ids tab n0 →
      ∀ i ∈ rowsRange n0 (n0 + 200), (chunkM off inb).view.write (Elt F) g0 w Finset.univ i = gatherRows ids tab i
  fetch_value : ∀ (fs : Buf (Elt F) (idxLoc d L)),
    (idxV).view.write (Elt F) fs (ReadAs.same.apply (((idsV).slice (idsRectK L) (fun _ => rfl)).view.read (Elt F) ids)) Finset.univ
      = fidx d L ids
  out_set : outSetK L = rowsRange (baseRow L) (baseRow L + 6400)

end Tile

end Cert.KernelIdeal.Hand

end
-- ==== Proof.TileLoop.lean ====
/-
  The ring of four row buffers, step by step. A slot is a row buffer with its own gather semaphore and its own write
  semaphore, a read share of the word table and a share of the index scratch. Four steps move a slot round: the gather of
  two hundred rows is issued from the slot at rest; its wait hands the slot back holding the rows the ids select; the
  copy-out of those rows to a range of rows of the gathered array is issued; its wait hands the row buffer back and the
  rows written join the rows that are final. Each step is proved once per slot, at any offsets; the state of the ring before
  trip k of the loop is stated last.
-/
import proofs.«203519_g84241488544277_cont_sun_c4_283_31_alg».proof.Proof.TileFacts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords) (ids : Buf (Elt F) (idsLoc d)) (tab : Buf (Elt F) (tabLoc d))

/-- Slot 0: its row buffer at contents f, its read share of the word table and its share of the index scratch. -/
abbrev SlotRes0 (qt qi : PosShare TreeShare) (f : Buf (Elt F) ((thrV d L).loc cc0_scratch1)) : sProp 𝕄 :=
  iprop(((B0).view.loc (thrV d L) ↦{fullShare} f) ∗ ((tabV).view.loc (thrV d L) ↦{qt} tab) ∗ ((idxV).view.loc (thrV d L) ↦{qi} fidx d L ids))
/-- Slot 0 while the gather of the rows from position n0 is in flight: the wait delivers the slot with those rows. -/
def Gath0 (qt qi : PosShare TreeShare) (n0 : ℕ) : sProp 𝕄 :=
  Transfers.Flight countersEmb (thrV d L) (.dma cc0_scratch5.sem) (default : HIx 1) (NG0) (SlotRes0 d L ids tab qt qi (rowsAt ids tab n0))
/-- Slot 0 while its rows are being copied out to rows [n0, n0 + 200): the wait delivers those rows of the gathered
    array at their final values and the row buffer back. -/
def Writ0 (n0 : ℕ) : sProp 𝕄 :=
  Transfers.Flight countersEmb (thrV d L) (.dma cc0_scratch9.sem) (default : HIx 1) (NW L)
    iprop((gatLoc d ↦[rowsRange n0 (n0 + 200)]{fullShare} gatherRows ids tab) ∗ ((B0).view.loc (thrV d L) ↦{fullShare} rowsAt ids tab n0))

/-- Slot 1: its row buffer at contents f, its read share of the word table and its share of the index scratch. -/
abbrev SlotRes1 (qt qi : PosShare TreeShare) (f : Buf (Elt F) ((thrV d L).loc cc0_scratch2)) : sProp 𝕄 :=
  iprop(((B1).view.loc (thrV d L) ↦{fullShare} f) ∗ ((tabV).view.loc (thrV d L) ↦{qt} tab) ∗ ((idxV).view.loc (thrV d L) ↦{qi} fidx d L ids))
/-- Slot 1 while the gather of the rows from position n0 is in flight: the wait delivers the slot with those rows. -/
def Gath1 (qt qi : PosShare TreeShare) (n0 : ℕ) : sProp 𝕄 :=
  Transfers.Flight countersEmb (thrV d L) (.dma cc0_scratch6.sem) (default : HIx 1) (NG1) (SlotRes1 d L ids tab qt qi (rowsAt ids tab n0))
/-- Slot 1 while its rows are being copied out to rows [n0, n0 + 200): the wait delivers those rows of the gathered
    array at their final values and the row buffer back. -/
def Writ1 (n0 : ℕ) : sProp 𝕄 :=
  Transfers.Flight countersEmb (thrV d L) (.dma cc0_scratch10.sem) (default : HIx 1) (NW L)
    iprop((gatLoc d ↦[rowsRange n0 (n0 + 200)]{fullShare} gatherRows ids tab) ∗ ((B1).view.loc (thrV d L) ↦{fullShare} rowsAt ids tab n0))

/-- Slot 2: its row buffer at contents f, its read share of the word table and its share of the index scratch. -/
abbrev SlotRes2 (qt qi : PosShare TreeShare) (f : Buf (Elt F) ((thrV d L).loc cc0_scratch3)) : sProp 𝕄 :=
  iprop(((B2).view.loc (thrV d L) ↦{fullShare} f) ∗ ((tabV).view.loc (thrV d L) ↦{qt} tab) ∗ ((idxV).view.loc (thrV d L) ↦{qi} fidx d L ids))
/-- Slot 2 while the gather of the rows from position n0 is in flight: the wait delivers the slot with those rows. -/
def Gath2 (qt qi : PosShare TreeShare) (n0 : ℕ) : sProp 𝕄 :=
  Transfers.Flight countersEmb (thrV d L) (.dma cc0_scratch7.sem) (default : HIx 1) (NG2) (SlotRes2 d L ids tab qt qi (rowsAt ids tab n0))
/-- Slot 2 while its rows are being copied out to rows [n0, n0 + 200): the wait delivers those rows of the gathered
    array at their final values and the row buffer back. -/
def Writ2 (n0 : ℕ) : sProp 𝕄 :=
  Transfers.Flight countersEmb (thrV d L) (.dma cc0_scratch11.sem) (default : HIx 1) (NW L)
    iprop((gatLoc d ↦[rowsRange n0 (n0 + 200)]{fullShare} gatherRows ids tab) ∗ ((B2).view.loc (thrV d L) ↦{fullShare} rowsAt ids tab n0))

/-- Slot 3: its row buffer at contents f, its read share of the word table and its share of the index scratch. -/
abbrev SlotRes3 (qt qi : PosShare TreeShare) (f : Buf (Elt F) ((thrV d L).loc cc0_scratch4)) : sProp 𝕄 :=
  iprop(((B3).view.loc (thrV d L) ↦{fullShare} f) ∗ ((tabV).view.loc (thrV d L) ↦{qt} tab) ∗ ((idxV).view.loc (thrV d L) ↦{qi} fidx d L ids))
/-- Slot 3 while the gather of the rows from position n0 is in flight: the wait delivers the slot with those rows. -/
def Gath3 (qt qi : PosShare TreeShare) (n0 : ℕ) : sProp 𝕄 :=
  Transfers.Flight countersEmb (thrV d L) (.dma cc0_scratch8.sem) (default : HIx 1) (NG3) (SlotRes3 d L ids tab qt qi (rowsAt ids tab n0))
/-- Slot 3 while its rows are being copied out to rows [n0, n0 + 200): the wait delivers those rows of the gathered
    array at their final values and the row buffer back. -/
def Writ3 (n0 : ℕ) : sProp 𝕄 :=
  Transfers.Flight countersEmb (thrV d L) (.dma cc0_scratch12.sem) (default : HIx 1) (NW L)
    iprop((gatLoc d ↦[rowsRange n0 (n0 + 200)]{fullShare} gatherRows ids tab) ∗ ((B3).view.loc (thrV d L) ↦{fullShare} rowsAt ids tab n0))

omit [FloatOps F] in
/-- Rows [a, c) of the gathered array are rows [a, b) and rows [b, c). -/
theorem pts_range_split (a b c : ℕ) (hab : a ≤ b) (hbc : b ≤ c) (q : PosShare TreeShare) (f : Buf (Elt F) (gatLoc d)) :
    (gatLoc d ↦[rowsRange a c]{q} f : sProp 𝕄) ⊣⊢ iprop((gatLoc d ↦[rowsRange a b]{q} f) ∗ (gatLoc d ↦[rowsRange b c]{q} f)) := by
  have hsub : rowsRange a b ⊆ rowsRange a c := fun i hi => by
    rw [mem_rowsRange] at hi ⊢; omega
  have hd : rowsRange a c \ rowsRange a b = rowsRange b c := by
    ext i; simp only [Finset.mem_sdiff, mem_rowsRange]; omega
  have h : (gatLoc d ↦[rowsRange a c]{q} f : sProp 𝕄)
      ⊣⊢ iprop((gatLoc d ↦[rowsRange a b]{q} f) ∗ (gatLoc d ↦[rowsRange a c \ rowsRange a b]{q} f)) := pointsTo_split_subset hsub
  rw [hd] at h
  exact h

omit [FloatOps F] in
/-- The rows a trip's j-th copy-out writes, in closed form. -/
theorem off4_eq (k : Fin k0_t1_loop.trips) (r : Fin 4) (n0 : ℕ) (h : n0 = baseRow L + 800 * k.val + 200 * r.val) :
    k0_off4 L k (BitVec.ofNat 32 r.val) = ![n0, 0] := by
  subst h; rw [k0_off4_eq]; rfl

set_option maxHeartbeats 1000000 in
/-- Slot 0: the gather of two hundred rows is issued from the slot at rest. -/
theorem gatherStart0 {α : Type} {Q : α → sProp 𝕄} {k : PUnit → Prog (TpuEff nD τ sig (Elt F) Λ₀ (thrV d L).2) α}
    (HV : ValueFacts d L ids tab) (hids : ∀ j, (ids j).toNat < 100000)
    (off : Fin 1 → ℕ) (inb : ∀ a, off a + S200.size a ≤ S6400.size a) (o : ℕ) (hoff : off = ![o]) (n0 : ℕ) (hn0 : n0 = baseRow L + o)
    (qt qi : PosShare TreeShare) (f : Buf (Elt F) ((thrV d L).loc cc0_scratch1))
    {hp : (thrV d L).2.kind = .scVector} {hn : S200.numel = S200x128.size gathers_S100000x128_S200x128.axis'}
    {hsrc : (tabS).view.WordExact} {he : EltTy.f32.bits = 32} {hsp : Space.hbm = .hbm ∨ Space.hbm = .shared} {hr : S100000x128.StreamRows 0} :
    iprop(SlotRes0 d L ids tab qt qi f ∗ semVal (cellOf d L cc0_scratch5.sem) 0)
      ⊢ iprop((Gath0 d L ids tab qt qi n0 -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather hp tabS B0 gathers_S100000x128_S200x128 (offsM off inb) hn cc0_scratch5.sem hsrc he hsp hr >>= k) Q) := by
  subst hn0
  unfold Gath0
  iintro ⟨⟨Hb, Ht, Hi⟩, Hsem⟩ Hk
  ihave Hts := (pointsTo_split_subset (q := qt) (f := tab) (S := Finset.univ) (Finset.subset_univ (tabS).view.set)).1 $$ Ht
  icases Hts with ⟨Ht, Htr⟩
  ihave His := (pointsTo_split_subset (q := qi) (f := fidx d L ids) (S := Finset.univ) (Finset.subset_univ (offsM off inb).view.set)).1 $$ Hi
  icases His with ⟨Hi, Hir⟩
  have hbs : (B0).view.set = Finset.univ := View.set_whole _
  ihave Hb' := (Entails.of_eq (show ((B0).view.loc (thrV d L) ↦{fullShare} f : sProp 𝕄)
      = (B0).view.loc (thrV d L) ↦[(B0).view.set]{fullShare} f by rw [hbs])) $$ Hb
  have hN : ∀ h : S100000x128.Gathers 0 S200x128, ∑ j, ((B0).slice (S200x128.rowRect h.axis' j) (S200x128.stride_rowRect h.axis' j)).view.dmaCredit
      = (B0).view.dmaCredit := fun h => SparseCore.sum_rowCredit_eq_dmaCredit (B0) h.axis' (fun _ => rfl)
  iapply (SparseCore.wp_indirectGatherLocal countersEmb 𝒱₀ (thrV d L) none (hg := gathers_S100000x128_S200x128) (default : HIx 1)
      (B0).view.dmaCredit (hN _) (by decide) (HV.idx_inb hids off inb)) $$ [Ht Hb' Hi Hsem]
  · isplitl [Ht]; · iexact Ht
    isplitl [Hb']; · iexact Hb'
    isplitl [Hi]; · iexact Hi
    iexact Hsem
  iintro Hfl
  iapply Hk
  ihave Hfl2 := (Transfers.Flight_frame countersEmb (thrV d L) (R := iprop(((tabV).view.loc (thrV d L) ↦[Finset.univ \ (tabS).view.set]{qt} tab)
      ∗ ((idxV).view.loc (thrV d L) ↦[Finset.univ \ (offsM off inb).view.set]{qi} fidx d L ids)))) $$ [Htr Hir Hfl]
  · isplitl [Htr Hir]
    · isplitl [Htr]; · iexact Htr
      iexact Hir
    · iexact Hfl
  iapply (Transfers.Flight_mono countersEmb (thrV d L) (by
    iintro ⟨⟨Htr, Hir⟩, Hb, Ht, Hi⟩
    rw [View.write_whole_univ, HV.gather_value off inb o hoff]
    isplitl [Hb]
    · rw [hbs]; iexact Hb
    isplitl [Ht Htr]
    · iapply (pointsTo_split_subset (q := qt) (f := tab) (S := Finset.univ) (Finset.subset_univ (tabS).view.set)).2
      isplitl [Ht]; · iexact Ht
      iexact Htr
    · iapply (pointsTo_split_subset (q := qi) (f := fidx d L ids) (S := Finset.univ) (Finset.subset_univ (offsM off inb).view.set)).2
      isplitl [Hi]; · iexact Hi
      iexact Hir)) $$ Hfl2

/-- Slot 0: the wait for its gather hands the slot back holding the gathered rows. -/
theorem gatherWait0 {α : Type} {Q : α → sProp 𝕄} {k : PUnit → Prog (TpuEff nD τ sig (Elt F) Λ₀ (thrV d L).2) α}
    (qt qi : PosShare TreeShare) (n0 : ℕ) (O : CellTallies nD τ sig (HIx 1)) (W : Waits sig (HIx 1))
    {srcw : Memref sig (thrV d L).2.kind .hbm S100000x128 .f32} {hsrc : srcw.view.WordExact} {hdst : (B0).view.WordExact} :
    iprop(Gath0 d L ids tab qt qi n0 ∗ owes (thrV d L) O W ∗ Transfers.MayWaits (thrV d L) (default : HIx 1) O)
      ⊢ iprop((iprop(SlotRes0 d L ids tab qt qi (rowsAt ids tab n0) ∗ semVal (cellOf d L cc0_scratch5.sem) 0
                  ∗ owes (thrV d L) O (insert (SemLoc.dma cc0_scratch5.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch5.sem srcw B0 hsrc hdst) k) Q) := by
  unfold Gath0
  iintro ⟨Hfl, HO, #Hmw⟩ Hk
  iapply (Transfers.wp_waitLocalO countersEmb 𝒱₀ (thrV d L) none (default : HIx 1) (rfl : (B0).view.dmaCredit = _)) $$ [Hfl HO]
  · isplitl [Hfl]; · iexact Hfl
    isplitl [HO]; · iexact HO
    iapply (Transfers.MayWaits.elim (SemLoc.dma cc0_scratch5.sem)) $$ Hmw
  iexact Hk

set_option maxHeartbeats 1000000 in
/-- Slot 0: its rows start on their way to rows [n0, n0 + 200) of the gathered array, taken off the rows not yet written. -/
theorem writeStart0 {α : Type} {Q : α → sProp 𝕄} {k : PUnit → Prog (TpuEff nD τ sig (Elt F) Λ₀ (thrV d L).2) α}
    (HV : ValueFacts d L ids tab) (off : Fin 2 → ℕ) (inb : ∀ a, off a + S200x128.size a ≤ S204800x128.size a) (n0 n1 hi : ℕ) (hoff : off = ![n0, 0])
    (h1 : n1 = n0 + 200) (h2 : n1 ≤ hi) (g0 : Buf (Elt F) (gatLoc d))
    {hsrc : (B0).view.WordExact} {hdst : (DmaTarget.here (nD := nD) (τ := τ) (p := (thrV d L).2) (chunkM off inb)).view.WordExact}
    {hsem : (DmaTarget.here (nD := nD) (τ := τ) (p := (thrV d L).2) (chunkM off inb)).Typed Space.vmem (.dma cc0_scratch9.sem)} :
    iprop(((B0).view.loc (thrV d L) ↦{fullShare} rowsAt ids tab n0)
        ∗ (gatLoc d ↦[rowsRange n0 hi]{fullShare} g0) ∗ semVal (cellOf d L cc0_scratch9.sem) 0)
      ⊢ iprop((iprop(Writ0 d L ids tab n0 ∗ (gatLoc d ↦[rowsRange n1 hi]{fullShare} g0))
                -∗ wp frame (wpE (defs₀ (F := F)) 𝒱₀ (thrV d L) none) Set.univ (k ⟨⟩) Q)
          -∗ wp frame (wpE (defs₀ (F := F)) 𝒱₀ (thrV d L) none) Set.univ
              (.op (.enqueueDma B0 (.here (chunkM off inb)) (.dma cc0_scratch9.sem) hsrc hdst hsem) k) Q) := by
  subst h1
  unfold Writ0
  iintro ⟨Hb, Ho, Hsem⟩ Hk
  have hset : (chunkM off inb).view.set = rowsRange n0 (n0 + 200) := HV.chunk_set off inb _ hoff
  have hbs : (B0).view.set = Finset.univ := View.set_whole _
  ihave Ho' := (pts_range_split (F := F) d n0 (n0 + 200) hi (by omega) h2 fullShare g0).1 $$ Ho
  icases Ho' with ⟨Hc, Ho⟩
  ihave Hb' := (Entails.of_eq (show ((B0).view.loc (thrV d L) ↦{fullShare} rowsAt ids tab n0 : sProp 𝕄)
      = (B0).view.loc (thrV d L) ↦[(B0).view.set]{fullShare} rowsAt ids tab n0 by rw [hbs])) $$ Hb
  ihave Hc' := (Entails.of_eq (show (gatLoc d ↦[rowsRange n0 (n0 + 200)]{fullShare} g0 : sProp 𝕄)
      = (chunkM off inb).view.loc (thrV d L) ↦[(chunkM off inb).view.set]{fullShare} g0 by rw [hset])) $$ Hc
  have hD : ∀ w : S200x128.Idx → Elt F .f32, w = rowsAt ids tab n0 →
      (iprop(((chunkM off inb).view.loc (thrV d L) ↦[(chunkM off inb).view.set]{fullShare} (chunkM off inb).view.write (Elt F) g0 w Finset.univ)
          ∗ ((B0).view.loc (thrV d L) ↦[(B0).view.set]{fullShare} rowsAt ids tab n0)) : sProp 𝕄)
        ⊢ iprop((gatLoc d ↦[rowsRange n0 (n0 + 200)]{fullShare} gatherRows ids tab) ∗ ((B0).view.loc (thrV d L) ↦{fullShare} rowsAt ids tab n0)) := by
    intro w hw
    rw [hset, hbs, pointsTo_congr (HV.write_value off inb _ hoff g0 w hw)]
    try exact Entails.of_eq rfl
  iapply (Transfers.wp_dmaLocal countersEmb 𝒱₀ (thrV d L) none (default : HIx 1) (NW L) rfl
      (View.dmaCredit_pos _ (by decide)) (Finset.Subset.refl _)) $$ [Hb' Hc' Hsem]
  · isplitl [Hb']; · iexact Hb'
    isplitl [Hc']; · iexact Hc'
    iexact Hsem
  iintro Hfl
  iapply Hk
  isplitl [Hfl]
  · iapply (Transfers.Flight_mono countersEmb (thrV d L)
      (hD (ReadAs.same.apply ((B0).view.read (Elt F) (rowsAt ids tab n0))) rfl)) $$ Hfl
  · iexact Ho

/-- Slot 0: the wait for its copy-out hands back the row buffer and the written rows, which join the rows done. -/
theorem writeWait0 {α : Type} {Q : α → sProp 𝕄} {k : PUnit → Prog (TpuEff nD τ sig (Elt F) Λ₀ (thrV d L).2) α}
    (lo n0 n1 : ℕ) (hlo : lo ≤ n0) (h1 : n1 = n0 + 200) (O : CellTallies nD τ sig (HIx 1)) (W : Waits sig (HIx 1))
    (off : Fin 2 → ℕ) (inb : ∀ a, off a + S200x128.size a ≤ S204800x128.size a)
    {hsrc : (B0).view.WordExact} {hdst : (chunkM off inb).view.WordExact} :
    iprop(Writ0 d L ids tab n0 ∗ (gatLoc d ↦[rowsRange lo n0]{fullShare} gatherRows ids tab)
        ∗ owes (thrV d L) O W ∗ Transfers.MayWaits (thrV d L) (default : HIx 1) O)
      ⊢ iprop((iprop(((B0).view.loc (thrV d L) ↦{fullShare} rowsAt ids tab n0)
                  ∗ (gatLoc d ↦[rowsRange lo n1]{fullShare} gatherRows ids tab)
                  ∗ semVal (cellOf d L cc0_scratch9.sem) 0
                  ∗ owes (thrV d L) O (insert (SemLoc.dma cc0_scratch9.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch9.sem B0 (chunkM off inb) hsrc hdst) k) Q) := by
  subst h1
  unfold Writ0
  iintro ⟨Hfl, Hd, HO, #Hmw⟩ Hk
  iapply (Transfers.wp_waitLocalO countersEmb 𝒱₀ (thrV d L) none (default : HIx 1) (rfl : (chunkM off inb).view.dmaCredit = NW L)) $$ [Hfl HO]
  · isplitl [Hfl]; · iexact Hfl
    isplitl [HO]; · iexact HO
    iapply (Transfers.MayWaits.elim (SemLoc.dma cc0_scratch9.sem)) $$ Hmw
  iintro ⟨⟨Hc, Hb⟩, Hsem, HO⟩
  iapply Hk
  isplitl [Hb]; · iexact Hb
  isplitl [Hd Hc]
  · iapply (pts_range_split (F := F) d lo n0 (n0 + 200) hlo (by omega) fullShare (gatherRows ids tab)).2
    isplitl [Hd]; · iexact Hd
    iexact Hc
  isplitl [Hsem]; · iexact Hsem
  iexact HO

set_option maxHeartbeats 1000000 in
/-- Slot 1: the gather of two hundred rows is issued from the slot at rest. -/
theorem gatherStart1 {α : Type} {Q : α → sProp 𝕄} {k : PUnit → Prog (TpuEff nD τ sig (Elt F) Λ₀ (thrV d L).2) α}
    (HV : ValueFacts d L ids tab) (hids : ∀ j, (ids j).toNat < 100000)
    (off : Fin 1 → ℕ) (inb : ∀ a, off a + S200.size a ≤ S6400.size a) (o : ℕ) (hoff : off = ![o]) (n0 : ℕ) (hn0 : n0 = baseRow L + o)
    (qt qi : PosShare TreeShare) (f : Buf (Elt F) ((thrV d L).loc cc0_scratch2))
    {hp : (thrV d L).2.kind = .scVector} {hn : S200.numel = S200x128.size gathers_S100000x128_S200x128.axis'}
    {hsrc : (tabS).view.WordExact} {he : EltTy.f32.bits = 32} {hsp : Space.hbm = .hbm ∨ Space.hbm = .shared} {hr : S100000x128.StreamRows 0} :
    iprop(SlotRes1 d L ids tab qt qi f ∗ semVal (cellOf d L cc0_scratch6.sem) 0)
      ⊢ iprop((Gath1 d L ids tab qt qi n0 -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather hp tabS B1 gathers_S100000x128_S200x128 (offsM off inb) hn cc0_scratch6.sem hsrc he hsp hr >>= k) Q) := by
  subst hn0
  unfold Gath1
  iintro ⟨⟨Hb, Ht, Hi⟩, Hsem⟩ Hk
  ihave Hts := (pointsTo_split_subset (q := qt) (f := tab) (S := Finset.univ) (Finset.subset_univ (tabS).view.set)).1 $$ Ht
  icases Hts with ⟨Ht, Htr⟩
  ihave His := (pointsTo_split_subset (q := qi) (f := fidx d L ids) (S := Finset.univ) (Finset.subset_univ (offsM off inb).view.set)).1 $$ Hi
  icases His with ⟨Hi, Hir⟩
  have hbs : (B1).view.set = Finset.univ := View.set_whole _
  ihave Hb' := (Entails.of_eq (show ((B1).view.loc (thrV d L) ↦{fullShare} f : sProp 𝕄)
      = (B1).view.loc (thrV d L) ↦[(B1).view.set]{fullShare} f by rw [hbs])) $$ Hb
  have hN : ∀ h : S100000x128.Gathers 0 S200x128, ∑ j, ((B1).slice (S200x128.rowRect h.axis' j) (S200x128.stride_rowRect h.axis' j)).view.dmaCredit
      = (B1).view.dmaCredit := fun h => SparseCore.sum_rowCredit_eq_dmaCredit (B1) h.axis' (fun _ => rfl)
  iapply (SparseCore.wp_indirectGatherLocal countersEmb 𝒱₀ (thrV d L) none (hg := gathers_S100000x128_S200x128) (default : HIx 1)
      (B1).view.dmaCredit (hN _) (by decide) (HV.idx_inb hids off inb)) $$ [Ht Hb' Hi Hsem]
  · isplitl [Ht]; · iexact Ht
    isplitl [Hb']; · iexact Hb'
    isplitl [Hi]; · iexact Hi
    iexact Hsem
  iintro Hfl
  iapply Hk
  ihave Hfl2 := (Transfers.Flight_frame countersEmb (thrV d L) (R := iprop(((tabV).view.loc (thrV d L) ↦[Finset.univ \ (tabS).view.set]{qt} tab)
      ∗ ((idxV).view.loc (thrV d L) ↦[Finset.univ \ (offsM off inb).view.set]{qi} fidx d L ids)))) $$ [Htr Hir Hfl]
  · isplitl [Htr Hir]
    · isplitl [Htr]; · iexact Htr
      iexact Hir
    · iexact Hfl
  iapply (Transfers.Flight_mono countersEmb (thrV d L) (by
    iintro ⟨⟨Htr, Hir⟩, Hb, Ht, Hi⟩
    rw [View.write_whole_univ, HV.gather_value off inb o hoff]
    isplitl [Hb]
    · rw [hbs]; iexact Hb
    isplitl [Ht Htr]
    · iapply (pointsTo_split_subset (q := qt) (f := tab) (S := Finset.univ) (Finset.subset_univ (tabS).view.set)).2
      isplitl [Ht]; · iexact Ht
      iexact Htr
    · iapply (pointsTo_split_subset (q := qi) (f := fidx d L ids) (S := Finset.univ) (Finset.subset_univ (offsM off inb).view.set)).2
      isplitl [Hi]; · iexact Hi
      iexact Hir)) $$ Hfl2

/-- Slot 1: the wait for its gather hands the slot back holding the gathered rows. -/
theorem gatherWait1 {α : Type} {Q : α → sProp 𝕄} {k : PUnit → Prog (TpuEff nD τ sig (Elt F) Λ₀ (thrV d L).2) α}
    (qt qi : PosShare TreeShare) (n0 : ℕ) (O : CellTallies nD τ sig (HIx 1)) (W : Waits sig (HIx 1))
    {srcw : Memref sig (thrV d L).2.kind .hbm S100000x128 .f32} {hsrc : srcw.view.WordExact} {hdst : (B1).view.WordExact} :
    iprop(Gath1 d L ids tab qt qi n0 ∗ owes (thrV d L) O W ∗ Transfers.MayWaits (thrV d L) (default : HIx 1) O)
      ⊢ iprop((iprop(SlotRes1 d L ids tab qt qi (rowsAt ids tab n0) ∗ semVal (cellOf d L cc0_scratch6.sem) 0
                  ∗ owes (thrV d L) O (insert (SemLoc.dma cc0_scratch6.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch6.sem srcw B1 hsrc hdst) k) Q) := by
  unfold Gath1
  iintro ⟨Hfl, HO, #Hmw⟩ Hk
  iapply (Transfers.wp_waitLocalO countersEmb 𝒱₀ (thrV d L) none (default : HIx 1) (rfl : (B1).view.dmaCredit = _)) $$ [Hfl HO]
  · isplitl [Hfl]; · iexact Hfl
    isplitl [HO]; · iexact HO
    iapply (Transfers.MayWaits.elim (SemLoc.dma cc0_scratch6.sem)) $$ Hmw
  iexact Hk

set_option maxHeartbeats 1000000 in
/-- Slot 1: its rows start on their way to rows [n0, n0 + 200) of the gathered array, taken off the rows not yet written. -/
theorem writeStart1 {α : Type} {Q : α → sProp 𝕄} {k : PUnit → Prog (TpuEff nD τ sig (Elt F) Λ₀ (thrV d L).2) α}
    (HV : ValueFacts d L ids tab) (off : Fin 2 → ℕ) (inb : ∀ a, off a + S200x128.size a ≤ S204800x128.size a) (n0 n1 hi : ℕ) (hoff : off = ![n0, 0])
    (h1 : n1 = n0 + 200) (h2 : n1 ≤ hi) (g0 : Buf (Elt F) (gatLoc d))
    {hsrc : (B1).view.WordExact} {hdst : (DmaTarget.here (nD := nD) (τ := τ) (p := (thrV d L).2) (chunkM off inb)).view.WordExact}
    {hsem : (DmaTarget.here (nD := nD) (τ := τ) (p := (thrV d L).2) (chunkM off inb)).Typed Space.vmem (.dma cc0_scratch10.sem)} :
    iprop(((B1).view.loc (thrV d L) ↦{fullShare} rowsAt ids tab n0)
        ∗ (gatLoc d ↦[rowsRange n0 hi]{fullShare} g0) ∗ semVal (cellOf d L cc0_scratch10.sem) 0)
      ⊢ iprop((iprop(Writ1 d L ids tab n0 ∗ (gatLoc d ↦[rowsRange n1 hi]{fullShare} g0))
                -∗ wp frame (wpE (defs₀ (F := F)) 𝒱₀ (thrV d L) none) Set.univ (k ⟨⟩) Q)
          -∗ wp frame (wpE (defs₀ (F := F)) 𝒱₀ (thrV d L) none) Set.univ
              (.op (.enqueueDma B1 (.here (chunkM off inb)) (.dma cc0_scratch10.sem) hsrc hdst hsem) k) Q) := by
  subst h1
  unfold Writ1
  iintro ⟨Hb, Ho, Hsem⟩ Hk
  have hset : (chunkM off inb).view.set = rowsRange n0 (n0 + 200) := HV.chunk_set off inb _ hoff
  have hbs : (B1).view.set = Finset.univ := View.set_whole _
  ihave Ho' := (pts_range_split (F := F) d n0 (n0 + 200) hi (by omega) h2 fullShare g0).1 $$ Ho
  icases Ho' with ⟨Hc, Ho⟩
  ihave Hb' := (Entails.of_eq (show ((B1).view.loc (thrV d L) ↦{fullShare} rowsAt ids tab n0 : sProp 𝕄)
      = (B1).view.loc (thrV d L) ↦[(B1).view.set]{fullShare} rowsAt ids tab n0 by rw [hbs])) $$ Hb
  ihave Hc' := (Entails.of_eq (show (gatLoc d ↦[rowsRange n0 (n0 + 200)]{fullShare} g0 : sProp 𝕄)
      = (chunkM off inb).view.loc (thrV d L) ↦[(chunkM off inb).view.set]{fullShare} g0 by rw [hset])) $$ Hc
  have hD : ∀ w : S200x128.Idx → Elt F .f32, w = rowsAt ids tab n0 →
      (iprop(((chunkM off inb).view.loc (thrV d L) ↦[(chunkM off inb).view.set]{fullShare} (chunkM off inb).view.write (Elt F) g0 w Finset.univ)
          ∗ ((B1).view.loc (thrV d L) ↦[(B1).view.set]{fullShare} rowsAt ids tab n0)) : sProp 𝕄)
        ⊢ iprop((gatLoc d ↦[rowsRange n0 (n0 + 200)]{fullShare} gatherRows ids tab) ∗ ((B1).view.loc (thrV d L) ↦{fullShare} rowsAt ids tab n0)) := by
    intro w hw
    rw [hset, hbs, pointsTo_congr (HV.write_value off inb _ hoff g0 w hw)]
    try exact Entails.of_eq rfl
  iapply (Transfers.wp_dmaLocal countersEmb 𝒱₀ (thrV d L) none (default : HIx 1) (NW L) rfl
      (View.dmaCredit_pos _ (by decide)) (Finset.Subset.refl _)) $$ [Hb' Hc' Hsem]
  · isplitl [Hb']; · iexact Hb'
    isplitl [Hc']; · iexact Hc'
    iexact Hsem
  iintro Hfl
  iapply Hk
  isplitl [Hfl]
  · iapply (Transfers.Flight_mono countersEmb (thrV d L)
      (hD (ReadAs.same.apply ((B1).view.read (Elt F) (rowsAt ids tab n0))) rfl)) $$ Hfl
  · iexact Ho

/-- Slot 1: the wait for its copy-out hands back the row buffer and the written rows, which join the rows done. -/
theorem writeWait1 {α : Type} {Q : α → sProp 𝕄} {k : PUnit → Prog (TpuEff nD τ sig (Elt F) Λ₀ (thrV d L).2) α}
    (lo n0 n1 : ℕ) (hlo : lo ≤ n0) (h1 : n1 = n0 + 200) (O : CellTallies nD τ sig (HIx 1)) (W : Waits sig (HIx 1))
    (off : Fin 2 → ℕ) (inb : ∀ a, off a + S200x128.size a ≤ S204800x128.size a)
    {hsrc : (B1).view.WordExact} {hdst : (chunkM off inb).view.WordExact} :
    iprop(Writ1 d L ids tab n0 ∗ (gatLoc d ↦[rowsRange lo n0]{fullShare} gatherRows ids tab)
        ∗ owes (thrV d L) O W ∗ Transfers.MayWaits (thrV d L) (default : HIx 1) O)
      ⊢ iprop((iprop(((B1).view.loc (thrV d L) ↦{fullShare} rowsAt ids tab n0)
                  ∗ (gatLoc d ↦[rowsRange lo n1]{fullShare} gatherRows ids tab)
                  ∗ semVal (cellOf d L cc0_scratch10.sem) 0
                  ∗ owes (thrV d L) O (insert (SemLoc.dma cc0_scratch10.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch10.sem B1 (chunkM off inb) hsrc hdst) k) Q) := by
  subst h1
  unfold Writ1
  iintro ⟨Hfl, Hd, HO, #Hmw⟩ Hk
  iapply (Transfers.wp_waitLocalO countersEmb 𝒱₀ (thrV d L) none (default : HIx 1) (rfl : (chunkM off inb).view.dmaCredit = NW L)) $$ [Hfl HO]
  · isplitl [Hfl]; · iexact Hfl
    isplitl [HO]; · iexact HO
    iapply (Transfers.MayWaits.elim (SemLoc.dma cc0_scratch10.sem)) $$ Hmw
  iintro ⟨⟨Hc, Hb⟩, Hsem, HO⟩
  iapply Hk
  isplitl [Hb]; · iexact Hb
  isplitl [Hd Hc]
  · iapply (pts_range_split (F := F) d lo n0 (n0 + 200) hlo (by omega) fullShare (gatherRows ids tab)).2
    isplitl [Hd]; · iexact Hd
    iexact Hc
  isplitl [Hsem]; · iexact Hsem
  iexact HO

set_option maxHeartbeats 1000000 in
/-- Slot 2: the gather of two hundred rows is issued from the slot at rest. -/
theorem gatherStart2 {α : Type} {Q : α → sProp 𝕄} {k : PUnit → Prog (TpuEff nD τ sig (Elt F) Λ₀ (thrV d L).2) α}
    (HV : ValueFacts d L ids tab) (hids : ∀ j, (ids j).toNat < 100000)
    (off : Fin 1 → ℕ) (inb : ∀ a, off a + S200.size a ≤ S6400.size a) (o : ℕ) (hoff : off = ![o]) (n0 : ℕ) (hn0 : n0 = baseRow L + o)
    (qt qi : PosShare TreeShare) (f : Buf (Elt F) ((thrV d L).loc cc0_scratch3))
    {hp : (thrV d L).2.kind = .scVector} {hn : S200.numel = S200x128.size gathers_S100000x128_S200x128.axis'}
    {hsrc : (tabS).view.WordExact} {he : EltTy.f32.bits = 32} {hsp : Space.hbm = .hbm ∨ Space.hbm = .shared} {hr : S100000x128.StreamRows 0} :
    iprop(SlotRes2 d L ids tab qt qi f ∗ semVal (cellOf d L cc0_scratch7.sem) 0)
      ⊢ iprop((Gath2 d L ids tab qt qi n0 -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather hp tabS B2 gathers_S100000x128_S200x128 (offsM off inb) hn cc0_scratch7.sem hsrc he hsp hr >>= k) Q) := by
  subst hn0
  unfold Gath2
  iintro ⟨⟨Hb, Ht, Hi⟩, Hsem⟩ Hk
  ihave Hts := (pointsTo_split_subset (q := qt) (f := tab) (S := Finset.univ) (Finset.subset_univ (tabS).view.set)).1 $$ Ht
  icases Hts with ⟨Ht, Htr⟩
  ihave His := (pointsTo_split_subset (q := qi) (f := fidx d L ids) (S := Finset.univ) (Finset.subset_univ (offsM off inb).view.set)).1 $$ Hi
  icases His with ⟨Hi, Hir⟩
  have hbs : (B2).view.set = Finset.univ := View.set_whole _
  ihave Hb' := (Entails.of_eq (show ((B2).view.loc (thrV d L) ↦{fullShare} f : sProp 𝕄)
      = (B2).view.loc (thrV d L) ↦[(B2).view.set]{fullShare} f by rw [hbs])) $$ Hb
  have hN : ∀ h : S100000x128.Gathers 0 S200x128, ∑ j, ((B2).slice (S200x128.rowRect h.axis' j) (S200x128.stride_rowRect h.axis' j)).view.dmaCredit
      = (B2).view.dmaCredit := fun h => SparseCore.sum_rowCredit_eq_dmaCredit (B2) h.axis' (fun _ => rfl)
  iapply (SparseCore.wp_indirectGatherLocal countersEmb 𝒱₀ (thrV d L) none (hg := gathers_S100000x128_S200x128) (default : HIx 1)
      (B2).view.dmaCredit (hN _) (by decide) (HV.idx_inb hids off inb)) $$ [Ht Hb' Hi Hsem]
  · isplitl [Ht]; · iexact Ht
    isplitl [Hb']; · iexact Hb'
    isplitl [Hi]; · iexact Hi
    iexact Hsem
  iintro Hfl
  iapply Hk
  ihave Hfl2 := (Transfers.Flight_frame countersEmb (thrV d L) (R := iprop(((tabV).view.loc (thrV d L) ↦[Finset.univ \ (tabS).view.set]{qt} tab)
      ∗ ((idxV).view.loc (thrV d L) ↦[Finset.univ \ (offsM off inb).view.set]{qi} fidx d L ids)))) $$ [Htr Hir Hfl]
  · isplitl [Htr Hir]
    · isplitl [Htr]; · iexact Htr
      iexact Hir
    · iexact Hfl
  iapply (Transfers.Flight_mono countersEmb (thrV d L) (by
    iintro ⟨⟨Htr, Hir⟩, Hb, Ht, Hi⟩
    rw [View.write_whole_univ, HV.gather_value off inb o hoff]
    isplitl [Hb]
    · rw [hbs]; iexact Hb
    isplitl [Ht Htr]
    · iapply (pointsTo_split_subset (q := qt) (f := tab) (S := Finset.univ) (Finset.subset_univ (tabS).view.set)).2
      isplitl [Ht]; · iexact Ht
      iexact Htr
    · iapply (pointsTo_split_subset (q := qi) (f := fidx d L ids) (S := Finset.univ) (Finset.subset_univ (offsM off inb).view.set)).2
      isplitl [Hi]; · iexact Hi
      iexact Hir)) $$ Hfl2

/-- Slot 2: the wait for its gather hands the slot back holding the gathered rows. -/
theorem gatherWait2 {α : Type} {Q : α → sProp 𝕄} {k : PUnit → Prog (TpuEff nD τ sig (Elt F) Λ₀ (thrV d L).2) α}
    (qt qi : PosShare TreeShare) (n0 : ℕ) (O : CellTallies nD τ sig (HIx 1)) (W : Waits sig (HIx 1))
    {srcw : Memref sig (thrV d L).2.kind .hbm S100000x128 .f32} {hsrc : srcw.view.WordExact} {hdst : (B2).view.WordExact} :
    iprop(Gath2 d L ids tab qt qi n0 ∗ owes (thrV d L) O W ∗ Transfers.MayWaits (thrV d L) (default : HIx 1) O)
      ⊢ iprop((iprop(SlotRes2 d L ids tab qt qi (rowsAt ids tab n0) ∗ semVal (cellOf d L cc0_scratch7.sem) 0
                  ∗ owes (thrV d L) O (insert (SemLoc.dma cc0_scratch7.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch7.sem srcw B2 hsrc hdst) k) Q) := by
  unfold Gath2
  iintro ⟨Hfl, HO, #Hmw⟩ Hk
  iapply (Transfers.wp_waitLocalO countersEmb 𝒱₀ (thrV d L) none (default : HIx 1) (rfl : (B2).view.dmaCredit = _)) $$ [Hfl HO]
  · isplitl [Hfl]; · iexact Hfl
    isplitl [HO]; · iexact HO
    iapply (Transfers.MayWaits.elim (SemLoc.dma cc0_scratch7.sem)) $$ Hmw
  iexact Hk

set_option maxHeartbeats 1000000 in
/-- Slot 2: its rows start on their way to rows [n0, n0 + 200) of the gathered array, taken off the rows not yet written. -/
theorem writeStart2 {α : Type} {Q : α → sProp 𝕄} {k : PUnit → Prog (TpuEff nD τ sig (Elt F) Λ₀ (thrV d L).2) α}
    (HV : ValueFacts d L ids tab) (off : Fin 2 → ℕ) (inb : ∀ a, off a + S200x128.size a ≤ S204800x128.size a) (n0 n1 hi : ℕ) (hoff : off = ![n0, 0])
    (h1 : n1 = n0 + 200) (h2 : n1 ≤ hi) (g0 : Buf (Elt F) (gatLoc d))
    {hsrc : (B2).view.WordExact} {hdst : (DmaTarget.here (nD := nD) (τ := τ) (p := (thrV d L).2) (chunkM off inb)).view.WordExact}
    {hsem : (DmaTarget.here (nD := nD) (τ := τ) (p := (thrV d L).2) (chunkM off inb)).Typed Space.vmem (.dma cc0_scratch11.sem)} :
    iprop(((B2).view.loc (thrV d L) ↦{fullShare} rowsAt ids tab n0)
        ∗ (gatLoc d ↦[rowsRange n0 hi]{fullShare} g0) ∗ semVal (cellOf d L cc0_scratch11.sem) 0)
      ⊢ iprop((iprop(Writ2 d L ids tab n0 ∗ (gatLoc d ↦[rowsRange n1 hi]{fullShare} g0))
                -∗ wp frame (wpE (defs₀ (F := F)) 𝒱₀ (thrV d L) none) Set.univ (k ⟨⟩) Q)
          -∗ wp frame (wpE (defs₀ (F := F)) 𝒱₀ (thrV d L) none) Set.univ
              (.op (.enqueueDma B2 (.here (chunkM off inb)) (.dma cc0_scratch11.sem) hsrc hdst hsem) k) Q) := by
  subst h1
  unfold Writ2
  iintro ⟨Hb, Ho, Hsem⟩ Hk
  have hset : (chunkM off inb).view.set = rowsRange n0 (n0 + 200) := HV.chunk_set off inb _ hoff
  have hbs : (B2).view.set = Finset.univ := View.set_whole _
  ihave Ho' := (pts_range_split (F := F) d n0 (n0 + 200) hi (by omega) h2 fullShare g0).1 $$ Ho
  icases Ho' with ⟨Hc, Ho⟩
  ihave Hb' := (Entails.of_eq (show ((B2).view.loc (thrV d L) ↦{fullShare} rowsAt ids tab n0 : sProp 𝕄)
      = (B2).view.loc (thrV d L) ↦[(B2).view.set]{fullShare} rowsAt ids tab n0 by rw [hbs])) $$ Hb
  ihave Hc' := (Entails.of_eq (show (gatLoc d ↦[rowsRange n0 (n0 + 200)]{fullShare} g0 : sProp 𝕄)
      = (chunkM off inb).view.loc (thrV d L) ↦[(chunkM off inb).view.set]{fullShare} g0 by rw [hset])) $$ Hc
  have hD : ∀ w : S200x128.Idx → Elt F .f32, w = rowsAt ids tab n0 →
      (iprop(((chunkM off inb).view.loc (thrV d L) ↦[(chunkM off inb).view.set]{fullShare} (chunkM off inb).view.write (Elt F) g0 w Finset.univ)
          ∗ ((B2).view.loc (thrV d L) ↦[(B2).view.set]{fullShare} rowsAt ids tab n0)) : sProp 𝕄)
        ⊢ iprop((gatLoc d ↦[rowsRange n0 (n0 + 200)]{fullShare} gatherRows ids tab) ∗ ((B2).view.loc (thrV d L) ↦{fullShare} rowsAt ids tab n0)) := by
    intro w hw
    rw [hset, hbs, pointsTo_congr (HV.write_value off inb _ hoff g0 w hw)]
    try exact Entails.of_eq rfl
  iapply (Transfers.wp_dmaLocal countersEmb 𝒱₀ (thrV d L) none (default : HIx 1) (NW L) rfl
      (View.dmaCredit_pos _ (by decide)) (Finset.Subset.refl _)) $$ [Hb' Hc' Hsem]
  · isplitl [Hb']; · iexact Hb'
    isplitl [Hc']; · iexact Hc'
    iexact Hsem
  iintro Hfl
  iapply Hk
  isplitl [Hfl]
  · iapply (Transfers.Flight_mono countersEmb (thrV d L)
      (hD (ReadAs.same.apply ((B2).view.read (Elt F) (rowsAt ids tab n0))) rfl)) $$ Hfl
  · iexact Ho

/-- Slot 2: the wait for its copy-out hands back the row buffer and the written rows, which join the rows done. -/
theorem writeWait2 {α : Type} {Q : α → sProp 𝕄} {k : PUnit → Prog (TpuEff nD τ sig (Elt F) Λ₀ (thrV d L).2) α}
    (lo n0 n1 : ℕ) (hlo : lo ≤ n0) (h1 : n1 = n0 + 200) (O : CellTallies nD τ sig (HIx 1)) (W : Waits sig (HIx 1))
    (off : Fin 2 → ℕ) (inb : ∀ a, off a + S200x128.size a ≤ S204800x128.size a)
    {hsrc : (B2).view.WordExact} {hdst : (chunkM off inb).view.WordExact} :
    iprop(Writ2 d L ids tab n0 ∗ (gatLoc d ↦[rowsRange lo n0]{fullShare} gatherRows ids tab)
        ∗ owes (thrV d L) O W ∗ Transfers.MayWaits (thrV d L) (default : HIx 1) O)
      ⊢ iprop((iprop(((B2).view.loc (thrV d L) ↦{fullShare} rowsAt ids tab n0)
                  ∗ (gatLoc d ↦[rowsRange lo n1]{fullShare} gatherRows ids tab)
                  ∗ semVal (cellOf d L cc0_scratch11.sem) 0
                  ∗ owes (thrV d L) O (insert (SemLoc.dma cc0_scratch11.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch11.sem B2 (chunkM off inb) hsrc hdst) k) Q) := by
  subst h1
  unfold Writ2
  iintro ⟨Hfl, Hd, HO, #Hmw⟩ Hk
  iapply (Transfers.wp_waitLocalO countersEmb 𝒱₀ (thrV d L) none (default : HIx 1) (rfl : (chunkM off inb).view.dmaCredit = NW L)) $$ [Hfl HO]
  · isplitl [Hfl]; · iexact Hfl
    isplitl [HO]; · iexact HO
    iapply (Transfers.MayWaits.elim (SemLoc.dma cc0_scratch11.sem)) $$ Hmw
  iintro ⟨⟨Hc, Hb⟩, Hsem, HO⟩
  iapply Hk
  isplitl [Hb]; · iexact Hb
  isplitl [Hd Hc]
  · iapply (pts_range_split (F := F) d lo n0 (n0 + 200) hlo (by omega) fullShare (gatherRows ids tab)).2
    isplitl [Hd]; · iexact Hd
    iexact Hc
  isplitl [Hsem]; · iexact Hsem
  iexact HO

set_option maxHeartbeats 1000000 in
/-- Slot 3: the gather of two hundred rows is issued from the slot at rest. -/
theorem gatherStart3 {α : Type} {Q : α → sProp 𝕄} {k : PUnit → Prog (TpuEff nD τ sig (Elt F) Λ₀ (thrV d L).2) α}
    (HV : ValueFacts d L ids tab) (hids : ∀ j, (ids j).toNat < 100000)
    (off : Fin 1 → ℕ) (inb : ∀ a, off a + S200.size a ≤ S6400.size a) (o : ℕ) (hoff : off = ![o]) (n0 : ℕ) (hn0 : n0 = baseRow L + o)
    (qt qi : PosShare TreeShare) (f : Buf (Elt F) ((thrV d L).loc cc0_scratch4))
    {hp : (thrV d L).2.kind = .scVector} {hn : S200.numel = S200x128.size gathers_S100000x128_S200x128.axis'}
    {hsrc : (tabS).view.WordExact} {he : EltTy.f32.bits = 32} {hsp : Space.hbm = .hbm ∨ Space.hbm = .shared} {hr : S100000x128.StreamRows 0} :
    iprop(SlotRes3 d L ids tab qt qi f ∗ semVal (cellOf d L cc0_scratch8.sem) 0)
      ⊢ iprop((Gath3 d L ids tab qt qi n0 -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather hp tabS B3 gathers_S100000x128_S200x128 (offsM off inb) hn cc0_scratch8.sem hsrc he hsp hr >>= k) Q) := by
  subst hn0
  unfold Gath3
  iintro ⟨⟨Hb, Ht, Hi⟩, Hsem⟩ Hk
  ihave Hts := (pointsTo_split_subset (q := qt) (f := tab) (S := Finset.univ) (Finset.subset_univ (tabS).view.set)).1 $$ Ht
  icases Hts with ⟨Ht, Htr⟩
  ihave His := (pointsTo_split_subset (q := qi) (f := fidx d L ids) (S := Finset.univ) (Finset.subset_univ (offsM off inb).view.set)).1 $$ Hi
  icases His with ⟨Hi, Hir⟩
  have hbs : (B3).view.set = Finset.univ := View.set_whole _
  ihave Hb' := (Entails.of_eq (show ((B3).view.loc (thrV d L) ↦{fullShare} f : sProp 𝕄)
      = (B3).view.loc (thrV d L) ↦[(B3).view.set]{fullShare} f by rw [hbs])) $$ Hb
  have hN : ∀ h : S100000x128.Gathers 0 S200x128, ∑ j, ((B3).slice (S200x128.rowRect h.axis' j) (S200x128.stride_rowRect h.axis' j)).view.dmaCredit
      = (B3).view.dmaCredit := fun h => SparseCore.sum_rowCredit_eq_dmaCredit (B3) h.axis' (fun _ => rfl)
  iapply (SparseCore.wp_indirectGatherLocal countersEmb 𝒱₀ (thrV d L) none (hg := gathers_S100000x128_S200x128) (default : HIx 1)
      (B3).view.dmaCredit (hN _) (by decide) (HV.idx_inb hids off inb)) $$ [Ht Hb' Hi Hsem]
  · isplitl [Ht]; · iexact Ht
    isplitl [Hb']; · iexact Hb'
    isplitl [Hi]; · iexact Hi
    iexact Hsem
  iintro Hfl
  iapply Hk
  ihave Hfl2 := (Transfers.Flight_frame countersEmb (thrV d L) (R := iprop(((tabV).view.loc (thrV d L) ↦[Finset.univ \ (tabS).view.set]{qt} tab)
      ∗ ((idxV).view.loc (thrV d L) ↦[Finset.univ \ (offsM off inb).view.set]{qi} fidx d L ids)))) $$ [Htr Hir Hfl]
  · isplitl [Htr Hir]
    · isplitl [Htr]; · iexact Htr
      iexact Hir
    · iexact Hfl
  iapply (Transfers.Flight_mono countersEmb (thrV d L) (by
    iintro ⟨⟨Htr, Hir⟩, Hb, Ht, Hi⟩
    rw [View.write_whole_univ, HV.gather_value off inb o hoff]
    isplitl [Hb]
    · rw [hbs]; iexact Hb
    isplitl [Ht Htr]
    · iapply (pointsTo_split_subset (q := qt) (f := tab) (S := Finset.univ) (Finset.subset_univ (tabS).view.set)).2
      isplitl [Ht]; · iexact Ht
      iexact Htr
    · iapply (pointsTo_split_subset (q := qi) (f := fidx d L ids) (S := Finset.univ) (Finset.subset_univ (offsM off inb).view.set)).2
      isplitl [Hi]; · iexact Hi
      iexact Hir)) $$ Hfl2

/-- Slot 3: the wait for its gather hands the slot back holding the gathered rows. -/
theorem gatherWait3 {α : Type} {Q : α → sProp 𝕄} {k : PUnit → Prog (TpuEff nD τ sig (Elt F) Λ₀ (thrV d L).2) α}
    (qt qi : PosShare TreeShare) (n0 : ℕ) (O : CellTallies nD τ sig (HIx 1)) (W : Waits sig (HIx 1))
    {srcw : Memref sig (thrV d L).2.kind .hbm S100000x128 .f32} {hsrc : srcw.view.WordExact} {hdst : (B3).view.WordExact} :
    iprop(Gath3 d L ids tab qt qi n0 ∗ owes (thrV d L) O W ∗ Transfers.MayWaits (thrV d L) (default : HIx 1) O)
      ⊢ iprop((iprop(SlotRes3 d L ids tab qt qi (rowsAt ids tab n0) ∗ semVal (cellOf d L cc0_scratch8.sem) 0
                  ∗ owes (thrV d L) O (insert (SemLoc.dma cc0_scratch8.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch8.sem srcw B3 hsrc hdst) k) Q) := by
  unfold Gath3
  iintro ⟨Hfl, HO, #Hmw⟩ Hk
  iapply (Transfers.wp_waitLocalO countersEmb 𝒱₀ (thrV d L) none (default : HIx 1) (rfl : (B3).view.dmaCredit = _)) $$ [Hfl HO]
  · isplitl [Hfl]; · iexact Hfl
    isplitl [HO]; · iexact HO
    iapply (Transfers.MayWaits.elim (SemLoc.dma cc0_scratch8.sem)) $$ Hmw
  iexact Hk

set_option maxHeartbeats 1000000 in
/-- Slot 3: its rows start on their way to rows [n0, n0 + 200) of the gathered array, taken off the rows not yet written. -/
theorem writeStart3 {α : Type} {Q : α → sProp 𝕄} {k : PUnit → Prog (TpuEff nD τ sig (Elt F) Λ₀ (thrV d L).2) α}
    (HV : ValueFacts d L ids tab) (off : Fin 2 → ℕ) (inb : ∀ a, off a + S200x128.size a ≤ S204800x128.size a) (n0 n1 hi : ℕ) (hoff : off = ![n0, 0])
    (h1 : n1 = n0 + 200) (h2 : n1 ≤ hi) (g0 : Buf (Elt F) (gatLoc d))
    {hsrc : (B3).view.WordExact} {hdst : (DmaTarget.here (nD := nD) (τ := τ) (p := (thrV d L).2) (chunkM off inb)).view.WordExact}
    {hsem : (DmaTarget.here (nD := nD) (τ := τ) (p := (thrV d L).2) (chunkM off inb)).Typed Space.vmem (.dma cc0_scratch12.sem)} :
    iprop(((B3).view.loc (thrV d L) ↦{fullShare} rowsAt ids tab n0)
        ∗ (gatLoc d ↦[rowsRange n0 hi]{fullShare} g0) ∗ semVal (cellOf d L cc0_scratch12.sem) 0)
      ⊢ iprop((iprop(Writ3 d L ids tab n0 ∗ (gatLoc d ↦[rowsRange n1 hi]{fullShare} g0))
                -∗ wp frame (wpE (defs₀ (F := F)) 𝒱₀ (thrV d L) none) Set.univ (k ⟨⟩) Q)
          -∗ wp frame (wpE (defs₀ (F := F)) 𝒱₀ (thrV d L) none) Set.univ
              (.op (.enqueueDma B3 (.here (chunkM off inb)) (.dma cc0_scratch12.sem) hsrc hdst hsem) k) Q) := by
  subst h1
  unfold Writ3
  iintro ⟨Hb, Ho, Hsem⟩ Hk
  have hset : (chunkM off inb).view.set = rowsRange n0 (n0 + 200) := HV.chunk_set off inb _ hoff
  have hbs : (B3).view.set = Finset.univ := View.set_whole _
  ihave Ho' := (pts_range_split (F := F) d n0 (n0 + 200) hi (by omega) h2 fullShare g0).1 $$ Ho
  icases Ho' with ⟨Hc, Ho⟩
  ihave Hb' := (Entails.of_eq (show ((B3).view.loc (thrV d L) ↦{fullShare} rowsAt ids tab n0 : sProp 𝕄)
      = (B3).view.loc (thrV d L) ↦[(B3).view.set]{fullShare} rowsAt ids tab n0 by rw [hbs])) $$ Hb
  ihave Hc' := (Entails.of_eq (show (gatLoc d ↦[rowsRange n0 (n0 + 200)]{fullShare} g0 : sProp 𝕄)
      = (chunkM off inb).view.loc (thrV d L) ↦[(chunkM off inb).view.set]{fullShare} g0 by rw [hset])) $$ Hc
  have hD : ∀ w : S200x128.Idx → Elt F .f32, w = rowsAt ids tab n0 →
      (iprop(((chunkM off inb).view.loc (thrV d L) ↦[(chunkM off inb).view.set]{fullShare} (chunkM off inb).view.write (Elt F) g0 w Finset.univ)
          ∗ ((B3).view.loc (thrV d L) ↦[(B3).view.set]{fullShare} rowsAt ids tab n0)) : sProp 𝕄)
        ⊢ iprop((gatLoc d ↦[rowsRange n0 (n0 + 200)]{fullShare} gatherRows ids tab) ∗ ((B3).view.loc (thrV d L) ↦{fullShare} rowsAt ids tab n0)) := by
    intro w hw
    rw [hset, hbs, pointsTo_congr (HV.write_value off inb _ hoff g0 w hw)]
    try exact Entails.of_eq rfl
  iapply (Transfers.wp_dmaLocal countersEmb 𝒱₀ (thrV d L) none (default : HIx 1) (NW L) rfl
      (View.dmaCredit_pos _ (by decide)) (Finset.Subset.refl _)) $$ [Hb' Hc' Hsem]
  · isplitl [Hb']; · iexact Hb'
    isplitl [Hc']; · iexact Hc'
    iexact Hsem
  iintro Hfl
  iapply Hk
  isplitl [Hfl]
  · iapply (Transfers.Flight_mono countersEmb (thrV d L)
      (hD (ReadAs.same.apply ((B3).view.read (Elt F) (rowsAt ids tab n0))) rfl)) $$ Hfl
  · iexact Ho

/-- Slot 3: the wait for its copy-out hands back the row buffer and the written rows, which join the rows done. -/
theorem writeWait3 {α : Type} {Q : α → sProp 𝕄} {k : PUnit → Prog (TpuEff nD τ sig (Elt F) Λ₀ (thrV d L).2) α}
    (lo n0 n1 : ℕ) (hlo : lo ≤ n0) (h1 : n1 = n0 + 200) (O : CellTallies nD τ sig (HIx 1)) (W : Waits sig (HIx 1))
    (off : Fin 2 → ℕ) (inb : ∀ a, off a + S200x128.size a ≤ S204800x128.size a)
    {hsrc : (B3).view.WordExact} {hdst : (chunkM off inb).view.WordExact} :
    iprop(Writ3 d L ids tab n0 ∗ (gatLoc d ↦[rowsRange lo n0]{fullShare} gatherRows ids tab)
        ∗ owes (thrV d L) O W ∗ Transfers.MayWaits (thrV d L) (default : HIx 1) O)
      ⊢ iprop((iprop(((B3).view.loc (thrV d L) ↦{fullShare} rowsAt ids tab n0)
                  ∗ (gatLoc d ↦[rowsRange lo n1]{fullShare} gatherRows ids tab)
                  ∗ semVal (cellOf d L cc0_scratch12.sem) 0
                  ∗ owes (thrV d L) O (insert (SemLoc.dma cc0_scratch12.sem, (default : HIx 1)) W))
                -∗ wp frame (wpE (defs₀ (F := F)) 𝒱₀ (thrV d L) none) Set.univ (k ⟨⟩) Q)
          -∗ wp frame (wpE (defs₀ (F := F)) 𝒱₀ (thrV d L) none) Set.univ (.op (.waitDma2 cc0_scratch12.sem B3 (chunkM off inb) hsrc hdst) k) Q) := by
  subst h1
  unfold Writ3
  iintro ⟨Hfl, Hd, HO, #Hmw⟩ Hk
  iapply (Transfers.wp_waitLocalO countersEmb 𝒱₀ (thrV d L) none (default : HIx 1) (rfl : (chunkM off inb).view.dmaCredit = NW L)) $$ [Hfl HO]
  · isplitl [Hfl]; · iexact Hfl
    isplitl [HO]; · iexact HO
    iapply (Transfers.MayWaits.elim (SemLoc.dma cc0_scratch12.sem)) $$ Hmw
  iintro ⟨⟨Hc, Hb⟩, Hsem, HO⟩
  iapply Hk
  isplitl [Hb]; · iexact Hb
  isplitl [Hd Hc]
  · iapply (pts_range_split (F := F) d lo n0 (n0 + 200) hlo (by omega) fullShare (gatherRows ids tab)).2
    isplitl [Hd]; · iexact Hd
    iexact Hc
  isplitl [Hsem]; · iexact Hsem
  iexact HO

/-! ## The conditions of a trip, decided -/

omit [FloatOps F] in
theorem cond1_iff : ∀ k : Fin k0_t1_loop.trips, k0_cond1 k = 1#1 ↔ 1 ≤ k.val := by decide +kernel
omit [FloatOps F] in
theorem cond3_iff : ∀ k : Fin k0_t1_loop.trips, k0_cond3 k = 1#1 ↔ 1 ≤ k.val := by decide +kernel
omit [FloatOps F] in
theorem cond5_all : ∀ k : Fin k0_t1_loop.trips, k0_cond5 k = 1#1 := by decide +kernel
omit [FloatOps F] in
theorem cond7_all : ∀ k : Fin k0_t1_loop.trips, k0_cond7 k = 1#1 := by decide +kernel
omit [FloatOps F] in
theorem cond2_all : ∀ k : Fin k0_t1_loop.trips, k0_cond2 k = 1#1 := by decide +kernel
omit [FloatOps F] in
theorem cond4_all : ∀ k : Fin k0_t1_loop.trips, k0_cond4 k = 1#1 := by decide +kernel
omit [FloatOps F] in
theorem cond6_iff : ∀ k : Fin k0_t1_loop.trips, k0_cond6 k = 1#1 ↔ k.val ≤ 6 := by decide +kernel
omit [FloatOps F] in
theorem cond8_iff : ∀ k : Fin k0_t1_loop.trips, k0_cond8 k = 1#1 ↔ k.val ≤ 6 := by decide +kernel
omit [FloatOps F] in
theorem trips_eq : k0_t1_loop.trips = 8 := by decide +kernel

/-! ## The ring before trip k -/

/-- Before trip k: the gathers of chunks 4k and 4k + 1 are in flight into slots 0 and 1 (after the last trip those slots
    rest); from the second trip on the copy-outs of chunks 4k − 2 and 4k − 1 are in flight from slots 2 and 3 (before, those
    slots rest); the rows below chunk 4k − 2 hold their final values and the rows from chunk 4k on what they held at entry. -/
def Inv (qt0 qt1 qt2 qt3 qi0 qi1 qi2 qi3 : PosShare TreeShare) (g0 : Buf (Elt F) (gatLoc d))
    (O : CellTallies nD τ sig (HIx 1)) (W : Waits sig (HIx 1)) (k : ℕ) (_ : PUnit) : sProp 𝕄 :=
  iprop(Transfers.MayWaits (thrV d L) (default : HIx 1) O
    ∗ (if k < 8 then iprop(Gath0 d L ids tab qt0 qi0 (baseRow L + 800 * k) ∗ Gath1 d L ids tab qt1 qi1 (baseRow L + 800 * k + 200))
        else iprop(((∃ f, SlotRes0 d L ids tab qt0 qi0 f) ∗ semVal (cellOf d L cc0_scratch5.sem) 0)
          ∗ ((∃ f, SlotRes1 d L ids tab qt1 qi1 f) ∗ semVal (cellOf d L cc0_scratch6.sem) 0)))
    ∗ (if 1 ≤ k then iprop((Writ2 d L ids tab (baseRow L + (800 * k - 400)) ∗ ((tabV).view.loc (thrV d L) ↦{qt2} tab)
              ∗ ((idxV).view.loc (thrV d L) ↦{qi2} fidx d L ids) ∗ semVal (cellOf d L cc0_scratch7.sem) 0)
          ∗ (Writ3 d L ids tab (baseRow L + (800 * k - 200)) ∗ ((tabV).view.loc (thrV d L) ↦{qt3} tab)
              ∗ ((idxV).view.loc (thrV d L) ↦{qi3} fidx d L ids) ∗ semVal (cellOf d L cc0_scratch8.sem) 0))
        else iprop(((∃ f, SlotRes2 d L ids tab qt2 qi2 f) ∗ semVal (cellOf d L cc0_scratch7.sem) 0 ∗ semVal (cellOf d L cc0_scratch11.sem) 0)
          ∗ ((∃ f, SlotRes3 d L ids tab qt3 qi3 f) ∗ semVal (cellOf d L cc0_scratch8.sem) 0 ∗ semVal (cellOf d L cc0_scratch12.sem) 0)))
    ∗ semVal (cellOf d L cc0_scratch9.sem) 0 ∗ semVal (cellOf d L cc0_scratch10.sem) 0
    ∗ (gatLoc d ↦[rowsRange (baseRow L) (baseRow L + (800 * k - 400))]{fullShare} gatherRows ids tab)
    ∗ (gatLoc d ↦[rowsRange (baseRow L + 800 * k) (baseRow L + 6400)]{fullShare} g0)
    ∗ ∃ W', ⌜∀ p ∈ W', p ∈ W ∨ p.2 = none⌝ ∗ owes (thrV d L) O W')

end Tile

end Cert.KernelIdeal.Hand

end
-- ==== Proof.TileTrip.lean ====
/-
  One trip of the loop, at a symbolic trip number k: from the ring's state before trip k to its state before trip k + 1.
  The trip runs chunks 4k … 4k + 3, each: wait for the copy-out that last used the slot two ahead (from the second trip
  on, for the first two chunks), start the gather of the chunk two ahead into that slot (not in the last trip, for the last
  two chunks), wait for this chunk's gather, start its copy-out. Three cases — the first trip, a middle one, the last —
  differ only in which of the conditional steps run; each step is one of the ring's four steps at its slot.
-/
import proofs.«203519_g84241488544277_cont_sun_c4_283_31_alg».proof.Proof.TileLoop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords) (ids : Buf (Elt F) (idsLoc d)) (tab : Buf (Elt F) (tabLoc d))

set_option maxHeartbeats 8000000 in
/-- Trip k of the ring (the first). -/
theorem trip_first (HV : ValueFacts d L ids tab) (hids : ∀ j, (ids j).toNat < 100000) (qt0 qt1 qt2 qt3 qi0 qi1 qi2 qi3 : PosShare TreeShare) (g0 : Buf (Elt F) (gatLoc d))
    (O : CellTallies nD τ sig (HIx 1)) (W : Waits sig (HIx 1)) (v2 : BitVec 32) (k : Fin k0_t1_loop.trips) (acc : PUnit)
    (hk0 : k.val = 0) :
    Inv d L ids tab qt0 qt1 qt2 qt3 qi0 qi1 qi2 qi3 g0 O W k.val acc
      ⊢ wp frame (wpE (defs₀ (F := F)) 𝒱₀ (thrV d L) none) Set.univ
          (k0_t1_body L idsV (Memref.isWhole_whole _) tabV (Memref.isWhole_whole _) outV (Memref.isWhole_whole _)
            idxV (Memref.isWhole_whole _) B0 (Memref.isWhole_whole _) B1 (Memref.isWhole_whole _) B2 (Memref.isWhole_whole _) B3 (Memref.isWhole_whole _)
            cc0_scratch5 cc0_scratch6 cc0_scratch7 cc0_scratch8 cc0_scratch9 cc0_scratch10 cc0_scratch11 cc0_scratch12 cc0_scoped0 v2 k acc)
          (Inv d L ids tab qt0 qt1 qt2 qt3 qi0 qi1 qi2 qi3 g0 O W (k.val + 1)) := by
  have hc1 : ¬ k0_cond1 k = 1#1 := fun h => by have := (cond1_iff k).mp h; omega
  have hc3 : ¬ k0_cond3 k = 1#1 := fun h => by have := (cond3_iff k).mp h; omega
  have hc5 : k0_cond5 k = 1#1 := cond5_all k
  have hc7 : k0_cond7 k = 1#1 := cond7_all k
  have hc2 : k0_cond2 k = 1#1 := cond2_all k
  have hc4 : k0_cond4 k = 1#1 := cond4_all k
  have hc6 : k0_cond6 k = 1#1 := (cond6_iff k).mpr (by omega)
  have hc8 : k0_cond8 k = 1#1 := (cond8_iff k).mpr (by omega)
  unfold Inv
  rw [if_pos (show k.val < 8 by omega), if_neg (show ¬ 1 ≤ k.val by omega), if_pos (show k.val + 1 < 8 by omega), if_pos (show 1 ≤ k.val + 1 by omega)]
  iintro ⟨#Hmw, ⟨HG0, HG1⟩, ⟨⟨⟨%f2, Hb2, Ht2, Hi2⟩, Hg2, Hw2⟩, ⟨⟨%f3, Hb3, Ht3, Hi3⟩, Hg3, Hw3⟩⟩, Hw0, Hw1, Hdone, Htodo, %W', %hW', HO⟩
  sl_exec
  iapply (gatherStart2 d L ids tab HV hids (k0_off3 k) _ (800 * k.val + 400) (k0_off3_eq k) (baseRow L + (800 * (k.val + 1) - 400)) (by omega) qt2 qi2 _) $$ [Hb2 Ht2 Hi2 Hg2]
  · isplitl [Hb2 Ht2 Hi2]
    · isplitl [Hb2]; · iexact Hb2
      isplitl [Ht2]; · iexact Ht2
      iexact Hi2
    iexact Hg2
  iintro HG2
  sl_exec
  iapply (gatherWait0 d L ids tab qt0 qi0 (baseRow L + 800 * k.val) O _) $$ [HG0 HO]
  · isplitl [HG0]; · iexact HG0
    isplitl [HO]; · iexact HO
    iexact Hmw
  iintro ⟨⟨Hb0, Ht0, Hi0⟩, Hg0, HO⟩
  sl_exec
  iapply (writeStart0 d L ids tab HV (k0_off4 L k 0#32) _ (baseRow L + 800 * k.val) (baseRow L + 800 * k.val + 200) (baseRow L + 6400) (off4_eq L k ⟨0, by decide⟩ _ (by show _ = baseRow L + 800 * k.val + 200 * 0; omega)) (by omega) (by omega) g0) $$ [Hb0 Htodo Hw0]
  · isplitl [Hb0]; · iexact Hb0
    isplitl [Htodo]; · iexact Htodo
    iexact Hw0
  iintro ⟨HW0, Htodo⟩
  sl_exec
  iapply (gatherStart3 d L ids tab HV hids (k0_off6 k) _ (800 * k.val + 600) (k0_off6_eq k) (baseRow L + (800 * (k.val + 1) - 200)) (by omega) qt3 qi3 _) $$ [Hb3 Ht3 Hi3 Hg3]
  · isplitl [Hb3 Ht3 Hi3]
    · isplitl [Hb3]; · iexact Hb3
      isplitl [Ht3]; · iexact Ht3
      iexact Hi3
    iexact Hg3
  iintro HG3
  sl_exec
  iapply (gatherWait1 d L ids tab qt1 qi1 (baseRow L + 800 * k.val + 200) O _) $$ [HG1 HO]
  · isplitl [HG1]; · iexact HG1
    isplitl [HO]; · iexact HO
    iexact Hmw
  iintro ⟨⟨Hb1, Ht1, Hi1⟩, Hg1, HO⟩
  sl_exec
  iapply (writeStart1 d L ids tab HV (k0_off4 L k 1#32) _ (baseRow L + 800 * k.val + 200) (baseRow L + (800 * (k.val + 1) - 400)) (baseRow L + 6400) (off4_eq L k ⟨1, by decide⟩ _ (by show _ = baseRow L + 800 * k.val + 200 * 1; omega)) (by omega) (by omega) g0) $$ [Hb1 Htodo Hw1]
  · isplitl [Hb1]; · iexact Hb1
    isplitl [Htodo]; · iexact Htodo
    iexact Hw1
  iintro ⟨HW1, Htodo⟩
  sl_exec
  ihave Hdone := (Entails.of_eq (show (gatLoc d ↦[rowsRange (baseRow L) (baseRow L + (800 * k.val - 400))]{fullShare} gatherRows ids tab : sProp 𝕄)
      = (gatLoc d ↦[rowsRange (baseRow L) (baseRow L + 800 * k.val)]{fullShare} gatherRows ids tab) by
        rw [show baseRow L + (800 * k.val - 400) = baseRow L + 800 * k.val by omega])) $$ Hdone
  iapply (writeWait0 d L ids tab (baseRow L) (baseRow L + 800 * k.val) (baseRow L + 800 * k.val + 200) (by omega) (by omega) O _ (k0_off7 L) _) $$ [HW0 Hdone HO]
  · isplitl [HW0]; · iexact HW0
    isplitl [Hdone]; · iexact Hdone
    isplitl [HO]; · iexact HO
    iexact Hmw
  iintro ⟨Hb0, Hdone, Hw0, HO⟩
  sl_exec
  iapply (gatherStart0 d L ids tab HV hids (k0_off8 k) _ (800 * k.val + 800) (k0_off8_eq k) (baseRow L + 800 * (k.val + 1)) (by omega) qt0 qi0 _) $$ [Hb0 Ht0 Hi0 Hg0]
  · isplitl [Hb0 Ht0 Hi0]
    · isplitl [Hb0]; · iexact Hb0
      isplitl [Ht0]; · iexact Ht0
      iexact Hi0
    iexact Hg0
  iintro HG0
  sl_exec
  iapply (gatherWait2 d L ids tab qt2 qi2 (baseRow L + (800 * (k.val + 1) - 400)) O _) $$ [HG2 HO]
  · isplitl [HG2]; · iexact HG2
    isplitl [HO]; · iexact HO
    iexact Hmw
  iintro ⟨⟨Hb2, Ht2, Hi2⟩, Hg2, HO⟩
  sl_exec
  iapply (writeStart2 d L ids tab HV (k0_off4 L k 2#32) _ (baseRow L + (800 * (k.val + 1) - 400)) (baseRow L + (800 * (k.val + 1) - 200)) (baseRow L + 6400) (off4_eq L k ⟨2, by decide⟩ _ (by show _ = baseRow L + 800 * k.val + 200 * 2; omega)) (by omega) (by omega) g0) $$ [Hb2 Htodo Hw2]
  · isplitl [Hb2]; · iexact Hb2
    isplitl [Htodo]; · iexact Htodo
    iexact Hw2
  iintro ⟨HW2, Htodo⟩
  sl_exec
  iapply (writeWait1 d L ids tab (baseRow L) (baseRow L + 800 * k.val + 200) (baseRow L + (800 * (k.val + 1) - 400)) (by omega) (by omega) O _ (k0_off9 L) _) $$ [HW1 Hdone HO]
  · isplitl [HW1]; · iexact HW1
    isplitl [Hdone]; · iexact Hdone
    isplitl [HO]; · iexact HO
    iexact Hmw
  iintro ⟨Hb1, Hdone, Hw1, HO⟩
  sl_exec
  iapply (gatherStart1 d L ids tab HV hids (k0_off10 k) _ (800 * k.val + 1000) (k0_off10_eq k) (baseRow L + 800 * (k.val + 1) + 200) (by omega) qt1 qi1 _) $$ [Hb1 Ht1 Hi1 Hg1]
  · isplitl [Hb1 Ht1 Hi1]
    · isplitl [Hb1]; · iexact Hb1
      isplitl [Ht1]; · iexact Ht1
      iexact Hi1
    iexact Hg1
  iintro HG1
  sl_exec
  iapply (gatherWait3 d L ids tab qt3 qi3 (baseRow L + (800 * (k.val + 1) - 200)) O _) $$ [HG3 HO]
  · isplitl [HG3]; · iexact HG3
    isplitl [HO]; · iexact HO
    iexact Hmw
  iintro ⟨⟨Hb3, Ht3, Hi3⟩, Hg3, HO⟩
  sl_exec
  iapply (writeStart3 d L ids tab HV (k0_off4 L k 3#32) _ (baseRow L + (800 * (k.val + 1) - 200)) (baseRow L + 800 * (k.val + 1)) (baseRow L + 6400) (off4_eq L k ⟨3, by decide⟩ _ (by show _ = baseRow L + 800 * k.val + 200 * 3; omega)) (by omega) (by omega) g0) $$ [Hb3 Htodo Hw3]
  · isplitl [Hb3]; · iexact Hb3
    isplitl [Htodo]; · iexact Htodo
    iexact Hw3
  iintro ⟨HW3, Htodo⟩
  sl_exec
  sl_step
  isplitr; · iexact Hmw
  isplitl [HG0 HG1]
  · isplitl [HG0]; · iexact HG0
    iexact HG1
  isplitl [HW2 Ht2 Hi2 Hg2 HW3 Ht3 Hi3 Hg3]
  · isplitl [HW2 Ht2 Hi2 Hg2]
    · isplitl [HW2]; · iexact HW2
      isplitl [Ht2]; · iexact Ht2
      isplitl [Hi2]; · iexact Hi2
      iexact Hg2
    · isplitl [HW3]; · iexact HW3
      isplitl [Ht3]; · iexact Ht3
      isplitl [Hi3]; · iexact Hi3
      iexact Hg3
  isplitl [Hw0]; · iexact Hw0
  isplitl [Hw1]; · iexact Hw1
  isplitl [Hdone]; · iexact Hdone
  isplitl [Htodo]; · iexact Htodo
  iexists _; isplitr
  swap; · iexact HO
  ipureintro; intro p hp
  simp only [Finset.mem_insert] at hp
  rcases hp with hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact hW' p hp

set_option maxHeartbeats 8000000 in
/-- Trip k of the ring (a middle one). -/
theorem trip_mid (HV : ValueFacts d L ids tab) (hids : ∀ j, (ids j).toNat < 100000) (qt0 qt1 qt2 qt3 qi0 qi1 qi2 qi3 : PosShare TreeShare) (g0 : Buf (Elt F) (gatLoc d))
    (O : CellTallies nD τ sig (HIx 1)) (W : Waits sig (HIx 1)) (v2 : BitVec 32) (k : Fin k0_t1_loop.trips) (acc : PUnit)
    (hk1 : 1 ≤ k.val) (hk6 : k.val ≤ 6) :
    Inv d L ids tab qt0 qt1 qt2 qt3 qi0 qi1 qi2 qi3 g0 O W k.val acc
      ⊢ wp frame (wpE (defs₀ (F := F)) 𝒱₀ (thrV d L) none) Set.univ
          (k0_t1_body L idsV (Memref.isWhole_whole _) tabV (Memref.isWhole_whole _) outV (Memref.isWhole_whole _)
            idxV (Memref.isWhole_whole _) B0 (Memref.isWhole_whole _) B1 (Memref.isWhole_whole _) B2 (Memref.isWhole_whole _) B3 (Memref.isWhole_whole _)
            cc0_scratch5 cc0_scratch6 cc0_scratch7 cc0_scratch8 cc0_scratch9 cc0_scratch10 cc0_scratch11 cc0_scratch12 cc0_scoped0 v2 k acc)
          (Inv d L ids tab qt0 qt1 qt2 qt3 qi0 qi1 qi2 qi3 g0 O W (k.val + 1)) := by
  have hc1 : k0_cond1 k = 1#1 := (cond1_iff k).mpr (by omega)
  have hc3 : k0_cond3 k = 1#1 := (cond3_iff k).mpr (by omega)
  have hc5 : k0_cond5 k = 1#1 := cond5_all k
  have hc7 : k0_cond7 k = 1#1 := cond7_all k
  have hc2 : k0_cond2 k = 1#1 := cond2_all k
  have hc4 : k0_cond4 k = 1#1 := cond4_all k
  have hc6 : k0_cond6 k = 1#1 := (cond6_iff k).mpr (by omega)
  have hc8 : k0_cond8 k = 1#1 := (cond8_iff k).mpr (by omega)
  unfold Inv
  rw [if_pos (show k.val < 8 by omega), if_pos (show 1 ≤ k.val by omega), if_pos (show k.val + 1 < 8 by omega), if_pos (show 1 ≤ k.val + 1 by omega)]
  iintro ⟨#Hmw, ⟨HG0, HG1⟩, ⟨⟨HW2, Ht2, Hi2, Hg2⟩, ⟨HW3, Ht3, Hi3, Hg3⟩⟩, Hw0, Hw1, Hdone, Htodo, %W', %hW', HO⟩
  sl_exec
  iapply (writeWait2 d L ids tab (baseRow L) (baseRow L + (800 * k.val - 400)) (baseRow L + (800 * k.val - 200)) (by omega) (by omega) O _ (k0_off2 L) _) $$ [HW2 Hdone HO]
  · isplitl [HW2]; · iexact HW2
    isplitl [Hdone]; · iexact Hdone
    isplitl [HO]; · iexact HO
    iexact Hmw
  iintro ⟨Hb2, Hdone, Hw2, HO⟩
  sl_exec
  iapply (gatherStart2 d L ids tab HV hids (k0_off3 k) _ (800 * k.val + 400) (k0_off3_eq k) (baseRow L + (800 * (k.val + 1) - 400)) (by omega) qt2 qi2 _) $$ [Hb2 Ht2 Hi2 Hg2]
  · isplitl [Hb2 Ht2 Hi2]
    · isplitl [Hb2]; · iexact Hb2
      isplitl [Ht2]; · iexact Ht2
      iexact Hi2
    iexact Hg2
  iintro HG2
  sl_exec
  iapply (gatherWait0 d L ids tab qt0 qi0 (baseRow L + 800 * k.val) O _) $$ [HG0 HO]
  · isplitl [HG0]; · iexact HG0
    isplitl [HO]; · iexact HO
    iexact Hmw
  iintro ⟨⟨Hb0, Ht0, Hi0⟩, Hg0, HO⟩
  sl_exec
  iapply (writeStart0 d L ids tab HV (k0_off4 L k 0#32) _ (baseRow L + 800 * k.val) (baseRow L + 800 * k.val + 200) (baseRow L + 6400) (off4_eq L k ⟨0, by decide⟩ _ (by show _ = baseRow L + 800 * k.val + 200 * 0; omega)) (by omega) (by omega) g0) $$ [Hb0 Htodo Hw0]
  · isplitl [Hb0]; · iexact Hb0
    isplitl [Htodo]; · iexact Htodo
    iexact Hw0
  iintro ⟨HW0, Htodo⟩
  sl_exec
  iapply (writeWait3 d L ids tab (baseRow L) (baseRow L + (800 * k.val - 200)) (baseRow L + 800 * k.val) (by omega) (by omega) O _ (k0_off5 L) _) $$ [HW3 Hdone HO]
  · isplitl [HW3]; · iexact HW3
    isplitl [Hdone]; · iexact Hdone
    isplitl [HO]; · iexact HO
    iexact Hmw
  iintro ⟨Hb3, Hdone, Hw3, HO⟩
  sl_exec
  iapply (gatherStart3 d L ids tab HV hids (k0_off6 k) _ (800 * k.val + 600) (k0_off6_eq k) (baseRow L + (800 * (k.val + 1) - 200)) (by omega) qt3 qi3 _) $$ [Hb3 Ht3 Hi3 Hg3]
  · isplitl [Hb3 Ht3 Hi3]
    · isplitl [Hb3]; · iexact Hb3
      isplitl [Ht3]; · iexact Ht3
      iexact Hi3
    iexact Hg3
  iintro HG3
  sl_exec
  iapply (gatherWait1 d L ids tab qt1 qi1 (baseRow L + 800 * k.val + 200) O _) $$ [HG1 HO]
  · isplitl [HG1]; · iexact HG1
    isplitl [HO]; · iexact HO
    iexact Hmw
  iintro ⟨⟨Hb1, Ht1, Hi1⟩, Hg1, HO⟩
  sl_exec
  iapply (writeStart1 d L ids tab HV (k0_off4 L k 1#32) _ (baseRow L + 800 * k.val + 200) (baseRow L + (800 * (k.val + 1) - 400)) (baseRow L + 6400) (off4_eq L k ⟨1, by decide⟩ _ (by show _ = baseRow L + 800 * k.val + 200 * 1; omega)) (by omega) (by omega) g0) $$ [Hb1 Htodo Hw1]
  · isplitl [Hb1]; · iexact Hb1
    isplitl [Htodo]; · iexact Htodo
    iexact Hw1
  iintro ⟨HW1, Htodo⟩
  sl_exec
  iapply (writeWait0 d L ids tab (baseRow L) (baseRow L + 800 * k.val) (baseRow L + 800 * k.val + 200) (by omega) (by omega) O _ (k0_off7 L) _) $$ [HW0 Hdone HO]
  · isplitl [HW0]; · iexact HW0
    isplitl [Hdone]; · iexact Hdone
    isplitl [HO]; · iexact HO
    iexact Hmw
  iintro ⟨Hb0, Hdone, Hw0, HO⟩
  sl_exec
  iapply (gatherStart0 d L ids tab HV hids (k0_off8 k) _ (800 * k.val + 800) (k0_off8_eq k) (baseRow L + 800 * (k.val + 1)) (by omega) qt0 qi0 _) $$ [Hb0 Ht0 Hi0 Hg0]
  · isplitl [Hb0 Ht0 Hi0]
    · isplitl [Hb0]; · iexact Hb0
      isplitl [Ht0]; · iexact Ht0
      iexact Hi0
    iexact Hg0
  iintro HG0
  sl_exec
  iapply (gatherWait2 d L ids tab qt2 qi2 (baseRow L + (800 * (k.val + 1) - 400)) O _) $$ [HG2 HO]
  · isplitl [HG2]; · iexact HG2
    isplitl [HO]; · iexact HO
    iexact Hmw
  iintro ⟨⟨Hb2, Ht2, Hi2⟩, Hg2, HO⟩
  sl_exec
  iapply (writeStart2 d L ids tab HV (k0_off4 L k 2#32) _ (baseRow L + (800 * (k.val + 1) - 400)) (baseRow L + (800 * (k.val + 1) - 200)) (baseRow L + 6400) (off4_eq L k ⟨2, by decide⟩ _ (by show _ = baseRow L + 800 * k.val + 200 * 2; omega)) (by omega) (by omega) g0) $$ [Hb2 Htodo Hw2]
  · isplitl [Hb2]; · iexact Hb2
    isplitl [Htodo]; · iexact Htodo
    iexact Hw2
  iintro ⟨HW2, Htodo⟩
  sl_exec
  iapply (writeWait1 d L ids tab (baseRow L) (baseRow L + 800 * k.val + 200) (baseRow L + (800 * (k.val + 1) - 400)) (by omega) (by omega) O _ (k0_off9 L) _) $$ [HW1 Hdone HO]
  · isplitl [HW1]; · iexact HW1
    isplitl [Hdone]; · iexact Hdone
    isplitl [HO]; · iexact HO
    iexact Hmw
  iintro ⟨Hb1, Hdone, Hw1, HO⟩
  sl_exec
  iapply (gatherStart1 d L ids tab HV hids (k0_off10 k) _ (800 * k.val + 1000) (k0_off10_eq k) (baseRow L + 800 * (k.val + 1) + 200) (by omega) qt1 qi1 _) $$ [Hb1 Ht1 Hi1 Hg1]
  · isplitl [Hb1 Ht1 Hi1]
    · isplitl [Hb1]; · iexact Hb1
      isplitl [Ht1]; · iexact Ht1
      iexact Hi1
    iexact Hg1
  iintro HG1
  sl_exec
  iapply (gatherWait3 d L ids tab qt3 qi3 (baseRow L + (800 * (k.val + 1) - 200)) O _) $$ [HG3 HO]
  · isplitl [HG3]; · iexact HG3
    isplitl [HO]; · iexact HO
    iexact Hmw
  iintro ⟨⟨Hb3, Ht3, Hi3⟩, Hg3, HO⟩
  sl_exec
  iapply (writeStart3 d L ids tab HV (k0_off4 L k 3#32) _ (baseRow L + (800 * (k.val + 1) - 200)) (baseRow L + 800 * (k.val + 1)) (baseRow L + 6400) (off4_eq L k ⟨3, by decide⟩ _ (by show _ = baseRow L + 800 * k.val + 200 * 3; omega)) (by omega) (by omega) g0) $$ [Hb3 Htodo Hw3]
  · isplitl [Hb3]; · iexact Hb3
    isplitl [Htodo]; · iexact Htodo
    iexact Hw3
  iintro ⟨HW3, Htodo⟩
  sl_exec
  sl_step
  isplitr; · iexact Hmw
  isplitl [HG0 HG1]
  · isplitl [HG0]; · iexact HG0
    iexact HG1
  isplitl [HW2 Ht2 Hi2 Hg2 HW3 Ht3 Hi3 Hg3]
  · isplitl [HW2 Ht2 Hi2 Hg2]
    · isplitl [HW2]; · iexact HW2
      isplitl [Ht2]; · iexact Ht2
      isplitl [Hi2]; · iexact Hi2
      iexact Hg2
    · isplitl [HW3]; · iexact HW3
      isplitl [Ht3]; · iexact Ht3
      isplitl [Hi3]; · iexact Hi3
      iexact Hg3
  isplitl [Hw0]; · iexact Hw0
  isplitl [Hw1]; · iexact Hw1
  isplitl [Hdone]; · iexact Hdone
  isplitl [Htodo]; · iexact Htodo
  iexists _; isplitr
  swap; · iexact HO
  ipureintro; intro p hp
  simp only [Finset.mem_insert] at hp
  rcases hp with hp | hp | hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact hW' p hp

set_option maxHeartbeats 8000000 in
/-- Trip k of the ring (the last). -/
theorem trip_last (HV : ValueFacts d L ids tab) (hids : ∀ j, (ids j).toNat < 100000) (qt0 qt1 qt2 qt3 qi0 qi1 qi2 qi3 : PosShare TreeShare) (g0 : Buf (Elt F) (gatLoc d))
    (O : CellTallies nD τ sig (HIx 1)) (W : Waits sig (HIx 1)) (v2 : BitVec 32) (k : Fin k0_t1_loop.trips) (acc : PUnit)
    (hk7 : k.val = 7) :
    Inv d L ids tab qt0 qt1 qt2 qt3 qi0 qi1 qi2 qi3 g0 O W k.val acc
      ⊢ wp frame (wpE (defs₀ (F := F)) 𝒱₀ (thrV d L) none) Set.univ
          (k0_t1_body L idsV (Memref.isWhole_whole _) tabV (Memref.isWhole_whole _) outV (Memref.isWhole_whole _)
            idxV (Memref.isWhole_whole _) B0 (Memref.isWhole_whole _) B1 (Memref.isWhole_whole _) B2 (Memref.isWhole_whole _) B3 (Memref.isWhole_whole _)
            cc0_scratch5 cc0_scratch6 cc0_scratch7 cc0_scratch8 cc0_scratch9 cc0_scratch10 cc0_scratch11 cc0_scratch12 cc0_scoped0 v2 k acc)
          (Inv d L ids tab qt0 qt1 qt2 qt3 qi0 qi1 qi2 qi3 g0 O W (k.val + 1)) := by
  have hc1 : k0_cond1 k = 1#1 := (cond1_iff k).mpr (by omega)
  have hc3 : k0_cond3 k = 1#1 := (cond3_iff k).mpr (by omega)
  have hc5 : k0_cond5 k = 1#1 := cond5_all k
  have hc7 : k0_cond7 k = 1#1 := cond7_all k
  have hc2 : k0_cond2 k = 1#1 := cond2_all k
  have hc4 : k0_cond4 k = 1#1 := cond4_all k
  have hc6 : ¬ k0_cond6 k = 1#1 := fun h => by have := (cond6_iff k).mp h; omega
  have hc8 : ¬ k0_cond8 k = 1#1 := fun h => by have := (cond8_iff k).mp h; omega
  unfold Inv
  rw [if_pos (show k.val < 8 by omega), if_pos (show 1 ≤ k.val by omega), if_neg (show ¬ k.val + 1 < 8 by omega), if_pos (show 1 ≤ k.val + 1 by omega)]
  iintro ⟨#Hmw, ⟨HG0, HG1⟩, ⟨⟨HW2, Ht2, Hi2, Hg2⟩, ⟨HW3, Ht3, Hi3, Hg3⟩⟩, Hw0, Hw1, Hdone, Htodo, %W', %hW', HO⟩
  sl_exec
  iapply (writeWait2 d L ids tab (baseRow L) (baseRow L + (800 * k.val - 400)) (baseRow L + (800 * k.val - 200)) (by omega) (by omega) O _ (k0_off2 L) _) $$ [HW2 Hdone HO]
  · isplitl [HW2]; · iexact HW2
    isplitl [Hdone]; · iexact Hdone
    isplitl [HO]; · iexact HO
    iexact Hmw
  iintro ⟨Hb2, Hdone, Hw2, HO⟩
  sl_exec
  iapply (gatherStart2 d L ids tab HV hids (k0_off3 k) _ (800 * k.val + 400) (k0_off3_eq k) (baseRow L + (800 * (k.val + 1) - 400)) (by omega) qt2 qi2 _) $$ [Hb2 Ht2 Hi2 Hg2]
  · isplitl [Hb2 Ht2 Hi2]
    · isplitl [Hb2]; · iexact Hb2
      isplitl [Ht2]; · iexact Ht2
      iexact Hi2
    iexact Hg2
  iintro HG2
  sl_exec
  iapply (gatherWait0 d L ids tab qt0 qi0 (baseRow L + 800 * k.val) O _) $$ [HG0 HO]
  · isplitl [HG0]; · iexact HG0
    isplitl [HO]; · iexact HO
    iexact Hmw
  iintro ⟨⟨Hb0, Ht0, Hi0⟩, Hg0, HO⟩
  sl_exec
  iapply (writeStart0 d L ids tab HV (k0_off4 L k 0#32) _ (baseRow L + 800 * k.val) (baseRow L + 800 * k.val + 200) (baseRow L + 6400) (off4_eq L k ⟨0, by decide⟩ _ (by show _ = baseRow L + 800 * k.val + 200 * 0; omega)) (by omega) (by omega) g0) $$ [Hb0 Htodo Hw0]
  · isplitl [Hb0]; · iexact Hb0
    isplitl [Htodo]; · iexact Htodo
    iexact Hw0
  iintro ⟨HW0, Htodo⟩
  sl_exec
  iapply (writeWait3 d L ids tab (baseRow L) (baseRow L + (800 * k.val - 200)) (baseRow L + 800 * k.val) (by omega) (by omega) O _ (k0_off5 L) _) $$ [HW3 Hdone HO]
  · isplitl [HW3]; · iexact HW3
    isplitl [Hdone]; · iexact Hdone
    isplitl [HO]; · iexact HO
    iexact Hmw
  iintro ⟨Hb3, Hdone, Hw3, HO⟩
  sl_exec
  iapply (gatherStart3 d L ids tab HV hids (k0_off6 k) _ (800 * k.val + 600) (k0_off6_eq k) (baseRow L + (800 * (k.val + 1) - 200)) (by omega) qt3 qi3 _) $$ [Hb3 Ht3 Hi3 Hg3]
  · isplitl [Hb3 Ht3 Hi3]
    · isplitl [Hb3]; · iexact Hb3
      isplitl [Ht3]; · iexact Ht3
      iexact Hi3
    iexact Hg3
  iintro HG3
  sl_exec
  iapply (gatherWait1 d L ids tab qt1 qi1 (baseRow L + 800 * k.val + 200) O _) $$ [HG1 HO]
  · isplitl [HG1]; · iexact HG1
    isplitl [HO]; · iexact HO
    iexact Hmw
  iintro ⟨⟨Hb1, Ht1, Hi1⟩, Hg1, HO⟩
  sl_exec
  iapply (writeStart1 d L ids tab HV (k0_off4 L k 1#32) _ (baseRow L + 800 * k.val + 200) (baseRow L + (800 * (k.val + 1) - 400)) (baseRow L + 6400) (off4_eq L k ⟨1, by decide⟩ _ (by show _ = baseRow L + 800 * k.val + 200 * 1; omega)) (by omega) (by omega) g0) $$ [Hb1 Htodo Hw1]
  · isplitl [Hb1]; · iexact Hb1
    isplitl [Htodo]; · iexact Htodo
    iexact Hw1
  iintro ⟨HW1, Htodo⟩
  sl_exec
  iapply (writeWait0 d L ids tab (baseRow L) (baseRow L + 800 * k.val) (baseRow L + 800 * k.val + 200) (by omega) (by omega) O _ (k0_off7 L) _) $$ [HW0 Hdone HO]
  · isplitl [HW0]; · iexact HW0
    isplitl [Hdone]; · iexact Hdone
    isplitl [HO]; · iexact HO
    iexact Hmw
  iintro ⟨Hb0, Hdone, Hw0, HO⟩
  sl_exec
  iapply (gatherWait2 d L ids tab qt2 qi2 (baseRow L + (800 * (k.val + 1) - 400)) O _) $$ [HG2 HO]
  · isplitl [HG2]; · iexact HG2
    isplitl [HO]; · iexact HO
    iexact Hmw
  iintro ⟨⟨Hb2, Ht2, Hi2⟩, Hg2, HO⟩
  sl_exec
  iapply (writeStart2 d L ids tab HV (k0_off4 L k 2#32) _ (baseRow L + (800 * (k.val + 1) - 400)) (baseRow L + (800 * (k.val + 1) - 200)) (baseRow L + 6400) (off4_eq L k ⟨2, by decide⟩ _ (by show _ = baseRow L + 800 * k.val + 200 * 2; omega)) (by omega) (by omega) g0) $$ [Hb2 Htodo Hw2]
  · isplitl [Hb2]; · iexact Hb2
    isplitl [Htodo]; · iexact Htodo
    iexact Hw2
  iintro ⟨HW2, Htodo⟩
  sl_exec
  iapply (writeWait1 d L ids tab (baseRow L) (baseRow L + 800 * k.val + 200) (baseRow L + (800 * (k.val + 1) - 400)) (by omega) (by omega) O _ (k0_off9 L) _) $$ [HW1 Hdone HO]
  · isplitl [HW1]; · iexact HW1
    isplitl [Hdone]; · iexact Hdone
    isplitl [HO]; · iexact HO
    iexact Hmw
  iintro ⟨Hb1, Hdone, Hw1, HO⟩
  sl_exec
  iapply (gatherWait3 d L ids tab qt3 qi3 (baseRow L + (800 * (k.val + 1) - 200)) O _) $$ [HG3 HO]
  · isplitl [HG3]; · iexact HG3
    isplitl [HO]; · iexact HO
    iexact Hmw
  iintro ⟨⟨Hb3, Ht3, Hi3⟩, Hg3, HO⟩
  sl_exec
  iapply (writeStart3 d L ids tab HV (k0_off4 L k 3#32) _ (baseRow L + (800 * (k.val + 1) - 200)) (baseRow L + 800 * (k.val + 1)) (baseRow L + 6400) (off4_eq L k ⟨3, by decide⟩ _ (by show _ = baseRow L + 800 * k.val + 200 * 3; omega)) (by omega) (by omega) g0) $$ [Hb3 Htodo Hw3]
  · isplitl [Hb3]; · iexact Hb3
    isplitl [Htodo]; · iexact Htodo
    iexact Hw3
  iintro ⟨HW3, Htodo⟩
  sl_exec
  sl_step
  isplitr; · iexact Hmw
  isplitl [Hb0 Ht0 Hi0 Hg0 Hb1 Ht1 Hi1 Hg1]
  · isplitl [Hb0 Ht0 Hi0 Hg0]
    · isplitl [Hb0 Ht0 Hi0]
      · iexists _
        isplitl [Hb0]; · iexact Hb0
        isplitl [Ht0]; · iexact Ht0
        iexact Hi0
      iexact Hg0
    · isplitl [Hb1 Ht1 Hi1]
      · iexists _
        isplitl [Hb1]; · iexact Hb1
        isplitl [Ht1]; · iexact Ht1
        iexact Hi1
      iexact Hg1
  isplitl [HW2 Ht2 Hi2 Hg2 HW3 Ht3 Hi3 Hg3]
  · isplitl [HW2 Ht2 Hi2 Hg2]
    · isplitl [HW2]; · iexact HW2
      isplitl [Ht2]; · iexact Ht2
      isplitl [Hi2]; · iexact Hi2
      iexact Hg2
    · isplitl [HW3]; · iexact HW3
      isplitl [Ht3]; · iexact Ht3
      isplitl [Hi3]; · iexact Hi3
      iexact Hg3
  isplitl [Hw0]; · iexact Hw0
  isplitl [Hw1]; · iexact Hw1
  isplitl [Hdone]; · iexact Hdone
  isplitl [Htodo]; · iexact Htodo
  iexists _; isplitr
  swap; · iexact HO
  ipureintro; intro p hp
  simp only [Finset.mem_insert] at hp
  rcases hp with hp | hp | hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact hW' p hp

/-- Trip k of the ring, whichever it is. -/
theorem trip (HV : ValueFacts d L ids tab) (hids : ∀ j, (ids j).toNat < 100000) (qt0 qt1 qt2 qt3 qi0 qi1 qi2 qi3 : PosShare TreeShare) (g0 : Buf (Elt F) (gatLoc d))
    (O : CellTallies nD τ sig (HIx 1)) (W : Waits sig (HIx 1)) (v2 : BitVec 32) (k : Fin k0_t1_loop.trips) (acc : PUnit) :
    Inv d L ids tab qt0 qt1 qt2 qt3 qi0 qi1 qi2 qi3 g0 O W k.val acc
      ⊢ wp frame (wpE (defs₀ (F := F)) 𝒱₀ (thrV d L) none) Set.univ
          (k0_t1_body L idsV (Memref.isWhole_whole _) tabV (Memref.isWhole_whole _) outV (Memref.isWhole_whole _)
            idxV (Memref.isWhole_whole _) B0 (Memref.isWhole_whole _) B1 (Memref.isWhole_whole _) B2 (Memref.isWhole_whole _) B3 (Memref.isWhole_whole _)
            cc0_scratch5 cc0_scratch6 cc0_scratch7 cc0_scratch8 cc0_scratch9 cc0_scratch10 cc0_scratch11 cc0_scratch12 cc0_scoped0 v2 k acc)
          (Inv d L ids tab qt0 qt1 qt2 qt3 qi0 qi1 qi2 qi3 g0 O W (k.val + 1)) := by
  have hk : k.val < 8 := trips_eq ▸ k.isLt
  rcases Nat.eq_zero_or_pos k.val with h0 | h1
  · exact trip_first d L ids tab HV hids qt0 qt1 qt2 qt3 qi0 qi1 qi2 qi3 g0 O W v2 k acc h0
  · rcases Nat.lt_or_ge k.val 7 with h6 | h7
    · exact trip_mid d L ids tab HV hids qt0 qt1 qt2 qt3 qi0 qi1 qi2 qi3 g0 O W v2 k acc h1 (by omega)
    · exact trip_last d L ids tab HV hids qt0 qt1 qt2 qt3 qi0 qi1 qi2 qi3 g0 O W v2 k acc (by omega)

end Tile

end Cert.KernelIdeal.Hand

end
-- ==== Proof.TileBody.lean ====
/-
  The tile's task, whole: the fetch of the tile's ids into the index scratch, the first two gathers, the loop of eight trips
  by the ring's invariant, the last two waits; the gathered array's rows of the tile end at the rows the ids select.
-/
import proofs.«203519_g84241488544277_cont_sun_c4_283_31_alg».proof.Proof.TileTrip

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords) (ids : Buf (Elt F) (idsLoc d)) (tab : Buf (Elt F) (tabLoc d))

omit [FloatOps F] in
theorem ownSems0_V (d : Dev nD) (L : grid0.Coords) :
    (ownSems0 (thrV d L) : sProp 𝕄)
      = iprop(semVal (cellOf d L cc0_scratch5.sem) 0 ∗ semVal (cellOf d L cc0_scratch6.sem) 0 ∗ semVal (cellOf d L cc0_scratch7.sem) 0 ∗ semVal (cellOf d L cc0_scratch8.sem) 0 ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scoped0.sem) 0 ∗ bigSep ((((((((((ownCells (thrV d L)).erase (cellOf d L cc0_scratch5.sem)).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scoped0.sem)) fun g => semVal g 0) := by
  unfold SparseCore.Cfg.ownSems0
  rw [SparseCore.bigSep_erase' ((mem_ownCells (g := (cellOf d L cc0_scratch5.sem))).mpr ⟨rfl, by show (SemLoc.dma cc0_scratch5.sem : SemLoc sig).isScoped .scVector = true; decide⟩),
    SparseCore.bigSep_erase' (Finset.mem_erase.mpr ⟨cell_ne d L (by decide), (mem_ownCells (g := (cellOf d L cc0_scratch6.sem))).mpr ⟨rfl, by show (SemLoc.dma cc0_scratch6.sem : SemLoc sig).isScoped .scVector = true; decide⟩⟩),
    SparseCore.bigSep_erase' (Finset.mem_erase.mpr ⟨cell_ne d L (by decide), Finset.mem_erase.mpr ⟨cell_ne d L (by decide), (mem_ownCells (g := (cellOf d L cc0_scratch7.sem))).mpr ⟨rfl, by show (SemLoc.dma cc0_scratch7.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := (cellOf d L cc0_scratch8.sem))).mpr ⟨rfl, by show (SemLoc.dma cc0_scratch8.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cellOf d L cc0_scratch9.sem))).mpr ⟨rfl, by show (SemLoc.dma cc0_scratch9.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cellOf d L cc0_scratch10.sem))).mpr ⟨rfl, by show (SemLoc.dma cc0_scratch10.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cellOf d L cc0_scratch11.sem))).mpr ⟨rfl, by show (SemLoc.dma cc0_scratch11.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cellOf d L cc0_scratch12.sem))).mpr ⟨rfl, by show (SemLoc.dma cc0_scratch12.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cellOf d L cc0_scoped0.sem))).mpr ⟨rfl, by show (SemLoc.dma cc0_scoped0.sem : SemLoc sig).isScoped .scVector = true; decide⟩⟩⟩⟩⟩⟩⟩⟩⟩)]

omit [FloatOps F] in
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

omit [FloatOps F] in
/-- An empty range of rows holds any contents. -/
theorem pts_range_empty_congr (a b : ℕ) (hba : b ≤ a) (q : PosShare TreeShare) (f g : Buf (Elt F) (gatLoc d)) :
    (gatLoc d ↦[rowsRange a b]{q} f : sProp 𝕄) = (gatLoc d ↦[rowsRange a b]{q} g) :=
  pointsTo_congr fun i hi => absurd (mem_rowsRange.mp hi) (by omega)

set_option maxHeartbeats 8000000 in
set_option maxRecDepth 16384 in
theorem tile_body' (HV : ValueFacts d L ids tab) (hF : (K (F := F)).Facts) (g0 : Buf (Elt F) (gatLoc d)) (hids : ∀ j, (ids j).toNat < 100000) (q : PosShare TreeShare)
      (O : CellTallies nD τ sig (HIx 1)) (W : Waits sig (HIx 1)) (hO : ∀ g, O g none = 0) :
    (iprop(levAts (K (F := F)).L (K (F := F)).lev ∗ emp
        ∗ ((idsLoc d ↦[idsSetK L]{fullShare} ids) ∗ (tabLoc d ↦{q} tab) ∗ (gatLoc d ↦[outSetK L]{fullShare} g0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gather_kernel L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8 cc0_scratch9 cc0_scratch10 cc0_scratch11 cc0_scratch12 cc0_scoped0)
          fun _ => iprop(((idsLoc d ↦[idsSetK L]{fullShare} ids) ∗ (tabLoc d ↦{q} tab)
              ∗ ∃ f, ⌜∀ i ∈ outSetK L, f i = gatherRows ids tab i⌝ ∗ (gatLoc d ↦[outSetK L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V (F := F) d L, ownBufs_V (F := F) d L]
  iintro ⟨#Hlv, -, ⟨Hi, Hx, Ho⟩, ⟨⟨%fs, Hs⟩, ⟨%f1, H1⟩, ⟨%f2, H2⟩, ⟨%f3, H3⟩, ⟨%f4, H4⟩, Hbufs⟩, ⟨Hg0, Hg1, Hg2, Hg3, Hw0, Hw1, Hw2, Hw3, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (idsLoc d ↦[idsSetK L]{fullShare} ids : sProp 𝕄)
      = (((idsV).slice (Rect.unit (s := S204800) (k0_off1 L) S6400.size (k0_off1_inb L)) (fun _ => rfl)).view.loc (thrV d L)
          ↦[((idsV).slice (Rect.unit (s := S204800) (k0_off1 L) S6400.size (k0_off1_inb L)) (fun _ => rfl)).view.set]{fullShare} ids) by rfl)) $$ Hi
  ihave Hs' := (Entails.of_eq (show ((thrV d L).loc cc0_scratch0 ↦{fullShare} fs : sProp 𝕄)
      = ((idxV).view.loc (thrV d L) ↦{fullShare} fs) by rfl)) $$ Hs
  sl_exec
  -- the index scratch now holds the tile's ids
  have hfetch : ∀ w : S6400.Idx → Elt F .i32, w = ReadAs.same.apply (((idsV).slice (idsRectK L) (fun _ => rfl)).view.read (Elt F) ids) →
      (((idxV).view.loc (thrV d L) ↦{fullShare} (idxV).view.write (Elt F) fs w Finset.univ : sProp 𝕄))
        ⊢ ((idxV).view.loc (thrV d L) ↦{fullShare} fidx d L ids) := fun w hw => by
    subst hw; rw [HV.fetch_value]; try exact Entails.of_eq rfl
  ihave Hs2 := (hfetch (tile_body'.sl.dma0 d L ids) rfl) $$ Hs'
  -- the shares of the word table and of the index scratch, one per slot
  ihave Hx' := (Entails.of_eq (show (tabLoc d ↦{q} tab : sProp 𝕄) = ((tabV).view.loc (thrV d L) ↦{q} tab) by rfl)) $$ Hx
  ihave Hx's := (pointsTo_share (PosShare.mem_left_op_right (q))).1 $$ Hx'
  icases Hx's with ⟨HxL, HxR⟩
  ihave HxLs := (pointsTo_share (PosShare.mem_left_op_right (q.left))).1 $$ HxL
  icases HxLs with ⟨Ht0, Ht1⟩
  ihave HxRs := (pointsTo_share (PosShare.mem_left_op_right (q.right))).1 $$ HxR
  icases HxRs with ⟨Ht2, Ht3⟩
  ihave Hs2s := (pointsTo_share (PosShare.mem_left_op_right (fullShare))).1 $$ Hs2
  icases Hs2s with ⟨HsL, HsR⟩
  ihave HsLs := (pointsTo_share (PosShare.mem_left_op_right (fullShare.left))).1 $$ HsL
  icases HsLs with ⟨Hi0, Hi1⟩
  ihave HsRs := (pointsTo_share (PosShare.mem_left_op_right (fullShare.right))).1 $$ HsR
  icases HsRs with ⟨Hi2, Hi3⟩
  -- the tile's rows of the gathered array: none final yet, all at their entry contents
  ihave Ho2 := (Entails.of_eq (show (gatLoc d ↦[outSetK L]{fullShare} g0 : sProp 𝕄)
      = (gatLoc d ↦[rowsRange (baseRow L) (baseRow L + 6400)]{fullShare} g0) by rw [HV.out_set])) $$ Ho
  ihave Ho3 := (pts_range_split (F := F) d (baseRow L) (baseRow L) (baseRow L + 6400) (by omega) (by omega) fullShare g0).1 $$ Ho2
  icases Ho3 with ⟨He, Htodo'⟩
  ihave Hdone := (Entails.of_eq (show (gatLoc d ↦[rowsRange (baseRow L) (baseRow L)]{fullShare} g0 : sProp 𝕄)
      = (gatLoc d ↦[rowsRange (baseRow L) (baseRow L + (800 * 0 - 400))]{fullShare} gatherRows ids tab) by
        rw [show baseRow L + (800 * 0 - 400) = baseRow L by omega]; exact pts_range_empty_congr d _ _ (by omega) _ _ _)) $$ He
  ihave Htodo := (Entails.of_eq (show (gatLoc d ↦[rowsRange (baseRow L) (baseRow L + 6400)]{fullShare} g0 : sProp 𝕄)
      = (gatLoc d ↦[rowsRange (baseRow L + 800 * 0) (baseRow L + 6400)]{fullShare} g0) by
        rw [show baseRow L + 800 * 0 = baseRow L by omega])) $$ Htodo'
  -- the first two gathers
  ihave Hb0 := (Entails.of_eq (show ((thrV d L).loc cc0_scratch1 ↦{fullShare} f1 : sProp 𝕄) = ((B0).view.loc (thrV d L) ↦{fullShare} f1) by rfl)) $$ H1
  ihave Hb1 := (Entails.of_eq (show ((thrV d L).loc cc0_scratch2 ↦{fullShare} f2 : sProp 𝕄) = ((B1).view.loc (thrV d L) ↦{fullShare} f2) by rfl)) $$ H2
  ihave Hb2 := (Entails.of_eq (show ((thrV d L).loc cc0_scratch3 ↦{fullShare} f3 : sProp 𝕄) = ((B2).view.loc (thrV d L) ↦{fullShare} f3) by rfl)) $$ H3
  ihave Hb3 := (Entails.of_eq (show ((thrV d L).loc cc0_scratch4 ↦{fullShare} f4 : sProp 𝕄) = ((B3).view.loc (thrV d L) ↦{fullShare} f4) by rfl)) $$ H4
  iapply (gatherStart0 d L ids tab HV hids ![0] _ 0 rfl (baseRow L + 800 * 0) (by omega) (q.left.left) (fullShare.left.left) f1) $$ [Hb0 Ht0 Hi0 Hg0]
  · isplitl [Hb0 Ht0 Hi0]
    · isplitl [Hb0]; · iexact Hb0
      isplitl [Ht0]; · iexact Ht0
      iexact Hi0
    iexact Hg0
  iintro HG0
  sl_exec
  iapply (gatherStart1 d L ids tab HV hids ![200] _ 200 rfl (baseRow L + 800 * 0 + 200) (by omega) (q.left.right) (fullShare.left.right) f2) $$ [Hb1 Ht1 Hi1 Hg1]
  · isplitl [Hb1 Ht1 Hi1]
    · isplitl [Hb1]; · iexact Hb1
      isplitl [Ht1]; · iexact Ht1
      iexact Hi1
    iexact Hg1
  iintro HG1
  sl_exec
  sl_for (Inv d L ids tab (q.left.left) (q.left.right) (q.right.left) (q.right.right) (fullShare.left.left) (fullShare.left.right) (fullShare.right.left) (fullShare.right.right) g0 O W) $$ [Hmw HG0 HG1 Hb2 Ht2 Hi2 Hg2 Hw2 Hb3 Ht3 Hi3 Hg3 Hw3 Hw0 Hw1 Hdone Htodo HO]
  case region =>
    intro k acc
    exact trip d L ids tab HV hids _ _ _ _ _ _ _ _ g0 O W _ k acc
  · unfold Inv
    rw [if_pos (show 0 < 8 by omega), if_neg (show ¬ 1 ≤ 0 by omega)]
    isplitr; · iexact Hmw
    isplitl [HG0 HG1]
    · isplitl [HG0]; · iexact HG0
      iexact HG1
    isplitl [Hb2 Ht2 Hi2 Hg2 Hw2 Hb3 Ht3 Hi3 Hg3 Hw3]
    · isplitl [Hb2 Ht2 Hi2 Hg2 Hw2]
      · isplitl [Hb2 Ht2 Hi2]
        · iexists _
          isplitl [Hb2]; · iexact Hb2
          isplitl [Ht2]; · iexact Ht2
          iexact Hi2
        isplitl [Hg2]; · iexact Hg2
        iexact Hw2
      · isplitl [Hb3 Ht3 Hi3]
        · iexists _
          isplitl [Hb3]; · iexact Hb3
          isplitl [Ht3]; · iexact Ht3
          iexact Hi3
        isplitl [Hg3]; · iexact Hg3
        iexact Hw3
    isplitl [Hw0]; · iexact Hw0
    isplitl [Hw1]; · iexact Hw1
    isplitl [Hdone]; · iexact Hdone
    isplitl [Htodo]; · iexact Htodo
    iexists _; isplitr
    swap; · iexact HO
    ipureintro; intro p hp
    rcases Finset.mem_insert.mp hp with hp | hp
    · exact .inr (hp ▸ rfl)
    · exact .inl hp
  iintro %u HI
  have h8 : Scf.trips k0_t1_loop.lb k0_t1_loop.ub k0_t1_loop.st = 8 := trips_eq
  ihave HI8 := (Entails.of_eq (congrArg (fun n => Inv d L ids tab (q.left.left) (q.left.right) (q.right.left) (q.right.right) (fullShare.left.left) (fullShare.left.right) (fullShare.right.left) (fullShare.right.right) g0 O W n u) h8)) $$ HI
  unfold Inv
  rw [if_neg (show ¬ 8 < 8 by omega), if_pos (show 1 ≤ 8 by omega)]
  icases HI8 with ⟨-, ⟨⟨⟨%f0', Hb0, Ht0, Hi0⟩, Hg0⟩, ⟨⟨%f1', Hb1, Ht1, Hi1⟩, Hg1⟩⟩, ⟨⟨HW2, Ht2, Hi2, Hg2⟩, ⟨HW3, Ht3, Hi3, Hg3⟩⟩, Hw0, Hw1, Hdone, Htodo, %W', %hW', HO⟩
  sl_exec
  iapply (writeWait2 d L ids tab (baseRow L) (baseRow L + (800 * 8 - 400)) (baseRow L + (800 * 8 - 200)) (by omega) (by omega) O _ (k0_off11 L) _) $$ [HW2 Hdone HO]
  · isplitl [HW2]; · iexact HW2
    isplitl [Hdone]; · iexact Hdone
    isplitl [HO]; · iexact HO
    iexact Hmw
  iintro ⟨Hb2, Hdone, Hw2, HO⟩
  sl_exec
  iapply (writeWait3 d L ids tab (baseRow L) (baseRow L + (800 * 8 - 200)) (baseRow L + 6400) (by omega) (by omega) O _ (k0_off11 L) _) $$ [HW3 Hdone HO]
  · isplitl [HW3]; · iexact HW3
    isplitl [Hdone]; · iexact Hdone
    isplitl [HO]; · iexact HO
    iexact Hmw
  iintro ⟨Hb3, Hdone, Hw3, HO⟩
  sl_exec
  sl_step
  -- the shares rejoin
  ihave HxL := (pointsTo_share (PosShare.mem_left_op_right (q.left))).2 $$ [Ht0 Ht1]
  · isplitl [Ht0]; · iexact Ht0
    iexact Ht1
  ihave HxR := (pointsTo_share (PosShare.mem_left_op_right (q.right))).2 $$ [Ht2 Ht3]
  · isplitl [Ht2]; · iexact Ht2
    iexact Ht3
  ihave Hx := (pointsTo_share (PosShare.mem_left_op_right (q))).2 $$ [HxL HxR]
  · isplitl [HxL]; · iexact HxL
    iexact HxR
  ihave HsL := (pointsTo_share (PosShare.mem_left_op_right (fullShare.left))).2 $$ [Hi0 Hi1]
  · isplitl [Hi0]; · iexact Hi0
    iexact Hi1
  ihave HsR := (pointsTo_share (PosShare.mem_left_op_right (fullShare.right))).2 $$ [Hi2 Hi3]
  · isplitl [Hi2]; · iexact Hi2
    iexact Hi3
  ihave Hs := (pointsTo_share (PosShare.mem_left_op_right (fullShare))).2 $$ [HsL HsR]
  · isplitl [HsL]; · iexact HsL
    iexact HsR
  -- the rows: all final
  ihave Hlast := (Entails.of_eq (show (gatLoc d ↦[rowsRange (baseRow L + 800 * 8) (baseRow L + 6400)]{fullShare} g0 : sProp 𝕄)
      = (gatLoc d ↦[rowsRange (baseRow L + 6400) (baseRow L + 6400)]{fullShare} gatherRows ids tab) by
        rw [show baseRow L + 800 * 8 = baseRow L + 6400 by omega]; exact pts_range_empty_congr d _ _ (by omega) _ _ _)) $$ Htodo
  ihave Hall := (pts_range_split (F := F) d (baseRow L) (baseRow L + 6400) (baseRow L + 6400) (by omega) (by omega) fullShare (gatherRows ids tab)).2 $$ [Hdone Hlast]
  · isplitl [Hdone]; · iexact Hdone
    iexact Hlast
  ihave Hout := (Entails.of_eq (show (gatLoc d ↦[rowsRange (baseRow L) (baseRow L + 6400)]{fullShare} gatherRows ids tab : sProp 𝕄)
      = (gatLoc d ↦[outSetK L]{fullShare} gatherRows ids tab) by rw [HV.out_set])) $$ Hall
  isplitl [Hi' Hx Hout]
  · isplitl [Hi']; · iapply (Entails.of_eq (show (_ : sProp 𝕄) = (idsLoc d ↦[idsSetK L]{fullShare} ids) by rfl)) $$ Hi'
    isplitl [Hx]; · iapply (Entails.of_eq (show (_ : sProp 𝕄) = (tabLoc d ↦{q} tab) by rfl)) $$ Hx
    iexists (gatherRows ids tab)
    isplitr
    · ipureintro; exact fun i _ => rfl
    · iexact Hout
  isplitl [Hs Hb0 Hb1 Hb2 Hb3 Hbufs]
  · isplitl [Hs]; · iexists _; iapply (Entails.of_eq (show (_ : sProp 𝕄) = ((thrV d L).loc cc0_scratch0 ↦{fullShare} fidx d L ids) by rfl)) $$ Hs
    isplitl [Hb0]; · iexists _; iapply (Entails.of_eq (show (_ : sProp 𝕄) = ((thrV d L).loc cc0_scratch1 ↦{fullShare} f0') by rfl)) $$ Hb0
    isplitl [Hb1]; · iexists _; iapply (Entails.of_eq (show (_ : sProp 𝕄) = ((thrV d L).loc cc0_scratch2 ↦{fullShare} f1') by rfl)) $$ Hb1
    isplitl [Hb2]; · iexists _; iapply (Entails.of_eq (show (_ : sProp 𝕄) = ((thrV d L).loc cc0_scratch3 ↦{fullShare} rowsAt ids tab (baseRow L + (800 * 8 - 400))) by rfl)) $$ Hb2
    isplitl [Hb3]; · iexists _; iapply (Entails.of_eq (show (_ : sProp 𝕄) = ((thrV d L).loc cc0_scratch4 ↦{fullShare} rowsAt ids tab (baseRow L + (800 * 8 - 200))) by rfl)) $$ Hb3
    iexact Hbufs
  isplitl [Hg0 Hg1 Hg2 Hg3 Hw0 Hw1 Hw2 Hw3 Hsc Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsc]; · iexact Hsc
    iexact Hsems
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  exact hW' p hp

end Tile

end Cert.KernelIdeal.Hand

end
-- ==== Proof.TileValue.lean ====
/-
  The facts about values the ring's steps rest on, proved. Each is a statement about plain index functions and views.

  A slice of a whole array at unit strides places its index x at offset + x, so a chunk of rows [n0, n0 + k) of the
  gathered array is exactly the elements whose row lies in that range, and writing a chunk with the rows the ids at
  positions n0, n0 + 1, … select leaves at row r of the chunk the table row the id at r selects. The tile's slice of
  the flattened ids starts at its first row, so what the fetch lands in the index scratch at p is the id at
  position base + p; an id in range of the table names its own row, so the gather through entries [o, o + 200) of the
  scratch delivers the table rows the ids at positions base + o, … select.
-/
import proofs.«203519_g84241488544277_cont_sun_c4_283_31_alg».proof.Proof.TileFacts
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.SL.Sem

variable {F : FTy → Type}

/-! ## Rows of the gathered array under a slice -/

/-- A slice of k whole rows of the gathered array from row n0 holds exactly the elements of rows [n0, n0 + k). -/
theorem mem_rowsView (k : ℕ) (off : Fin 2 → ℕ) (inb : ∀ a, off a + (⟨2, ![k, 128]⟩ : Shape).size a ≤ S204800x128.size a)
    (n0 : ℕ) (h : off = ![n0, 0]) (i : S204800x128.Idx) :
    i ∈ ((outV).slice (Rect.unit (s := S204800x128) off (⟨2, ![k, 128]⟩ : Shape).size inb) (fun _ => rfl)).view.set
      ↔ n0 ≤ (i 0).val ∧ (i 0).val < n0 + k := by
  subst h
  have hset := View.set_slice_whole (sig := sig) (κ := .scVector) main_v1_scv
    (Rect.unit (s := S204800x128) ![n0, 0] (⟨2, ![k, 128]⟩ : Shape).size inb)
  refine (Finset.ext_iff.mp hset i).trans (Rect.mem_set_unit.trans ?_)
  have h1 : (i 1).val < 128 := (i 1).isLt
  constructor
  · intro hh
    exact hh 0
  · intro hh a
    match a with
    | ⟨0, _⟩ => exact hh
    | ⟨1, _⟩ => exact ⟨Nat.zero_le _, by show (i 1).val < 0 + 128; omega⟩

theorem chunk_set' (off : Fin 2 → ℕ) (inb : ∀ a, off a + S200x128.size a ≤ S204800x128.size a) (n0 : ℕ) (h : off = ![n0, 0]) :
    (chunkM off inb).view.set = rowsRange n0 (n0 + 200) :=
  Finset.ext fun i => (mem_rowsView 200 off inb n0 h i).trans mem_rowsRange.symm

theorem out_set' (L : grid0.Coords) : outSetK L = rowsRange (baseRow L) (baseRow L + 6400) := by
  have h0 : (L 0).val < 2 := (L 0).isLt
  have h1 : (L 1).val < 16 := (L 1).isLt
  have e : outOff L = ![baseRow L, 0] := by
    unfold outOff baseRow
    congr 1
    omega
  exact Finset.ext fun i => (mem_rowsView 6400 (outOff L) (outOff_inb L) (baseRow L) e i).trans mem_rowsRange.symm

/-! ## The ids -/

theorem idAt_lt {ids : S204800.Idx → BitVec 32} (h : ∀ j, (ids j).toNat < 100000) (n : ℕ) : (idAt ids n).toNat < 100000 := by
  unfold idAt
  split
  · exact h _
  · decide

theorem idAt_of_lt (ids : S204800.Idx → BitVec 32) {n : ℕ} (h : n < 204800) : idAt ids n = ids (ValueIdx.ix1 ⟨n, h⟩) := by
  unfold idAt
  rw [dif_pos h]

/-- Every entry the index scratch holds after the fetch is an id of the array, or zero: in range when the ids are. -/
theorem idx_inb' (L : grid0.Coords) (ids : S204800.Idx → BitVec 32) (h : ∀ j, (ids j).toNat < 100000)
    (off : Fin 1 → ℕ) (inb : ∀ a, off a + S200.size a ≤ S6400.size a) (x : S200.Idx) :
    ((offsM off inb).view.read (Elt F) (fidxOf ids L) x).toNat < S100000x128.size gathers_S100000x128_S200x128.axis := by
  rw [View.read_apply, cast_eq]
  exact idAt_lt h _

/-- The fetch lands the tile's 6400 ids in the index scratch. -/
theorem fetch_value' (L : grid0.Coords) (ids : S204800.Idx → BitVec 32) (fs : S6400.Idx → BitVec 32) :
    (idxV).view.write (Elt F) fs (ReadAs.same.apply (((idsV).slice (idsRectK L) (fun _ => rfl)).view.read (Elt F) ids)) Finset.univ
      = fidxOf ids L := by
  refine (View.write_whole_univ (Val := Elt F) cc0_scratch0 fs _).trans ?_
  funext p
  have hp : (p 0).val < 6400 := (p 0).isLt
  have hL0 : (L 0).val < 2 := (L 0).isLt
  have hL1 : (L 1).val < 16 := (L 1).isLt
  have e : k0_off1 L 0 = 12800 * (L 1).val + 6400 * (L 0).val := congrFun (k0_off1_eq L) 0
  rw [ReadAs.apply_same, View.read_apply, cast_eq]
  show ids (((idsV).slice (idsRectK L) (fun _ => rfl)).view.emb p) = idAt ids (baseRow L + (p 0).val)
  rw [idAt_of_lt ids (by unfold baseRow; omega)]
  refine congrArg ids (funext fun a => ?_)
  match a with
  | ⟨0, _⟩ => exact Fin.ext (by show k0_off1 L 0 + 1 * (p 0).val = baseRow L + (p 0).val; unfold baseRow; omega)

/-- A chunk written with the rows its ids select holds, at each of its rows, the table row that row's id selects. -/
theorem write_value' (ids : S204800.Idx → BitVec 32) (tab : S100000x128.Idx → Elt F .f32)
    (off : Fin 2 → ℕ) (inb : ∀ a, off a + S200x128.size a ≤ S204800x128.size a) (n0 : ℕ) (h : off = ![n0, 0])
    (g0 : S204800x128.Idx → Elt F .f32) (w : S200x128.Idx → Elt F .f32) (hw : w = rowsAt ids tab n0)
    (i : S204800x128.Idx) (hi : i ∈ rowsRange n0 (n0 + 200)) :
    (chunkM off inb).view.write (Elt F) g0 w Finset.univ i = gatherRows ids tab i := by
  subst h hw
  obtain ⟨hlo, hhi⟩ := mem_rowsRange.mp hi
  have hi0 : (i 0).val < 204800 := (i 0).isLt
  have hi1 : (i 1).val < 128 := (i 1).isLt
  have hx : (chunkM ![n0, 0] inb).view.emb (ValueIdx.ix2 (⟨(i 0).val - n0, by omega⟩ : Fin 200) (⟨(i 1).val, hi1⟩ : Fin 128)) = i := by
    funext a
    match a with
    | ⟨0, _⟩ => exact Fin.ext (by show n0 + 1 * ((i 0).val - n0) = (i 0).val; omega)
    | ⟨1, _⟩ => exact Fin.ext (by show 0 + 1 * (i 1).val = (i 1).val; omega)
  have hwr := View.write_emb_of_mem (v := (chunkM ![n0, 0] inb).view) (Val := Elt F) g0 (rowsAt ids tab n0)
    (Finset.mem_univ (ValueIdx.ix2 (⟨(i 0).val - n0, by omega⟩ : Fin 200) (⟨(i 1).val, hi1⟩ : Fin 128)))
  rw [hx, cast_eq] at hwr
  rw [hwr]
  show tab (ValueIdx.ix2 (Cert.Hand.rowOf (idAt ids (n0 + ((i 0).val - n0)))) (⟨(i 1).val, hi1⟩ : Fin 128))
    = tab (ValueIdx.ix2 (Cert.Hand.rowOf (ids (ValueIdx.ix1 (i 0)))) (i 1))
  rw [idAt_of_lt ids (by omega : n0 + ((i 0).val - n0) < 204800)]
  have e : (⟨n0 + ((i 0).val - n0), by omega⟩ : Fin 204800) = i 0 := Fin.ext (by show n0 + ((i 0).val - n0) = (i 0).val; omega)
  rw [e]
  rfl

/-- The gather through entries [o, o + 200) of the index scratch delivers the table rows the ids at positions
    base + o, base + o + 1, … select. -/
theorem gather_value' (L : grid0.Coords) (ids : S204800.Idx → BitVec 32) (tab : S100000x128.Idx → Elt F .f32)
    (off : Fin 1 → ℕ) (inb : ∀ a, off a + S200.size a ≤ S6400.size a) (o : ℕ) (ho : off = ![o])
    (hn : S200.numel = S200x128.size gathers_S100000x128_S200x128.axis')
    (hin : ∀ x, ((offsM off inb).view.read (Elt F) (fidxOf ids L) x).toNat < S100000x128.size gathers_S100000x128_S200x128.axis) :
    SparseCore.gatherPayload gathers_S100000x128_S200x128 ((tabS).view.read (Elt F) tab)
        (SparseCore.rows ((offsM off inb).view.read (Elt F) (fidxOf ids L)) hn hin)
      = rowsAt ids tab (baseRow L + o) := by
  subst ho
  funext x
  -- the entry of the index scratch the gather reads for row (x 0) of the chunk
  have hz : ∀ kk : Fin S200.numel, ((S200.rowMajor.symm kk) 0).val = kk.val := fun kk => by
    have h1 := Shape.rowMajor_val_one (S200.rowMajor.symm kk)
    rw [Equiv.apply_symm_apply] at h1
    exact h1.symm
  have hread : ∀ z : S200.Idx, (offsM ![o] inb).view.read (Elt F) (fidxOf ids L) z = idAt ids (baseRow L + (o + (z 0).val)) := fun z => by
    rw [View.read_apply, cast_eq]
    show idAt ids (baseRow L + (o + 1 * (z 0).val)) = _
    rw [Nat.one_mul]
  have hrow : ((gathers_S100000x128_S200x128).idx (SparseCore.rows ((offsM ![o] inb).view.read (Elt F) (fidxOf ids L)) hn hin) x (0 : Fin 2)).val
      = (idAt ids (baseRow L + o + (x 0).val)).toNat := by
    have h1 := Shape.Gathers.idx_axis gathers_S100000x128_S200x128 (SparseCore.rows ((offsM ![o] inb).view.read (Elt F) (fidxOf ids L)) hn hin) x
    refine (congrArg Fin.val h1).trans ?_
    show ((offsM ![o] inb).view.read (Elt F) (fidxOf ids L) (S200.rowMajor.symm ((x gathers_S100000x128_S200x128.axis').cast hn.symm))).toNat = _
    rw [hread, hz]
    show (idAt ids (baseRow L + (o + (x 0).val))).toNat = _
    rw [Nat.add_assoc]
  have hlt : (idAt ids (baseRow L + o + (x 0).val)).toNat < 100000 := by
    rw [← hrow]
    exact (gathers_S100000x128_S200x128.idx _ x (0 : Fin 2)).isLt
  unfold SparseCore.gatherPayload
  rw [View.read_apply, cast_eq]
  show tab _ = tab (ValueIdx.ix2 (Cert.Hand.rowOf (idAt ids (baseRow L + o + (x 0).val))) (x 1))
  refine congrArg tab (funext fun a => ?_)
  match a with
  | ⟨0, _⟩ =>
    apply Fin.ext
    show 0 + 1 * ((gathers_S100000x128_S200x128).idx _ x (0 : Fin 2)).val = min (idAt ids (baseRow L + o + (x 0).val)).toNat 99999
    rw [hrow]
    omega
  | ⟨1, _⟩ =>
    apply Fin.ext
    show 0 + 1 * ((gathers_S100000x128_S200x128).idx _ x (1 : Fin 2)).val = (x 1).val
    rw [Shape.Gathers.idx_of_ne gathers_S100000x128_S200x128 _ x (1 : Fin 2) (by decide)]
    show 0 + 1 * (x 1).val = (x 1).val
    omega

/-! ## The six facts together -/

/-- The facts about values the ring's steps rest on hold of every tile, whatever the ids and the table. -/
theorem valueFacts (d : Dev nD) (L : grid0.Coords) (ids : Buf (Elt F) (idsLoc d)) (tab : Buf (Elt F) (tabLoc d)) :
    ValueFacts (F := F) d L ids tab where
  idx_inb := fun h off inb x => idx_inb' L ids h off inb x
  gather_value := fun off inb o ho hn hin => gather_value' L ids tab off inb o ho hn hin
  chunk_set := fun off inb n0 h => chunk_set' off inb n0 h
  write_value := fun off inb n0 h g0 w hw i hi => write_value' ids tab off inb n0 h g0 w hw i hi
  fetch_value := fun fs => fetch_value' L ids fs
  out_set := out_set' L

end Cert.KernelIdeal.Hand

end
-- ==== Proof.Tile.lean ====
/-
  The tile's task as the launch takes it: the body of the gather kernel at a symbolic tile, from the tile's ids, a read share
  of the word table and the tile's rows of the gathered array at any contents, to the same with those rows at the rows the
  ids select. The facts about values the ring's steps rest on are discharged here.
-/
import proofs.«203519_g84241488544277_cont_sun_c4_283_31_alg».proof.Proof.Launch1
import proofs.«203519_g84241488544277_cont_sun_c4_283_31_alg».proof.Proof.TileBody
import proofs.«203519_g84241488544277_cont_sun_c4_283_31_alg».proof.Proof.TileValue

noncomputable section

namespace Cert.KernelIdeal.Hand

open Cert.KernelIdeal Cert.KernelIdeal.Gen
open Idealize.ShloMosaic

variable {F : FTy → Type} [FloatOps F]

/-- The tile's task, with its value. -/
theorem tile_body : TileBodyStmt (F := F) := fun hF d L ids tab g0 hids q O W hO =>
  tile_body' d L ids tab (valueFacts d L ids tab) hF g0 hids q O W hO

end Cert.KernelIdeal.Hand

end
-- ==== Proof.RegionDat.lean ====
/-
  The proof data of the TensorCore region on one device: what each of the six windowed arrays holds when the region is
  entered, and what each window's staging buffer holds after the body at each of the 16 points.

  Windows 0–4 are inputs the body only reads: after the body a buffer holds the block it was handed — for window 0 the
  point's 12800 gathered rows, for windows 1–4 the whole (small) array. Window 5 is the result: the body's two stores
  (rows [0, 6400) and rows [6400, 12800) of the block) cover the buffer, so after the body it holds, on each half, the
  region's arithmetic applied to the same half of the input block.
-/
import proofs.«203519_g84241488544277_cont_sun_c4_283_31_alg».proof.Proof.Common
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

/-- The two rectangles the body works on: rows [6400·k, 6400·k + 6400) of a 12800-row block, all 128 lanes. -/
abbrev halfRect (k : Fin k1_t1_loop.trips) : Rect S12800x128 :=
  Rect.unit (s := S12800x128) (k1_off1 k) S6400x128.size (k1_off1_inb k)

/-- The one-row rectangle through which the body reads row 0 of the token-type table. -/
abbrev ttRect : Rect S2x128 := Rect.unit (s := S2x128) ![0, 0] S1x128.size inb_S2x128_S1x128_0_0

/-- What the body's store of trip `k` writes: the arithmetic on the positions, token-type row 0, scale, shift and
    half `k` of the input block. -/
def halfPay (xb : Vec F S12800x128 .f32) (pos : Vec F S200x128 .f32) (tt : Vec F S2x128 .f32) (g b : Vec F S1x128 .f32)
    (k : Fin k1_t1_loop.trips) : Vec F S6400x128 .f32 :=
  k1_pay1 pos (View.ld tt ttRect) g b (View.ld xb (halfRect k))

/-- The result block the body leaves: on each half, that half's store. -/
def outBlk (xb : Vec F S12800x128 .f32) (pos : Vec F S200x128 .f32) (tt : Vec F S2x128 .f32) (g b : Vec F S1x128 .f32) :
    Vec F S12800x128 .f32 :=
  View.canon [⟨halfRect ⟨1, by decide⟩, halfPay xb pos tt g b ⟨1, by decide⟩⟩, ⟨halfRect ⟨0, by decide⟩, halfPay xb pos tt g b ⟨0, by decide⟩⟩]

section Data

variable (d : Dev nD)
  (A : (w : Fin cfg1.W) → Buf (Elt F) ((cfg1.win w).arr.view.loc (d.tc : Thread nD τ)))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (A w)

/-- The recorded waits the TensorCore may hold while the region runs: those at or below the level the one SparseCore
    call has left it at. The region's own waits are at the lowest level. -/
def recBound : Set (SemLoc sig × HIx 1) := {p | (K (F := F)).lev (T d, p.1) p.2 ≤ 8 * 1}

/-- The proof data: the arrays at `A`; after the body each input's buffer at its block and the result's at `outBlk`
    of the input blocks; no invariant of the body's own; nothing owed (the one SparseCore call is over); full shares. -/
def dat : Dat τ (Elt F) (HIx 1) ℕ UU ℕ cfg1 d where
  A := A
  after w t := match w with
    | ⟨0, _⟩ => iblk d A 0 t
    | ⟨1, _⟩ => iblk d A 1 t
    | ⟨2, _⟩ => iblk d A 2 t
    | ⟨3, _⟩ => iblk d A 3 t
    | ⟨4, _⟩ => iblk d A 4 t
    | ⟨5, _⟩ => outBlk (iblk d A 0 t) (iblk d A 1 t) (iblk d A 2 t) (iblk d A 3 t) (iblk d A 4 t)
  Φ _ := Pipeline.scopedRest spec1 d
  q _ := fullShare
  owed _ := 0
  recorded _ := recBound (F := F) d

theorem dat_A (w : Fin cfg1.W) : (dat d A).A w = A w := rfl
theorem after_0 (t : Fin cfg1.N) : (dat d A).after 0 t = iblk d A 0 t := by dsimp only [dat]
theorem after_1 (t : Fin cfg1.N) : (dat d A).after 1 t = iblk d A 1 t := by dsimp only [dat]
theorem after_2 (t : Fin cfg1.N) : (dat d A).after 2 t = iblk d A 2 t := by dsimp only [dat]
theorem after_3 (t : Fin cfg1.N) : (dat d A).after 3 t = iblk d A 3 t := by dsimp only [dat]
theorem after_4 (t : Fin cfg1.N) : (dat d A).after 4 t = iblk d A 4 t := by dsimp only [dat]
theorem after_5 (t : Fin cfg1.N) : (dat d A).after 5 t
    = outBlk (iblk d A 0 t) (iblk d A 1 t) (iblk d A 2 t) (iblk d A 3 t) (iblk d A 4 t) := by dsimp only [dat]

/-- Each input's current staging buffer holds its block at every point, fetched there or not: an input the body leaves
    in place keeps its block while its block index stands still. -/
theorem before_0 (t : Fin cfg1.N) (e) : (dat d A).before 0 t e = iblk d A 0 t :=
  ((dat d A).before_in_eq_fetched 0 rfl (fun _ => rfl) (fun _ _ _ => rfl) (fun t => by rw [after_0]; unfold Dat.blockOf iblk; rfl) t e).trans
    (by unfold Dat.fetched Dat.blockOf iblk; rfl)
theorem before_1 (t : Fin cfg1.N) (e) : (dat d A).before 1 t e = iblk d A 1 t :=
  ((dat d A).before_in_eq_fetched 1 rfl (fun _ => rfl) (fun _ _ _ => rfl) (fun t => by rw [after_1]; unfold Dat.blockOf iblk; rfl) t e).trans
    (by unfold Dat.fetched Dat.blockOf iblk; rfl)
theorem before_2 (t : Fin cfg1.N) (e) : (dat d A).before 2 t e = iblk d A 2 t :=
  ((dat d A).before_in_eq_fetched 2 rfl (fun _ => rfl) (fun _ _ _ => rfl) (fun t => by rw [after_2]; unfold Dat.blockOf iblk; rfl) t e).trans
    (by unfold Dat.fetched Dat.blockOf iblk; rfl)
theorem before_3 (t : Fin cfg1.N) (e) : (dat d A).before 3 t e = iblk d A 3 t :=
  ((dat d A).before_in_eq_fetched 3 rfl (fun _ => rfl) (fun _ _ _ => rfl) (fun t => by rw [after_3]; unfold Dat.blockOf iblk; rfl) t e).trans
    (by unfold Dat.fetched Dat.blockOf iblk; rfl)
theorem before_4 (t : Fin cfg1.N) (e) : (dat d A).before 4 t e = iblk d A 4 t :=
  ((dat d A).before_in_eq_fetched 4 rfl (fun _ => rfl) (fun _ _ _ => rfl) (fun t => by rw [after_4]; unfold Dat.blockOf iblk; rfl) t e).trans
    (by unfold Dat.fetched Dat.blockOf iblk; rfl)

end Data

end Cert.KernelIdeal.Hand

end
-- ==== Proof.RegionBody.lean ====
/-
  The TensorCore region's body, proved once at a symbolic grid point: from each input window's staging buffer at its
  block and the result window's at anything, the body runs to the inputs as they were and the result's buffer at the two
  halves' arithmetic. The body's loop of two trips goes by an invariant (the pieces of the trips so far written over the
  buffer's contents at loop entry), one trip proved at a symbolic trip number; after the loop the two pieces cover the
  buffer, so its contents are the pieces' canon whatever it held.
-/
import proofs.«203519_g84241488544277_cont_sun_c4_283_31_alg».proof.Proof.Common
import proofs.«203519_g84241488544277_cont_sun_c4_283_31_alg».proof.Proof.RegionDat

import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

/-! ## One trip of the body's loop -/

/-- One trip's resources: the input block's buffer at its contents, the result block's at any. -/
abbrev Trip (d : Dev nD) (arg1 arg6 : Memref sig .tc .vmem S12800x128 .f32) (X : BufTy.Contents (Elt F) arg1.view.ty)
    (f : BufTy.Contents (Elt F) arg6.view.ty) : sProp 𝕄 :=
  iprop((arg1.view.loc (d : Thread nD τ) ↦[arg1.view.set]{fullShare} X) ∗ (arg6.view.loc (d : Thread nD τ) ↦[arg6.view.set]{fullShare} f))

/-- The piece trip `k` writes: through half `k`'s rectangle, the arithmetic on half `k` of the input block. -/
abbrev tripPiece (arg1 : Memref sig .tc .vmem S12800x128 .f32) (v0 : Vec F S200x128 .f32) (v2 v7 v10 : Vec F S1x128 .f32)
    (X : BufTy.Contents (Elt F) arg1.view.ty) (k : Fin k1_t1_loop.trips) : View.Piece (Elt F) S12800x128 .f32 :=
  ⟨halfRect k, k1_pay1 v0 v2 v7 v10 (arg1.view.readAt (Elt F) (halfRect k).toLoadRect X)⟩

/-- ONE TRIP at a symbolic `k`: it reads half `k` of the input block and writes the same half of the result block. -/
theorem bodyTrip (d : Dev nD) (i : grid1.Coords) (arg1 : Memref sig .tc .vmem S12800x128 .f32) (harg1 : arg1.IsWhole) (arg2 : Memref sig .tc .vmem S200x128 .f32) (harg2 : arg2.IsWhole) (arg3 : Memref sig .tc .vmem S2x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S12800x128 .f32) (harg6 : arg6.IsWhole) (v0 : Vec F S200x128 .f32) (v2 v7 v10 : Vec F S1x128 .f32) (X : BufTy.Contents (Elt F) arg1.view.ty) (k : Fin k1_t1_loop.trips)
    (E : Set ℕ) (f : BufTy.Contents (Elt F) arg6.view.ty) :
    Trip (F := F) d arg1 arg6 X f
      ⊢ wp frame (wpE (defs₀ (F := F)) 𝒱₀ (d : Thread nD τ) none) E (k1_t1_body (F := F) i arg1 harg1 arg2 harg2 arg3 harg3 arg4 harg4 arg5 harg5 arg6 harg6 v0 v2 v7 v10 k PUnit.unit)
          (fun _ => Trip (F := F) d arg1 arg6 X (arg6.view.writes (Elt F) f [tripPiece arg1 v0 v2 v7 v10 X k])) := by
  have hk : k.val < 2 := Nat.lt_of_lt_of_le k.isLt k1_t1_abs.2.1
  unfold k1_t1_body
  iintro ⟨HR_arg1, HW_arg6⟩
  sl_exec
  sl_step
  isplitl [HR_arg1]; · iexact HR_arg1
  iexact HW_arg6

/-- The pieces of the trips before `k`, last first. -/
def piecesTo (pc : Fin k1_t1_loop.trips → View.Piece (Elt F) S12800x128 .f32) : ℕ → List (View.Piece (Elt F) S12800x128 .f32)
  | 0 => []
  | k + 1 => if h : k < k1_t1_loop.trips then pc ⟨k, h⟩ :: piecesTo pc k else piecesTo pc k

theorem piecesTo_succ (pc : Fin k1_t1_loop.trips → View.Piece (Elt F) S12800x128 .f32) (k : Fin k1_t1_loop.trips) :
    piecesTo pc (k.val + 1) = pc k :: piecesTo pc k.val := by
  rw [piecesTo]; exact dif_pos k.isLt

theorem piecesTo_trips (pc : Fin k1_t1_loop.trips → View.Piece (Elt F) S12800x128 .f32) :
    piecesTo pc k1_t1_loop.trips = [pc ⟨1, by decide⟩, pc ⟨0, by decide⟩] := by
  show piecesTo pc 2 = _
  rw [piecesTo, dif_pos (by decide), piecesTo, dif_pos (by decide), piecesTo]

/-- THE LOOP'S INVARIANT before trip `k`: the input block's buffer as it was; the result block's holding the pieces of
    the trips before `k` written over what it held at loop entry. -/
def loopI (d : Dev nD) (arg1 arg6 : Memref sig .tc .vmem S12800x128 .f32) (v0 : Vec F S200x128 .f32) (v2 v7 v10 : Vec F S1x128 .f32)
    (X : BufTy.Contents (Elt F) arg1.view.ty) (G : BufTy.Contents (Elt F) arg6.view.ty) (k : ℕ) (_u : PUnit) : sProp 𝕄 :=
  Trip (F := F) d arg1 arg6 X (arg6.view.writes (Elt F) G (piecesTo (tripPiece arg1 v0 v2 v7 v10 X) k))

theorem hz2 : (![0, 0] : Fin 2 → Nat) = fun _ => 0 := by
  funext a; match a with | ⟨0, _⟩ => rfl | ⟨1, _⟩ => rfl

/-- The two halves tile the block, so two stores through them cover it. -/
theorem cover2 (p1 p0 : Vec F S6400x128 .f32) (y : S12800x128.Idx) :
    ∃ pc ∈ ([⟨halfRect ⟨1, by decide⟩, p1⟩, ⟨halfRect ⟨0, by decide⟩, p0⟩] : List (View.Piece (Elt F) S12800x128 .f32)), y ∈ pc.1.set :=
  View.cover_of_tiled [⟨halfRect ⟨1, by decide⟩, p1⟩, ⟨halfRect ⟨0, by decide⟩, p0⟩] S6400x128.size (by rfl) y

/-! ## The body on whole staging buffers -/

theorem sound_kernel (d : Dev nD) (E : Set ℕ) (i : grid1.Coords) (arg1 : Memref sig .tc .vmem S12800x128 .f32) (harg1 : arg1.IsWhole) (arg2 : Memref sig .tc .vmem S200x128 .f32) (harg2 : arg2.IsWhole) (arg3 : Memref sig .tc .vmem S2x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S12800x128 .f32) (harg6 : arg6.IsWhole)
    (x0 : Vec F S12800x128 .f32) (x1 : Vec F S200x128 .f32) (x2 : Vec F S2x128 .f32) (x3 x4 : Vec F S1x128 .f32) (Kc : PUnit → sProp 𝕄) :
    iprop(owns (d : Thread nD τ) arg1 fullShare x0 ∗ owns (d : Thread nD τ) arg2 fullShare x1 ∗ owns (d : Thread nD τ) arg3 fullShare x2
        ∗ owns (d : Thread nD τ) arg4 fullShare x3 ∗ owns (d : Thread nD τ) arg5 fullShare x4 ∗ (∃ e, owns (d : Thread nD τ) arg6 fullShare e)
        ∗ (iprop(owns (d : Thread nD τ) arg1 fullShare x0 ∗ owns (d : Thread nD τ) arg2 fullShare x1 ∗ owns (d : Thread nD τ) arg3 fullShare x2
            ∗ owns (d : Thread nD τ) arg4 fullShare x3 ∗ owns (d : Thread nD τ) arg5 fullShare x4
            ∗ owns (d : Thread nD τ) arg6 fullShare (outBlk x0 x1 x2 x3 x4)) -∗ Kc ⟨⟩))
      ⊢ wp frame (wpE (defs₀ (F := F)) 𝒱₀ (d : Thread nD τ) none) E (cc1__ln_body i arg1 harg1 arg2 harg2 arg3 harg3 arg4 harg4 arg5 harg5 arg6 harg6) Kc := by
  simp only [cc1__ln_body_eq_skeleton]; unfold cc1__ln_body_skel
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, Hk⟩
  subst hf0 hf1 hf2 hf3 hf4
  sl_exec
  sl_for (loopI d arg1 arg6 _ _ _ _ f0 f5) $$ [H0 H5]
  case region =>
    intro k acc
    cases acc
    unfold loopI
    rw [piecesTo_succ]
    exact bodyTrip d i arg1 harg1 arg2 harg2 arg3 harg3 arg4 harg4 arg5 harg5 arg6 harg6 _ _ _ _ f0 k E _
  · unfold loopI
    isplitl [H0]; · iexact H0
    iexact H5
  iintro %acc HI
  unfold loopI
  rw [piecesTo_trips]
  icases HI with ⟨H0, H5⟩
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2 _ _)]
  unfold outBlk halfPay
  simp only [View.readAt_eq_ld, View.ld_unit_zero (S := S200x128) hz2, View.ld_unit_zero (S := S1x128) hz2]

/-! ## The body obligation, at a generic point -/

section Obligation

variable (d : Dev nD) (A : (w : Fin cfg1.W) → Buf (Elt F) ((cfg1.win w).arr.view.loc (d.tc : Thread nD τ)))

/-- What the body is called with at point `t`, the windows one by one, -/
def bodyPre (t : Fin cfg1.N) : sProp 𝕄 :=
  iprop((dat d A).Φ t.castSucc ∗ (dat d A).owesAt (none : HIx 1) t.castSucc
    ∗ (∃ e, owns (d : Thread nD τ) (st1_0 t) fullShare ((dat d A).before 0 t e))
    ∗ (∃ e, owns (d : Thread nD τ) (st1_1 t) fullShare ((dat d A).before 1 t e))
    ∗ (∃ e, owns (d : Thread nD τ) (st1_2 t) fullShare ((dat d A).before 2 t e))
    ∗ (∃ e, owns (d : Thread nD τ) (st1_3 t) fullShare ((dat d A).before 3 t e))
    ∗ (∃ e, owns (d : Thread nD τ) (st1_4 t) fullShare ((dat d A).before 4 t e))
    ∗ (∃ e, owns (d : Thread nD τ) (st1_5 t) fullShare ((dat d A).before 5 t e)))

/-- and what it returns. -/
def bodyPost (t : Fin cfg1.N) : sProp 𝕄 :=
  iprop((dat d A).Φ t.succ ∗ (dat d A).owesAt (none : HIx 1) t.succ
    ∗ owns (d : Thread nD τ) (st1_0 t) fullShare ((dat d A).after 0 t)
    ∗ owns (d : Thread nD τ) (st1_1 t) fullShare ((dat d A).after 1 t)
    ∗ owns (d : Thread nD τ) (st1_2 t) fullShare ((dat d A).after 2 t)
    ∗ owns (d : Thread nD τ) (st1_3 t) fullShare ((dat d A).after 3 t)
    ∗ owns (d : Thread nD τ) (st1_4 t) fullShare ((dat d A).after 4 t)
    ∗ owns (d : Thread nD τ) (st1_5 t) fullShare ((dat d A).after 5 t))

/-- The body at any point: each input's buffer holds its block, so the body's triple applies; the invariant and what
    the core owes pass through unread. -/
theorem sound_body (t : Fin cfg1.N) :
    bodyPre d A t ⊢ wp frame (wpE (defs₀ (F := F)) 𝒱₀ (d : Thread nD τ) none) Set.univ (bodyAt1 t) (fun _ => bodyPost d A t) := by
  unfold bodyPre bodyPost bodyAt1
  simp only [before_0, before_1, before_2, before_3, before_4]
  rw [show (dat d A).Φ t.succ = (dat d A).Φ t.castSucc from rfl,
    show (dat d A).owesAt (none : HIx 1) t.succ = (dat d A).owesAt (none : HIx 1) t.castSucc from rfl,
    after_0, after_1, after_2, after_3, after_4, after_5]
  iintro ⟨HΦ, Ho, ⟨%e0, H0⟩, ⟨%e1, H1⟩, ⟨%e2, H2⟩, ⟨%e3, H3⟩, ⟨%e4, H4⟩, ⟨%e5, H5⟩⟩
  iapply (sound_kernel d Set.univ (grid1.coords t) _ _ _ _ _ _ _ _ _ _ _ _ (iblk d A 0 t) (iblk d A 1 t) (iblk d A 2 t) (iblk d A 3 t) (iblk d A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation : Pipeline.BodyObligation (dat d A) (defs₀ (F := F)) 𝒱₀ (none : HIx 1) Set.univ := fun t => by
  rw [bigSep_W1, bigSep_W1]
  exact sound_body d A t

end Obligation

end Cert.KernelIdeal.Hand
end
-- ==== Proof.RegionFinal.lean ====
/-
  From the blocks to the array: what the result array holds after the region's last point is ONE function of the five
  input arrays, `lnOut`. Each point writes back the block its body left; that block, on each of its two halves, is the
  region's arithmetic on the same half of the gathered rows' block, which is `lnOut` read at the block's rows (the
  printed index maps put block t at rows [12800·t, 12800·t + 12800), decided once over the 16 points); and the 16
  blocks tile the array.
-/
import proofs.«203519_g84241488544277_cont_sun_c4_283_31_alg».proof.Proof.Common
import proofs.«203519_g84241488544277_cont_sun_c4_283_31_alg».proof.Proof.RegionValue
import proofs.«203519_g84241488544277_cont_sun_c4_283_31_alg».proof.Proof.RegionDat

import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

open Idealize.ShloMosaic.ValueIdx

/-! ## The proof data at the region's six arrays -/

/-- The six windowed arrays' contents on a device, window by window. -/
def arrs (c : Dev nD) (x : S204800x128.Idx → Elt F .f32) (pos : S200x128.Idx → Elt F .f32) (tt : S2x128.Idx → Elt F .f32)
    (g b : S1x128.Idx → Elt F .f32) (o0 : S204800x128.Idx → Elt F .f32) :
    (w : Fin cfg1.W) → Buf (Elt F) ((cfg1.win w).arr.view.loc (c.tc : Thread nD τ))
  | ⟨0, _⟩ => x | ⟨1, _⟩ => pos | ⟨2, _⟩ => tt | ⟨3, _⟩ => g | ⟨4, _⟩ => b | ⟨5, _⟩ => o0

/-- The proof data family: the one pipeline's, the same arrays' contents on every device. -/
def pdats (x : S204800x128.Idx → Elt F .f32) (pos : S200x128.Idx → Elt F .f32) (tt : S2x128.Idx → Elt F .f32)
    (g b : S1x128.Idx → Elt F .f32) (o0 : S204800x128.Idx → Elt F .f32) :
    (p : Fin 1) → (c : Dev nD) → Dat τ (Elt F) (HIx 1) ℕ UU ℕ (cfgs p) c :=
  fun _ c => dat c (arrs c x pos tt g b o0)

/-- The two halves tile the block: every index of the block is in one of the two stores' rectangles. -/
theorem halves_cover (p1 p0 : Vec F S6400x128 .f32) (y : S12800x128.Idx) :
    ∃ pc ∈ ([⟨halfRect ⟨1, by decide⟩, p1⟩, ⟨halfRect ⟨0, by decide⟩, p0⟩] : List (View.Piece (Elt F) S12800x128 .f32)), y ∈ pc.1.set :=
  View.cover_of_tiled [⟨halfRect ⟨1, by decide⟩, p1⟩, ⟨halfRect ⟨0, by decide⟩, p0⟩] S6400x128.size (by rfl) y

/-! ## From the blocks to the array -/

section Final

variable (d : Dev nD) (x : S204800x128.Idx → Elt F .f32) (pos : S200x128.Idx → Elt F .f32) (tt : S2x128.Idx → Elt F .f32)
  (g b : S1x128.Idx → Elt F .f32) (o0 : S204800x128.Idx → Elt F .f32)

/-- The printed index maps, decided over the grid: the gathered rows' and the result's block index is the point's
    number on the rows and 0 on the lanes; the four small arrays are one block. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The positions' block is the whole array. -/
theorem iblk1_eq (t : Fin cfg1.N) : iblk d (arrs d x pos tt g b o0) 1 t = pos := by
  obtain ⟨-, -, -, -, e0, e1, -⟩ := idx_facts t
  funext y
  show pos (((cfg1.win 1).blk t).view.emb y) = pos y
  refine congrArg pos (funext fun a => Fin.ext ?_)
  match a with
  | ⟨0, _⟩ => show win1_1.index t (0 : Fin 2) * 200 + 1 * (y 0).val = (y 0).val; omega
  | ⟨1, _⟩ => show win1_1.index t (1 : Fin 2) * 128 + 1 * (y 1).val = (y 1).val; omega

/-- The scale's block is the whole array. -/
theorem iblk3_eq (t : Fin cfg1.N) : iblk d (arrs d x pos tt g b o0) 3 t = g := by
  obtain ⟨-, -, -, -, -, -, -, -, e0, e1, -⟩ := idx_facts t
  funext y
  show g (((cfg1.win 3).blk t).view.emb y) = g y
  refine congrArg g (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The shift's block is the whole array. -/
theorem iblk4_eq (t : Fin cfg1.N) : iblk d (arrs d x pos tt g b o0) 4 t = b := by
  obtain ⟨-, -, -, -, -, -, -, -, -, -, e0, e1⟩ := idx_facts t
  funext y
  show b (((cfg1.win 4).blk t).view.emb y) = b y
  refine congrArg b (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Through the one-row rectangle the token-type block reads row 0 of the table. -/
theorem ld_iblk2 (t : Fin cfg1.N) : View.ld (iblk d (arrs d x pos tt g b o0) 2 t) ttRect = ttRow tt := by
  obtain ⟨-, -, -, -, -, -, e0, e1, -⟩ := idx_facts t
  funext y
  show tt (((cfg1.win 2).blk t).view.emb (ttRect.idx y)) = tt (ix2 (0 : Fin 2) (y 1))
  refine congrArg tt (funext fun a => Fin.ext ?_)
  have hy0 : (y 0).val < 1 := idx2_lt0 y
  match a with
  | ⟨0, _⟩ => show win1_2.index t (0 : Fin 2) * 2 + 1 * (0 + 1 * (y 0).val) = 0; omega
  | ⟨1, _⟩ => show win1_2.index t (1 : Fin 2) * 128 + 1 * (0 + 1 * (y 1).val) = (y 1).val; omega

/-- Through half `k`'s rectangle the gathered rows' block at point `t` reads half 2t + k of the gathered rows. -/
theorem ld_iblk0 (t : Fin cfg1.N) (k : Fin k1_t1_loop.trips) (h : Fin 32) (hh : h.val = 2 * t.val + k.val) :
    View.ld (iblk d (arrs d x pos tt g b o0) 0 t) (halfRect k) = halfRows x h := by
  obtain ⟨e0, e1, -⟩ := idx_facts t
  have hk := k1_off1_eq k
  have hk0 : k1_off1 k (0 : Fin 2) = 6400 * k.val := by rw [hk]; rfl
  have hk1 : k1_off1 k (1 : Fin 2) = 0 := by rw [hk]; rfl
  funext y
  show x (((cfg1.win 0).blk t).view.emb ((halfRect k).idx y)) = x (ix2 (⟨6400 * h.val + (y 0).val, _⟩ : Fin 204800) (y 1))
  refine congrArg x (funext fun a => Fin.ext ?_)
  match a with
  | ⟨0, _⟩ => show win1_0.index t (0 : Fin 2) * 12800 + 1 * (k1_off1 k (0 : Fin 2) + 1 * (y 0).val) = 6400 * h.val + (y 0).val; omega
  | ⟨1, _⟩ => show win1_0.index t (1 : Fin 2) * 128 + 1 * (k1_off1 k (1 : Fin 2) + 1 * (y 1).val) = (y 1).val; omega

/-- The result at row R, lane c, read from the half h that holds R, at R's place r' in it. -/
theorem lnOut_at (R : Fin 204800) (c : Fin 128) (h : Fin 32) (r' : Fin 6400) (hh : R.val = 6400 * h.val + r'.val) :
    lnOut x pos tt g b (ix2 R c) = k1_pay1 pos (ttRow tt) g b (halfRows x h) (ix2 r' c) := by
  have key : ∀ (h' : Fin 32) (r'' : Fin 6400), h' = h → r'' = r' →
      k1_pay1 pos (ttRow tt) g b (halfRows x h') (ix2 r'' c) = k1_pay1 pos (ttRow tt) g b (halfRows x h) (ix2 r' c) := by
    rintro _ _ rfl rfl; rfl
  have hr := r'.isLt
  exact key _ _ (Fin.ext (by show R.val / 6400 = h.val; omega)) (Fin.ext (by show R.val % 6400 = r'.val; omega))

/-- WHAT TRIP `k` OF POINT `t` STORES is the region's result on rows [12800·t + 6400·k, + 6400). -/
theorem halfPay_eq (t : Fin cfg1.N) (k : Fin k1_t1_loop.trips) (yy : S6400x128.Idx) (R : Fin 204800) (c : Fin 128)
    (hR : R.val = 12800 * t.val + 6400 * k.val + (yy 0).val) (hc : c.val = (yy 1).val) :
    halfPay (iblk d (arrs d x pos tt g b o0) 0 t) (iblk d (arrs d x pos tt g b o0) 1 t) (iblk d (arrs d x pos tt g b o0) 2 t)
        (iblk d (arrs d x pos tt g b o0) 3 t) (iblk d (arrs d x pos tt g b o0) 4 t) k yy
      = lnOut x pos tt g b (ix2 R c) := by
  have hk : k.val < 2 := Nat.lt_of_lt_of_le k.isLt k1_t1_abs.2.1
  have ht : t.val < 16 := Nat.lt_of_lt_of_eq t.isLt N_1
  have hy0 : (yy 0).val < 6400 := idx2_lt0 yy
  unfold halfPay
  rw [iblk1_eq, iblk3_eq, iblk4_eq, ld_iblk2,
    lnOut_at x pos tt g b R c ⟨2 * t.val + k.val, by omega⟩ ⟨(yy 0).val, hy0⟩ (by show R.val = 6400 * (2 * t.val + k.val) + (yy 0).val; omega)]
  refine (congrArg (fun v => k1_pay1 pos (ttRow tt) g b v yy) (ld_iblk0 d x pos tt g b o0 t k ⟨2 * t.val + k.val, by omega⟩ rfl)).trans ?_
  refine congrArg (k1_pay1 pos (ttRow tt) g b (halfRows x ⟨2 * t.val + k.val, by omega⟩)) (funext fun a => ?_)
  match a with
  | ⟨0, _⟩ => rfl
  | ⟨1, _⟩ => exact Fin.ext hc.symm

/-- WHAT POINT `t` WRITES BACK is block `t` of the region's result. -/
theorem flushed_eq (t : Fin cfg1.N) :
    (pdats x pos tt g b o0 0 d).flushed 5 t = ((cfg1.win 5).blk t).view.read (Elt F) (lnOut x pos tt g b) := by
  show (cfg1.win 5).cut (grid1.coords t) ((dat d (arrs d x pos tt g b o0)).after 5 t) = _
  rw [after_5]
  obtain ⟨-, -, e0, e1, -⟩ := idx_facts t
  have ht : t.val < 16 := Nat.lt_of_lt_of_eq t.isLt N_1
  have h1 := k1_off1_eq ⟨1, by decide⟩
  have h0 := k1_off1_eq ⟨0, by decide⟩
  have h10 : k1_off1 ⟨1, by decide⟩ (0 : Fin 2) = 6400 * 1 := by rw [h1]; rfl
  have h11 : k1_off1 ⟨1, by decide⟩ (1 : Fin 2) = 0 := by rw [h1]; rfl
  have h00 : k1_off1 ⟨0, by decide⟩ (0 : Fin 2) = 6400 * 0 := by rw [h0]; rfl
  have h01 : k1_off1 ⟨0, by decide⟩ (1 : Fin 2) = 0 := by rw [h0]; rfl
  funext y
  have hy0 : (y 0).val < 12800 := idx2_lt0 y
  show outBlk _ _ _ _ _ y = lnOut x pos tt g b (((cfg1.win 5).blk t).view.emb y)
  unfold outBlk
  refine (View.canon_apply_of_pieces
    (fun y : S12800x128.Idx => lnOut x pos tt g b (ix2 (⟨12800 * t.val + (y 0).val, by have := idx2_lt0 y; omega⟩ : Fin 204800) (y 1)))
    _ ?_ y (halves_cover _ _ y)).trans ?_
  · intro p hp xx
    rcases List.mem_cons.mp hp with rfl | hp
    · have hx0 : (xx 0).val < 6400 := idx2_lt0 xx
      refine halfPay_eq d x pos tt g b o0 t ⟨1, by decide⟩ xx _ _ ?_ ?_
      · show 12800 * t.val + (k1_off1 ⟨1, by decide⟩ (0 : Fin 2) + 1 * (xx 0).val) = 12800 * t.val + 6400 * 1 + (xx 0).val; omega
      · show k1_off1 ⟨1, by decide⟩ (1 : Fin 2) + 1 * (xx 1).val = (xx 1).val; omega
    · rcases List.mem_cons.mp hp with rfl | hp
      · have hx0 : (xx 0).val < 6400 := idx2_lt0 xx
        refine halfPay_eq d x pos tt g b o0 t ⟨0, by decide⟩ xx _ _ ?_ ?_
        · show 12800 * t.val + (k1_off1 ⟨0, by decide⟩ (0 : Fin 2) + 1 * (xx 0).val) = 12800 * t.val + 6400 * 0 + (xx 0).val; omega
        · show k1_off1 ⟨0, by decide⟩ (1 : Fin 2) + 1 * (xx 1).val = (xx 1).val; omega
      · exact absurd hp List.not_mem_nil
  · refine congrArg (lnOut x pos tt g b) (funext fun a => Fin.ext ?_)
    match a with
    | ⟨0, _⟩ => show 12800 * t.val + (y 0).val = win1_5.index t (0 : Fin 2) * 12800 + 1 * (y 0).val; omega
    | ⟨1, _⟩ => show (y 1).val = win1_5.index t (1 : Fin 2) * 128 + 1 * (y 1).val; omega

/-- An index of the result array is in point `t`'s block iff each coordinate is in the block's range on its axis. -/
theorem mem_blk5 (t : Fin cfg1.N) (i : S204800x128.Idx) :
    i ∈ ((cfg1.win 5).blk t).view.set ↔ ∀ a : Fin 2, win1_5.index t a * S12800x128.size a ≤ (i a).val ∧ (i a).val < win1_5.index t a * S12800x128.size a + S12800x128.size a := by
  show i ∈ ((View.whole main_v5).slice (win1_5.rect t)).set ↔ _
  rw [View.set_slice_whole, Rect.mem_set_unit]
  exact Iff.rfl

/-- The 16 blocks tile the result array: row r is in block r / 12800. -/
theorem cover5 (i : S204800x128.Idx) : ∃ t : Fin cfg1.N, (cfg1.win 5).flush t = true ∧ i ∈ ((cfg1.win 5).blk t).view.set := by
  have hi0 : (i 0).val < 204800 := idx2_lt0 i
  have hi1 : (i 1).val < 128 := idx2_lt1 i
  have hN : cfg1.N = 16 := N_1
  let t : Fin cfg1.N := ⟨(i 0).val / 12800, by rw [hN]; omega⟩
  obtain ⟨-, -, e0, e1, -⟩ := idx_facts t
  have etv : t.val = (i 0).val / 12800 := rfl
  refine ⟨t, flush1_5 t, ?_⟩
  rw [mem_blk5]
  intro a
  match a with
  | ⟨0, _⟩ => show win1_5.index t (0 : Fin 2) * 12800 ≤ (i 0).val ∧ (i 0).val < win1_5.index t (0 : Fin 2) * 12800 + 12800; omega
  | ⟨1, _⟩ => show win1_5.index t (1 : Fin 2) * 128 ≤ (i 1).val ∧ (i 1).val < win1_5.index t (1 : Fin 2) * 128 + 128; omega

/-- THE RESULT ARRAY after the last point is the region's result. -/
theorem final5 : (pdats x pos tt g b o0 0 d).arrAt 5 cfg1.N = lnOut x pos tt g b :=
  (pdats x pos tt g b o0 0 d).arrAt_eq_of_cover 5 (lnOut x pos tt g b) (fun t _ => flushed_eq d x pos tt g b o0 t) cover5

end Final

end Cert.KernelIdeal.Hand
end
-- ==== Proof.Region.lean ====
/-
  The TensorCore region as ONE step of @main, on the TensorCore of any device: from what the TensorCore holds when @main
  reaches the call — its handshake state after the one SparseCore call, its scoped storage, the six windowed arrays, and
  the staging cells' ghost state — the call runs to the same handshake state and scoped storage, the five inputs
  unchanged, and the result array at `lnOut` of the inputs.

  The call is the pipeline's entry label lifted into the SparseCore program's body table; under the pipeline's own table
  it is the region rule: the staging cells' invariants are allocated from their counters at zero and their ghost state,
  the arrays and what the core owes go in, and come back after the last point. After the SparseCore call the TensorCore
  owes nothing, so the region's waits need no level evidence; the recorded waits stay at or below the level the call left
  them at, the region's own being at the lowest.
-/
import proofs.«203519_g84241488544277_cont_sun_c4_283_31_alg».proof.Proof.Common
import proofs.«203519_g84241488544277_cont_sun_c4_283_31_alg».proof.Proof.RegionValue
import proofs.«203519_g84241488544277_cont_sun_c4_283_31_alg».proof.Proof.RegionDat
import proofs.«203519_g84241488544277_cont_sun_c4_283_31_alg».proof.Proof.RegionBody
import proofs.«203519_g84241488544277_cont_sun_c4_283_31_alg».proof.Proof.RegionFinal
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

/-! ## The region's call, lifted into the SparseCore program's body table -/

theorem hprog_lift : (Prog.lift (.customCall (SparseCore.inner (Pipeline.entry 0)) ()) : Prog (TpuEff nD τ sig (Elt F) (SparseCore.Sig (ΛP (F := F)) 1) .tc) PUnit)
    = SparseCore.liftProg (Prog.op (.customCall (Pipeline.entry 0) ()) fun u => Prog.ret u) := rfl

/-- A proof of the region's call under the pipeline's body table is one of @main's statement. -/
theorem lift_only (d : Dev nD) (Φ : PUnit → sProp 𝕄) :
    wp frame (wpE (D (F := F)) 𝒱 (T d) none) Set.univ (Prog.op (.customCall (Pipeline.entry 0) ()) fun u => Prog.ret u) Φ
      ⊢ wp frame (wpE ((K (F := F)).defs (D (F := F))) 𝒱 (T d) none) Set.univ (Prog.lift (.customCall (SparseCore.inner (Pipeline.entry 0)) ())) Φ := by
  rw [hprog_lift]
  exact (K (F := F)).wp_liftProg (D (F := F)) 𝒱 (T d) Set.univ none _ Φ

set_option backward.isDefEq.respectTransparency.types false in
theorem wp_region_D (d : Dev nD) (x : S204800x128.Idx → Elt F .f32) (pos : S200x128.Idx → Elt F .f32) (tt : S2x128.Idx → Elt F .f32)
    (g b : S1x128.Idx → Elt F .f32) (o0 : S204800x128.Idx → Elt F .f32) :
    iprop((K (F := F)).tcSt (EH (F := F)) d 1
        ∗ boundary (T d : Thread nD τ)
        ∗ (((T d : Thread nD τ).loc main_v1) ↦{fullShare} x) ∗ (((T d : Thread nD τ).loc main_v2) ↦{fullShare} pos)
        ∗ (((T d : Thread nD τ).loc main_arg3) ↦{fullShare} tt) ∗ (((T d : Thread nD τ).loc main_v3) ↦{fullShare} g)
        ∗ (((T d : Thread nD τ).loc main_v4) ↦{fullShare} b) ∗ (((T d : Thread nD τ).loc main_v5) ↦{fullShare} o0)
        ∗ Pipeline.cellsGhost cfgs (EP (F := F)) 0 d ∗ Pipeline.toksInit cfgs (EP (F := F)) 0 d)
      ⊢ (wp frame (wpE (D (F := F)) 𝒱 (T d) none) Set.univ
          (Prog.op (.customCall (Pipeline.entry 0) ()) fun u => Prog.ret u)
          (fun _ => iprop((K (F := F)).tcSt (EH (F := F)) d 1
            ∗ boundary (T d : Thread nD τ)
            ∗ (((T d : Thread nD τ).loc main_v1) ↦{fullShare} x) ∗ (((T d : Thread nD τ).loc main_v2) ↦{fullShare} pos)
            ∗ (((T d : Thread nD τ).loc main_arg3) ↦{fullShare} tt) ∗ (((T d : Thread nD τ).loc main_v3) ↦{fullShare} g)
            ∗ (((T d : Thread nD τ).loc main_v4) ↦{fullShare} b)
            ∗ (((T d : Thread nD τ).loc main_v5) ↦{fullShare} (pdats x pos tt g b o0 0 d).arrAt 5 cfg1.N))) : sProp 𝕄) := by
  classical
  have hss := Pipeline.scopedSems0_split (nD := nD) (τ := τ) cfgs Gen.cellOf_inj (0 : Fin 1) Gen.winFacts1.to₀ (Pipeline.OwnSemFacts.none (win := spec1)) (Ix := HIx 1) (Val := Elt F) (Name := ℕ) (U := UU) (Lvl := ℕ) d
  have hsb := Pipeline.scopedBufs_split (nD := nD) (τ := τ) cfgs (0 : Fin 1) Gen.winFacts1.stage_scoped Gen.winFacts1.stage_inj Gen.stage_whole1 (Ix := HIx 1) (Val := Elt F) (Name := ℕ) (U := UU) (Lvl := ℕ) d
  have hshare : ∀ w, (pdats x pos tt g b o0 0 d).share w = fullShare := (pdats x pos tt g b o0 0 d).share_full fun _ => rfl
  have harr := Pipeline.arrays_eq (nD := nD) (τ := τ) cfgs (pdats x pos tt g b o0) (0 : Fin 1) d Gen.arr_whole1 hshare
  have hin : iprop((emp : sProp 𝕄) ∗ Pipeline.prefHeld (pcfgs (F := F) 0).pre d (fun _ => fullShare.right) ((cfgs 0).toPCfg_adm (Val := Elt F)).1 ∗ Pipeline.scopedRest spec1 d)
      ⊢ (pdats x pos tt g b o0 0 d).Φ 0 := by
    show _ ⊢ Pipeline.scopedRest spec1 d
    iintro ⟨-, -, HR⟩; iexact HR
  have hout : iprop((pdats x pos tt g b o0 0 d).Φ (Fin.last cfg1.N) ∗ Pipeline.cellsSems0 cfgs 0 d ∗ Dat.staging cfg1 d
        ∗ Pipeline.idleSems0 cfgs Gen.cellOf_inj 0 (Pipeline.OwnSemFacts.none (win := spec1)) d)
      ⊢ iprop((emp : sProp 𝕄) ∗ scopedSems0 (d.tc : Thread nD τ) ∗ scopedBufs (d.tc : Thread nD τ)) := by
    rw [hss, hsb, Pipeline.ownSems0_none]
    show iprop(Pipeline.scopedRest spec1 d ∗ _) ⊢ _
    iintro ⟨HΦ, Hcells, Hst, Hidle⟩
    isplitr; · iempintro
    isplitl [Hcells Hidle]
    · isplitl [Hcells]
      · isplitl [Hcells]; · iexact Hcells
        iempintro
      iexact Hidle
    isplitl [Hst]; · iexact Hst
    iexact HΦ
  have hA0 : (pdats x pos tt g b o0 0 d).arrAt 0 cfg1.N = x := (pdats x pos tt g b o0 0 d).arrAt_in 0 rfl _
  have hA1 : (pdats x pos tt g b o0 0 d).arrAt 1 cfg1.N = pos := (pdats x pos tt g b o0 0 d).arrAt_in 1 rfl _
  have hA2 : (pdats x pos tt g b o0 0 d).arrAt 2 cfg1.N = tt := (pdats x pos tt g b o0 0 d).arrAt_in 2 rfl _
  have hA3 : (pdats x pos tt g b o0 0 d).arrAt 3 cfg1.N = g := (pdats x pos tt g b o0 0 d).arrAt_in 3 rfl _
  have hA4 : (pdats x pos tt g b o0 0 d).arrAt 4 cfg1.N = b := (pdats x pos tt g b o0 0 d).arrAt_in 4 rfl _
  unfold SparseCore.Cfg.tcSt
  rw [(K (F := F)).Otc_end d (le_refl 1)]
  iintro ⟨⟨⟨%W, %hW, HO⟩, Hrest⟩, Hb, Hx, Hpos, Htt, Hg, Hbb, Ho, Hgh, Htok⟩
  ihave Hb' := (show boundary (T d : Thread nD τ) ⊢ iprop(scopedBufs (T d : Thread nD τ) ∗ scopedSems0 (T d : Thread nD τ) ∗ opIdle (T d : Thread nD τ)) from BI.Entails.refl _) $$ Hb
  icases Hb' with ⟨Hsc, Hss, Hidl⟩
  ihave Hss' := (Entails.of_eq hss) $$ Hss
  icases Hss' with ⟨⟨Hcells, Hos⟩, Hidle⟩
  iapply (fupd_wp frame (wpE (D (F := F)) 𝒱 (T d) none) Set.univ _ _)
  imod (Pipeline.cellsInit_alloc cfgs (pdats x pos tt g b o0) (EP (F := F)) Gen.cellOf_inj 0 d) $$ [Hcells Hgh] with ⟨%κ, -, Hinit⟩
  · isplitl [Hcells] <;> iassumption
  imodintro
  iapply (Pipeline.wp_customCall_entry_frame (pcfgs (F := F)) (fun p => (cfgs p).toPCfg_adm) (pdats x pos tt g b o0) (none : HIx 1) (EP (F := F)) κ Gen.cellOf_inj 0 (defs₀ (F := F)) 𝒱₀ (fun _ => fullShare.right) d Set.univ (fun _ _ => Set.mem_univ _)
      ((body_obligation d (arrs d x pos tt g b o0)).loose) Gen.block_pos1 none (fun u h => nomatch h)
      (X := iprop(emp)) (Y := iprop(emp)) (R := Pipeline.scopedRest spec1 d) (I := Pipeline.idleSems0 cfgs Gen.cellOf_inj 0 (Pipeline.OwnSemFacts.none (win := spec1)) d)
      (Entails.of_eq hsb) hin hout (k := fun u => Prog.ret u)) $$ [Hx Hpos Htt Hg Hbb Ho HO Hinit Htok Hidle Hsc]
  · isplitl [Hx Hpos Htt Hg Hbb Ho HO Hinit Htok]
    · unfold Pipeline.EntryPre Pipeline.PerCore.EntryPre
      isplitl [Hx Hpos Htt Hg Hbb Ho]
      · rw [harr, Gen.bigSep_W1]
        isplitl [Hx]; · iexact Hx
        isplitl [Hpos]; · iexact Hpos
        isplitl [Htt]; · iexact Htt
        isplitl [Hg]; · iexact Hg
        isplitl [Hbb]; · iexact Hbb
        iexact Ho
      isplitl [HO]
      · iexists W; isplitr
        · ipureintro; exact fun p hp => Or.inl (hW p (Finset.mem_coe.mp hp))
        iexact HO
      isplitr
      · iapply (Pipeline.cellsWaits_of_owed_zero cfgs (pdats x pos tt g b o0) (none : HIx 1) 0 d (fun _ => rfl)); iempintro
      isplitl [Hinit]; · iexact Hinit
      iexact Htok
    isplitr
    · unfold Pipeline.prefHeld; rw [Finset.univ_eq_empty, BI.bigSep_empty]; iempintro
    isplitr; · iempintro
    isplitl [Hidle]; · iexact Hidle
    iexact Hsc
  iintro ⟨Hpost, -, Hss2, Hsc2⟩
  unfold Pipeline.EntryPost Pipeline.PerCore.EntryPost
  icases Hpost with ⟨Harr, ⟨%W', %hW', HO'⟩⟩
  ihave Harr' := (Entails.of_eq ((harr _).trans (Gen.bigSep_W1 _))) $$ Harr
  icases Harr' with ⟨Hx, Hpos, Htt, Hg, Hbb, Ho⟩
  ihave Hx' := (Entails.of_eq (congrArg (fun f => iprop(((T d : Thread nD τ).loc main_v1) ↦{fullShare} f)) hA0)) $$ Hx
  ihave Hpos' := (Entails.of_eq (congrArg (fun f => iprop(((T d : Thread nD τ).loc main_v2) ↦{fullShare} f)) hA1)) $$ Hpos
  ihave Htt' := (Entails.of_eq (congrArg (fun f => iprop(((T d : Thread nD τ).loc main_arg3) ↦{fullShare} f)) hA2)) $$ Htt
  ihave Hg' := (Entails.of_eq (congrArg (fun f => iprop(((T d : Thread nD τ).loc main_v3) ↦{fullShare} f)) hA3)) $$ Hg
  ihave Hbb' := (Entails.of_eq (congrArg (fun f => iprop(((T d : Thread nD τ).loc main_v4) ↦{fullShare} f)) hA4)) $$ Hbb
  sl_step
  isplitl [HO' Hrest]
  · isplitl [HO']
    · iexists W'; isplitr
      · ipureintro; intro p hp
        rcases hW' (Finset.mem_coe.mpr hp) with h | ⟨w, s, rfl⟩
        · exact h
        · exact Nat.zero_le _
      iexact HO'
    iexact Hrest
  isplitl [Hsc2 Hss2 Hidl]
  · iapply (show iprop(scopedBufs (T d : Thread nD τ) ∗ scopedSems0 (T d : Thread nD τ) ∗ opIdle (T d : Thread nD τ)) ⊢ boundary (T d : Thread nD τ) from BI.Entails.refl _)
    isplitl [Hsc2]; · iexact Hsc2
    isplitl [Hss2]; · iexact Hss2
    iexact Hidl
  isplitl [Hx']; · iexact Hx'
  isplitl [Hpos']; · iexact Hpos'
  isplitl [Htt']; · iexact Htt'
  isplitl [Hg']; · iexact Hg'
  isplitl [Hbb']; · iexact Hbb'
  iexact Ho

/-- THE REGION AS ONE STEP OF @main. -/
theorem wp_region (d : Dev nD) (x : S204800x128.Idx → Elt F .f32) (pos : S200x128.Idx → Elt F .f32) (tt : S2x128.Idx → Elt F .f32)
    (g b : S1x128.Idx → Elt F .f32) (o0 : S204800x128.Idx → Elt F .f32) :
    iprop((K (F := F)).tcSt (EH (F := F)) d 1
        ∗ boundary (T d : Thread nD τ)
        ∗ (((T d : Thread nD τ).loc main_v1) ↦{fullShare} x) ∗ (((T d : Thread nD τ).loc main_v2) ↦{fullShare} pos)
        ∗ (((T d : Thread nD τ).loc main_arg3) ↦{fullShare} tt) ∗ (((T d : Thread nD τ).loc main_v3) ↦{fullShare} g)
        ∗ (((T d : Thread nD τ).loc main_v4) ↦{fullShare} b) ∗ (((T d : Thread nD τ).loc main_v5) ↦{fullShare} o0)
        ∗ Pipeline.cellsGhost cfgs (EP (F := F)) 0 d ∗ Pipeline.toksInit cfgs (EP (F := F)) 0 d)
      ⊢ (wp frame (wpE ((K (F := F)).defs (D (F := F))) 𝒱 (T d) none) Set.univ
          (Prog.lift (.customCall (SparseCore.inner (Pipeline.entry 0)) ()))
          (fun _ => iprop((K (F := F)).tcSt (EH (F := F)) d 1
            ∗ boundary (T d : Thread nD τ)
            ∗ (((T d : Thread nD τ).loc main_v1) ↦{fullShare} x) ∗ (((T d : Thread nD τ).loc main_v2) ↦{fullShare} pos)
            ∗ (((T d : Thread nD τ).loc main_arg3) ↦{fullShare} tt) ∗ (((T d : Thread nD τ).loc main_v3) ↦{fullShare} g)
            ∗ (((T d : Thread nD τ).loc main_v4) ↦{fullShare} b)
            ∗ (((T d : Thread nD τ).loc main_v5) ↦{fullShare} lnOut x pos tt g b))) : sProp 𝕄) := by
  have h := (wp_region_D d x pos tt g b o0).trans (lift_only d _)
  rw [final5 d x pos tt g b o0] at h
  exact h

end Cert.KernelIdeal.Hand
end
-- ==== Proof.RefReadNorm.lean ====
/-
  The normalisation stages read at an index.

  For an array `h` of shape [1024, 200, 128], each stage of the reference's normalisation at an index (p, t, ·) is the
  corresponding function of the ROW `k ↦ h (p, t, k)`: the mean is the row's sum over 128.0 (the host's sum starts from
  the zero word, which is the real zero), the centred array is the row less its mean, the variance is the sum of the
  squares of the centred row over `128.0 − float 0` — which is 128.0, and positive, so the guard's select keeps the
  quotient — and the result is the quotient by the square root of variance plus ε, times scale, plus shift.
-/
import proofs.«203519_g84241488544277_cont_sun_c4_283_31_alg».proof.Proof.RefRunB
import proofs.«203519_g84241488544277_cont_sun_c4_283_31_alg».proof.Proof.Spec
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Broadcasts read at an index -/

/-- A column [1024, 200, 1] broadcast along the last axis reads the column's entry. -/
theorem bcast_col_apply {α : Type} (x : S1024x200x1.Idx → α) (p : Fin 1024) (t : Fin 200) (k : Fin 128) :
    broadcastInDim S1024x200x128 ![0, 1, 2] bcast_S1024x200x1_S1024x200x128_0_1_2 x (ix3 p t k) = x (ix3 p t (0 : Fin 1)) :=
  broadcastInDim_apply _ _ x _ _ (fun a => by
    match a with
    | ⟨0, _⟩ => rfl
    | ⟨1, _⟩ => rfl
    | ⟨2, _⟩ => rfl)

/-- An array [1024, 200] given a trailing unit axis reads the array's entry. -/
theorem bcast_keep_apply {α : Type} (x : S1024x200.Idx → α) (p : Fin 1024) (t : Fin 200) (z : Fin 1) :
    broadcastInDim S1024x200x1 ![0, 1] bcast_S1024x200_S1024x200x1_0_1 x (ix3 p t z) = x (ix2 p t) :=
  broadcastInDim_apply _ _ x _ _ (fun a => by
    match a with
    | ⟨0, _⟩ => rfl
    | ⟨1, _⟩ => rfl)

/-- A vector [128] broadcast to [1, 1, 128] and then to [1024, 200, 128] reads the vector's entry. -/
theorem bcast_vec_apply {α : Type} (x : S128.Idx → α) (p : Fin 1024) (t : Fin 200) (k : Fin 128) :
    broadcastInDim S1024x200x128 ![0, 1, 2] bcast_S1x1x128_S1024x200x128_0_1_2
      (broadcastInDim S1x1x128 ![2] bcast_S128_S1x1x128_2 x) (ix3 p t k) = x (ix1 k) := by
  rw [broadcastInDim_apply _ _ _ (ix3 p t k) (ix3 (0 : Fin 1) (0 : Fin 1) k) (fun a => by
    match a with
    | ⟨0, _⟩ => rfl
    | ⟨1, _⟩ => rfl
    | ⟨2, _⟩ => rfl)]
  exact broadcastInDim_apply _ _ x _ _ (fun a => by
    match a with
    | ⟨0, _⟩ => rfl)

/-! ## The host's sum over the last axis -/

/-- The host's sum over the last axis from the zero word is the sum of the row. -/
theorem sum_row (h : FVec Ideal S1024x200x128 .f32) (p : Fin 1024) (t : Fin 200) :
    Host.reduceAdd (F := Ideal) (φ := .f32) h (constant (F := Ideal) S_ .f32 0x00000000#32)
        reducesTo_S1024x200x128_S1024x200_d2 h_S_ (ix2 p t)
      = ∑ k : Fin 128, h (ix3 p t k) := by
  rw [hostReduceAdd_apply, Ideal.hostReduceAdd_single _ (by decide : S1024x200x128.Reduces [2] S1024x200), constant_apply,
    Ideal.ofBits_zero_f32, zero_add]
  exact Finset.sum_congr rfl (fun k _ => congrArg h (funext fun c => by
    match c with
    | ⟨0, _⟩ => rfl
    | ⟨1, _⟩ => rfl
    | ⟨2, _⟩ => rfl))

/-! ## The stages -/

/-- The mean stage at (p, t, ·) is the row's mean. -/
theorem meanOf_apply (h : (⟨S1024x200x128, .f32⟩ : BufTy).Contents (Elt Ideal)) (p : Fin 1024) (t : Fin 200) (z : Fin 1) :
    meanOf h (ix3 p t z) = Cert.Hand.mean (fun k => h (ix3 p t k)) := by
  unfold meanOf Cert.Hand.mean Cert.Hand.c128
  rw [hostDivf_apply, bcast_keep_apply, sum_row, broadcastInDim_scalar_apply, constant_apply]

/-- The centred stage at (p, t, k) is the row's element less the row's mean. -/
theorem cenOf_apply (h : (⟨S1024x200x128, .f32⟩ : BufTy).Contents (Elt Ideal)) (p : Fin 1024) (t : Fin 200) (k : Fin 128) :
    cenOf h (ix3 p t k) = Cert.Hand.cen (fun k => h (ix3 p t k)) k := by
  unfold cenOf Cert.Hand.cen
  rw [subf_apply, bcast_col_apply, meanOf_apply]

/-- 128.0 as a real number. -/
theorem c128_eq : Ideal.ofBits .f32 0x43000000#32 = ((128 : ℝ) : EReal) := by
  simp [Ideal.ofBits, Ideal.ieee, -EReal.coe_mul]; norm_num

/-- The variance's normaliser `128.0 − float 0` is 128.0. -/
theorem normaliser_eq :
    (subf (F := Ideal) (φ := .f32) (constant (F := Ideal) S_ .f32 0x43000000#32)
        (sitofp (F := Ideal) .f32 (constantI S_ 32 0#32))) ix0 = Ideal.ofBits .f32 0x43000000#32 := by
  rw [subf_apply, constant_apply, sitofp_apply]
  show Ideal.ofBits .f32 0x43000000#32 - (((0#32 : BitVec 32).toInt : ℝ) : EReal) = _
  have e : (((0#32 : BitVec 32).toInt : ℝ) : EReal) = 0 := by
    rw [show (0#32 : BitVec 32).toInt = 0 from by decide]; simp
  rw [e, sub_zero]

/-- The guard `128.0 − float 0 > 0` holds. -/
theorem guard_eq :
    (cmpf (F := Ideal) (φ := .f32) .ogt
        (subf (F := Ideal) (φ := .f32) (constant (F := Ideal) S_ .f32 0x43000000#32)
          (sitofp (F := Ideal) .f32 (constantI S_ 32 0#32)))
        (constant (F := Ideal) S_ .f32 0x00000000#32)) ix0 = 1#1 := by
  rw [cmpf_apply, normaliser_eq, constant_apply, Ideal.ofBits_zero_f32]
  show Ideal.cmp .ogt (Ideal.ofBits .f32 0x43000000#32) 0 = 1#1
  have hpos : (0 : EReal) < Ideal.ofBits .f32 0x43000000#32 := by
    rw [c128_eq]; exact_mod_cast (by norm_num : (0 : ℝ) < 128)
  simp [Ideal.cmp, hpos]

/-- The variance stage at (p, t, ·) is the row's variance. -/
theorem varOf_apply (h : (⟨S1024x200x128, .f32⟩ : BufTy).Contents (Elt Ideal)) (p : Fin 1024) (t : Fin 200) (z : Fin 1) :
    varOf h (ix3 p t z) = Cert.Hand.var (fun k => h (ix3 p t k)) := by
  unfold varOf Cert.Hand.var Cert.Hand.c128
  rw [select_apply, broadcastInDim_scalar_apply, guard_eq, select_one, hostDivf_apply, bcast_keep_apply, sum_row,
    broadcastInDim_scalar_apply, normaliser_eq]
  refine congrArg (fun s => Ideal.div s _) (Finset.sum_congr rfl (fun k _ => ?_))
  rw [mulf_apply, cenOf_apply]

/-- The normalisation stage at (p, t, k) is the row's layer normalisation at k. -/
theorem normOf_apply (h : (⟨S1024x200x128, .f32⟩ : BufTy).Contents (Elt Ideal)) (a4 a5 : (⟨S128, .f32⟩ : BufTy).Contents (Elt Ideal))
    (p : Fin 1024) (t : Fin 200) (k : Fin 128) :
    normOf h a4 a5 (ix3 p t k)
      = Cert.Hand.lnRef (fun k => h (ix3 p t k)) (fun k => a4 (ix1 k)) (fun k => a5 (ix1 k)) k := by
  unfold normOf Cert.Hand.lnRef Cert.Hand.eps
  rw [addf_apply, mulf_apply, hostDivf_apply, cenOf_apply, bcast_col_apply, bcast_vec_apply, bcast_vec_apply]
  show Ideal.div _ (Ideal.sqrt ((addf (F := Ideal) (φ := .f32) (varOf h) _) (ix3 p t (0 : Fin 1)))) * _ + _ = _
  rw [addf_apply, varOf_apply, broadcastInDim_scalar_apply, constant_apply]

end Cert.ReferenceIdeal.RefValue

end
-- ==== Proof.LibTakeRows.lean ====
/-
  Two general facts about host operations, for a row lookup `x[idx]` of a rank-2 table.

  (1) `stablehlo.gather` of a rank-2 operand `[N, C]` at a column `[R, 1]` of start indices, with offset_dims `[1]`,
  collapsed_slice_dims `[0]`, start_index_map `[0]`, index_vector_dim 1 and slice_sizes `[1, C]` — what
  `jnp.take(x, idx, axis=0)` lowers to — read at result index `(r, j)`: the operand at row `idx[r, 0]`, read as a
  signed integer and clamped into `[0, N − 1]`, and column `j`. The argument is the one for a rank-1 operand
  (`ValueIdx.gather_take_apply`), with one more operand axis: axis 0 is collapsed and takes its coordinate from the
  clamped start index, axis 1 is the offset axis and takes the result's second coordinate.

  (2) A `stablehlo.reduce` by `and` of one-bit words that are all 1, from the initial value 1, is 1 at every result
  index, whatever axes it reduces: a left fold by `and` from 1 over 1s stays 1.
-/
import Idealize.ShloMosaic.PureOps
import Idealize.ShloMosaic.PureOps.Reduce
import Idealize.ShloMosaic.Lib.ValueIdx

noncomputable section

namespace Cert.LibTakeRows

open Idealize.ShloMosaic Idealize.ShloMosaic.ValueIdx

/-! ## The gather of rows, read at an index -/

section TakeRows
variable {α : Type}

/-- The dimension numbers of a row lookup, for an operand `[N, C]`, start indices `[R, 1]` and result `[R, C]`. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, j)`. -/
abbrev takeRowIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, j)`: the operand at row `idx[r, 0]`, read signed and clamped into `[0, N − 1]`, and
    column `j`. -/
theorem gather_takeRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (takeRowsDims N R C wf) x idx y
      = x (ix2 ⟨min (idx (takeRowIdx y)).toInt.toNat (N - 1), by omega⟩ ⟨(y 1).val, idx2_lt1 y⟩) := by
  unfold Host.gather
  congr 1
  funext a
  refine Fin.ext ?_
  show (takeRowsDims N R C wf).start y idx a + (takeRowsDims N R C wf).batchCoord y a + (takeRowsDims N R C wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowsDims N R C wf).startIndexMap from List.mem_singleton.mpr rfl)]
    have hsi : (takeRowsDims N R C wf).siIdx y ⟨List.idxOf (⟨0, by decide⟩ : Fin 2) (takeRowsDims N R C wf).startIndexMap,
        List.idxOf_lt_length_iff.2 (List.mem_singleton.mpr rfl)⟩ = takeRowIdx y := by
      funext b; refine Fin.ext ?_
      match b with
      | ⟨0, _⟩ => rfl
      | ⟨1, _⟩ => rfl
    rw [hsi]
    rfl
  | ⟨1, _⟩ =>
    have hns : (⟨1, by decide⟩ : Fin 2) ∉ (takeRowsDims N R C wf).startIndexMap :=
      fun h => Nat.one_ne_zero (congrArg Fin.val (List.mem_singleton.mp h))
    unfold GatherDims.start
    rw [dif_neg hns]
    simp only [Nat.add_zero, Nat.zero_add]
    rfl

end TakeRows

/-! ## A reduce by `and` of ones -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all f hf l

/-- A `stablehlo.reduce` by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all x hx _

end Cert.LibTakeRows

end
-- ==== Proof.RefReadTake.lean ====
/-
  The three look-ups and the hidden array read at an index.

  `take(x, idx, axis = 0)` is: the index with a negative value wrapped; the gather of rows at the index read as a signed
  integer and clamped into the table; and a select of the gathered value over a fill where the index is in range. For
  an index that is not negative and inside the table the wrap keeps it, the clamp is the identity and the mask is 1, so
  the look-up at (p, t, k) is the table at (row, k): for the word table the row is the token id (below 100000 by
  hypothesis), for the position table it is t, for the type table it is 0. The hidden array at (p, t, k) is then the sum
  (word + position) + type the specification names.
-/
import proofs.«203519_g84241488544277_cont_sun_c4_283_31_alg».proof.Proof.RefReadNorm
import proofs.«203519_g84241488544277_cont_sun_c4_283_31_alg».proof.Proof.LibTakeRows

noncomputable section

namespace Cert.ReferenceIdeal.RefValue

open Cert.ReferenceIdeal Cert.ReferenceIdeal.Gen Idealize.ShloMosaic Idealize.ShloMosaic.ValueIdx
open scoped BigOperators

/-! ## Words: an index known to be small -/

/-- A 32-bit word below 2³¹ reads the same signed as unsigned. -/
theorem toInt_of_small (w : BitVec 32) (h : w.toNat < 2147483648) : w.toInt = (w.toNat : Int) := by
  rw [BitVec.toInt_eq_toNat_cond]
  split <;> omega

/-- The wrap of a negative index keeps an index that is not negative. -/
theorem wrap_keep (w n : BitVec 32) (h : w.toNat < 2147483648) :
    Scalar.select (IntOp.cmpi .slt w 0#32) (IntOp.addi w n) w = w := by
  have h0 : IntOp.cmpi .slt w 0#32 = 0#1 := by
    show BitVec.ofBool (w.slt 0#32) = 0#1
    have e : w.slt 0#32 = false := by
      simp only [BitVec.slt, toInt_of_small w h]
      simp
    rw [e]; rfl
  rw [h0, select_zero]

/-- An index between 0 and a bound below 2³¹ passes the in-range test. -/
theorem inrange_one (w hi : BitVec 32) (h : w.toNat ≤ hi.toNat) (hh : hi.toNat < 2147483648) :
    IntOp.andi (IntOp.cmpi .sge w 0#32) (IntOp.cmpi .sle w hi) = 1#1 := by
  have hw : w.toNat < 2147483648 := by omega
  have h1 : IntOp.cmpi .sge w 0#32 = 1#1 := by
    show BitVec.ofBool ((0#32 : BitVec 32).sle w) = 1#1
    have e : (0#32 : BitVec 32).sle w = true := by
      simp only [BitVec.sle, toInt_of_small w hw]
      simp
    rw [e]; rfl
  have h2 : IntOp.cmpi .sle w hi = 1#1 := by
    show BitVec.ofBool (w.sle hi) = 1#1
    have e : w.sle hi = true := by
      simp only [BitVec.sle, toInt_of_small w hw, toInt_of_small hi hh]
      simp; omega
    rw [e]; rfl
  rw [h1, h2]; rfl

/-- The row a small index selects: the clamp to the table is the identity. -/
theorem clamp_small (w : BitVec 32) (n : Nat) (h : w.toNat ≤ n) (hn : n < 2147483648) :
    min w.toInt.toNat n = w.toNat := by
  rw [toInt_of_small w (by omega), Int.toNat_natCast]
  omega

/-- A natural number below 2³² as a word and back. -/
theorem toNat_ofNat_small (n : Nat) (h : n < 4294967296) : (BitVec.ofNat 32 n).toNat = n := by
  rw [BitVec.toNat_ofNat]; exact Nat.mod_eq_of_lt h

/-! ## The gather of rows at a column of start indices

`stablehlo.gather` of an operand [N, C] at start indices [A, B, 1] with offset_dims [2], collapsed_slice_dims [0],
start_index_map [0], index_vector_dim 2 and slice_sizes [1, C], read at (p, t, k): operand axis 0 is collapsed and takes
the start index at (p, t, 0), read signed and clamped into [0, N − 1]; operand axis 1 is the offset axis and takes k. -/

section Gather
variable {α : Type}

/-- Those dimension numbers. -/
abbrev take3Dims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

theorem gather_take3_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (p : Fin A) (t : Fin B) (k : Fin C) :
    Host.gather (take3Dims N A B C wf) x idx (ix3 p t k)
      = x (ix2 ⟨min (idx (ix3 p t (0 : Fin 1))).toInt.toNat (N - 1), by omega⟩ k) := by
  unfold Host.gather
  congr 1
  funext a
  refine Fin.ext ?_
  show (take3Dims N A B C wf).start (ix3 p t k) idx a + (take3Dims N A B C wf).batchCoord (ix3 p t k) a
    + (take3Dims N A B C wf).offCoord (ix3 p t k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (take3Dims N A B C wf).startIndexMap from List.mem_singleton.mpr rfl)]
    have hsi : (take3Dims N A B C wf).siIdx (ix3 p t k)
        ⟨List.idxOf (⟨0, by decide⟩ : Fin 2) (take3Dims N A B C wf).startIndexMap,
          List.idxOf_lt_length_iff.2 (List.mem_singleton.mpr rfl)⟩ = ix3 p t (0 : Fin 1) := by
      funext b; refine Fin.ext ?_
      match b with
      | ⟨0, _⟩ => rfl
      | ⟨1, _⟩ => rfl
      | ⟨2, _⟩ => rfl
    rw [hsi]
    rfl
  | ⟨1, _⟩ =>
    have hns : (⟨1, by decide⟩ : Fin 2) ∉ (take3Dims N A B C wf).startIndexMap :=
      fun h => Nat.one_ne_zero (congrArg Fin.val (List.mem_singleton.mp h))
    unfold GatherDims.start
    rw [dif_neg hns]
    simp only [Nat.add_zero, Nat.zero_add]
    rfl

end Gather

/-! ## Broadcasts read at an index -/

theorem bcast_mask_apply {α : Type} (x : S1024x200.Idx → α) (p : Fin 1024) (t : Fin 200) (k : Fin 128) :
    broadcastInDim S1024x200x128 ![0, 1] bcast_S1024x200_S1024x200x128_0_1 x (ix3 p t k) = x (ix2 p t) :=
  broadcastInDim_apply _ _ x _ _ (fun a => by
    match a with
    | ⟨0, _⟩ => rfl
    | ⟨1, _⟩ => rfl)

theorem bcast_keep1_apply {α : Type} (x : S1x200.Idx → α) (u : Fin 1) (t : Fin 200) (z : Fin 1) :
    broadcastInDim S1x200x1 ![0, 1] bcast_S1x200_S1x200x1_0_1 x (ix3 u t z) = x (ix2 (0 : Fin 1) t) :=
  broadcastInDim_apply _ _ x _ _ (fun a => by
    match a with
    | ⟨0, _⟩ => rfl
    | ⟨1, _⟩ => rfl)

theorem bcast_mask1_apply {α : Type} (x : S1x200.Idx → α) (u : Fin 1) (t : Fin 200) (k : Fin 128) :
    broadcastInDim S1x200x128 ![0, 1] bcast_S1x200_S1x200x128_0_1 x (ix3 u t k) = x (ix2 (0 : Fin 1) t) :=
  broadcastInDim_apply _ _ x _ _ (fun a => by
    match a with
    | ⟨0, _⟩ => rfl
    | ⟨1, _⟩ => rfl)

theorem bcast_batch_apply {α : Type} (x : S1x200x128.Idx → α) (p : Fin 1024) (t : Fin 200) (k : Fin 128) :
    broadcastInDim S1024x200x128 ![0, 1, 2] bcast_S1x200x128_S1024x200x128_0_1_2 x (ix3 p t k) = x (ix3 (0 : Fin 1) t k) :=
  broadcastInDim_apply _ _ x _ _ (fun a => by
    match a with
    | ⟨0, _⟩ => rfl
    | ⟨1, _⟩ => rfl
    | ⟨2, _⟩ => rfl)

/-! ## The word look-up -/

/-- The start index of the word look-up at (p, t, ·) is the token id, when that is not negative. -/
theorem idsCol_apply (a0 : (⟨S1024x200, .i32⟩ : BufTy).Contents (Elt Ideal)) (p : Fin 1024) (t : Fin 200) (z : Fin 1)
    (h : (a0 (ix2 p t)).toNat < 100000) : idsCol a0 (ix3 p t z) = a0 (ix2 p t) := by
  unfold idsCol
  rw [bcast_keep_apply]
  exact wrap_keep (a0 (ix2 p t)) 100000#32 (by omega)

/-- Every token id is in the word table: the mask is 1. -/
theorem idsOk_apply (a0 : (⟨S1024x200, .i32⟩ : BufTy).Contents (Elt Ideal)) (hids : ∀ j, (a0 j).toNat < 100000) (p : Fin 1024) (t : Fin 200) :
    idsOk a0 (ix2 p t) = 1#1 := by
  unfold idsOk
  refine Cert.LibTakeRows.reduce_andi_of_all _ _ _ _ (fun i => ?_) (fun _ => rfl) _
  obtain ⟨p', t', z', rfl⟩ : ∃ (p' : Fin 1024) (t' : Fin 200) (z' : Fin 1), i = ix3 p' t' z' := ⟨i 0, i 1, i 2, eq_ix3 i⟩
  show IntOp.andi (IntOp.cmpi .sge (idsCol a0 (ix3 p' t' z')) 0#32) (IntOp.cmpi .sle (idsCol a0 (ix3 p' t' z')) 99999#32) = 1#1
  rw [idsCol_apply a0 p' t' z' (hids _)]
  have hb : (99999#32 : BitVec 32).toNat = 99999 := by decide
  exact inrange_one _ _ (by have := hids (ix2 p' t'); omega) (by omega)

/-- The word look-up at (p, t, k) is the word table at the token id's row. -/
theorem wordRows_apply (a1 : (⟨S100000x128, .f32⟩ : BufTy).Contents (Elt Ideal)) (a0 : (⟨S1024x200, .i32⟩ : BufTy).Contents (Elt Ideal)) (hids : ∀ j, (a0 j).toNat < 100000)
    (p : Fin 1024) (t : Fin 200) (k : Fin 128) :
    wordRows a1 a0 (ix3 p t k) = a1 (ix2 (Cert.Hand.rowOf (a0 (ix2 p t))) k) := by
  unfold wordRows
  rw [select_apply, bcast_mask_apply, idsOk_apply a0 hids, select_one]
  show Host.gather (take3Dims 100000 1024 200 128 gather_S100000x128_S1024x200x1_S1024x200x128_2_0_n_n_0_2_1128_wf) a1
    (idsCol a0) (ix3 p t k) = _
  rw [gather_take3_apply (by decide)]
  refine congrArg a1 (congrArg (fun r => ix2 r k) (Fin.ext ?_))
  show min (idsCol a0 (ix3 p t (0 : Fin 1))).toInt.toNat (100000 - 1) = min (a0 (ix2 p t)).toNat 99999
  have := hids (ix2 p t)
  rw [idsCol_apply a0 p t 0 (hids _), clamp_small _ 99999 (by omega) (by decide)]
  omega

/-! ## The position look-up -/

/-- The position row at (·, t) is t as a word. -/
theorem posIdx_apply (u : Fin 1) (t : Fin 200) : posIdx (ix2 u t) = BitVec.ofNat 32 t.val := by
  unfold posIdx
  rw [broadcastInDim_apply _ _ _ (ix2 u t) (ix1 t) (fun a => by
    match a with
    | ⟨0, _⟩ => rfl)]
  rfl

theorem posIdx_toNat (u : Fin 1) (t : Fin 200) : (posIdx (ix2 u t)).toNat = t.val := by
  rw [posIdx_apply, toNat_ofNat_small _ (by have := t.isLt; omega)]

theorem posCol_apply (u : Fin 1) (t : Fin 200) (z : Fin 1) : posColOf posIdx (ix3 u t z) = posIdx (ix2 (0 : Fin 1) t) := by
  unfold posColOf
  rw [bcast_keep1_apply]
  exact wrap_keep (posIdx (ix2 (0 : Fin 1) t)) 512#32 (by rw [posIdx_toNat]; have := t.isLt; omega)

theorem posOk_apply (u : Fin 1) (t : Fin 200) : posOkOf posIdx (ix2 u t) = 1#1 := by
  unfold posOkOf
  refine Cert.LibTakeRows.reduce_andi_of_all _ _ _ _ (fun i => ?_) (fun _ => rfl) _
  obtain ⟨u', t', z', rfl⟩ : ∃ (u' : Fin 1) (t' : Fin 200) (z' : Fin 1), i = ix3 u' t' z' := ⟨i 0, i 1, i 2, eq_ix3 i⟩
  show IntOp.andi (IntOp.cmpi .sge (posColOf posIdx (ix3 u' t' z')) 0#32) (IntOp.cmpi .sle (posColOf posIdx (ix3 u' t' z')) 511#32) = 1#1
  rw [posCol_apply]
  have hb : (511#32 : BitVec 32).toNat = 511 := by decide
  exact inrange_one _ _ (by rw [posIdx_toNat]; have := t'.isLt; omega) (by omega)

/-- The position look-up at (·, t, k) is the position table at row t. -/
theorem posRows_apply (a2 : (⟨S512x128, .f32⟩ : BufTy).Contents (Elt Ideal)) (u : Fin 1) (t : Fin 200) (k : Fin 128) :
    posRowsOf a2 posIdx (ix3 u t k) = a2 (ix2 (Cert.Hand.posRow t) k) := by
  unfold posRowsOf
  rw [select_apply, bcast_mask1_apply, posOk_apply, select_one]
  show Host.gather (take3Dims 512 1 200 128 gather_S512x128_S1x200x1_S1x200x128_2_0_n_n_0_2_1128_wf) a2
    (posColOf posIdx) (ix3 u t k) = _
  rw [gather_take3_apply (by decide)]
  refine congrArg a2 (congrArg (fun r => ix2 r k) (Fin.ext ?_))
  show min (posColOf posIdx (ix3 u t (0 : Fin 1))).toInt.toNat (512 - 1) = t.val
  have ht := t.isLt
  rw [posCol_apply, clamp_small _ 511 (by rw [posIdx_toNat]; omega) (by decide), posIdx_toNat]

/-! ## The type look-up -/

theorem zeroIdx_apply (j : S1024x200.Idx) : zeroIdx j = 0#32 := rfl

theorem ttCol_apply (p : Fin 1024) (t : Fin 200) (z : Fin 1) : ttColOf zeroIdx (ix3 p t z) = 0#32 := by
  unfold ttColOf
  rw [bcast_keep_apply]
  exact wrap_keep (0#32) 2#32 (by decide)

theorem ttOk_apply (p : Fin 1024) (t : Fin 200) : ttOkOf zeroIdx (ix2 p t) = 1#1 := by
  unfold ttOkOf
  refine Cert.LibTakeRows.reduce_andi_of_all _ _ _ _ (fun i => ?_) (fun _ => rfl) _
  obtain ⟨p', t', z', rfl⟩ : ∃ (p' : Fin 1024) (t' : Fin 200) (z' : Fin 1), i = ix3 p' t' z' := ⟨i 0, i 1, i 2, eq_ix3 i⟩
  show IntOp.andi (IntOp.cmpi .sge (ttColOf zeroIdx (ix3 p' t' z')) 0#32) (IntOp.cmpi .sle (ttColOf zeroIdx (ix3 p' t' z')) 1#32) = 1#1
  rw [ttCol_apply]
  decide

/-- The type look-up at (p, t, k) is the type table at row 0. -/
theorem ttRows_apply (a3 : (⟨S2x128, .f32⟩ : BufTy).Contents (Elt Ideal)) (p : Fin 1024) (t : Fin 200) (k : Fin 128) :
    ttRowsOf a3 zeroIdx (ix3 p t k) = a3 (ix2 (0 : Fin 2) k) := by
  unfold ttRowsOf
  rw [select_apply, bcast_mask_apply, ttOk_apply, select_one]
  show Host.gather (take3Dims 2 1024 200 128 gather_S2x128_S1024x200x1_S1024x200x128_2_0_n_n_0_2_1128_wf) a3
    (ttColOf zeroIdx) (ix3 p t k) = _
  rw [gather_take3_apply (by decide)]
  refine congrArg a3 (congrArg (fun r => ix2 r k) (Fin.ext ?_))
  show min (ttColOf zeroIdx (ix3 p t (0 : Fin 1))).toInt.toNat (2 - 1) = 0
  rw [ttCol_apply]
  decide

/-! ## The hidden array -/

/-- The hidden array at (p, t, k) is (word + position) + type at the rows the specification names. -/
theorem hid_apply (a0 : (⟨S1024x200, .i32⟩ : BufTy).Contents (Elt Ideal)) (a1 : (⟨S100000x128, .f32⟩ : BufTy).Contents (Elt Ideal)) (a2 : (⟨S512x128, .f32⟩ : BufTy).Contents (Elt Ideal)) (a3 : (⟨S2x128, .f32⟩ : BufTy).Contents (Elt Ideal))
    (hids : ∀ j, (a0 j).toNat < 100000) (p : Fin 1024) (t : Fin 200) (k : Fin 128) :
    hid a0 a1 a2 a3 (ix3 p t k) = Cert.Hand.hidRef a0 a1 a2 a3 p t k := by
  unfold hid Cert.Hand.hidRef
  rw [addf_apply, addf_apply, bcast_batch_apply, wordRows_apply a1 a0 hids, posRows_apply, ttRows_apply]

end Cert.ReferenceIdeal.RefValue

end
-- ==== Proof.RefRead.lean ====
/-
  The reference's result is the specification's, for token ids inside the word table.

  At an index (p, t, k) the result is the normalisation stage of the hidden array, which reads the row k ↦ hidden (p, t, k);
  that row is the specification's hidden row, and the normalisation of a row is the specification's.
-/
import proofs.«203519_g84241488544277_cont_sun_c4_283_31_alg».proof.Proof.RefRun
import proofs.«203519_g84241488544277_cont_sun_c4_283_31_alg».proof.Proof.RefReadTake

noncomputable section

namespace Cert.ReferenceIdeal.RefValue

open Cert.ReferenceIdeal Cert.ReferenceIdeal.Gen Idealize.ShloMosaic Idealize.ShloMosaic.ValueIdx

theorem refOut_eq_specRef (a0 : (⟨S1024x200, .i32⟩ : BufTy).Contents (Elt Ideal)) (a1 : (⟨S100000x128, .f32⟩ : BufTy).Contents (Elt Ideal)) (a2 : (⟨S512x128, .f32⟩ : BufTy).Contents (Elt Ideal))
    (a3 : (⟨S2x128, .f32⟩ : BufTy).Contents (Elt Ideal)) (a4 : (⟨S128, .f32⟩ : BufTy).Contents (Elt Ideal)) (a5 : (⟨S128, .f32⟩ : BufTy).Contents (Elt Ideal))
    (hids : ∀ j, (a0 j).toNat < 100000) :
    refOut a0 a1 a2 a3 a4 a5 = Cert.Hand.specRef a0 a1 a2 a3 a4 a5 := by
  funext i
  obtain ⟨p, t, k, rfl⟩ : ∃ (p : Fin 1024) (t : Fin 200) (k : Fin 128), i = ix3 p t k := ⟨i 0, i 1, i 2, eq_ix3 i⟩
  unfold refOut Cert.Hand.specRef
  rw [normOf_apply]
  have e : (fun k => hid a0 a1 a2 a3 (ix3 p t k)) = Cert.Hand.hidRef a0 a1 a2 a3 p t :=
    funext fun k => hid_apply a0 a1 a2 a3 hids p t k
  rw [e]

end Cert.ReferenceIdeal.RefValue

end
-- ==== Proof.lean ====
/-
  The proof of the certificate's claim. The kernel is an embedding look-up followed by a layer normalisation: 32
  SparseCore tiles each gather 6400 rows of the word table by the flattened ids through a ring of four row buffers, and
  one TensorCore region adds the position row and the token-type row to every gathered row and normalises each row of
  128; the reference looks the three tables up, and normalises with a quotient by the square root where the kernel
  multiplies by the reciprocal square root.

  The parts. The reference's run and its result read at an index (the result is specRef of the arguments when the ids
  are below 100000). The kernel program's run, written once for any float instance: the tile's task with the gathered
  rows carried in its loop's invariant, the region with its result array as one function lnOut of its inputs, the
  launch of the SparseCore call around them and @main's seven steps, ending with the result array at kernOut of the
  arguments and the arguments unchanged. At the ideal instance kernOut is specKer of the arguments, and specKer is
  specRef where the float arguments are finite: addition of extended reals is associative, and for a finite row the
  variance plus ε is a positive real, where dividing by the square root is multiplying by its reciprocal. The
  word-level program is the same text as the idealized one, so its frame is the same run at the word-level instance.
-/
import proofs.«203519_g84241488544277_cont_sun_c4_283_31_alg».proof.Defs
import proofs.«203519_g84241488544277_cont_sun_c4_283_31_alg».proof.Proof.FinalFacts
import proofs.«203519_g84241488544277_cont_sun_c4_283_31_alg».proof.Proof.Tile
import proofs.«203519_g84241488544277_cont_sun_c4_283_31_alg».proof.Proof.Region
import proofs.«203519_g84241488544277_cont_sun_c4_283_31_alg».proof.Proof.RefRead

noncomputable section

namespace Cert.Proof

open Idealize.ShloMosaic Cert.KernelIdeal Cert.KernelIdeal.Hand

theorem claim : Cert.Claim :=
  claim_of (lnOut (F := Bits)) (lnOut (F := Ideal)) tq32 (fun d f => htq32 d f) (fun d f => htq32 d f)
    (tile_body (F := Bits)) (tile_body (F := Ideal))
    (fun d x pos tt g b o0 => wp_region d x pos tt g b o0) (fun d x pos tt g b o0 => wp_region d x pos tt g b o0)
    (hval fun a0 a1 a2 a3 a4 a5 hids => Cert.ReferenceIdeal.RefValue.refOut_eq_specRef a0 a1 a2 a3 a4 a5 hids)

end Cert.Proof

end
